-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v53)) (v1 : (c : Dev Cert.KernelIdeal.nD) → Buf (Elt Ideal) ((c.tc : Thread Cert.KernelIdeal.nD Cert.KernelIdeal.τ).loc Cert.KernelIdeal.main_v30)) (v2 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_v36) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4 : Shape := ⟨2, ![4096, 4]⟩
abbrev S4096x2 : Shape := ⟨2, ![4096, 2]⟩
abbrev S_ : Shape := ⟨0, ![]⟩

class Facts : Prop where
  bcast_S_S4096x4 : S_.BroadcastsInDim S4096x4 (![] : Fin 0 → Fin S4096x4.rank)
  reducesTo_S4096x4_S_d0_1 : S4096x4.ReducesTo [0, 1] S_
  h_S_ : 0 < S_.numel
  bcast_S_S4096x2 : S_.BroadcastsInDim S4096x2 (![] : Fin 0 → Fin S4096x2.rank)
  reducesTo_S4096x2_S_d0_1 : S4096x2.ReducesTo [0, 1] S_

variable [Facts]

def fn {F : FTy → Type} [FloatOps F] (main_arg0 : FVec F S4096x4 .f32) (main_arg1 : FVec F S4096x2 .f32) : IVec S_ 1 :=
  let main_v0 : FVec F S4096x4 .f32 := Host.absf main_arg0
  let main_cst : FVec F S_ .f32 := constant S_ .f32 0x7F800000#32
  let main_v1 : FVec F S4096x4 .f32 := broadcastInDim S4096x4 ![] bcast_S_S4096x4 main_cst
  let main_v2 : IVec S4096x4 1 := cmpf .olt main_v0 main_v1
  let main_c : IVec S_ 1 := constantI S_ 1 1#1
  let main_v3 : IVec S_ 1 := (fun x v => Host.reduce IntOp.andi x v reducesTo_S4096x4_S_d0_1 h_S_) main_v2 main_c
  let main_v4 : FVec F S4096x2 .f32 := Host.absf main_arg1
  let main_cst_0 : FVec F S_ .f32 := constant S_ .f32 0x7F800000#32
  let main_v5 : FVec F S4096x2 .f32 := broadcastInDim S4096x2 ![] bcast_S_S4096x2 main_cst_0
  let main_v6 : IVec S4096x2 1 := cmpf .olt main_v4 main_v5
  let main_c_1 : IVec S_ 1 := constantI S_ 1 1#1
  let main_v7 : IVec S_ 1 := (fun x v => Host.reduce IntOp.andi x v reducesTo_S4096x2_S_d0_1 h_S_) main_v6 main_c_1
  let main_v8 : IVec S_ 1 := andi main_v3 main_v7
  main_v8
-- ==== Kernel.lean ====
abbrev S4096x4 : Shape := ⟨2, ![4096, 4]⟩
abbrev S4096x2 : Shape := ⟨2, ![4096, 2]⟩
abbrev S4096x4096 : Shape := ⟨2, ![4096, 4096]⟩
abbrev S256x2 : Shape := ⟨2, ![256, 2]⟩
abbrev S256x4096 : Shape := ⟨2, ![256, 4096]⟩
abbrev S256x1 : Shape := ⟨2, ![256, 1]⟩
abbrev S4096x1 : Shape := ⟨2, ![4096, 1]⟩
abbrev S4096 : Shape := ⟨1, ![4096]⟩
abbrev S1x4096 : Shape := ⟨2, ![1, 4096]⟩
abbrev S_ : Shape := ⟨0, ![]⟩
abbrev S16777216 : Shape := ⟨1, ![16777216]⟩
abbrev S16777216x1 : Shape := ⟨2, ![16777216, 1]⟩
abbrev S1x16777216 : Shape := ⟨2, ![1, 16777216]⟩
abbrev S2x16777216 : Shape := ⟨2, ![2, 16777216]⟩
abbrev S4x4096 : Shape := ⟨2, ![4, 4096]⟩
abbrev S1 : Shape := ⟨1, ![1]⟩
abbrev S1x1 : Shape := ⟨2, ![1, 1]⟩
abbrev S4x16777216 : Shape := ⟨2, ![4, 16777216]⟩
abbrev S4x65536 : Shape := ⟨2, ![4, 65536]⟩
abbrev S1x65536 : Shape := ⟨2, ![1, 65536]⟩
abbrev S65536 : Shape := ⟨1, ![65536]⟩
abbrev S16777216x4 : Shape := ⟨2, ![16777216, 4]⟩
abbrev S4096x7 : Shape := ⟨2, ![4096, 7]⟩

abbrev nBuf : Space → Nat
  | .hbm => 203
  | .vmem => 9
  | .smem => 0
  | _ => 0

abbrev hbmTy0_0 (i : Nat) : BufTy := match i % 128 with
  | 0 => ⟨S4096x4, .f32⟩
  | 1 => ⟨S4096x2, .f32⟩
  | 2 => ⟨S4096x2, .f32⟩
  | 3 => ⟨S4096x4096, .i32⟩
  | 4 => ⟨S_, .i32⟩
  | 5 => ⟨S4096x4096, .i32⟩
  | 6 => ⟨S4096x4096, .i1⟩
  | 7 => ⟨S4096x4096, .i1⟩
  | 8 => ⟨S16777216, .i1⟩
  | 9 => ⟨S16777216, .i32⟩
  | 10 => ⟨S_, .i32⟩
  | 11 => ⟨S_, .i32⟩
  | 12 => ⟨S16777216, .i32⟩
  | 13 => ⟨S_, .i32⟩
  | 14 => ⟨S16777216, .i32⟩
  | 15 => ⟨S_, .i32⟩
  | 16 => ⟨S_, .i32⟩
  | 17 => ⟨S16777216, .i32⟩
  | 18 => ⟨S16777216, .i32⟩
  | 19 => ⟨S_, .i32⟩
  | 20 => ⟨S16777216, .i32⟩
  | 21 => ⟨S16777216, .i1⟩
  | 22 => ⟨S_, .i32⟩
  | 23 => ⟨S16777216, .i32⟩
  | 24 => ⟨S16777216, .i32⟩
  | 25 => ⟨S16777216, .i32⟩
  | 26 => ⟨S16777216x1, .i32⟩
  | 27 => ⟨S_, .i32⟩
  | 28 => ⟨S16777216, .i32⟩
  | 29 => ⟨S16777216, .i32⟩
  | 30 => ⟨S_, .i32⟩
  | 31 => ⟨S_, .i32⟩
  | 32 => ⟨S16777216, .i32⟩
  | 33 => ⟨S_, .i32⟩
  | 34 => ⟨S16777216, .i32⟩
  | 35 => ⟨S16777216, .i32⟩
  | 36 => ⟨S16777216, .i32⟩
  | 37 => ⟨S_, .i32⟩
  | 38 => ⟨S16777216, .i32⟩
  | 39 => ⟨S16777216, .i1⟩
  | 40 => ⟨S16777216, .i32⟩
  | 41 => ⟨S16777216, .i32⟩
  | 42 => ⟨S_, .i32⟩
  | 43 => ⟨S16777216, .i32⟩
  | 44 => ⟨S16777216, .i1⟩
  | 45 => ⟨S16777216, .i1⟩
  | 46 => ⟨S_, .i32⟩
  | 47 => ⟨S16777216, .i32⟩
  | 48 => ⟨S16777216, .i32⟩
  | 49 => ⟨S16777216, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S16777216, .i32⟩
  | 57 => ⟨S16777216, .i32⟩
  | 58 => ⟨S_, .i32⟩
  | 59 => ⟨S16777216, .i32⟩
  | 60 => ⟨S16777216, .i1⟩
  | 61 => ⟨S_, .i32⟩
  | 62 => ⟨S16777216, .i32⟩
  | 63 => ⟨S16777216, .i1⟩
  | 64 => ⟨S_, .i32⟩
  | 65 => ⟨S_, .i1⟩
  | 66 => ⟨S16777216, .i1⟩
  | 67 => ⟨S16777216, .i1⟩
  | 68 => ⟨S16777216, .i1⟩
  | 69 => ⟨S16777216, .i32⟩
  | 70 => ⟨S16777216, .i32⟩
  | 71 => ⟨S16777216, .i32⟩
  | 72 => ⟨S_, .i32⟩
  | 73 => ⟨S16777216, .i32⟩
  | 74 => ⟨S16777216, .i32⟩
  | 75 => ⟨S16777216, .i32⟩
  | 76 => ⟨S_, .i32⟩
  | 77 => ⟨S16777216, .i32⟩
  | 78 => ⟨S16777216, .i1⟩
  | 79 => ⟨S16777216, .i32⟩
  | 80 => ⟨S16777216, .i32⟩
  | 81 => ⟨S_, .i32⟩
  | 82 => ⟨S16777216, .i32⟩
  | 83 => ⟨S16777216, .i1⟩
  | 84 => ⟨S16777216, .i1⟩
  | 85 => ⟨S_, .i32⟩
  | 86 => ⟨S16777216, .i32⟩
  | 87 => ⟨S16777216, .i32⟩
  | 88 => ⟨S16777216, .i32⟩
  | 89 => ⟨S_, .i32⟩
  | 90 => ⟨S_, .i32⟩
  | 91 => ⟨S_, .i32⟩
  | 92 => ⟨S_, .i1⟩
  | 93 => ⟨S_, .i32⟩
  | 94 => ⟨S_, .i32⟩
  | 95 => ⟨S16777216, .i32⟩
  | 96 => ⟨S16777216, .i32⟩
  | 97 => ⟨S_, .i32⟩
  | 98 => ⟨S16777216, .i32⟩
  | 99 => ⟨S16777216, .i1⟩
  | 100 => ⟨S_, .i32⟩
  | 101 => ⟨S16777216, .i32⟩
  | 102 => ⟨S16777216, .i1⟩
  | 103 => ⟨S_, .i32⟩
  | 104 => ⟨S_, .i1⟩
  | 105 => ⟨S16777216, .i1⟩
  | 106 => ⟨S16777216, .i1⟩
  | 107 => ⟨S16777216, .i1⟩
  | 108 => ⟨S16777216, .i32⟩
  | 109 => ⟨S16777216, .i32⟩
  | 110 => ⟨S16777216, .i32⟩
  | 111 => ⟨S16777216, .i32⟩
  | 112 => ⟨S4096x4096, .i32⟩
  | 113 => ⟨S_, .i32⟩
  | 114 => ⟨S_, .i32⟩
  | 115 => ⟨S16777216, .i32⟩
  | 116 => ⟨S16777216, .i1⟩
  | 117 => ⟨S_, .i32⟩
  | 118 => ⟨S_, .i32⟩
  | 119 => ⟨S16777216, .i32⟩
  | 120 => ⟨S16777216, .i32⟩
  | 121 => ⟨S_, .i32⟩
  | 122 => ⟨S_, .i32⟩
  | 123 => ⟨S16777216, .i32⟩
  | 124 => ⟨S16777216, .i32⟩
  | 125 => ⟨S1x16777216, .i32⟩
  | 126 => ⟨S1x16777216, .i32⟩
  | 127 => ⟨S2x16777216, .i32⟩
  | _ => ⟨S4096x4, .f32⟩

abbrev hbmTy0_1 (i : Nat) : BufTy := match i % 128 with
  | 0 => ⟨S4x4096, .f32⟩
  | 1 => ⟨S_, .i32⟩
  | 2 => ⟨S16777216, .i32⟩
  | 3 => ⟨S16777216, .i1⟩
  | 4 => ⟨S_, .i32⟩
  | 5 => ⟨S16777216, .i32⟩
  | 6 => ⟨S16777216, .i32⟩
  | 7 => ⟨S16777216, .i32⟩
  | 8 => ⟨S16777216x1, .i32⟩
  | 9 => ⟨S1, .i32⟩
  | 10 => ⟨S_, .i32⟩
  | 11 => ⟨S16777216x1, .i32⟩
  | 12 => ⟨S16777216x1, .i1⟩
  | 13 => ⟨S1x1, .i32⟩
  | 14 => ⟨S16777216x1, .i32⟩
  | 15 => ⟨S16777216x1, .i1⟩
  | 16 => ⟨S16777216x1, .i1⟩
  | 17 => ⟨S_, .i1⟩
  | 18 => ⟨S16777216, .i1⟩
  | 19 => ⟨S4x16777216, .f32⟩
  | 20 => ⟨S4x16777216, .i1⟩
  | 21 => ⟨S_, .f32⟩
  | 22 => ⟨S4x16777216, .f32⟩
  | 23 => ⟨S4x16777216, .f32⟩
  | 24 => ⟨S_, .i32⟩
  | 25 => ⟨S16777216, .i32⟩
  | 26 => ⟨S16777216, .i1⟩
  | 27 => ⟨S_, .i32⟩
  | 28 => ⟨S16777216, .i32⟩
  | 29 => ⟨S16777216, .i32⟩
  | 30 => ⟨S16777216, .i32⟩
  | 31 => ⟨S16777216x1, .i32⟩
  | 32 => ⟨S1, .i32⟩
  | 33 => ⟨S_, .i32⟩
  | 34 => ⟨S16777216x1, .i32⟩
  | 35 => ⟨S16777216x1, .i1⟩
  | 36 => ⟨S1x1, .i32⟩
  | 37 => ⟨S16777216x1, .i32⟩
  | 38 => ⟨S16777216x1, .i1⟩
  | 39 => ⟨S16777216x1, .i1⟩
  | 40 => ⟨S_, .i1⟩
  | 41 => ⟨S16777216, .i1⟩
  | 42 => ⟨S4x16777216, .f32⟩
  | 43 => ⟨S4x16777216, .i1⟩
  | 44 => ⟨S_, .f32⟩
  | 45 => ⟨S4x16777216, .f32⟩
  | 46 => ⟨S4x16777216, .f32⟩
  | 47 => ⟨S4x16777216, .f32⟩
  | 48 => ⟨S4x16777216, .f32⟩
  | 49 => ⟨S16777216x4, .f32⟩
  | 50 => ⟨S4096x2, .f32⟩
  | 51 => ⟨S4096x2, .f32⟩
  | 52 => ⟨S4096x2, .f32⟩
  | 53 => ⟨S_, .f32⟩
  | 54 => ⟨S4096, .f32⟩
  | 55 => ⟨S4096x1, .f32⟩
  | 56 => ⟨S4096x1, .f32⟩
  | 57 => ⟨S_, .f32⟩
  | 58 => ⟨S4096x1, .f32⟩
  | 59 => ⟨S4096x1, .f32⟩
  | 60 => ⟨S_, .f32⟩
  | 61 => ⟨S4096x1, .f32⟩
  | 62 => ⟨S4096x1, .i1⟩
  | 63 => ⟨S_, .f32⟩
  | 64 => ⟨S4096x1, .f32⟩
  | 65 => ⟨S4096x1, .f32⟩
  | 66 => ⟨S_, .f32⟩
  | 67 => ⟨S_, .f32⟩
  | 68 => ⟨S4096x1, .f32⟩
  | 69 => ⟨S4096x1, .f32⟩
  | 70 => ⟨S4096x2, .f32⟩
  | 71 => ⟨S4096x2, .f32⟩
  | 72 => ⟨S_, .f32⟩
  | 73 => ⟨S4096x1, .f32⟩
  | 74 => ⟨S4096x7, .f32⟩
  | _ => ⟨S4096x4, .f32⟩

abbrev hbmTy (i : Nat) : BufTy := match i / 128 with
  | 0 => hbmTy0_0 i
  | 1 => hbmTy0_1 i
  | _ => ⟨S4096x4, .f32⟩

abbrev bufTy : (tb : Table) → Fin (tcTables nBuf tb) → BufTy
  | .hbm, ⟨i, _⟩ => hbmTy i
  | .local _ .vmem, ⟨0, _⟩ => ⟨S256x2, .f32⟩
  | .local _ .vmem, ⟨1, _⟩ => ⟨S256x2, .f32⟩
  | .local _ .vmem, ⟨2, _⟩ => ⟨S4096x2, .f32⟩
  | .local _ .vmem, ⟨3, _⟩ => ⟨S256x4096, .i32⟩
  | .local _ .vmem, ⟨4, _⟩ => ⟨S256x4096, .i32⟩
  | .local _ .vmem, ⟨5, _⟩ => ⟨S4x65536, .f32⟩
  | .local _ .vmem, ⟨6, _⟩ => ⟨S4x65536, .f32⟩
  | .local _ .vmem, ⟨7, _⟩ => ⟨S4x65536, .f32⟩
  | .local _ .vmem, ⟨8, _⟩ => ⟨S4x65536, .f32⟩
  | _, _ => ⟨S4096x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_call0_c : Ref sig .tc := ⟨.hbm, 10, rfl⟩
abbrev main_call0_call0_v0 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_c_1 : Ref sig .tc := ⟨.hbm, 15, rfl⟩
abbrev main_call1_v0 : Ref sig .tc := ⟨.hbm, 16, rfl⟩
abbrev main_call1_v1 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_call2_call0_c : Ref sig .tc := ⟨.hbm, 30, rfl⟩
abbrev main_call2_call0_v0 : Ref sig .tc := ⟨.hbm, 31, rfl⟩
abbrev main_v16 : Ref sig .tc := ⟨.hbm, 32, rfl⟩
abbrev main_c_5 : Ref sig .tc := ⟨.hbm, 33, rfl⟩
abbrev main_call3_v0 : Ref sig .tc := ⟨.hbm, 34, rfl⟩
abbrev main_call3_v1 : Ref sig .tc := ⟨.hbm, 35, rfl⟩
abbrev main_call3_v2 : Ref sig .tc := ⟨.hbm, 36, rfl⟩
abbrev main_call3_v3 : Ref sig .tc := ⟨.hbm, 37, rfl⟩
abbrev main_call3_v4 : Ref sig .tc := ⟨.hbm, 38, rfl⟩
abbrev main_call3_v5 : Ref sig .tc := ⟨.hbm, 39, rfl⟩
abbrev main_call3_v6 : Ref sig .tc := ⟨.hbm, 40, rfl⟩
abbrev main_call3_v7 : Ref sig .tc := ⟨.hbm, 41, rfl⟩
abbrev main_call3_c : Ref sig .tc := ⟨.hbm, 42, rfl⟩
abbrev main_call3_v8 : Ref sig .tc := ⟨.hbm, 43, rfl⟩
abbrev main_call3_v9 : Ref sig .tc := ⟨.hbm, 44, rfl⟩
abbrev main_call3_v10 : Ref sig .tc := ⟨.hbm, 45, rfl⟩
abbrev main_call3_c_0 : Ref sig .tc := ⟨.hbm, 46, rfl⟩
abbrev main_call3_v11 : Ref sig .tc := ⟨.hbm, 47, rfl⟩
abbrev main_call3_v12 : Ref sig .tc := ⟨.hbm, 48, rfl⟩
abbrev main_v17 : Ref sig .tc := ⟨.hbm, 49, rfl⟩
abbrev main_c_6 : Ref sig .tc := ⟨.hbm, 50, rfl⟩
abbrev main_call4_v0 : Ref sig .tc := ⟨.hbm, 51, rfl⟩
abbrev main_call4_c : Ref sig .tc := ⟨.hbm, 52, rfl⟩
abbrev main_call4_v1 : Ref sig .tc := ⟨.hbm, 53, rfl⟩
abbrev main_call4_c_0 : Ref sig .tc := ⟨.hbm, 54, rfl⟩
abbrev main_call4_v2 : Ref sig .tc := ⟨.hbm, 55, rfl⟩
abbrev main_call4_v3 : Ref sig .tc := ⟨.hbm, 56, rfl⟩
abbrev main_call4_v4 : Ref sig .tc := ⟨.hbm, 57, rfl⟩
abbrev main_call4_c_1 : Ref sig .tc := ⟨.hbm, 58, rfl⟩
abbrev main_call4_v5 : Ref sig .tc := ⟨.hbm, 59, rfl⟩
abbrev main_call4_v6 : Ref sig .tc := ⟨.hbm, 60, rfl⟩
abbrev main_call4_c_2 : Ref sig .tc := ⟨.hbm, 61, rfl⟩
abbrev main_call4_v7 : Ref sig .tc := ⟨.hbm, 62, rfl⟩
abbrev main_call4_v8 : Ref sig .tc := ⟨.hbm, 63, rfl⟩
abbrev main_call4_c_3 : Ref sig .tc := ⟨.hbm, 64, rfl⟩
abbrev main_call4_v9 : Ref sig .tc := ⟨.hbm, 65, rfl⟩
abbrev main_call4_v10 : Ref sig .tc := ⟨.hbm, 66, rfl⟩
abbrev main_call4_v11 : Ref sig .tc := ⟨.hbm, 67, rfl⟩
abbrev main_call4_v12 : Ref sig .tc := ⟨.hbm, 68, rfl⟩
abbrev main_call4_v13 : Ref sig .tc := ⟨.hbm, 69, rfl⟩
abbrev main_call4_v14 : Ref sig .tc := ⟨.hbm, 70, rfl⟩
abbrev main_v18 : Ref sig .tc := ⟨.hbm, 71, rfl⟩
abbrev main_c_7 : Ref sig .tc := ⟨.hbm, 72, rfl⟩
abbrev main_call5_v0 : Ref sig .tc := ⟨.hbm, 73, rfl⟩
abbrev main_call5_v1 : Ref sig .tc := ⟨.hbm, 74, rfl⟩
abbrev main_call5_v2 : Ref sig .tc := ⟨.hbm, 75, rfl⟩
abbrev main_call5_v3 : Ref sig .tc := ⟨.hbm, 76, rfl⟩
abbrev main_call5_v4 : Ref sig .tc := ⟨.hbm, 77, rfl⟩
abbrev main_call5_v5 : Ref sig .tc := ⟨.hbm, 78, rfl⟩
abbrev main_call5_v6 : Ref sig .tc := ⟨.hbm, 79, rfl⟩
abbrev main_call5_v7 : Ref sig .tc := ⟨.hbm, 80, rfl⟩
abbrev main_call5_c : Ref sig .tc := ⟨.hbm, 81, rfl⟩
abbrev main_call5_v8 : Ref sig .tc := ⟨.hbm, 82, rfl⟩
abbrev main_call5_v9 : Ref sig .tc := ⟨.hbm, 83, rfl⟩
abbrev main_call5_v10 : Ref sig .tc := ⟨.hbm, 84, rfl⟩
abbrev main_call5_c_0 : Ref sig .tc := ⟨.hbm, 85, rfl⟩
abbrev main_call5_v11 : Ref sig .tc := ⟨.hbm, 86, rfl⟩
abbrev main_call5_v12 : Ref sig .tc := ⟨.hbm, 87, rfl⟩
abbrev main_v19 : Ref sig .tc := ⟨.hbm, 88, rfl⟩
abbrev main_c_8 : Ref sig .tc := ⟨.hbm, 89, rfl⟩
abbrev main_call6_v0 : Ref sig .tc := ⟨.hbm, 90, rfl⟩
abbrev main_call6_c : Ref sig .tc := ⟨.hbm, 91, rfl⟩
abbrev main_call6_v1 : Ref sig .tc := ⟨.hbm, 92, rfl⟩
abbrev main_call6_c_0 : Ref sig .tc := ⟨.hbm, 93, rfl⟩
abbrev main_call6_v2 : Ref sig .tc := ⟨.hbm, 94, rfl⟩
abbrev main_call6_v3 : Ref sig .tc := ⟨.hbm, 95, rfl⟩
abbrev main_call6_v4 : Ref sig .tc := ⟨.hbm, 96, rfl⟩
abbrev main_call6_c_1 : Ref sig .tc := ⟨.hbm, 97, rfl⟩
abbrev main_call6_v5 : Ref sig .tc := ⟨.hbm, 98, rfl⟩
abbrev main_call6_v6 : Ref sig .tc := ⟨.hbm, 99, rfl⟩
abbrev main_call6_c_2 : Ref sig .tc := ⟨.hbm, 100, rfl⟩
abbrev main_call6_v7 : Ref sig .tc := ⟨.hbm, 101, rfl⟩
abbrev main_call6_v8 : Ref sig .tc := ⟨.hbm, 102, rfl⟩
abbrev main_call6_c_3 : Ref sig .tc := ⟨.hbm, 103, rfl⟩
abbrev main_call6_v9 : Ref sig .tc := ⟨.hbm, 104, rfl⟩
abbrev main_call6_v10 : Ref sig .tc := ⟨.hbm, 105, rfl⟩
abbrev main_call6_v11 : Ref sig .tc := ⟨.hbm, 106, rfl⟩
abbrev main_call6_v12 : Ref sig .tc := ⟨.hbm, 107, rfl⟩
abbrev main_call6_v13 : Ref sig .tc := ⟨.hbm, 108, rfl⟩
abbrev main_call6_v14 : Ref sig .tc := ⟨.hbm, 109, rfl⟩
abbrev main_v20 : Ref sig .tc := ⟨.hbm, 110, rfl⟩
abbrev main_v21 : Ref sig .tc := ⟨.hbm, 111, rfl⟩
abbrev main_v22 : Ref sig .tc := ⟨.hbm, 112, rfl⟩
abbrev main_c_9 : Ref sig .tc := ⟨.hbm, 113, rfl⟩
abbrev main_v23 : Ref sig .tc := ⟨.hbm, 114, rfl⟩
abbrev main_v24 : Ref sig .tc := ⟨.hbm, 115, rfl⟩
abbrev main_v25 : Ref sig .tc := ⟨.hbm, 116, rfl⟩
abbrev main_c_10 : Ref sig .tc := ⟨.hbm, 117, rfl⟩
abbrev main_call7_v0 : Ref sig .tc := ⟨.hbm, 118, rfl⟩
abbrev main_call7_v1 : Ref sig .tc := ⟨.hbm, 119, rfl⟩
abbrev main_v26 : Ref sig .tc := ⟨.hbm, 120, rfl⟩
abbrev main_c_11 : Ref sig .tc := ⟨.hbm, 121, rfl⟩
abbrev main_call8_v0 : Ref sig .tc := ⟨.hbm, 122, rfl⟩
abbrev main_call8_v1 : Ref sig .tc := ⟨.hbm, 123, rfl⟩
abbrev main_v27 : Ref sig .tc := ⟨.hbm, 124, rfl⟩
abbrev main_v28 : Ref sig .tc := ⟨.hbm, 125, rfl⟩
abbrev main_v29 : Ref sig .tc := ⟨.hbm, 126, rfl⟩
abbrev main_v30 : Ref sig .tc := ⟨.hbm, 127, rfl⟩
abbrev main_v31 : Ref sig .tc := ⟨.hbm, 128, rfl⟩
abbrev main_call9_c : Ref sig .tc := ⟨.hbm, 129, rfl⟩
abbrev main_call9_v0 : Ref sig .tc := ⟨.hbm, 130, rfl⟩
abbrev main_call9_v1 : Ref sig .tc := ⟨.hbm, 131, rfl⟩
abbrev main_call9_c_0 : Ref sig .tc := ⟨.hbm, 132, rfl⟩
abbrev main_call9_v2 : Ref sig .tc := ⟨.hbm, 133, rfl⟩
abbrev main_call9_v3 : Ref sig .tc := ⟨.hbm, 134, rfl⟩
abbrev main_call9_v4 : Ref sig .tc := ⟨.hbm, 135, rfl⟩
abbrev main_call9_v5 : Ref sig .tc := ⟨.hbm, 136, rfl⟩
abbrev main_call9_c_1 : Ref sig .tc := ⟨.hbm, 137, rfl⟩
abbrev main_call9_c_2 : Ref sig .tc := ⟨.hbm, 138, rfl⟩
abbrev main_call9_v6 : Ref sig .tc := ⟨.hbm, 139, rfl⟩
abbrev main_call9_v7 : Ref sig .tc := ⟨.hbm, 140, rfl⟩
abbrev main_call9_v8 : Ref sig .tc := ⟨.hbm, 141, rfl⟩
abbrev main_call9_v9 : Ref sig .tc := ⟨.hbm, 142, rfl⟩
abbrev main_call9_v10 : Ref sig .tc := ⟨.hbm, 143, rfl⟩
abbrev main_call9_v11 : Ref sig .tc := ⟨.hbm, 144, rfl⟩
abbrev main_call9_c_3 : Ref sig .tc := ⟨.hbm, 145, rfl⟩
abbrev main_call9_v12 : Ref sig .tc := ⟨.hbm, 146, rfl⟩
abbrev main_call9_v13 : Ref sig .tc := ⟨.hbm, 147, rfl⟩
abbrev main_call9_v14 : Ref sig .tc := ⟨.hbm, 148, rfl⟩
abbrev main_call9_cst : Ref sig .tc := ⟨.hbm, 149, rfl⟩
abbrev main_call9_v15 : Ref sig .tc := ⟨.hbm, 150, rfl⟩
abbrev main_v32 : Ref sig .tc := ⟨.hbm, 151, rfl⟩
abbrev main_call10_c : Ref sig .tc := ⟨.hbm, 152, rfl⟩
abbrev main_call10_v0 : Ref sig .tc := ⟨.hbm, 153, rfl⟩
abbrev main_call10_v1 : Ref sig .tc := ⟨.hbm, 154, rfl⟩
abbrev main_call10_c_0 : Ref sig .tc := ⟨.hbm, 155, rfl⟩
abbrev main_call10_v2 : Ref sig .tc := ⟨.hbm, 156, rfl⟩
abbrev main_call10_v3 : Ref sig .tc := ⟨.hbm, 157, rfl⟩
abbrev main_call10_v4 : Ref sig .tc := ⟨.hbm, 158, rfl⟩
abbrev main_call10_v5 : Ref sig .tc := ⟨.hbm, 159, rfl⟩
abbrev main_call10_c_1 : Ref sig .tc := ⟨.hbm, 160, rfl⟩
abbrev main_call10_c_2 : Ref sig .tc := ⟨.hbm, 161, rfl⟩
abbrev main_call10_v6 : Ref sig .tc := ⟨.hbm, 162, rfl⟩
abbrev main_call10_v7 : Ref sig .tc := ⟨.hbm, 163, rfl⟩
abbrev main_call10_v8 : Ref sig .tc := ⟨.hbm, 164, rfl⟩
abbrev main_call10_v9 : Ref sig .tc := ⟨.hbm, 165, rfl⟩
abbrev main_call10_v10 : Ref sig .tc := ⟨.hbm, 166, rfl⟩
abbrev main_call10_v11 : Ref sig .tc := ⟨.hbm, 167, rfl⟩
abbrev main_call10_c_3 : Ref sig .tc := ⟨.hbm, 168, rfl⟩
abbrev main_call10_v12 : Ref sig .tc := ⟨.hbm, 169, rfl⟩
abbrev main_call10_v13 : Ref sig .tc := ⟨.hbm, 170, rfl⟩
abbrev main_call10_v14 : Ref sig .tc := ⟨.hbm, 171, rfl⟩
abbrev main_call10_cst : Ref sig .tc := ⟨.hbm, 172, rfl⟩
abbrev main_call10_v15 : Ref sig .tc := ⟨.hbm, 173, rfl⟩
abbrev main_v33 : Ref sig .tc := ⟨.hbm, 174, rfl⟩
abbrev main_v34 : Ref sig .tc := ⟨.hbm, 175, rfl⟩
abbrev main_v35 : Ref sig .tc := ⟨.hbm, 176, rfl⟩
abbrev main_v36 : Ref sig .tc := ⟨.hbm, 177, rfl⟩
abbrev main_v37 : Ref sig .tc := ⟨.hbm, 178, rfl⟩
abbrev main_v38 : Ref sig .tc := ⟨.hbm, 179, rfl⟩
abbrev main_v39 : Ref sig .tc := ⟨.hbm, 180, rfl⟩
abbrev main_cst : Ref sig .tc := ⟨.hbm, 181, rfl⟩
abbrev main_v40 : Ref sig .tc := ⟨.hbm, 182, rfl⟩
abbrev main_v41 : Ref sig .tc := ⟨.hbm, 183, rfl⟩
abbrev main_v42 : Ref sig .tc := ⟨.hbm, 184, rfl⟩
abbrev main_cst_12 : Ref sig .tc := ⟨.hbm, 185, rfl⟩
abbrev main_v43 : Ref sig .tc := ⟨.hbm, 186, rfl⟩
abbrev main_v44 : Ref sig .tc := ⟨.hbm, 187, rfl⟩
abbrev main_cst_13 : Ref sig .tc := ⟨.hbm, 188, rfl⟩
abbrev main_v45 : Ref sig .tc := ⟨.hbm, 189, rfl⟩
abbrev main_v46 : Ref sig .tc := ⟨.hbm, 190, rfl⟩
abbrev main_cst_14 : Ref sig .tc := ⟨.hbm, 191, rfl⟩
abbrev main_v47 : Ref sig .tc := ⟨.hbm, 192, rfl⟩
abbrev main_v48 : Ref sig .tc := ⟨.hbm, 193, rfl⟩
abbrev main_cst_15 : Ref sig .tc := ⟨.hbm, 194, rfl⟩
abbrev main_call11_v0 : Ref sig .tc := ⟨.hbm, 195, rfl⟩
abbrev main_call11_v1 : Ref sig .tc := ⟨.hbm, 196, rfl⟩
abbrev main_v49 : Ref sig .tc := ⟨.hbm, 197, rfl⟩
abbrev main_v50 : Ref sig .tc := ⟨.hbm, 198, rfl⟩
abbrev main_v51 : Ref sig .tc := ⟨.hbm, 199, rfl⟩
abbrev main_cst_16 : Ref sig .tc := ⟨.hbm, 200, rfl⟩
abbrev main_v52 : Ref sig .tc := ⟨.hbm, 201, rfl⟩
abbrev main_v53 : Ref sig .tc := ⟨.hbm, 202, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![256], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S4x65536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x65536 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  slices_S4096x4_S4096x2_0_0 : S4096x4.Slices ![0, 0] S4096x2
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S4096x2_S4096x2_0_0 : ∀ a, (![0, 0] : Fin 2 → Nat) a + S4096x2.size a ≤ S4096x2.size a
  h_S4096x2 : 0 < S4096x2.numel
  shapeCasts_S4096x2_S4096x2 : S4096x2.ShapeCasts S4096x2
  slices_S256x2_o0_0_S256x1 : S256x2.Slices ![0, 0] S256x1
  slices_S256x2_o0_1_S256x1 : S256x2.Slices ![0, 1] S256x1
  slices_S4096x2_o0_0_S4096x1 : S4096x2.Slices ![0, 0] S4096x1
  shapeCasts_S4096x1_S4096 : S4096x1.ShapeCasts S4096
  slices_S4096x2_o0_1_S4096x1 : S4096x2.Slices ![0, 1] S4096x1
  shapeCasts_S4096_S1x4096 : S4096.ShapeCasts S1x4096
  broadcasts_S256x1_S256x4096 : S256x1.Broadcasts S256x4096
  broadcasts_S1x4096_S256x4096 : S1x4096.Broadcasts S256x4096
  iota_S256x1_d0_w32 : S256x1.Iotas .tc 32 [0]
  iota_S1x4096_d1_w32 : S1x4096.Iotas .tc 32 [1]
  natLt_1_32 : 1 < 32
  inb_S256x4096_S256x4096_0_0 : ∀ a, (![0, 0] : Fin 2 → Nat) a + S256x4096.size a ≤ S256x4096.size a
  h_S256x4096 : 0 < S256x4096.numel
  bcast_S_S4096x4096 : S_.BroadcastsInDim S4096x4096 (![] : Fin 0 → Fin S4096x4096.rank)
  shapeCasts_S4096x4096_S16777216 : S4096x4096.ShapeCasts S16777216
  bcast_S_S_ : S_.BroadcastsInDim S_ (![] : Fin 0 → Fin S_.rank)
  reduceWindows_S16777216_S16777216_w16777216s1p16777215_0 : S16777216.ReduceWindows (![16777216] : Fin 1 → Nat) ![1] ![16777215] ![0] S16777216
  h_S_ : 0 < S_.numel
  bcast_S_S16777216 : S_.BroadcastsInDim S16777216 (![] : Fin 0 → Fin S16777216.rank)
  bcast_S16777216_S16777216x1_0 : S16777216.BroadcastsInDim S16777216x1 (![0] : Fin 1 → Fin S16777216x1.rank)
  reducesTo_S4096x4096_S_d0_1 : S4096x4096.ReducesTo [0, 1] S_
  bcast_S16777216_S1x16777216_1 : S16777216.BroadcastsInDim S1x16777216 (![1] : Fin 1 → Fin S1x16777216.rank)
  concatenates_S1x16777216_S1x16777216_S2x16777216_d0 : Shape.Concatenates [S1x16777216, S1x16777216] S2x16777216 0
  transposes_S4096x4_S4x4096_1_0 : S4096x4.Transposes [1, 0] S4x4096
  bcast_S_S16777216x1 : S_.BroadcastsInDim S16777216x1 (![] : Fin 0 → Fin S16777216x1.rank)
  bcast_S1_S1x1_1 : S1.BroadcastsInDim S1x1 (![1] : Fin 1 → Fin S1x1.rank)
  bcast_S1x1_S16777216x1_0_1 : S1x1.BroadcastsInDim S16777216x1 (![0, 1] : Fin 2 → Fin S16777216x1.rank)
  reducesTo_S16777216x1_S16777216_d1 : S16777216x1.ReducesTo [1] S16777216
  bcast_S16777216_S4x16777216_1 : S16777216.BroadcastsInDim S4x16777216 (![1] : Fin 1 → Fin S4x16777216.rank)
  bcast_S_S4x16777216 : S_.BroadcastsInDim S4x16777216 (![] : Fin 0 → Fin S4x16777216.rank)
  inb_S4x65536_S4x65536_0_0 : ∀ a, (![0, 0] : Fin 2 → Nat) a + S4x65536.size a ≤ S4x65536.size a
  h_S4x65536 : 0 < S4x65536.numel
  shapeCasts_S4x65536_S4x65536 : S4x65536.ShapeCasts S4x65536
  slices_S4x65536_o0_0_S1x65536 : S4x65536.Slices ![0, 0] S1x65536
  shapeCasts_S1x65536_S65536 : S1x65536.ShapeCasts S65536
  slices_S4x65536_o1_0_S1x65536 : S4x65536.Slices ![1, 0] S1x65536
  inb_S4x65536_S1x65536_0_0 : ∀ a, (![0, 0] : Fin 2 → Nat) a + S1x65536.size a ≤ S4x65536.size a
  h_S1x65536 : 0 < S1x65536.numel
  shapeCasts_S65536_S1x65536 : S65536.ShapeCasts S1x65536
  inb_S4x65536_S1x65536_1_0 : ∀ a, (![1, 0] : Fin 2 → Nat) a + S1x65536.size a ≤ S4x65536.size a
  slices_S4x65536_o2_0_S1x65536 : S4x65536.Slices ![2, 0] S1x65536
  inb_S4x65536_S1x65536_2_0 : ∀ a, (![2, 0] : Fin 2 → Nat) a + S1x65536.size a ≤ S4x65536.size a
  slices_S4x65536_o3_0_S1x65536 : S4x65536.Slices ![3, 0] S1x65536
  inb_S4x65536_S1x65536_3_0 : ∀ a, (![3, 0] : Fin 2 → Nat) a + S1x65536.size a ≤ S4x65536.size a
  transposes_S4x16777216_S16777216x4_1_0 : S4x16777216.Transposes [1, 0] S16777216x4
  reducesTo_S4096x2_S4096_d1 : S4096x2.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x2_0_1 : S4096x1.BroadcastsInDim S4096x2 (![0, 1] : Fin 2 → Fin S4096x2.rank)
  concatenates_S4096x4_S4096x2_S4096x1_S4096x7_d1 : Shape.Concatenates [S4096x4, S4096x2, S4096x1] S4096x7 1
  scatter_S16777216_S16777216x1_S16777216_n_0_0_1_wf : ScatterDims.WF S16777216 S16777216x1 S16777216 [] [0] [0] 1
  gather_S4x4096_S16777216x1_S4x16777216_0_1_n_n_1_1_41_wf : GatherDims.WF S4x4096 S16777216x1 S4x16777216 [0] [1] [] [1] [] 1 ![4, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2.size a ≤ S4096x2.size a
  hwx0_0 : ∀ i : grid0.Coords, EltTy.bits .f32 = 32 ∨ (Rect.block (s := S4096x2) S256x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x2.size a ≤ S4096x2.size a
  hwx0_1 : ∀ i : grid0.Coords, EltTy.bits .f32 = 32 ∨ (Rect.block (s := S4096x2) S4096x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .i32 = 32 ∨ (Rect.block (s := S4096x4096) S256x4096.size (cc0_transform_2 i) (hinb0_2 i)).WholeWords (EltTy.packing .i32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x65536.size a ≤ S4x16777216.size a
  hwx1_0 : ∀ i : grid1.Coords, EltTy.bits .f32 = 32 ∨ (Rect.block (s := S4x16777216) S4x65536.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x65536.size a ≤ S4x16777216.size a
  hwx1_1 : ∀ i : grid1.Coords, EltTy.bits .f32 = 32 ∨ (Rect.block (s := S4x16777216) S4x65536.size (cc1_transform_1 i) (hinb1_1 i)).WholeWords (EltTy.packing .f32)

variable [Facts₀]

def scatter_S16777216_S16777216x1_S16777216_n_0_0_1 : ScatterDims S16777216 S16777216x1 S16777216 where
  updateWindowDims := []
  insertedWindowDims := [0]
  scatterDimsToOperandDims := [0]
  indexVectorDim := 1
  wf := scatter_S16777216_S16777216x1_S16777216_n_0_0_1_wf
def gather_S4x4096_S16777216x1_S4x16777216_0_1_n_n_1_1_41 : GatherDims S4x4096 S16777216x1 S4x16777216 where
  offsetDims := [0]
  collapsedSliceDims := [1]
  operandBatchingDims := []
  startIndicesBatchingDims := []
  startIndexMap := [1]
  indexVectorDim := 1
  sliceSizes := ![4, 1]
  wf := gather_S4x4096_S16777216x1_S4x16777216_0_1_n_n_1_1_41_wf

abbrev win0_0 : Pipeline.Window sig grid0 :=
  Pipeline.Window.ofSpec (Memref.whole main_v0) S256x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v34) S4x65536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S4x65536.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S4096x4 : Shape := ⟨2, ![4096, 4]⟩
abbrev S4096x2 : Shape := ⟨2, ![4096, 2]⟩
abbrev S4096x1x2 : Shape := ⟨3, ![4096, 1, 2]⟩
abbrev S1x4096x2 : Shape := ⟨3, ![1, 4096, 2]⟩
abbrev S4096x4096x2 : Shape := ⟨3, ![4096, 4096, 2]⟩
abbrev S_ : Shape := ⟨0, ![]⟩
abbrev S4096x4096 : Shape := ⟨2, ![4096, 4096]⟩
abbrev S16777216 : Shape := ⟨1, ![16777216]⟩
abbrev S16777216x1 : Shape := ⟨2, ![16777216, 1]⟩
abbrev S1x16777216 : Shape := ⟨2, ![1, 16777216]⟩
abbrev S2x16777216 : Shape := ⟨2, ![2, 16777216]⟩
abbrev S16777216x4 : Shape := ⟨2, ![16777216, 4]⟩
abbrev S16777216x2 : Shape := ⟨2, ![16777216, 2]⟩
abbrev S4096 : Shape := ⟨1, ![4096]⟩
abbrev S4096x1 : Shape := ⟨2, ![4096, 1]⟩
abbrev S4096x7 : Shape := ⟨2, ![4096, 7]⟩

abbrev nBuf : Space → Nat
  | .hbm => 250
  | .vmem => 0
  | .smem => 0
  | _ => 0

abbrev hbmTy0_0 (i : Nat) : BufTy := match i % 128 with
  | 0 => ⟨S4096x4, .f32⟩
  | 1 => ⟨S4096x2, .f32⟩
  | 2 => ⟨S4096x2, .f32⟩
  | 3 => ⟨S4096x1x2, .f32⟩
  | 4 => ⟨S1x4096x2, .f32⟩
  | 5 => ⟨S4096x4096x2, .f32⟩
  | 6 => ⟨S4096x4096x2, .f32⟩
  | 7 => ⟨S4096x4096x2, .f32⟩
  | 8 => ⟨S4096x4096x2, .f32⟩
  | 9 => ⟨S_, .f32⟩
  | 10 => ⟨S4096x4096, .f32⟩
  | 11 => ⟨S_, .f32⟩
  | 12 => ⟨S4096x4096, .f32⟩
  | 13 => ⟨S4096x4096, .i1⟩
  | 14 => ⟨S_, .f32⟩
  | 15 => ⟨S_, .f32⟩
  | 16 => ⟨S4096x4096, .f32⟩
  | 17 => ⟨S4096x4096, .f32⟩
  | 18 => ⟨S4096x4096, .f32⟩
  | 19 => ⟨S_, .f32⟩
  | 20 => ⟨S4096x4096, .f32⟩
  | 21 => ⟨S4096x4096, .i1⟩
  | 22 => ⟨S_, .f32⟩
  | 23 => ⟨S_, .f32⟩
  | 24 => ⟨S4096x4096, .f32⟩
  | 25 => ⟨S4096x4096, .f32⟩
  | 26 => ⟨S_, .f32⟩
  | 27 => ⟨S4096x4096, .f32⟩
  | 28 => ⟨S4096x4096, .i1⟩
  | 29 => ⟨S4096x4096, .i32⟩
  | 30 => ⟨S4096x4096, .i32⟩
  | 31 => ⟨S_, .i32⟩
  | 32 => ⟨S4096x4096, .i32⟩
  | 33 => ⟨S4096x4096, .i32⟩
  | 34 => ⟨S4096x4096, .i1⟩
  | 35 => ⟨S4096x4096, .i1⟩
  | 36 => ⟨S16777216, .i1⟩
  | 37 => ⟨S16777216, .i32⟩
  | 38 => ⟨S_, .i32⟩
  | 39 => ⟨S_, .i32⟩
  | 40 => ⟨S16777216, .i32⟩
  | 41 => ⟨S_, .i32⟩
  | 42 => ⟨S16777216, .i32⟩
  | 43 => ⟨S_, .i32⟩
  | 44 => ⟨S_, .i32⟩
  | 45 => ⟨S16777216, .i32⟩
  | 46 => ⟨S16777216, .i32⟩
  | 47 => ⟨S_, .i32⟩
  | 48 => ⟨S16777216, .i32⟩
  | 49 => ⟨S16777216, .i1⟩
  | 50 => ⟨S_, .i32⟩
  | 51 => ⟨S16777216, .i32⟩
  | 52 => ⟨S16777216, .i32⟩
  | 53 => ⟨S16777216, .i32⟩
  | 54 => ⟨S16777216x1, .i32⟩
  | 55 => ⟨S_, .i32⟩
  | 56 => ⟨S16777216, .i32⟩
  | 57 => ⟨S16777216, .i32⟩
  | 58 => ⟨S_, .i32⟩
  | 59 => ⟨S_, .i32⟩
  | 60 => ⟨S16777216, .i32⟩
  | 61 => ⟨S_, .i32⟩
  | 62 => ⟨S16777216, .i32⟩
  | 63 => ⟨S16777216, .i32⟩
  | 64 => ⟨S16777216, .i32⟩
  | 65 => ⟨S_, .i32⟩
  | 66 => ⟨S16777216, .i32⟩
  | 67 => ⟨S16777216, .i1⟩
  | 68 => ⟨S16777216, .i32⟩
  | 69 => ⟨S16777216, .i32⟩
  | 70 => ⟨S_, .i32⟩
  | 71 => ⟨S16777216, .i32⟩
  | 72 => ⟨S16777216, .i1⟩
  | 73 => ⟨S16777216, .i1⟩
  | 74 => ⟨S_, .i32⟩
  | 75 => ⟨S16777216, .i32⟩
  | 76 => ⟨S16777216, .i32⟩
  | 77 => ⟨S16777216, .i32⟩
  | 78 => ⟨S_, .i32⟩
  | 79 => ⟨S_, .i32⟩
  | 80 => ⟨S_, .i32⟩
  | 81 => ⟨S_, .i1⟩
  | 82 => ⟨S_, .i32⟩
  | 83 => ⟨S_, .i32⟩
  | 84 => ⟨S16777216, .i32⟩
  | 85 => ⟨S16777216, .i32⟩
  | 86 => ⟨S_, .i32⟩
  | 87 => ⟨S16777216, .i32⟩
  | 88 => ⟨S16777216, .i1⟩
  | 89 => ⟨S_, .i32⟩
  | 90 => ⟨S16777216, .i32⟩
  | 91 => ⟨S16777216, .i1⟩
  | 92 => ⟨S_, .i32⟩
  | 93 => ⟨S_, .i1⟩
  | 94 => ⟨S16777216, .i1⟩
  | 95 => ⟨S16777216, .i1⟩
  | 96 => ⟨S16777216, .i1⟩
  | 97 => ⟨S16777216, .i32⟩
  | 98 => ⟨S16777216, .i32⟩
  | 99 => ⟨S16777216, .i32⟩
  | 100 => ⟨S_, .i32⟩
  | 101 => ⟨S16777216, .i32⟩
  | 102 => ⟨S16777216, .i32⟩
  | 103 => ⟨S16777216, .i32⟩
  | 104 => ⟨S_, .i32⟩
  | 105 => ⟨S16777216, .i32⟩
  | 106 => ⟨S16777216, .i1⟩
  | 107 => ⟨S16777216, .i32⟩
  | 108 => ⟨S16777216, .i32⟩
  | 109 => ⟨S_, .i32⟩
  | 110 => ⟨S16777216, .i32⟩
  | 111 => ⟨S16777216, .i1⟩
  | 112 => ⟨S16777216, .i1⟩
  | 113 => ⟨S_, .i32⟩
  | 114 => ⟨S16777216, .i32⟩
  | 115 => ⟨S16777216, .i32⟩
  | 116 => ⟨S16777216, .i32⟩
  | 117 => ⟨S_, .i32⟩
  | 118 => ⟨S_, .i32⟩
  | 119 => ⟨S_, .i32⟩
  | 120 => ⟨S_, .i1⟩
  | 121 => ⟨S_, .i32⟩
  | 122 => ⟨S_, .i32⟩
  | 123 => ⟨S16777216, .i32⟩
  | 124 => ⟨S16777216, .i32⟩
  | 125 => ⟨S_, .i32⟩
  | 126 => ⟨S16777216, .i32⟩
  | 127 => ⟨S16777216, .i1⟩
  | _ => ⟨S4096x4, .f32⟩

abbrev hbmTy0_1 (i : Nat) : BufTy := match i % 128 with
  | 0 => ⟨S_, .i32⟩
  | 1 => ⟨S16777216, .i32⟩
  | 2 => ⟨S16777216, .i1⟩
  | 3 => ⟨S_, .i32⟩
  | 4 => ⟨S_, .i1⟩
  | 5 => ⟨S16777216, .i1⟩
  | 6 => ⟨S16777216, .i1⟩
  | 7 => ⟨S16777216, .i1⟩
  | 8 => ⟨S16777216, .i32⟩
  | 9 => ⟨S16777216, .i32⟩
  | 10 => ⟨S16777216, .i32⟩
  | 11 => ⟨S16777216, .i32⟩
  | 12 => ⟨S4096x4096, .i32⟩
  | 13 => ⟨S_, .i32⟩
  | 14 => ⟨S_, .i32⟩
  | 15 => ⟨S16777216, .i32⟩
  | 16 => ⟨S16777216, .i1⟩
  | 17 => ⟨S_, .i32⟩
  | 18 => ⟨S_, .i32⟩
  | 19 => ⟨S16777216, .i32⟩
  | 20 => ⟨S16777216, .i32⟩
  | 21 => ⟨S_, .i32⟩
  | 22 => ⟨S_, .i32⟩
  | 23 => ⟨S16777216, .i32⟩
  | 24 => ⟨S16777216, .i32⟩
  | 25 => ⟨S1x16777216, .i32⟩
  | 26 => ⟨S1x16777216, .i32⟩
  | 27 => ⟨S2x16777216, .i32⟩
  | 28 => ⟨S_, .i32⟩
  | 29 => ⟨S16777216, .i32⟩
  | 30 => ⟨S16777216, .i1⟩
  | 31 => ⟨S_, .i32⟩
  | 32 => ⟨S16777216, .i32⟩
  | 33 => ⟨S16777216, .i32⟩
  | 34 => ⟨S16777216, .i32⟩
  | 35 => ⟨S16777216x1, .i32⟩
  | 36 => ⟨S16777216x4, .f32⟩
  | 37 => ⟨S_, .i32⟩
  | 38 => ⟨S16777216, .i32⟩
  | 39 => ⟨S16777216, .i1⟩
  | 40 => ⟨S_, .i32⟩
  | 41 => ⟨S16777216, .i32⟩
  | 42 => ⟨S16777216, .i32⟩
  | 43 => ⟨S16777216, .i32⟩
  | 44 => ⟨S16777216x1, .i32⟩
  | 45 => ⟨S16777216x4, .f32⟩
  | 46 => ⟨S16777216x4, .f32⟩
  | 47 => ⟨S16777216x2, .f32⟩
  | 48 => ⟨S16777216x2, .f32⟩
  | 49 => ⟨S_, .f32⟩
  | 50 => ⟨S16777216, .f32⟩
  | 51 => ⟨S16777216x1, .f32⟩
  | 52 => ⟨S_, .f32⟩
  | 53 => ⟨S16777216x1, .f32⟩
  | 54 => ⟨S16777216x1, .i1⟩
  | 55 => ⟨S_, .f32⟩
  | 56 => ⟨S_, .f32⟩
  | 57 => ⟨S16777216x1, .f32⟩
  | 58 => ⟨S16777216x1, .f32⟩
  | 59 => ⟨S16777216x1, .f32⟩
  | 60 => ⟨S_, .f32⟩
  | 61 => ⟨S16777216x1, .f32⟩
  | 62 => ⟨S16777216x1, .i1⟩
  | 63 => ⟨S_, .f32⟩
  | 64 => ⟨S_, .f32⟩
  | 65 => ⟨S16777216x1, .f32⟩
  | 66 => ⟨S16777216x1, .f32⟩
  | 67 => ⟨S_, .f32⟩
  | 68 => ⟨S16777216x1, .f32⟩
  | 69 => ⟨S16777216x1, .f32⟩
  | 70 => ⟨S_, .f32⟩
  | 71 => ⟨S16777216x1, .f32⟩
  | 72 => ⟨S16777216x1, .i1⟩
  | 73 => ⟨S_, .f32⟩
  | 74 => ⟨S16777216x1, .f32⟩
  | 75 => ⟨S16777216x1, .f32⟩
  | 76 => ⟨S_, .f32⟩
  | 77 => ⟨S_, .f32⟩
  | 78 => ⟨S16777216x1, .f32⟩
  | 79 => ⟨S16777216x1, .f32⟩
  | 80 => ⟨S16777216x2, .f32⟩
  | 81 => ⟨S16777216x2, .f32⟩
  | 82 => ⟨S16777216x2, .f32⟩
  | 83 => ⟨S16777216x4, .f32⟩
  | 84 => ⟨S4096x2, .f32⟩
  | 85 => ⟨S4096x2, .f32⟩
  | 86 => ⟨S_, .f32⟩
  | 87 => ⟨S4096, .f32⟩
  | 88 => ⟨S4096x1, .f32⟩
  | 89 => ⟨S_, .f32⟩
  | 90 => ⟨S4096x1, .f32⟩
  | 91 => ⟨S4096x1, .i1⟩
  | 92 => ⟨S_, .f32⟩
  | 93 => ⟨S_, .f32⟩
  | 94 => ⟨S4096x1, .f32⟩
  | 95 => ⟨S4096x1, .f32⟩
  | 96 => ⟨S4096x1, .f32⟩
  | 97 => ⟨S_, .f32⟩
  | 98 => ⟨S4096x1, .f32⟩
  | 99 => ⟨S4096x1, .i1⟩
  | 100 => ⟨S_, .f32⟩
  | 101 => ⟨S_, .f32⟩
  | 102 => ⟨S4096x1, .f32⟩
  | 103 => ⟨S4096x1, .f32⟩
  | 104 => ⟨S_, .f32⟩
  | 105 => ⟨S4096x1, .f32⟩
  | 106 => ⟨S4096x1, .f32⟩
  | 107 => ⟨S_, .f32⟩
  | 108 => ⟨S4096x1, .f32⟩
  | 109 => ⟨S4096x1, .i1⟩
  | 110 => ⟨S_, .f32⟩
  | 111 => ⟨S4096x1, .f32⟩
  | 112 => ⟨S4096x1, .f32⟩
  | 113 => ⟨S_, .f32⟩
  | 114 => ⟨S_, .f32⟩
  | 115 => ⟨S4096x1, .f32⟩
  | 116 => ⟨S4096x1, .f32⟩
  | 117 => ⟨S4096x2, .f32⟩
  | 118 => ⟨S4096x2, .f32⟩
  | 119 => ⟨S_, .f32⟩
  | 120 => ⟨S4096x1, .f32⟩
  | 121 => ⟨S4096x7, .f32⟩
  | _ => ⟨S4096x4, .f32⟩

abbrev hbmTy (i : Nat) : BufTy := match i / 128 with
  | 0 => hbmTy0_0 i
  | 1 => hbmTy0_1 i
  | _ => ⟨S4096x4, .f32⟩

abbrev bufTy : (tb : Table) → Fin (tcTables nBuf tb) → BufTy
  | .hbm, ⟨i, _⟩ => hbmTy i
  | _, _ => ⟨S4096x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call2_v0 : Ref sig .tc := ⟨.hbm, 36, rfl⟩
abbrev main_call2_v1 : Ref sig .tc := ⟨.hbm, 37, rfl⟩
abbrev main_call2_call0_c : Ref sig .tc := ⟨.hbm, 38, rfl⟩
abbrev main_call2_call0_v0 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_c_6 : Ref sig .tc := ⟨.hbm, 43, rfl⟩
abbrev main_call3_v0 : Ref sig .tc := ⟨.hbm, 44, rfl⟩
abbrev main_call3_v1 : Ref sig .tc := ⟨.hbm, 45, rfl⟩
abbrev main_v25 : Ref sig .tc := ⟨.hbm, 46, rfl⟩
abbrev main_c_7 : Ref sig .tc := ⟨.hbm, 47, rfl⟩
abbrev main_v26 : Ref sig .tc := ⟨.hbm, 48, rfl⟩
abbrev main_v27 : Ref sig .tc := ⟨.hbm, 49, rfl⟩
abbrev main_c_8 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_9 : Ref sig .tc := ⟨.hbm, 55, rfl⟩
abbrev main_v32 : Ref sig .tc := ⟨.hbm, 56, rfl⟩
abbrev main_v33 : Ref sig .tc := ⟨.hbm, 57, rfl⟩
abbrev main_call4_call0_c : Ref sig .tc := ⟨.hbm, 58, rfl⟩
abbrev main_call4_call0_v0 : Ref sig .tc := ⟨.hbm, 59, rfl⟩
abbrev main_v34 : Ref sig .tc := ⟨.hbm, 60, rfl⟩
abbrev main_c_10 : Ref sig .tc := ⟨.hbm, 61, rfl⟩
abbrev main_call5_v0 : Ref sig .tc := ⟨.hbm, 62, rfl⟩
abbrev main_call5_v1 : Ref sig .tc := ⟨.hbm, 63, rfl⟩
abbrev main_call5_v2 : Ref sig .tc := ⟨.hbm, 64, rfl⟩
abbrev main_call5_v3 : Ref sig .tc := ⟨.hbm, 65, rfl⟩
abbrev main_call5_v4 : Ref sig .tc := ⟨.hbm, 66, rfl⟩
abbrev main_call5_v5 : Ref sig .tc := ⟨.hbm, 67, rfl⟩
abbrev main_call5_v6 : Ref sig .tc := ⟨.hbm, 68, rfl⟩
abbrev main_call5_v7 : Ref sig .tc := ⟨.hbm, 69, rfl⟩
abbrev main_call5_c : Ref sig .tc := ⟨.hbm, 70, rfl⟩
abbrev main_call5_v8 : Ref sig .tc := ⟨.hbm, 71, rfl⟩
abbrev main_call5_v9 : Ref sig .tc := ⟨.hbm, 72, rfl⟩
abbrev main_call5_v10 : Ref sig .tc := ⟨.hbm, 73, rfl⟩
abbrev main_call5_c_0 : Ref sig .tc := ⟨.hbm, 74, rfl⟩
abbrev main_call5_v11 : Ref sig .tc := ⟨.hbm, 75, rfl⟩
abbrev main_call5_v12 : Ref sig .tc := ⟨.hbm, 76, rfl⟩
abbrev main_v35 : Ref sig .tc := ⟨.hbm, 77, rfl⟩
abbrev main_c_11 : Ref sig .tc := ⟨.hbm, 78, rfl⟩
abbrev main_call6_v0 : Ref sig .tc := ⟨.hbm, 79, rfl⟩
abbrev main_call6_c : Ref sig .tc := ⟨.hbm, 80, rfl⟩
abbrev main_call6_v1 : Ref sig .tc := ⟨.hbm, 81, rfl⟩
abbrev main_call6_c_0 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_call6_c_1 : Ref sig .tc := ⟨.hbm, 86, rfl⟩
abbrev main_call6_v5 : Ref sig .tc := ⟨.hbm, 87, rfl⟩
abbrev main_call6_v6 : Ref sig .tc := ⟨.hbm, 88, rfl⟩
abbrev main_call6_c_2 : Ref sig .tc := ⟨.hbm, 89, rfl⟩
abbrev main_call6_v7 : Ref sig .tc := ⟨.hbm, 90, rfl⟩
abbrev main_call6_v8 : Ref sig .tc := ⟨.hbm, 91, rfl⟩
abbrev main_call6_c_3 : Ref sig .tc := ⟨.hbm, 92, rfl⟩
abbrev main_call6_v9 : Ref sig .tc := ⟨.hbm, 93, rfl⟩
abbrev main_call6_v10 : Ref sig .tc := ⟨.hbm, 94, rfl⟩
abbrev main_call6_v11 : Ref sig .tc := ⟨.hbm, 95, rfl⟩
abbrev main_call6_v12 : Ref sig .tc := ⟨.hbm, 96, rfl⟩
abbrev main_call6_v13 : Ref sig .tc := ⟨.hbm, 97, rfl⟩
abbrev main_call6_v14 : Ref sig .tc := ⟨.hbm, 98, rfl⟩
abbrev main_v36 : Ref sig .tc := ⟨.hbm, 99, rfl⟩
abbrev main_c_12 : Ref sig .tc := ⟨.hbm, 100, rfl⟩
abbrev main_call7_v0 : Ref sig .tc := ⟨.hbm, 101, rfl⟩
abbrev main_call7_v1 : Ref sig .tc := ⟨.hbm, 102, rfl⟩
abbrev main_call7_v2 : Ref sig .tc := ⟨.hbm, 103, rfl⟩
abbrev main_call7_v3 : Ref sig .tc := ⟨.hbm, 104, rfl⟩
abbrev main_call7_v4 : Ref sig .tc := ⟨.hbm, 105, rfl⟩
abbrev main_call7_v5 : Ref sig .tc := ⟨.hbm, 106, rfl⟩
abbrev main_call7_v6 : Ref sig .tc := ⟨.hbm, 107, rfl⟩
abbrev main_call7_v7 : Ref sig .tc := ⟨.hbm, 108, rfl⟩
abbrev main_call7_c : Ref sig .tc := ⟨.hbm, 109, rfl⟩
abbrev main_call7_v8 : Ref sig .tc := ⟨.hbm, 110, rfl⟩
abbrev main_call7_v9 : Ref sig .tc := ⟨.hbm, 111, rfl⟩
abbrev main_call7_v10 : Ref sig .tc := ⟨.hbm, 112, rfl⟩
abbrev main_call7_c_0 : Ref sig .tc := ⟨.hbm, 113, rfl⟩
abbrev main_call7_v11 : Ref sig .tc := ⟨.hbm, 114, rfl⟩
abbrev main_call7_v12 : Ref sig .tc := ⟨.hbm, 115, rfl⟩
abbrev main_v37 : Ref sig .tc := ⟨.hbm, 116, rfl⟩
abbrev main_c_13 : Ref sig .tc := ⟨.hbm, 117, rfl⟩
abbrev main_call8_v0 : Ref sig .tc := ⟨.hbm, 118, rfl⟩
abbrev main_call8_c : Ref sig .tc := ⟨.hbm, 119, rfl⟩
abbrev main_call8_v1 : Ref sig .tc := ⟨.hbm, 120, rfl⟩
abbrev main_call8_c_0 : Ref sig .tc := ⟨.hbm, 121, rfl⟩
abbrev main_call8_v2 : Ref sig .tc := ⟨.hbm, 122, rfl⟩
abbrev main_call8_v3 : Ref sig .tc := ⟨.hbm, 123, rfl⟩
abbrev main_call8_v4 : Ref sig .tc := ⟨.hbm, 124, rfl⟩
abbrev main_call8_c_1 : Ref sig .tc := ⟨.hbm, 125, rfl⟩
abbrev main_call8_v5 : Ref sig .tc := ⟨.hbm, 126, rfl⟩
abbrev main_call8_v6 : Ref sig .tc := ⟨.hbm, 127, rfl⟩
abbrev main_call8_c_2 : Ref sig .tc := ⟨.hbm, 128, rfl⟩
abbrev main_call8_v7 : Ref sig .tc := ⟨.hbm, 129, rfl⟩
abbrev main_call8_v8 : Ref sig .tc := ⟨.hbm, 130, rfl⟩
abbrev main_call8_c_3 : Ref sig .tc := ⟨.hbm, 131, rfl⟩
abbrev main_call8_v9 : Ref sig .tc := ⟨.hbm, 132, rfl⟩
abbrev main_call8_v10 : Ref sig .tc := ⟨.hbm, 133, rfl⟩
abbrev main_call8_v11 : Ref sig .tc := ⟨.hbm, 134, rfl⟩
abbrev main_call8_v12 : Ref sig .tc := ⟨.hbm, 135, rfl⟩
abbrev main_call8_v13 : Ref sig .tc := ⟨.hbm, 136, rfl⟩
abbrev main_call8_v14 : Ref sig .tc := ⟨.hbm, 137, rfl⟩
abbrev main_v38 : Ref sig .tc := ⟨.hbm, 138, rfl⟩
abbrev main_v39 : Ref sig .tc := ⟨.hbm, 139, rfl⟩
abbrev main_v40 : Ref sig .tc := ⟨.hbm, 140, rfl⟩
abbrev main_c_14 : Ref sig .tc := ⟨.hbm, 141, rfl⟩
abbrev main_v41 : Ref sig .tc := ⟨.hbm, 142, rfl⟩
abbrev main_v42 : Ref sig .tc := ⟨.hbm, 143, rfl⟩
abbrev main_v43 : Ref sig .tc := ⟨.hbm, 144, rfl⟩
abbrev main_c_15 : Ref sig .tc := ⟨.hbm, 145, rfl⟩
abbrev main_call9_v0 : Ref sig .tc := ⟨.hbm, 146, rfl⟩
abbrev main_call9_v1 : Ref sig .tc := ⟨.hbm, 147, rfl⟩
abbrev main_v44 : Ref sig .tc := ⟨.hbm, 148, rfl⟩
abbrev main_c_16 : Ref sig .tc := ⟨.hbm, 149, rfl⟩
abbrev main_call10_v0 : Ref sig .tc := ⟨.hbm, 150, rfl⟩
abbrev main_call10_v1 : Ref sig .tc := ⟨.hbm, 151, rfl⟩
abbrev main_v45 : Ref sig .tc := ⟨.hbm, 152, rfl⟩
abbrev main_v46 : Ref sig .tc := ⟨.hbm, 153, rfl⟩
abbrev main_v47 : Ref sig .tc := ⟨.hbm, 154, rfl⟩
abbrev main_v48 : Ref sig .tc := ⟨.hbm, 155, rfl⟩
abbrev main_c_17 : Ref sig .tc := ⟨.hbm, 156, rfl⟩
abbrev main_v49 : Ref sig .tc := ⟨.hbm, 157, rfl⟩
abbrev main_v50 : Ref sig .tc := ⟨.hbm, 158, rfl⟩
abbrev main_c_18 : Ref sig .tc := ⟨.hbm, 159, rfl⟩
abbrev main_v51 : Ref sig .tc := ⟨.hbm, 160, rfl⟩
abbrev main_v52 : Ref sig .tc := ⟨.hbm, 161, rfl⟩
abbrev main_v53 : Ref sig .tc := ⟨.hbm, 162, rfl⟩
abbrev main_v54 : Ref sig .tc := ⟨.hbm, 163, rfl⟩
abbrev main_v55 : Ref sig .tc := ⟨.hbm, 164, rfl⟩
abbrev main_c_19 : Ref sig .tc := ⟨.hbm, 165, rfl⟩
abbrev main_v56 : Ref sig .tc := ⟨.hbm, 166, rfl⟩
abbrev main_v57 : Ref sig .tc := ⟨.hbm, 167, rfl⟩
abbrev main_c_20 : Ref sig .tc := ⟨.hbm, 168, rfl⟩
abbrev main_v58 : Ref sig .tc := ⟨.hbm, 169, rfl⟩
abbrev main_v59 : Ref sig .tc := ⟨.hbm, 170, rfl⟩
abbrev main_v60 : Ref sig .tc := ⟨.hbm, 171, rfl⟩
abbrev main_v61 : Ref sig .tc := ⟨.hbm, 172, rfl⟩
abbrev main_v62 : Ref sig .tc := ⟨.hbm, 173, rfl⟩
abbrev main_v63 : Ref sig .tc := ⟨.hbm, 174, rfl⟩
abbrev main_v64 : Ref sig .tc := ⟨.hbm, 175, rfl⟩
abbrev main_v65 : Ref sig .tc := ⟨.hbm, 176, rfl⟩
abbrev main_cst_21 : Ref sig .tc := ⟨.hbm, 177, rfl⟩
abbrev main_v66 : Ref sig .tc := ⟨.hbm, 178, rfl⟩
abbrev main_v67 : Ref sig .tc := ⟨.hbm, 179, rfl⟩
abbrev main_cst_22 : Ref sig .tc := ⟨.hbm, 180, rfl⟩
abbrev main_v68 : Ref sig .tc := ⟨.hbm, 181, rfl⟩
abbrev main_v69 : Ref sig .tc := ⟨.hbm, 182, rfl⟩
abbrev main_cst_23 : Ref sig .tc := ⟨.hbm, 183, rfl⟩
abbrev main_call11_v0 : Ref sig .tc := ⟨.hbm, 184, rfl⟩
abbrev main_call11_v1 : Ref sig .tc := ⟨.hbm, 185, rfl⟩
abbrev main_v70 : Ref sig .tc := ⟨.hbm, 186, rfl⟩
abbrev main_v71 : Ref sig .tc := ⟨.hbm, 187, rfl⟩
abbrev main_cst_24 : Ref sig .tc := ⟨.hbm, 188, rfl⟩
abbrev main_v72 : Ref sig .tc := ⟨.hbm, 189, rfl⟩
abbrev main_v73 : Ref sig .tc := ⟨.hbm, 190, rfl⟩
abbrev main_cst_25 : Ref sig .tc := ⟨.hbm, 191, rfl⟩
abbrev main_call12_v0 : Ref sig .tc := ⟨.hbm, 192, rfl⟩
abbrev main_call12_v1 : Ref sig .tc := ⟨.hbm, 193, rfl⟩
abbrev main_v74 : Ref sig .tc := ⟨.hbm, 194, rfl⟩
abbrev main_cst_26 : Ref sig .tc := ⟨.hbm, 195, rfl⟩
abbrev main_v75 : Ref sig .tc := ⟨.hbm, 196, rfl⟩
abbrev main_v76 : Ref sig .tc := ⟨.hbm, 197, rfl⟩
abbrev main_cst_27 : Ref sig .tc := ⟨.hbm, 198, rfl⟩
abbrev main_v77 : Ref sig .tc := ⟨.hbm, 199, rfl⟩
abbrev main_v78 : Ref sig .tc := ⟨.hbm, 200, rfl⟩
abbrev main_cst_28 : Ref sig .tc := ⟨.hbm, 201, rfl⟩
abbrev main_v79 : Ref sig .tc := ⟨.hbm, 202, rfl⟩
abbrev main_v80 : Ref sig .tc := ⟨.hbm, 203, rfl⟩
abbrev main_cst_29 : Ref sig .tc := ⟨.hbm, 204, rfl⟩
abbrev main_call13_v0 : Ref sig .tc := ⟨.hbm, 205, rfl⟩
abbrev main_call13_v1 : Ref sig .tc := ⟨.hbm, 206, rfl⟩
abbrev main_v81 : Ref sig .tc := ⟨.hbm, 207, rfl⟩
abbrev main_v82 : Ref sig .tc := ⟨.hbm, 208, rfl⟩
abbrev main_v83 : Ref sig .tc := ⟨.hbm, 209, rfl⟩
abbrev main_v84 : Ref sig .tc := ⟨.hbm, 210, rfl⟩
abbrev main_v85 : Ref sig .tc := ⟨.hbm, 211, rfl⟩
abbrev main_v86 : Ref sig .tc := ⟨.hbm, 212, rfl⟩
abbrev main_v87 : Ref sig .tc := ⟨.hbm, 213, rfl⟩
abbrev main_cst_30 : Ref sig .tc := ⟨.hbm, 214, rfl⟩
abbrev main_v88 : Ref sig .tc := ⟨.hbm, 215, rfl⟩
abbrev main_v89 : Ref sig .tc := ⟨.hbm, 216, rfl⟩
abbrev main_cst_31 : Ref sig .tc := ⟨.hbm, 217, rfl⟩
abbrev main_v90 : Ref sig .tc := ⟨.hbm, 218, rfl⟩
abbrev main_v91 : Ref sig .tc := ⟨.hbm, 219, rfl⟩
abbrev main_cst_32 : Ref sig .tc := ⟨.hbm, 220, rfl⟩
abbrev main_call14_v0 : Ref sig .tc := ⟨.hbm, 221, rfl⟩
abbrev main_call14_v1 : Ref sig .tc := ⟨.hbm, 222, rfl⟩
abbrev main_v92 : Ref sig .tc := ⟨.hbm, 223, rfl⟩
abbrev main_v93 : Ref sig .tc := ⟨.hbm, 224, rfl⟩
abbrev main_cst_33 : Ref sig .tc := ⟨.hbm, 225, rfl⟩
abbrev main_v94 : Ref sig .tc := ⟨.hbm, 226, rfl⟩
abbrev main_v95 : Ref sig .tc := ⟨.hbm, 227, rfl⟩
abbrev main_cst_34 : Ref sig .tc := ⟨.hbm, 228, rfl⟩
abbrev main_call15_v0 : Ref sig .tc := ⟨.hbm, 229, rfl⟩
abbrev main_call15_v1 : Ref sig .tc := ⟨.hbm, 230, rfl⟩
abbrev main_v96 : Ref sig .tc := ⟨.hbm, 231, rfl⟩
abbrev main_cst_35 : Ref sig .tc := ⟨.hbm, 232, rfl⟩
abbrev main_v97 : Ref sig .tc := ⟨.hbm, 233, rfl⟩
abbrev main_v98 : Ref sig .tc := ⟨.hbm, 234, rfl⟩
abbrev main_cst_36 : Ref sig .tc := ⟨.hbm, 235, rfl⟩
abbrev main_v99 : Ref sig .tc := ⟨.hbm, 236, rfl⟩
abbrev main_v100 : Ref sig .tc := ⟨.hbm, 237, rfl⟩
abbrev main_cst_37 : Ref sig .tc := ⟨.hbm, 238, rfl⟩
abbrev main_v101 : Ref sig .tc := ⟨.hbm, 239, rfl⟩
abbrev main_v102 : Ref sig .tc := ⟨.hbm, 240, rfl⟩
abbrev main_cst_38 : Ref sig .tc := ⟨.hbm, 241, rfl⟩
abbrev main_call16_v0 : Ref sig .tc := ⟨.hbm, 242, rfl⟩
abbrev main_call16_v1 : Ref sig .tc := ⟨.hbm, 243, rfl⟩
abbrev main_v103 : Ref sig .tc := ⟨.hbm, 244, rfl⟩
abbrev main_v104 : Ref sig .tc := ⟨.hbm, 245, rfl⟩
abbrev main_v105 : Ref sig .tc := ⟨.hbm, 246, rfl⟩
abbrev main_cst_39 : Ref sig .tc := ⟨.hbm, 247, rfl⟩
abbrev main_v106 : Ref sig .tc := ⟨.hbm, 248, rfl⟩
abbrev main_v107 : Ref sig .tc := ⟨.hbm, 249, rfl⟩

abbrev nD : Nat := 1
abbrev τ : Topo := Topo.v7x

variable {F : FTy → Type} [FloatOps F]

class Facts₀ : Prop where
  slices_S4096x4_S4096x2_0_0 : S4096x4.Slices ![0, 0] S4096x2
  bcast_S4096x2_S4096x1x2_0_2 : S4096x2.BroadcastsInDim S4096x1x2 (![0, 2] : Fin 2 → Fin S4096x1x2.rank)
  bcast_S4096x2_S1x4096x2_1_2 : S4096x2.BroadcastsInDim S1x4096x2 (![1, 2] : Fin 2 → Fin S1x4096x2.rank)
  bcast_S4096x1x2_S4096x4096x2_0_1_2 : S4096x1x2.BroadcastsInDim S4096x4096x2 (![0, 1, 2] : Fin 3 → Fin S4096x4096x2.rank)
  bcast_S1x4096x2_S4096x4096x2_0_1_2 : S1x4096x2.BroadcastsInDim S4096x4096x2 (![0, 1, 2] : Fin 3 → Fin S4096x4096x2.rank)
  reducesTo_S4096x4096x2_S4096x4096_d2 : S4096x4096x2.ReducesTo [2] S4096x4096
  h_S_ : 0 < S_.numel
  bcast_S_S4096x4096 : S_.BroadcastsInDim S4096x4096 (![] : Fin 0 → Fin S4096x4096.rank)
  shapeCasts_S4096x4096_S16777216 : S4096x4096.ShapeCasts S16777216
  natLt_1_32 : 1 < 32
  bcast_S_S_ : S_.BroadcastsInDim S_ (![] : Fin 0 → Fin S_.rank)
  reduceWindows_S16777216_S16777216_w16777216s1p16777215_0 : S16777216.ReduceWindows (![16777216] : Fin 1 → Nat) ![1] ![16777215] ![0] S16777216
  bcast_S_S16777216 : S_.BroadcastsInDim S16777216 (![] : Fin 0 → Fin S16777216.rank)
  bcast_S16777216_S16777216x1_0 : S16777216.BroadcastsInDim S16777216x1 (![0] : Fin 1 → Fin S16777216x1.rank)
  reducesTo_S4096x4096_S_d0_1 : S4096x4096.ReducesTo [0, 1] S_
  bcast_S16777216_S1x16777216_1 : S16777216.BroadcastsInDim S1x16777216 (![1] : Fin 1 → Fin S1x16777216.rank)
  concatenates_S1x16777216_S1x16777216_S2x16777216_d0 : Shape.Concatenates [S1x16777216, S1x16777216] S2x16777216 0
  slices_S16777216x4_S16777216x2_0_0 : S16777216x4.Slices ![0, 0] S16777216x2
  reducesTo_S16777216x2_S16777216_d1 : S16777216x2.ReducesTo [1] S16777216
  bcast_S_S16777216x1 : S_.BroadcastsInDim S16777216x1 (![] : Fin 0 → Fin S16777216x1.rank)
  bcast_S16777216x1_S16777216x2_0_1 : S16777216x1.BroadcastsInDim S16777216x2 (![0, 1] : Fin 2 → Fin S16777216x2.rank)
  slices_S16777216x4_S16777216x2_0_2 : S16777216x4.Slices ![0, 2] S16777216x2
  concatenates_S16777216x2_S16777216x2_S16777216x4_d1 : Shape.Concatenates [S16777216x2, S16777216x2] S16777216x4 1
  reducesTo_S4096x2_S4096_d1 : S4096x2.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x2_0_1 : S4096x1.BroadcastsInDim S4096x2 (![0, 1] : Fin 2 → Fin S4096x2.rank)
  concatenates_S4096x4_S4096x2_S4096x1_S4096x7_d1 : Shape.Concatenates [S4096x4, S4096x2, S4096x1] S4096x7 1
  scatter_S16777216_S16777216x1_S16777216_n_0_0_1_wf : ScatterDims.WF S16777216 S16777216x1 S16777216 [] [0] [0] 1
  gather_S4096x4_S16777216x1_S16777216x4_1_0_n_n_0_1_14_wf : GatherDims.WF S4096x4 S16777216x1 S16777216x4 [1] [0] [] [0] [] 1 ![1, 4]

variable [Facts₀]

def scatter_S16777216_S16777216x1_S16777216_n_0_0_1 : ScatterDims S16777216 S16777216x1 S16777216 where
  updateWindowDims := []
  insertedWindowDims := [0]
  scatterDimsToOperandDims := [0]
  indexVectorDim := 1
  wf := scatter_S16777216_S16777216x1_S16777216_n_0_0_1_wf
def gather_S4096x4_S16777216x1_S16777216x4_1_0_n_n_0_1_14 : GatherDims S4096x4 S16777216x1 S16777216x4 where
  offsetDims := [1]
  collapsedSliceDims := [0]
  operandBatchingDims := []
  startIndicesBatchingDims := []
  startIndexMap := [0]
  indexVectorDim := 1
  sliceSizes := ![1, 4]
  wf := gather_S4096x4_S16777216x1_S16777216x4_1_0_n_n_0_1_14_wf

class Facts : Prop extends Facts₀ where

variable [Facts]
-- ==== Proof.AdjBody.lean ====
import proofs.«174933_j45260365365646_1_alg».proof.Proof.Gen.KernelIdeal.Launch
import proofs.«174933_j45260365365646_1_alg».proof.Proof.Gen.KernelIdeal.Skeleton
import proofs.«174933_j45260365365646_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Adj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# The adjacency region: the first pallas_call

Grid of 16 points. At point `t` the body reads rows `256·t … 256·t+255` of the position array (window 0) and the
whole position array (window 1; the SAME array, read through a second window), and writes rows
`256·t … 256·t+255` of the 4096 × 4096 mask (window 2): entry `(r, q)` of the block is one when the squared distance
between position `256·t + r` and position `q` is below 1/4 or `256·t + r = q`, else zero.
-/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's staging buffer holds its block at every point, for any proof data whose array is the
    region-entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole-array window's staging buffer holds the whole array at every point: it is fetched once, at the first
    point, and its index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each one whole buffer -/

abbrev rRows : Rect S256x2 := Rect.unit (s := S256x2) ![0, 0] S256x2.size Facts₀.inb_S256x2_S256x2_0_0
abbrev rAll : Rect S4096x2 := Rect.unit (s := S4096x2) ![0, 0] S4096x2.size Facts₀.inb_S4096x2_S4096x2_0_0
abbrev rMask : Rect S256x4096 := Rect.unit (s := S256x4096) ![0, 0] S256x4096.size Facts₀.inb_S256x4096_S256x4096_0_0

/-- The mask block the body leaves at grid coordinates `i`, from the two position blocks: its one store. -/
def maskBlk (i : grid0.Coords) (x0 : Vec F S256x2 .f32) (x1 : Vec F S4096x2 .f32) : Vec F S256x4096 .i32 :=
  View.canon [⟨rMask, k0_pay1 i (View.ld x0 rRows) (View.ld x1 rAll)⟩]

/-- The one store covers the buffer. -/
theorem maskCover (p0 : Vec F S256x4096 .i32) (y : S256x4096.Idx) :
    ∃ pc ∈ ([⟨rMask, p0⟩] : List (View.Piece (Elt F) S256x4096 .i32)), y ∈ pc.1.set :=
  View.cover_of_tiled [⟨rMask, p0⟩] S256x4096.size (by rfl) y

set_option maxHeartbeats 1000000 in
/-- The body on whole staging memrefs — the two inputs' at contents `x0`, `x1`, the output's at anything — runs to the
    continuation holding the inputs' as they were and the output's at `maskBlk i x0 x1`. -/
theorem sound_kernel0 (c : Dev nD) (E : Set ℕ) (i : grid0.Coords)
    (arg1 : Memref sig .tc .vmem S256x2 .f32) (harg1 : arg1.IsWhole) (arg2 : Memref sig .tc .vmem S4096x2 .f32) (harg2 : arg2.IsWhole)
    (arg3 : Memref sig .tc .vmem S256x4096 .i32) (harg3 : arg3.IsWhole)
    (x0 : Vec F S256x2 .f32) (x1 : Vec F S4096x2 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (maskBlk i x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (maskCover _)

/-! ## The pipeline's proof data -/

/-- The proof data of the adjacency pipeline on core `c`: the arrays as the region finds them; after the body at point
    `t` each input's buffer at its block and the mask's at `maskBlk` of the two input blocks; the class invariant
    (the scoped rest and the generator register, untouched); nothing owed. The position array is read through two
    windows, so each of them holds it at one half of the full share; the mask's array is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => maskBlk (grid0.coords t) (iblk0 V c 0 t) (iblk0 V c 1 t)
  Φ _ := Pipeline.ΦA spec0 c
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = maskBlk (grid0.coords t) (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Adj

end
-- ==== Proof.AdjShare.lean ====
import proofs.«174933_j45260365365646_1_alg».proof.Proof.AdjBody
import proofs.«174933_j45260365365646_1_alg».proof.Proof.Gen.KernelIdeal.Skeleton
import proofs.«174933_j45260365365646_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Adj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# The position array dealt between the adjacency region's two input windows

Both input windows of the adjacency region read the SAME array. The region's proof data hold it at the left half of
the full share for the row-block window and at the right half for the whole-array window; the mask's array is held
whole. Entering the region splits the full share of the position array in two; leaving it joins the halves again.
-/

variable (V : (c : Dev nD) → (b : Ref sig .tc) → Buf (Elt F) ((c : Thread nD τ).loc b))

/-- The buffers behind the three windows' arrays: the position array and the mask's array. -/
theorem arrImage0 : (Finset.univ.image (Pipeline.arrRef spec0) : Finset (Ref sig .tc)) = {main_v0, main_v1} := by decide

/-- The distinct buffers behind the windows' arrays, each whole at the full share. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v1) ↦{fullShare} W main_v1)) := by
  unfold Pipeline.arrBufs
  rw [arrImage0, bigSep_insert (by decide), bigSep_singleton]
  rfl

/-- The pipeline's arrays, window by window, at the shares the proof data give them. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare} G 2)) := by
  unfold Dat.arrays
  rw [bigSep_W0, (arr_whole0 0).set_eq_univ, (arr_whole0 2).set_eq_univ]
  rfl

/-- A core's unscoped buffers are the buffers behind the region's arrays and the rest. -/
theorem unscopedBufs_split0 (c : Dev nD) (W : (b : Ref sig .tc) → Buf (Elt F) ((c : Thread nD τ).loc b)) :
    (unscopedBufs c W : sProp 𝕄) = iprop(Pipeline.arrBufs spec0 c W ∗ Pipeline.unscopedRest spec0 c W) :=
  Pipeline.unscopedBufs_split₀ cfgs (0 : Fin 2) winFacts₀0.arr_unscoped c W

/-- ENTRY: the core's unscoped buffers at the region-entry contents are the pipeline's arrays at their entry contents
    — the position array's full share split between the two windows that read it — and the unscoped rest. -/
theorem arrays_entry0 (c : Dev nD) :
    (unscopedBufs c (V c) : sProp 𝕄) ⊢ iprop((dat0 V c).arrays ((dat0 V c).arrAt · 0) ∗ Pipeline.unscopedRest spec0 c (V c)) := by
  rw [unscopedBufs_split0 c (V c), arrays0_eq, arrBufs0_eq]
  iintro ⟨⟨H0, H1⟩, Hr⟩
  ihave H0 := (pointsTo_share (PosShare.mem_left_op_right fullShare)).1 $$ H0
  icases H0 with ⟨Ha, Hb⟩
  isplitl [Ha Hb H1]
  · isplitl [Ha]; · iexact Ha
    isplitl [Hb]; · iexact Hb
    iexact H1
  iexact Hr

/-- EXIT: the pipeline's arrays at their final contents — the position array as entered in both halves, the mask's
    array at what the write-backs left — and the unscoped rest are the core's unscoped buffers at any contents `W'`
    that have the mask's array there and agree with the entry contents elsewhere. -/
theorem arrays_exit0 (c : Dev nD) (W' : (b : Ref sig .tc) → Buf (Elt F) ((c : Thread nD τ).loc b))
    (h0 : W' main_v0 = V c main_v0) (h1 : W' main_v1 = (dat0 V c).arrAt 2 cfg0.N)
    (hrest : ∀ b, b ∉ Finset.univ.image (Pipeline.arrRef spec0) → W' b = V c b) :
    iprop((dat0 V c).arrays ((dat0 V c).arrAt · cfg0.N) ∗ Pipeline.unscopedRest spec0 c (V c)) ⊢ (unscopedBufs c W' : sProp 𝕄) := by
  have hr : (Pipeline.unscopedRest (Ix := Unit) (Name := ℕ) (U := UR sig nD τ) (Lvl := ℕ) spec0 c W' : sProp 𝕄)
      = Pipeline.unscopedRest spec0 c (V c) := by
    unfold Pipeline.unscopedRest
    exact bigSep_congr fun b hb => by rw [hrest b (Finset.mem_sdiff.mp hb).2]
  rw [unscopedBufs_split0 c W', arrays0_eq, arrBufs0_eq, hr,
    (dat0 V c).arrAt_in 0 rfl, (dat0 V c).arrAt_in 1 rfl, h0, h1]
  iintro ⟨⟨Ha, Hb, H1⟩, Hr⟩
  ihave H0 := (pointsTo_share (PosShare.mem_left_op_right fullShare)).2 $$ [Ha Hb]
  · isplitl [Ha]
    · iexact Ha
    iexact Hb
  isplitl [H0 H1]
  · isplitl [H0]; · iexact H0
    iexact H1
  iexact Hr

end Cert.KernelIdeal.Adj

end
-- ==== Proof.EdgeRegion.lean ====
/-
  The edge-feature rescale region (the second pallas_call of @main), as a frame body.

  At grid point `t` the pipeline stages block `t` of the input array — all four rows of columns
  65536·t … 65536·t+65535 — in a [4,65536] buffer, the body reads that buffer whole and writes the output
  buffer row by row: four stores, one [1,65536] rectangle each, which together tile the [4,65536] buffer.
  Each stored row is a pure function of the block that was read (the skeleton's payloads), so the output
  buffer after the body is ONE function `out1_1` of the input block: the overlay of the four rows. The four
  loads of the output rows that precede the stores read values nothing depends on.

  This module states that function, shows the body's weakest precondition against it, and packages the
  per-point data the launch theorems take (`dat1`) with the obligation that the body meets it at every point.
  Everything is generic in the float instance.
-/
import proofs.«174933_j45260365365646_1_alg».proof.Proof.Gen.KernelIdeal.Launch
import proofs.«174933_j45260365365646_1_alg».proof.Proof.Gen.KernelIdeal.Skeleton
import proofs.«174933_j45260365365646_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

-- membership in a rectangle with a 65536-long axis is looked at structurally, once per coordinate
set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any per-point data whose
    array is the entry contents and whose body leaves the block in place: the window is fetched whole at every
    point and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: the whole [4,65536] buffer, and its four rows -/

abbrev rAll : Rect S4x65536 := Rect.unit (s := S4x65536) ![0, 0] S4x65536.size inb_S4x65536_S4x65536_0_0
abbrev rRow0 : Rect S4x65536 := Rect.unit (s := S4x65536) ![0, 0] S1x65536.size inb_S4x65536_S1x65536_0_0
abbrev rRow1 : Rect S4x65536 := Rect.unit (s := S4x65536) ![1, 0] S1x65536.size inb_S4x65536_S1x65536_1_0
abbrev rRow2 : Rect S4x65536 := Rect.unit (s := S4x65536) ![2, 0] S1x65536.size inb_S4x65536_S1x65536_2_0
abbrev rRow3 : Rect S4x65536 := Rect.unit (s := S4x65536) ![3, 0] S1x65536.size inb_S4x65536_S1x65536_3_0

/-! ## What the body leaves in the output window's buffer -/

/-- The output buffer after the body, from the input block: the four row stores overlaid, the last store
    first. Rows 0 and 1 hold the rescaled coordinates, rows 2 and 3 the copied ones. -/
def out1_1 (x0 : Vec F S4x65536 .f32) : Vec F S4x65536 .f32 :=
  View.canon [⟨rRow3, k1_pay8 (View.ld x0 rAll)⟩,
    ⟨rRow2, k1_pay7 (View.ld x0 rAll)⟩,
    ⟨rRow1, k1_pay6 (View.ld x0 rAll)⟩,
    ⟨rRow0, k1_pay5 (View.ld x0 rAll)⟩]

/-- The four rows tile the [4,65536] buffer in [1,65536] blocks, so every entry lies in one of them. -/
theorem cover1_1 (p0 p1 p2 p3 : Vec F S1x65536 .f32) (y : S4x65536.Idx) :
    ∃ pc ∈ ([⟨rRow3, p0⟩, ⟨rRow2, p1⟩, ⟨rRow1, p2⟩, ⟨rRow0, p3⟩] : List (View.Piece (Elt F) S4x65536 .f32)), y ∈ pc.1.set :=
  View.cover_of_tiled [⟨rRow3, p0⟩, ⟨rRow2, p1⟩, ⟨rRow1, p2⟩, ⟨rRow0, p3⟩] S1x65536.size (by rfl) y

/-! ## The body's triple -/

set_option maxHeartbeats 1000000 in
/-- The body on whole staging memrefs, the input's at contents `x0` and the output's at anything, runs to the
    continuation holding the input's as it was and the output's at `out1_1 x0`. -/
theorem sound_kernel1 (c : Dev nD) (E : Set ℕ) (i : grid1.Coords) (arg0 : Memref sig .tc .vmem S4x65536 .f32) (harg0 : arg0.IsWhole) (arg1 : Memref sig .tc .vmem S4x65536 .f32) (harg1 : arg1.IsWhole)
    (x0 : Vec F S4x65536 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1_1 x0)) -∗ K ⟨⟩))
      ⊢ wp frame (wpE (defs₀ (F := F)) Variants.none c none) E (cc1__edge_feature_kernel i arg0 harg0 arg1 harg1) K := by
  simp only [cc1__edge_feature_kernel_eq_skeleton]; unfold cc1__edge_feature_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _ _ _ _)

/-! ## The pipeline's per-point data -/

/-- The data of this pipeline on core `c`: the arrays as the region finds them; after the body at point `t` the
    input's buffer at its block and the output's at `out1_1` of that block; the invariant that leaves the scoped
    rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block, so `sound_kernel1` applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Edge

end
-- ==== Proof.KernelRun.lean ====
import proofs.«174933_j45260365365646_1_alg».proof.Proof.AdjShare
import proofs.«174933_j45260365365646_1_alg».proof.Proof.EdgeRegion
import proofs.«174933_j45260365365646_1_alg».proof.Proof.Gen.KernelIdeal.Regions
import proofs.«174933_j45260365365646_1_alg».proof.Proof.RunCond

set_option maxRecDepth 16384

noncomputable section

namespace Cert.KernelIdeal.Run

open Cert.KernelIdeal Cert.KernelIdeal.Gen Cert.KernelIdeal.Adj Cert.KernelIdeal.Edge
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-!
# The program's run: host stretches and the two regions in order

Between two items of the program every unscoped buffer of the core is held whole at a known valuation. The first
region changes only the mask's array, to what its sixteen write-backs leave; the second only the rescaled edge
features' array, to what its 256 write-backs leave. Every other buffer is what the host operations compute from
those.
-/

variable (m : (ℓ : Loc nD τ sig) → Buf (Elt F) ℓ)

/-- The contents the first region is entered from, read at the TensorCore's references. -/
abbrev Vr1 : (c : Dev nD) → (b : Ref sig .tc) → Buf (Elt F) ((c : Thread nD τ).loc b) := fun c b => Gen.V1 m c b

/-- The mask's array after the first region: its sixteen row blocks written back. -/
def mask (c : Dev nD) : Buf (Elt F) ((c : Thread nD τ).loc main_v1) := (dat0 (Vr1 m) c).arrAt 2 cfg0.N

/-- Some contents, for the buffers no region changes. -/
def outs0 : (r : Ref sig .tc) → (c : Dev nD) → Buf (Elt F) ((c : Thread nD τ).loc r) := fun _ _ _ => Classical.arbitrary _

/-- What the regions leave, the first region's part only. -/
def outsM : (r : Ref sig .tc) → (c : Dev nD) → Buf (Elt F) ((c : Thread nD τ).loc r) :=
  Function.update outs0 main_v1 (fun c => mask m c)

/-- The contents the second region is entered from, read at the TensorCore's references. -/
abbrev Vr24 : (c : Dev nD) → (b : Ref sig .tc) → Buf (Elt F) ((c : Thread nD τ).loc b) := fun c b => Gen.V24 m (fun _ => outsM m) c b

/-- The rescaled edge features' array after the second region: its 256 column blocks written back. -/
def edge (c : Dev nD) : Buf (Elt F) ((c : Thread nD τ).loc main_v35) := (dat1 (Vr24 m) c).arrAt 1 cfg1.N

/-- What the two regions leave. -/
def outs : Outs (F := F) := fun _ => Function.update (outsM m) main_v35 (fun c => edge m c)

theorem outs_mask (J : ℕ) (c : Dev nD) : outs m J main_v1 c = mask m c := by
  unfold outs outsM
  rw [Function.update_of_ne (by decide), Function.update_self]

theorem outsM_mask (c : Dev nD) : outsM m main_v1 c = mask m c := by
  unfold outsM
  rw [Function.update_self]

theorem outs_edge (J : ℕ) (c : Dev nD) : outs m J main_v35 c = edge m c := by
  unfold outs
  rw [Function.update_self]

/-- The valuations up to the second region read only the first region's part of what the regions leave. -/
theorem V24_outs (c : Dev nD) : Gen.V24 m (outs m) c = Gen.V24 m (fun _ => outsM m) c := by
  have h2 : Gen.V2 m (outs m) c = Gen.V2 m (fun _ => outsM m) c := by
    unfold Gen.V2
    rw [outs_mask]
    beta_reduce
    rw [outsM_mask]
  unfold Gen.V24 Gen.V23 Gen.V22 Gen.V21 Gen.V20 Gen.V19 Gen.V18 Gen.V17 Gen.V16 Gen.V15 Gen.V14 Gen.V13 Gen.V12 Gen.V11 Gen.V10 Gen.V9 Gen.V8
    Gen.V7 Gen.V6 Gen.V5 Gen.V4 Gen.V3
  rw [h2]

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vr1 m) c
  | ⟨1, _⟩ => fun c => dat1 (Vr24 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## The regions as segments -/

set_option backward.isDefEq.respectTransparency.types false in
/-- THE ADJACENCY REGION over the thread state: entered from every unscoped buffer at the contents after the first
    host stretch, left with the mask's array at what the region leaves. Its arrays are split out of the unscoped
    buffers — the position array's share dealt between the two windows that read it — and put back at the exit; the
    generator register goes into the class invariant and comes out; nothing is owed; the kernel has no semaphore of
    its own. -/
def reg0 : RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (Gen.V1 m c) ∗ E 0 c)
  post c := iprop(StableHlo.held (c : Thread nD τ) (Pipeline.ucRefs τ sig) (Gen.V2 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := arrays_entry0 (Vr1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := arrays_exit0 (Vr1 m) c (fun b => Gen.V2 m (outs m) c b)
      (Gen.V2_of m (outs m) c main_v0 (by decide))
      (by show Gen.V2 m (outs m) c main_v1 = _; unfold Gen.V2; rw [Function.update_self, outs_mask]; rfl)
      (fun b hb => Gen.V2_of m (outs m) c b (by
        rw [arrImage0] at hb
        intro h; apply hb; rw [List.mem_singleton.mp h]; decide))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- THE EDGE-FEATURE REGION over the thread state: entered from every unscoped buffer at the contents after the host
    stretches that follow the first region, left with the rescaled features' array at what the region leaves. Its two
    arrays are distinct buffers, each held whole. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr24 m) c).loose
  hwaits := Pipeline.hwaits_of_owed_zero _ _ _ _ L lv 1 fun _ _ => rfl
  pre c := iprop(StableHlo.held (c : Thread nD τ) (Pipeline.ucRefs τ sig) (Gen.V24 m (outs m) c) ∗ E 1 c)
  post c := iprop(StableHlo.held (c : Thread nD τ) (Pipeline.ucRefs τ sig) (Gen.V25 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (Vr24 m c)
  hentry c := by
    rw [Pipeline.ownSems0_none, V24_outs]
    have hsplit := Pipeline.arrays_of_unscopedBufs (p := 1) (pcfgs (F := F)) adm (pdats m) launch1.win launch1.arr_whole c
      ((pdats m 1 c).share_full fun _ => rfl) (Vr24 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr24 m c) (fun b => Gen.V25 m (outs m) c b) ((pdats m 1 c).arrAt · cfg1.N)
      (fun w => by
        fin_cases w
        · exact ((pdats m 1 c).arrAt_in 0 rfl _).trans
            ((congrFun (V24_outs m c) (Proc.devRef .tc main_v34)).symm.trans (Gen.V25_of m (outs m) c main_v34 (by decide)).symm)
        · show edge m c = Gen.V25 m (outs m) c main_v35
          unfold Gen.V25; rw [Function.update_self, outs_edge])
      (fun b hb => (Gen.V25_of m (outs m) c b (fun h => hb (by
          rw [List.mem_singleton.mp h]; exact Finset.mem_image.mpr ⟨1, Finset.mem_univ _, rfl⟩))).trans
        (congrFun (V24_outs m c) (Proc.devRef .tc b)))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of the program from memory `m` with zero counters terminates, nothing faulting, and every
    final memory holds every unscoped buffer at the last valuation: the launch contents pushed through the host
    stretches, the mask's array and the rescaled features' array at what their regions leave. -/
theorem run (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = Gen.V28 m (outs m) c b) :=
  GenP.run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    E
    (by
      refine Pipeline.initEach L lv fun c => ?_
      iintro ⟨⟨-, HO, -, Hp, -⟩, -⟩
      imodintro
      isplitl [Hp]; · iexists _; iexact Hp
      iexists ∅; iexact HO)
    (fun c => by
      iintro ⟨-, HO⟩
      iexact HO)
    (reg0 m) (fun c => .rfl) (fun c => .rfl)
    (reg1 m) (fun c => .rfl) (fun c => .rfl)

/-- The frame: both argument arrays end as launched — no host stretch writes one and no region may change one. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c (Proc.devRef .tc main_arg0) (Finset.mem_filter.mpr ⟨StableHlo.devRef_mem_tcRefs main_arg0, by decide⟩)).trans (Gen.V28_main_arg0 m (outs m) c),
     (h c (Proc.devRef .tc main_arg1) (Finset.mem_filter.mpr ⟨StableHlo.devRef_mem_tcRefs main_arg1, by decide⟩)).trans (Gen.V28_main_arg1 m (outs m) c)⟩)
    (run m ρ)

end Cert.KernelIdeal.Run

end
-- ==== Proof.AdjBodyBits.lean ====
import proofs.«174933_j45260365365646_1_alg».proof.Proof.Gen.Kernel.Launch
import proofs.«174933_j45260365365646_1_alg».proof.Proof.Gen.Kernel.Skeleton
import proofs.«174933_j45260365365646_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Adj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# The adjacency region: the first pallas_call

Grid of 16 points. At point `t` the body reads rows `256·t … 256·t+255` of the position array (window 0) and the
whole position array (window 1; the SAME array, read through a second window), and writes rows
`256·t … 256·t+255` of the 4096 × 4096 mask (window 2): entry `(r, q)` of the block is one when the squared distance
between position `256·t + r` and position `q` is below 1/4 or `256·t + r = q`, else zero.
-/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's staging buffer holds its block at every point, for any proof data whose array is the
    region-entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole-array window's staging buffer holds the whole array at every point: it is fetched once, at the first
    point, and its index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each one whole buffer -/

abbrev rRows : Rect S256x2 := Rect.unit (s := S256x2) ![0, 0] S256x2.size Facts₀.inb_S256x2_S256x2_0_0
abbrev rAll : Rect S4096x2 := Rect.unit (s := S4096x2) ![0, 0] S4096x2.size Facts₀.inb_S4096x2_S4096x2_0_0
abbrev rMask : Rect S256x4096 := Rect.unit (s := S256x4096) ![0, 0] S256x4096.size Facts₀.inb_S256x4096_S256x4096_0_0

/-- The mask block the body leaves at grid coordinates `i`, from the two position blocks: its one store. -/
def maskBlk (i : grid0.Coords) (x0 : Vec F S256x2 .f32) (x1 : Vec F S4096x2 .f32) : Vec F S256x4096 .i32 :=
  View.canon [⟨rMask, k0_pay1 i (View.ld x0 rRows) (View.ld x1 rAll)⟩]

/-- The one store covers the buffer. -/
theorem maskCover (p0 : Vec F S256x4096 .i32) (y : S256x4096.Idx) :
    ∃ pc ∈ ([⟨rMask, p0⟩] : List (View.Piece (Elt F) S256x4096 .i32)), y ∈ pc.1.set :=
  View.cover_of_tiled [⟨rMask, p0⟩] S256x4096.size (by rfl) y

set_option maxHeartbeats 1000000 in
/-- The body on whole staging memrefs — the two inputs' at contents `x0`, `x1`, the output's at anything — runs to the
    continuation holding the inputs' as they were and the output's at `maskBlk i x0 x1`. -/
theorem sound_kernel0 (c : Dev nD) (E : Set ℕ) (i : grid0.Coords)
    (arg1 : Memref sig .tc .vmem S256x2 .f32) (harg1 : arg1.IsWhole) (arg2 : Memref sig .tc .vmem S4096x2 .f32) (harg2 : arg2.IsWhole)
    (arg3 : Memref sig .tc .vmem S256x4096 .i32) (harg3 : arg3.IsWhole)
    (x0 : Vec F S256x2 .f32) (x1 : Vec F S4096x2 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (maskBlk i x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (maskCover _)

/-! ## The pipeline's proof data -/

/-- The proof data of the adjacency pipeline on core `c`: the arrays as the region finds them; after the body at point
    `t` each input's buffer at its block and the mask's at `maskBlk` of the two input blocks; the class invariant
    (the scoped rest and the generator register, untouched); nothing owed. The position array is read through two
    windows, so each of them holds it at one half of the full share; the mask's array is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => maskBlk (grid0.coords t) (iblk0 V c 0 t) (iblk0 V c 1 t)
  Φ _ := Pipeline.ΦA spec0 c
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = maskBlk (grid0.coords t) (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Adj

end
-- ==== Proof.AdjShareBits.lean ====
import proofs.«174933_j45260365365646_1_alg».proof.Proof.AdjBodyBits
import proofs.«174933_j45260365365646_1_alg».proof.Proof.Gen.Kernel.Skeleton
import proofs.«174933_j45260365365646_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Adj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# The position array dealt between the adjacency region's two input windows

Both input windows of the adjacency region read the SAME array. The region's proof data hold it at the left half of
the full share for the row-block window and at the right half for the whole-array window; the mask's array is held
whole. Entering the region splits the full share of the position array in two; leaving it joins the halves again.
-/

variable (V : (c : Dev nD) → (b : Ref sig .tc) → Buf (Elt F) ((c : Thread nD τ).loc b))

/-- The buffers behind the three windows' arrays: the position array and the mask's array. -/
theorem arrImage0 : (Finset.univ.image (Pipeline.arrRef spec0) : Finset (Ref sig .tc)) = {main_v0, main_v1} := by decide

/-- The distinct buffers behind the windows' arrays, each whole at the full share. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v1) ↦{fullShare} W main_v1)) := by
  unfold Pipeline.arrBufs
  rw [arrImage0, bigSep_insert (by decide), bigSep_singleton]
  rfl

/-- The pipeline's arrays, window by window, at the shares the proof data give them. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare} G 2)) := by
  unfold Dat.arrays
  rw [bigSep_W0, (arr_whole0 0).set_eq_univ, (arr_whole0 2).set_eq_univ]
  rfl

/-- A core's unscoped buffers are the buffers behind the region's arrays and the rest. -/
theorem unscopedBufs_split0 (c : Dev nD) (W : (b : Ref sig .tc) → Buf (Elt F) ((c : Thread nD τ).loc b)) :
    (unscopedBufs c W : sProp 𝕄) = iprop(Pipeline.arrBufs spec0 c W ∗ Pipeline.unscopedRest spec0 c W) :=
  Pipeline.unscopedBufs_split₀ cfgs (0 : Fin 2) winFacts₀0.arr_unscoped c W

/-- ENTRY: the core's unscoped buffers at the region-entry contents are the pipeline's arrays at their entry contents
    — the position array's full share split between the two windows that read it — and the unscoped rest. -/
theorem arrays_entry0 (c : Dev nD) :
    (unscopedBufs c (V c) : sProp 𝕄) ⊢ iprop((dat0 V c).arrays ((dat0 V c).arrAt · 0) ∗ Pipeline.unscopedRest spec0 c (V c)) := by
  rw [unscopedBufs_split0 c (V c), arrays0_eq, arrBufs0_eq]
  iintro ⟨⟨H0, H1⟩, Hr⟩
  ihave H0 := (pointsTo_share (PosShare.mem_left_op_right fullShare)).1 $$ H0
  icases H0 with ⟨Ha, Hb⟩
  isplitl [Ha Hb H1]
  · isplitl [Ha]; · iexact Ha
    isplitl [Hb]; · iexact Hb
    iexact H1
  iexact Hr

/-- EXIT: the pipeline's arrays at their final contents — the position array as entered in both halves, the mask's
    array at what the write-backs left — and the unscoped rest are the core's unscoped buffers at any contents `W'`
    that have the mask's array there and agree with the entry contents elsewhere. -/
theorem arrays_exit0 (c : Dev nD) (W' : (b : Ref sig .tc) → Buf (Elt F) ((c : Thread nD τ).loc b))
    (h0 : W' main_v0 = V c main_v0) (h1 : W' main_v1 = (dat0 V c).arrAt 2 cfg0.N)
    (hrest : ∀ b, b ∉ Finset.univ.image (Pipeline.arrRef spec0) → W' b = V c b) :
    iprop((dat0 V c).arrays ((dat0 V c).arrAt · cfg0.N) ∗ Pipeline.unscopedRest spec0 c (V c)) ⊢ (unscopedBufs c W' : sProp 𝕄) := by
  have hr : (Pipeline.unscopedRest (Ix := Unit) (Name := ℕ) (U := UR sig nD τ) (Lvl := ℕ) spec0 c W' : sProp 𝕄)
      = Pipeline.unscopedRest spec0 c (V c) := by
    unfold Pipeline.unscopedRest
    exact bigSep_congr fun b hb => by rw [hrest b (Finset.mem_sdiff.mp hb).2]
  rw [unscopedBufs_split0 c W', arrays0_eq, arrBufs0_eq, hr,
    (dat0 V c).arrAt_in 0 rfl, (dat0 V c).arrAt_in 1 rfl, h0, h1]
  iintro ⟨⟨Ha, Hb, H1⟩, Hr⟩
  ihave H0 := (pointsTo_share (PosShare.mem_left_op_right fullShare)).2 $$ [Ha Hb]
  · isplitl [Ha]
    · iexact Ha
    iexact Hb
  isplitl [H0 H1]
  · isplitl [H0]; · iexact H0
    iexact H1
  iexact Hr

end Cert.Kernel.Adj

end
-- ==== Proof.EdgeRegionBits.lean ====
/-
  The edge-feature rescale region (the second pallas_call of @main), as a frame body.

  At grid point `t` the pipeline stages block `t` of the input array — all four rows of columns
  65536·t … 65536·t+65535 — in a [4,65536] buffer, the body reads that buffer whole and writes the output
  buffer row by row: four stores, one [1,65536] rectangle each, which together tile the [4,65536] buffer.
  Each stored row is a pure function of the block that was read (the skeleton's payloads), so the output
  buffer after the body is ONE function `out1_1` of the input block: the overlay of the four rows. The four
  loads of the output rows that precede the stores read values nothing depends on.

  This module states that function, shows the body's weakest precondition against it, and packages the
  per-point data the launch theorems take (`dat1`) with the obligation that the body meets it at every point.
  Everything is generic in the float instance.
-/
import proofs.«174933_j45260365365646_1_alg».proof.Proof.Gen.Kernel.Launch
import proofs.«174933_j45260365365646_1_alg».proof.Proof.Gen.Kernel.Skeleton
import proofs.«174933_j45260365365646_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

-- membership in a rectangle with a 65536-long axis is looked at structurally, once per coordinate
set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any per-point data whose
    array is the entry contents and whose body leaves the block in place: the window is fetched whole at every
    point and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: the whole [4,65536] buffer, and its four rows -/

abbrev rAll : Rect S4x65536 := Rect.unit (s := S4x65536) ![0, 0] S4x65536.size inb_S4x65536_S4x65536_0_0
abbrev rRow0 : Rect S4x65536 := Rect.unit (s := S4x65536) ![0, 0] S1x65536.size inb_S4x65536_S1x65536_0_0
abbrev rRow1 : Rect S4x65536 := Rect.unit (s := S4x65536) ![1, 0] S1x65536.size inb_S4x65536_S1x65536_1_0
abbrev rRow2 : Rect S4x65536 := Rect.unit (s := S4x65536) ![2, 0] S1x65536.size inb_S4x65536_S1x65536_2_0
abbrev rRow3 : Rect S4x65536 := Rect.unit (s := S4x65536) ![3, 0] S1x65536.size inb_S4x65536_S1x65536_3_0

/-! ## What the body leaves in the output window's buffer -/

/-- The output buffer after the body, from the input block: the four row stores overlaid, the last store
    first. Rows 0 and 1 hold the rescaled coordinates, rows 2 and 3 the copied ones. -/
def out1_1 (x0 : Vec F S4x65536 .f32) : Vec F S4x65536 .f32 :=
  View.canon [⟨rRow3, k1_pay8 (View.ld x0 rAll)⟩,
    ⟨rRow2, k1_pay7 (View.ld x0 rAll)⟩,
    ⟨rRow1, k1_pay6 (View.ld x0 rAll)⟩,
    ⟨rRow0, k1_pay5 (View.ld x0 rAll)⟩]

/-- The four rows tile the [4,65536] buffer in [1,65536] blocks, so every entry lies in one of them. -/
theorem cover1_1 (p0 p1 p2 p3 : Vec F S1x65536 .f32) (y : S4x65536.Idx) :
    ∃ pc ∈ ([⟨rRow3, p0⟩, ⟨rRow2, p1⟩, ⟨rRow1, p2⟩, ⟨rRow0, p3⟩] : List (View.Piece (Elt F) S4x65536 .f32)), y ∈ pc.1.set :=
  View.cover_of_tiled [⟨rRow3, p0⟩, ⟨rRow2, p1⟩, ⟨rRow1, p2⟩, ⟨rRow0, p3⟩] S1x65536.size (by rfl) y

/-! ## The body's triple -/

set_option maxHeartbeats 1000000 in
/-- The body on whole staging memrefs, the input's at contents `x0` and the output's at anything, runs to the
    continuation holding the input's as it was and the output's at `out1_1 x0`. -/
theorem sound_kernel1 (c : Dev nD) (E : Set ℕ) (i : grid1.Coords) (arg0 : Memref sig .tc .vmem S4x65536 .f32) (harg0 : arg0.IsWhole) (arg1 : Memref sig .tc .vmem S4x65536 .f32) (harg1 : arg1.IsWhole)
    (x0 : Vec F S4x65536 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1_1 x0)) -∗ K ⟨⟩))
      ⊢ wp frame (wpE (defs₀ (F := F)) Variants.none c none) E (cc1__edge_feature_kernel i arg0 harg0 arg1 harg1) K := by
  simp only [cc1__edge_feature_kernel_eq_skeleton]; unfold cc1__edge_feature_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _ _ _ _)

/-! ## The pipeline's per-point data -/

/-- The data of this pipeline on core `c`: the arrays as the region finds them; after the body at point `t` the
    input's buffer at its block and the output's at `out1_1` of that block; the invariant that leaves the scoped
    rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block, so `sound_kernel1` applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Edge

end
-- ==== Proof.KernelRunBits.lean ====
import proofs.«174933_j45260365365646_1_alg».proof.Proof.AdjShareBits
import proofs.«174933_j45260365365646_1_alg».proof.Proof.EdgeRegionBits
import proofs.«174933_j45260365365646_1_alg».proof.Proof.Gen.Kernel.Regions

set_option maxRecDepth 16384

noncomputable section

namespace Cert.Kernel.Run

open Cert.Kernel Cert.Kernel.Gen Cert.Kernel.Adj Cert.Kernel.Edge
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-!
# The program's run: host stretches and the two regions in order

Between two items of the program every unscoped buffer of the core is held whole at a known valuation. The first
region changes only the mask's array, to what its sixteen write-backs leave; the second only the rescaled edge
features' array, to what its 256 write-backs leave. Every other buffer is what the host operations compute from
those.
-/

variable (m : (ℓ : Loc nD τ sig) → Buf (Elt F) ℓ)

/-- The contents the first region is entered from, read at the TensorCore's references. -/
abbrev Vr1 : (c : Dev nD) → (b : Ref sig .tc) → Buf (Elt F) ((c : Thread nD τ).loc b) := fun c b => Gen.V1 m c b

/-- The mask's array after the first region: its sixteen row blocks written back. -/
def mask (c : Dev nD) : Buf (Elt F) ((c : Thread nD τ).loc main_v1) := (dat0 (Vr1 m) c).arrAt 2 cfg0.N

/-- Some contents, for the buffers no region changes. -/
def outs0 : (r : Ref sig .tc) → (c : Dev nD) → Buf (Elt F) ((c : Thread nD τ).loc r) := fun _ _ _ => Classical.arbitrary _

/-- What the regions leave, the first region's part only. -/
def outsM : (r : Ref sig .tc) → (c : Dev nD) → Buf (Elt F) ((c : Thread nD τ).loc r) :=
  Function.update outs0 main_v1 (fun c => mask m c)

/-- The contents the second region is entered from, read at the TensorCore's references. -/
abbrev Vr24 : (c : Dev nD) → (b : Ref sig .tc) → Buf (Elt F) ((c : Thread nD τ).loc b) := fun c b => Gen.V24 m (fun _ => outsM m) c b

/-- The rescaled edge features' array after the second region: its 256 column blocks written back. -/
def edge (c : Dev nD) : Buf (Elt F) ((c : Thread nD τ).loc main_v35) := (dat1 (Vr24 m) c).arrAt 1 cfg1.N

/-- What the two regions leave. -/
def outs : Outs (F := F) := fun _ => Function.update (outsM m) main_v35 (fun c => edge m c)

theorem outs_mask (J : ℕ) (c : Dev nD) : outs m J main_v1 c = mask m c := by
  unfold outs outsM
  rw [Function.update_of_ne (by decide), Function.update_self]

theorem outsM_mask (c : Dev nD) : outsM m main_v1 c = mask m c := by
  unfold outsM
  rw [Function.update_self]

theorem outs_edge (J : ℕ) (c : Dev nD) : outs m J main_v35 c = edge m c := by
  unfold outs
  rw [Function.update_self]

/-- The valuations up to the second region read only the first region's part of what the regions leave. -/
theorem V24_outs (c : Dev nD) : Gen.V24 m (outs m) c = Gen.V24 m (fun _ => outsM m) c := by
  have h2 : Gen.V2 m (outs m) c = Gen.V2 m (fun _ => outsM m) c := by
    unfold Gen.V2
    rw [outs_mask]
    beta_reduce
    rw [outsM_mask]
  unfold Gen.V24 Gen.V23 Gen.V22 Gen.V21 Gen.V20 Gen.V19 Gen.V18 Gen.V17 Gen.V16 Gen.V15 Gen.V14 Gen.V13 Gen.V12 Gen.V11 Gen.V10 Gen.V9 Gen.V8
    Gen.V7 Gen.V6 Gen.V5 Gen.V4 Gen.V3
  rw [h2]

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vr1 m) c
  | ⟨1, _⟩ => fun c => dat1 (Vr24 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## The regions as segments -/

set_option backward.isDefEq.respectTransparency.types false in
/-- THE ADJACENCY REGION over the thread state: entered from every unscoped buffer at the contents after the first
    host stretch, left with the mask's array at what the region leaves. Its arrays are split out of the unscoped
    buffers — the position array's share dealt between the two windows that read it — and put back at the exit; the
    generator register goes into the class invariant and comes out; nothing is owed; the kernel has no semaphore of
    its own. -/
def reg0 : RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (Gen.V1 m c) ∗ E 0 c)
  post c := iprop(StableHlo.held (c : Thread nD τ) (Pipeline.ucRefs τ sig) (Gen.V2 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := arrays_entry0 (Vr1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := arrays_exit0 (Vr1 m) c (fun b => Gen.V2 m (outs m) c b)
      (Gen.V2_of m (outs m) c main_v0 (by decide))
      (by show Gen.V2 m (outs m) c main_v1 = _; unfold Gen.V2; rw [Function.update_self, outs_mask]; rfl)
      (fun b hb => Gen.V2_of m (outs m) c b (by
        rw [arrImage0] at hb
        intro h; apply hb; rw [List.mem_singleton.mp h]; decide))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- THE EDGE-FEATURE REGION over the thread state: entered from every unscoped buffer at the contents after the host
    stretches that follow the first region, left with the rescaled features' array at what the region leaves. Its two
    arrays are distinct buffers, each held whole. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr24 m) c).loose
  hwaits := Pipeline.hwaits_of_owed_zero _ _ _ _ L lv 1 fun _ _ => rfl
  pre c := iprop(StableHlo.held (c : Thread nD τ) (Pipeline.ucRefs τ sig) (Gen.V24 m (outs m) c) ∗ E 1 c)
  post c := iprop(StableHlo.held (c : Thread nD τ) (Pipeline.ucRefs τ sig) (Gen.V25 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (Vr24 m c)
  hentry c := by
    rw [Pipeline.ownSems0_none, V24_outs]
    have hsplit := Pipeline.arrays_of_unscopedBufs (p := 1) (pcfgs (F := F)) adm (pdats m) launch1.win launch1.arr_whole c
      ((pdats m 1 c).share_full fun _ => rfl) (Vr24 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr24 m c) (fun b => Gen.V25 m (outs m) c b) ((pdats m 1 c).arrAt · cfg1.N)
      (fun w => by
        fin_cases w
        · exact ((pdats m 1 c).arrAt_in 0 rfl _).trans
            ((congrFun (V24_outs m c) (Proc.devRef .tc main_v34)).symm.trans (Gen.V25_of m (outs m) c main_v34 (by decide)).symm)
        · show edge m c = Gen.V25 m (outs m) c main_v35
          unfold Gen.V25; rw [Function.update_self, outs_edge])
      (fun b hb => (Gen.V25_of m (outs m) c b (fun h => hb (by
          rw [List.mem_singleton.mp h]; exact Finset.mem_image.mpr ⟨1, Finset.mem_univ _, rfl⟩))).trans
        (congrFun (V24_outs m c) (Proc.devRef .tc b)))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The frame -/

set_option backward.isDefEq.respectTransparency.types false in
/-- The frame: every weakly fair execution of the program from memory `m` with zero counters terminates, nothing faulting,
    and both argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    E
    (by
      refine Pipeline.initEach L lv fun c => ?_
      iintro ⟨⟨-, HO, -, Hp, -⟩, -⟩
      imodintro
      isplitl [Hp]; · iexists _; iexact Hp
      iexists ∅; iexact HO)
    (fun c => by
      iintro ⟨-, HO⟩
      iexact HO)
    (reg0 m) (fun c => .rfl) (fun c => .rfl)
    (reg1 m) (fun c => .rfl) (fun c => .rfl)

end Cert.Kernel.Run

end
-- ==== Proof.RefRunA.lean ====
/- The reference program's @main as one straight line of host operations — every outlined function's
   body written out at its call over that call's buffers — cut into ten consecutive stretches where the
   mathematics changes subject, and its run: every weakly fair execution terminates with each buffer at
   the fold of the operations over the launch contents; the two argument arrays are written by none. -/
import proofs.«174933_j45260365365646_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The mask: positions sliced from the states, pairwise differences, their squared length, the guarded square root, the comparison with the radius and the diagonal (results `main_v0` … `main_v22`). -/
abbrev w0 : List (HloOp τ sig (Elt F)) :=
  [ StableHlo.unary main_arg0 main_v0 ((extractStridedSlice S4096x2 ![0, 0] · slices_S4096x4_S4096x2_0_0) : (⟨S4096x4, .f32⟩ : BufTy).Contents (Elt F) → (⟨S4096x2, .f32⟩ : BufTy).Contents (Elt F)),
    StableHlo.unary main_v0 main_v1 (broadcastInDim S4096x1x2 ![0, 2] bcast_S4096x2_S4096x1x2_0_2 : (⟨S4096x2, .f32⟩ : BufTy).Contents (Elt F) → (⟨S4096x1x2, .f32⟩ : BufTy).Contents (Elt F)),
    StableHlo.unary main_v0 main_v2 (broadcastInDim S1x4096x2 ![1, 2] bcast_S4096x2_S1x4096x2_1_2 : (⟨S4096x2, .f32⟩ : BufTy).Contents (Elt F) → (⟨S1x4096x2, .f32⟩ : BufTy).Contents (Elt F)),
    StableHlo.unary main_v1 main_v3 (broadcastInDim S4096x4096x2 ![0, 1, 2] bcast_S4096x1x2_S4096x4096x2_0_1_2 : (⟨S4096x1x2, .f32⟩ : BufTy).Contents (Elt F) → (⟨S4096x4096x2, .f32⟩ : BufTy).Contents (Elt F)),
    StableHlo.unary main_v2 main_v4 (broadcastInDim S4096x4096x2 ![0, 1, 2] bcast_S1x4096x2_S4096x4096x2_0_1_2 : (⟨S1x4096x2, .f32⟩ : BufTy).Contents (Elt F) → (⟨S4096x4096x2, .f32⟩ : BufTy).Contents (Elt F)),
    StableHlo.binary main_v3 main_v4 main_v5 (subf : (⟨S4096x4096x2, .f32⟩ : BufTy).Contents (Elt F) → (⟨S4096x4096x2, .f32⟩ : BufTy).Contents (Elt F) → (⟨S4096x4096x2, .f32⟩ : BufTy).Contents (Elt F)),
    StableHlo.binary main_v5 main_v5 main_v6 (mulf : (⟨S4096x4096x2, .f32⟩ : BufTy).Contents (Elt F) → (⟨S4096x4096x2, .f32⟩ : BufTy).Contents (Elt F) → (⟨S4096x4096x2, .f32⟩ : BufTy).Contents (Elt F)),
    StableHlo.nullary main_cst (constant S_ .f32 0x00000000#32),
    StableHlo.binary main_v6 main_cst main_v7 ((fun x v => Host.reduceAdd x v reducesTo_S4096x4096x2_S4096x4096_d2 h_S_) : (⟨S4096x4096x2, .f32⟩ : BufTy).Contents (Elt F) → (⟨S_, .f32⟩ : BufTy).Contents (Elt F) → (⟨S4096x4096, .f32⟩ : BufTy).Contents (Elt F)),
    StableHlo.nullary main_cst_0 (constant S_ .f32 0x00000000#32),
    StableHlo.unary main_cst_0 main_v8 (broadcastInDim S4096x4096 ![] bcast_S_S4096x4096 : (⟨S_, .f32⟩ : BufTy).Contents (Elt F) → (⟨S4096x4096, .f32⟩ : BufTy).Contents (Elt F)),
    StableHlo.binary main_v7 main_v8 main_v9 (cmpf .ogt : (⟨S4096x4096, .f32⟩ : BufTy).Contents (Elt F) → (⟨S4096x4096, .f32⟩ : BufTy).Contents (Elt F) → (⟨S4096x4096, .i1⟩ : BufTy).Contents (Elt F)),
    StableHlo.nullary main_cst_1 (constant S_ .f32 0x3F800000#32),
    StableHlo.TRef.unary (StableHlo.TRef.of main_cst_1 : StableHlo.TRef sig ⟨S_, .f32⟩) main_call0.v0 id,
    StableHlo.TRef.unary main_call0.v0 main_call0.v1 (broadcastInDim S4096x4096 ![] bcast_S_S4096x4096),
    StableHlo.TRef.ternary (StableHlo.TRef.of main_v9 : StableHlo.TRef sig ⟨S4096x4096, .i1⟩) (StableHlo.TRef.of main_v7 : StableHlo.TRef sig ⟨S4096x4096, .f32⟩) main_call0.v1 main_call0.v2 select,
    StableHlo.unary main_v10 main_v11 (Host.sqrt : (⟨S4096x4096, .f32⟩ : BufTy).Contents (Elt F) → (⟨S4096x4096, .f32⟩ : BufTy).Contents (Elt F)),
    StableHlo.nullary main_cst_2 (constant S_ .f32 0x00000000#32),
    StableHlo.unary main_cst_2 main_v12 (broadcastInDim S4096x4096 ![] bcast_S_S4096x4096 : (⟨S_, .f32⟩ : BufTy).Contents (Elt F) → (⟨S4096x4096, .f32⟩ : BufTy).Contents (Elt F)),
    StableHlo.binary main_v7 main_v12 main_v13 (cmpf .ogt : (⟨S4096x4096, .f32⟩ : BufTy).Contents (Elt F) → (⟨S4096x4096, .f32⟩ : BufTy).Contents (Elt F) → (⟨S4096x4096, .i1⟩ : BufTy).Contents (Elt F)),
    StableHlo.nullary main_cst_3 (constant S_ .f32 0x00000000#32),
    StableHlo.TRef.unary (StableHlo.TRef.of main_cst_3 : StableHlo.TRef sig ⟨S_, .f32⟩) main_call1.v0 id,
    StableHlo.TRef.unary main_call1.v0 main_call1.v1 (broadcastInDim S4096x4096 ![] bcast_S_S4096x4096),
    StableHlo.TRef.ternary (StableHlo.TRef.of main_v13 : StableHlo.TRef sig ⟨S4096x4096, .i1⟩) (StableHlo.TRef.of main_v11 : StableHlo.TRef sig ⟨S4096x4096, .f32⟩) main_call1.v1 main_call1.v2 select,
    StableHlo.nullary main_cst_4 (constant S_ .f32 0x3F000000#32),
    StableHlo.unary main_cst_4 main_v15 (broadcastInDim S4096x4096 ![] bcast_S_S4096x4096 : (⟨S_, .f32⟩ : BufTy).Contents (Elt F) → (⟨S4096x4096, .f32⟩ : BufTy).Contents (Elt F)),
    StableHlo.binary main_v14 main_v15 main_v16 (cmpf .olt : (⟨S4096x4096, .f32⟩ : BufTy).Contents (Elt F) → (⟨S4096x4096, .f32⟩ : BufTy).Contents (Elt F) → (⟨S4096x4096, .i1⟩ : BufTy).Contents (Elt F)),
    StableHlo.nullary main_v17 (iotaInDim S4096x4096 32 0),
    StableHlo.nullary main_v18 (iotaInDim S4096x4096 32 1),
    StableHlo.nullary main_c (constantI S_ 32 0#32),
    StableHlo.unary main_c main_v19 (broadcastInDim S4096x4096 ![] bcast_S_S4096x4096 : (⟨S_, .i32⟩ : BufTy).Contents (Elt F) → (⟨S4096x4096, .i32⟩ : BufTy).Contents (Elt F)),
    StableHlo.binary main_v17 main_v19 main_v20 (addi : (⟨S4096x4096, .i32⟩ : BufTy).Contents (Elt F) → (⟨S4096x4096, .i32⟩ : BufTy).Contents (Elt F) → (⟨S4096x4096, .i32⟩ : BufTy).Contents (Elt F)),
    StableHlo.binary main_v20 main_v18 main_v21 (cmpi .eq : (⟨S4096x4096, .i32⟩ : BufTy).Contents (Elt F) → (⟨S4096x4096, .i32⟩ : BufTy).Contents (Elt F) → (⟨S4096x4096, .i1⟩ : BufTy).Contents (Elt F)),
    StableHlo.binary main_v16 main_v21 main_v22 (ori : (⟨S4096x4096, .i1⟩ : BufTy).Contents (Elt F) → (⟨S4096x4096, .i1⟩ : BufTy).Contents (Elt F) → (⟨S4096x4096, .i1⟩ : BufTy).Contents (Elt F)) ]

/-- The running count of the mask in row-major order, clipped and wrapped into range, the ones scattered at those places, and the running count of the scatter (`main_v23` … `main_v34`). -/
abbrev w1 : List (HloOp τ sig (Elt F)) :=
  [ StableHlo.TRef.reshape (StableHlo.TRef.of main_v22 : StableHlo.TRef sig ⟨S4096x4096, .i1⟩) main_call2.v0 rfl shapeCasts_S4096x4096_S16777216,
    StableHlo.TRef.unary main_call2.v0 main_call2.v1 (extui 32 · natLt_1_32),
    StableHlo.TRef.nullary main_call2.call0.c (constantI S_ 32 0#32),
    StableHlo.TRef.unary main_call2.call0.c main_call2.call0.v0 (broadcastInDim S_ ![] bcast_S_S_),
    StableHlo.TRef.binary main_call2.v1 main_call2.call0.v0 main_call2.call0.v1 (fun x v => Host.reduceWindow IntOp.addi ![16777216] ![1] ![16777215] ![0] x v reduceWindows_S16777216_S16777216_w16777216s1p16777215_0 h_S_),
    StableHlo.nullary main_c_5 (constantI S_ 32 0#32),
    StableHlo.unary main_c_5 main_v24 (broadcastInDim S16777216 ![] bcast_S_S16777216 : (⟨S_, .i32⟩ : BufTy).Contents (Elt F) → (⟨S16777216, .i32⟩ : BufTy).Contents (Elt F)),
    StableHlo.nullary main_c_6 (constantI S_ 32 0#32),
    StableHlo.TRef.unary (StableHlo.TRef.of main_c_6 : StableHlo.TRef sig ⟨S_, .i32⟩) main_call3.v0 id,
    StableHlo.TRef.unary main_call3.v0 main_call3.v1 (broadcastInDim S16777216 ![] bcast_S_S16777216),
    StableHlo.TRef.binary main_call3.v1 (StableHlo.TRef.of main_v23 : StableHlo.TRef sig ⟨S16777216, .i32⟩) main_call3.v2 maxsi,
    StableHlo.nullary main_c_7 (constantI S_ 32 0#32),
    StableHlo.unary main_c_7 main_v26 (broadcastInDim S16777216 ![] bcast_S_S16777216 : (⟨S_, .i32⟩ : BufTy).Contents (Elt F) → (⟨S16777216, .i32⟩ : BufTy).Contents (Elt F)),
    StableHlo.binary main_v25 main_v26 main_v27 (cmpi .slt : (⟨S16777216, .i32⟩ : BufTy).Contents (Elt F) → (⟨S16777216, .i32⟩ : BufTy).Contents (Elt F) → (⟨S16777216, .i1⟩ : BufTy).Contents (Elt F)),
    StableHlo.nullary main_c_8 (constantI S_ 32 16777216#32),
    StableHlo.unary main_c_8 main_v28 (broadcastInDim S16777216 ![] bcast_S_S16777216 : (⟨S_, .i32⟩ : BufTy).Contents (Elt F) → (⟨S16777216, .i32⟩ : BufTy).Contents (Elt F)),
    StableHlo.binary main_v25 main_v28 main_v29 (addi : (⟨S16777216, .i32⟩ : BufTy).Contents (Elt F) → (⟨S16777216, .i32⟩ : BufTy).Contents (Elt F) → (⟨S16777216, .i32⟩ : BufTy).Contents (Elt F)),
    StableHlo.ternary main_v27 main_v29 main_v25 main_v30 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v30 main_v31 (broadcastInDim S16777216x1 ![0] bcast_S16777216_S16777216x1_0 : (⟨S16777216, .i32⟩ : BufTy).Contents (Elt F) → (⟨S16777216x1, .i32⟩ : BufTy).Contents (Elt F)),
    StableHlo.nullary main_c_9 (constantI S_ 32 1#32),
    StableHlo.unary main_c_9 main_v32 (broadcastInDim S16777216 ![] bcast_S_S16777216 : (⟨S_, .i32⟩ : BufTy).Contents (Elt F) → (⟨S16777216, .i32⟩ : BufTy).Contents (Elt F)),
    StableHlo.ternary main_v24 main_v31 main_v32 main_v33 ((fun x i u => Host.scatter scatter_S16777216_S16777216x1_S16777216_n_0_0_1 IntOp.addi x i u) : (⟨S16777216, .i32⟩ : BufTy).Contents (Elt F) → (⟨S16777216x1, .i32⟩ : BufTy).Contents (Elt F) → (⟨S16777216, .i32⟩ : BufTy).Contents (Elt F) → (⟨S16777216, .i32⟩ : BufTy).Contents (Elt F)),
    StableHlo.TRef.nullary main_call4.call0.c (constantI S_ 32 0#32),
    StableHlo.TRef.unary main_call4.call0.c main_call4.call0.v0 (broadcastInDim S_ ![] bcast_S_S_),
    StableHlo.TRef.binary (StableHlo.TRef.of main_v33 : StableHlo.TRef sig ⟨S16777216, .i32⟩) main_call4.call0.v0 main_call4.call0.v1 (fun x v => Host.reduceWindow IntOp.addi ![16777216] ![1] ![16777215] ![0] x v reduceWindows_S16777216_S16777216_w16777216s1p16777215_0 h_S_) ]

/-- The position divided by the row length (rounding down) and taken modulo the row length (`main_v35`, `main_v36`). -/
abbrev w2 : List (HloOp τ sig (Elt F)) :=
  [ StableHlo.nullary main_c_10 (constantI S_ 32 4096#32),
    StableHlo.TRef.unary (StableHlo.TRef.of main_c_10 : StableHlo.TRef sig ⟨S_, .i32⟩) main_call5.v0 (broadcastInDim S16777216 ![] bcast_S_S16777216),
    StableHlo.TRef.binary (StableHlo.TRef.of main_v34 : StableHlo.TRef sig ⟨S16777216, .i32⟩) main_call5.v0 main_call5.v1 Host.divsi,
    StableHlo.TRef.unary (StableHlo.TRef.of main_v34 : StableHlo.TRef sig ⟨S16777216, .i32⟩) main_call5.v2 signi,
    StableHlo.TRef.unary (StableHlo.TRef.of main_c_10 : StableHlo.TRef sig ⟨S_, .i32⟩) main_call5.v3 signi,
    StableHlo.TRef.unary main_call5.v3 main_call5.v4 (broadcastInDim S16777216 ![] bcast_S_S16777216),
    StableHlo.TRef.binary main_call5.v2 main_call5.v4 main_call5.v5 (cmpi .ne),
    StableHlo.TRef.unary (StableHlo.TRef.of main_c_10 : StableHlo.TRef sig ⟨S_, .i32⟩) main_call5.v6 (broadcastInDim S16777216 ![] bcast_S_S16777216),
    StableHlo.TRef.binary (StableHlo.TRef.of main_v34 : StableHlo.TRef sig ⟨S16777216, .i32⟩) main_call5.v6 main_call5.v7 Host.remsi,
    StableHlo.TRef.nullary main_call5.c (constantI S_ 32 0#32),
    StableHlo.TRef.unary main_call5.c main_call5.v8 (broadcastInDim S16777216 ![] bcast_S_S16777216),
    StableHlo.TRef.binary main_call5.v7 main_call5.v8 main_call5.v9 (cmpi .ne),
    StableHlo.TRef.binary main_call5.v5 main_call5.v9 main_call5.v10 andi,
    StableHlo.TRef.nullary main_call5.c_0 (constantI S_ 32 1#32),
    StableHlo.TRef.unary main_call5.c_0 main_call5.v11 (broadcastInDim S16777216 ![] bcast_S_S16777216),
    StableHlo.TRef.binary main_call5.v1 main_call5.v11 main_call5.v12 subi,
    StableHlo.TRef.ternary main_call5.v10 main_call5.v12 main_call5.v1 main_call5.call0.v0 select,
    StableHlo.nullary main_c_11 (constantI S_ 32 4096#32),
    StableHlo.TRef.unary (StableHlo.TRef.of main_c_11 : StableHlo.TRef sig ⟨S_, .i32⟩) main_call6.v0 id,
    StableHlo.TRef.nullary main_call6.c (constantI S_ 32 0#32),
    StableHlo.TRef.binary main_call6.v0 main_call6.c main_call6.v1 (cmpi .eq),
    StableHlo.TRef.nullary main_call6.c_0 (constantI S_ 32 1#32),
    StableHlo.TRef.ternary main_call6.v1 main_call6.c_0 main_call6.v0 main_call6.call0.v0 select,
    StableHlo.TRef.unary main_call6.call0.v0 main_call6.v3 (broadcastInDim S16777216 ![] bcast_S_S16777216),
    StableHlo.TRef.binary (StableHlo.TRef.of main_v35 : StableHlo.TRef sig ⟨S16777216, .i32⟩) main_call6.v3 main_call6.v4 Host.remsi,
    StableHlo.TRef.nullary main_call6.c_1 (constantI S_ 32 0#32),
    StableHlo.TRef.unary main_call6.c_1 main_call6.v5 (broadcastInDim S16777216 ![] bcast_S_S16777216),
    StableHlo.TRef.binary main_call6.v4 main_call6.v5 main_call6.v6 (cmpi .ne),
    StableHlo.TRef.nullary main_call6.c_2 (constantI S_ 32 0#32),
    StableHlo.TRef.unary main_call6.c_2 main_call6.v7 (broadcastInDim S16777216 ![] bcast_S_S16777216),
    StableHlo.TRef.binary main_call6.v4 main_call6.v7 main_call6.v8 (cmpi .slt),
    StableHlo.TRef.nullary main_call6.c_3 (constantI S_ 32 0#32),
    StableHlo.TRef.binary main_call6.call0.v0 main_call6.c_3 main_call6.v9 (cmpi .slt),
    StableHlo.TRef.unary main_call6.v9 main_call6.v10 (broadcastInDim S16777216 ![] bcast_S_S16777216),
    StableHlo.TRef.binary main_call6.v8 main_call6.v10 main_call6.v11 (cmpi .ne),
    StableHlo.TRef.binary main_call6.v11 main_call6.v6 main_call6.v12 andi,
    StableHlo.TRef.unary main_call6.call0.v0 main_call6.v13 (broadcastInDim S16777216 ![] bcast_S_S16777216),
    StableHlo.TRef.binary main_call6.v4 main_call6.v13 main_call6.v14 addi,
    StableHlo.TRef.ternary main_call6.v12 main_call6.v14 main_call6.v4 main_call6.v15 select ]

/-- The position divided by one (rounding down) and taken modulo the row length (`main_v37`, `main_v38`). -/
abbrev w3 : List (HloOp τ sig (Elt F)) :=
  [ StableHlo.nullary main_c_12 (constantI S_ 32 1#32),
    StableHlo.TRef.unary (StableHlo.TRef.of main_c_12 : StableHlo.TRef sig ⟨S_, .i32⟩) main_call7.v0 (broadcastInDim S16777216 ![] bcast_S_S16777216),
    StableHlo.TRef.binary (StableHlo.TRef.of main_v34 : StableHlo.TRef sig ⟨S16777216, .i32⟩) main_call7.v0 main_call7.v1 Host.divsi,
    StableHlo.TRef.unary (StableHlo.TRef.of main_v34 : StableHlo.TRef sig ⟨S16777216, .i32⟩) main_call7.v2 signi,
    StableHlo.TRef.unary (StableHlo.TRef.of main_c_12 : StableHlo.TRef sig ⟨S_, .i32⟩) main_call7.v3 signi,
    StableHlo.TRef.unary main_call7.v3 main_call7.v4 (broadcastInDim S16777216 ![] bcast_S_S16777216),
    StableHlo.TRef.binary main_call7.v2 main_call7.v4 main_call7.v5 (cmpi .ne),
    StableHlo.TRef.unary (StableHlo.TRef.of main_c_12 : StableHlo.TRef sig ⟨S_, .i32⟩) main_call7.v6 (broadcastInDim S16777216 ![] bcast_S_S16777216),
    StableHlo.TRef.binary (StableHlo.TRef.of main_v34 : StableHlo.TRef sig ⟨S16777216, .i32⟩) main_call7.v6 main_call7.v7 Host.remsi,
    StableHlo.TRef.nullary main_call7.c (constantI S_ 32 0#32),
    StableHlo.TRef.unary main_call7.c main_call7.v8 (broadcastInDim S16777216 ![] bcast_S_S16777216),
    StableHlo.TRef.binary main_call7.v7 main_call7.v8 main_call7.v9 (cmpi .ne),
    StableHlo.TRef.binary main_call7.v5 main_call7.v9 main_call7.v10 andi,
    StableHlo.TRef.nullary main_call7.c_0 (constantI S_ 32 1#32),
    StableHlo.TRef.unary main_call7.c_0 main_call7.v11 (broadcastInDim S16777216 ![] bcast_S_S16777216),
    StableHlo.TRef.binary main_call7.v1 main_call7.v11 main_call7.v12 subi,
    StableHlo.TRef.ternary main_call7.v10 main_call7.v12 main_call7.v1 main_call7.call0.v0 select,
    StableHlo.nullary main_c_13 (constantI S_ 32 4096#32),
    StableHlo.TRef.unary (StableHlo.TRef.of main_c_13 : StableHlo.TRef sig ⟨S_, .i32⟩) main_call8.v0 id,
    StableHlo.TRef.nullary main_call8.c (constantI S_ 32 0#32),
    StableHlo.TRef.binary main_call8.v0 main_call8.c main_call8.v1 (cmpi .eq),
    StableHlo.TRef.nullary main_call8.c_0 (constantI S_ 32 1#32),
    StableHlo.TRef.ternary main_call8.v1 main_call8.c_0 main_call8.v0 main_call8.call0.v0 select,
    StableHlo.TRef.unary main_call8.call0.v0 main_call8.v3 (broadcastInDim S16777216 ![] bcast_S_S16777216),
    StableHlo.TRef.binary (StableHlo.TRef.of main_v37 : StableHlo.TRef sig ⟨S16777216, .i32⟩) main_call8.v3 main_call8.v4 Host.remsi,
    StableHlo.TRef.nullary main_call8.c_1 (constantI S_ 32 0#32),
    StableHlo.TRef.unary main_call8.c_1 main_call8.v5 (broadcastInDim S16777216 ![] bcast_S_S16777216),
    StableHlo.TRef.binary main_call8.v4 main_call8.v5 main_call8.v6 (cmpi .ne),
    StableHlo.TRef.nullary main_call8.c_2 (constantI S_ 32 0#32),
    StableHlo.TRef.unary main_call8.c_2 main_call8.v7 (broadcastInDim S16777216 ![] bcast_S_S16777216),
    StableHlo.TRef.binary main_call8.v4 main_call8.v7 main_call8.v8 (cmpi .slt),
    StableHlo.TRef.nullary main_call8.c_3 (constantI S_ 32 0#32),
    StableHlo.TRef.binary main_call8.call0.v0 main_call8.c_3 main_call8.v9 (cmpi .slt),
    StableHlo.TRef.unary main_call8.v9 main_call8.v10 (broadcastInDim S16777216 ![] bcast_S_S16777216),
    StableHlo.TRef.binary main_call8.v8 main_call8.v10 main_call8.v11 (cmpi .ne),
    StableHlo.TRef.binary main_call8.v11 main_call8.v6 main_call8.v12 andi,
    StableHlo.TRef.unary main_call8.call0.v0 main_call8.v13 (broadcastInDim S16777216 ![] bcast_S_S16777216),
    StableHlo.TRef.binary main_call8.v4 main_call8.v13 main_call8.v14 addi,
    StableHlo.TRef.ternary main_call8.v12 main_call8.v14 main_call8.v4 main_call8.v15 select ]

/-- The place counter and the number of mask entries set, broadcast along the edge list (`main_v39` … `main_v42`). -/
abbrev w4 : List (HloOp τ sig (Elt F)) :=
  [ StableHlo.nullary main_v39 (iotaInDim S16777216 32 0),
    StableHlo.unary main_v22 main_v40 ((extui 32 · natLt_1_32) : (⟨S4096x4096, .i1⟩ : BufTy).Contents (Elt F) → (⟨S4096x4096, .i32⟩ : BufTy).Contents (Elt F)),
    StableHlo.nullary main_c_14 (constantI S_ 32 0#32),
    StableHlo.binary main_v40 main_c_14 main_v41 ((fun x v => Host.reduce IntOp.addi x v reducesTo_S4096x4096_S_d0_1 h_S_) : (⟨S4096x4096, .i32⟩ : BufTy).Contents (Elt F) → (⟨S_, .i32⟩ : BufTy).Contents (Elt F) → (⟨S_, .i32⟩ : BufTy).Contents (Elt F)),
    StableHlo.unary main_v41 main_v42 (broadcastInDim S16777216 ![] bcast_S_S16777216 : (⟨S_, .i32⟩ : BufTy).Contents (Elt F) → (⟨S16777216, .i32⟩ : BufTy).Contents (Elt F)) ]

/-- Places past the count are filled with zero; the two index rows are stacked (`main_v43` … `main_v48`). -/
abbrev w5 : List (HloOp τ sig (Elt F)) :=
  [ StableHlo.binary main_v39 main_v42 main_v43 (cmpi .sge : (⟨S16777216, .i32⟩ : BufTy).Contents (Elt F) → (⟨S16777216, .i32⟩ : BufTy).Contents (Elt F) → (⟨S16777216, .i1⟩ : BufTy).Contents (Elt F)),
    StableHlo.nullary main_c_15 (constantI S_ 32 0#32),
    StableHlo.TRef.unary (StableHlo.TRef.of main_c_15 : StableHlo.TRef sig ⟨S_, .i32⟩) main_call9.v0 id,
    StableHlo.TRef.unary main_call9.v0 main_call9.v1 (broadcastInDim S16777216 ![] bcast_S_S16777216),
    StableHlo.TRef.ternary (StableHlo.TRef.of main_v43 : StableHlo.TRef sig ⟨S16777216, .i1⟩) main_call9.v1 (StableHlo.TRef.of main_v36 : StableHlo.TRef sig ⟨S16777216, .i32⟩) main_call9.v2 select,
    StableHlo.nullary main_c_16 (constantI S_ 32 0#32),
    StableHlo.TRef.unary (StableHlo.TRef.of main_c_16 : StableHlo.TRef sig ⟨S_, .i32⟩) main_call10.v0 id,
    StableHlo.TRef.unary main_call10.v0 main_call10.v1 (broadcastInDim S16777216 ![] bcast_S_S16777216),
    StableHlo.TRef.ternary (StableHlo.TRef.of main_v43 : StableHlo.TRef sig ⟨S16777216, .i1⟩) main_call10.v1 (StableHlo.TRef.of main_v38 : StableHlo.TRef sig ⟨S16777216, .i32⟩) main_call10.v2 select,
    StableHlo.unary main_v44 main_v46 (broadcastInDim S1x16777216 ![1] bcast_S16777216_S1x16777216_1 : (⟨S16777216, .i32⟩ : BufTy).Contents (Elt F) → (⟨S1x16777216, .i32⟩ : BufTy).Contents (Elt F)),
    StableHlo.unary main_v45 main_v47 (broadcastInDim S1x16777216 ![1] bcast_S16777216_S1x16777216_1 : (⟨S16777216, .i32⟩ : BufTy).Contents (Elt F) → (⟨S1x16777216, .i32⟩ : BufTy).Contents (Elt F)),
    StableHlo.binary main_v46 main_v47 main_v48 ((fun a b => concatenate S2x16777216 0 [⟨S1x16777216, a⟩, ⟨S1x16777216, b⟩] concatenates_S1x16777216_S1x16777216_S2x16777216_d0) : (⟨S1x16777216, .i32⟩ : BufTy).Contents (Elt F) → (⟨S1x16777216, .i32⟩ : BufTy).Contents (Elt F) → (⟨S2x16777216, .i32⟩ : BufTy).Contents (Elt F)) ]

/-- The indices wrapped into range, the two gathers of state rows and their difference (`main_v49` … `main_v63`). -/
abbrev w6 : List (HloOp τ sig (Elt F)) :=
  [ StableHlo.nullary main_c_17 (constantI S_ 32 0#32),
    StableHlo.unary main_c_17 main_v49 (broadcastInDim S16777216 ![] bcast_S_S16777216 : (⟨S_, .i32⟩ : BufTy).Contents (Elt F) → (⟨S16777216, .i32⟩ : BufTy).Contents (Elt F)),
    StableHlo.binary main_v45 main_v49 main_v50 (cmpi .slt : (⟨S16777216, .i32⟩ : BufTy).Contents (Elt F) → (⟨S16777216, .i32⟩ : BufTy).Contents (Elt F) → (⟨S16777216, .i1⟩ : BufTy).Contents (Elt F)),
    StableHlo.nullary main_c_18 (constantI S_ 32 4096#32),
    StableHlo.unary main_c_18 main_v51 (broadcastInDim S16777216 ![] bcast_S_S16777216 : (⟨S_, .i32⟩ : BufTy).Contents (Elt F) → (⟨S16777216, .i32⟩ : BufTy).Contents (Elt F)),
    StableHlo.binary main_v45 main_v51 main_v52 (addi : (⟨S16777216, .i32⟩ : BufTy).Contents (Elt F) → (⟨S16777216, .i32⟩ : BufTy).Contents (Elt F) → (⟨S16777216, .i32⟩ : BufTy).Contents (Elt F)),
    StableHlo.ternary main_v50 main_v52 main_v45 main_v53 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v53 main_v54 (broadcastInDim S16777216x1 ![0] bcast_S16777216_S16777216x1_0 : (⟨S16777216, .i32⟩ : BufTy).Contents (Elt F) → (⟨S16777216x1, .i32⟩ : BufTy).Contents (Elt F)),
    StableHlo.binary main_arg0 main_v54 main_v55 ((fun x i => Host.gather gather_S4096x4_S16777216x1_S16777216x4_1_0_n_n_0_1_14 x i) : (⟨S4096x4, .f32⟩ : BufTy).Contents (Elt F) → (⟨S16777216x1, .i32⟩ : BufTy).Contents (Elt F) → (⟨S16777216x4, .f32⟩ : BufTy).Contents (Elt F)),
    StableHlo.nullary main_c_19 (constantI S_ 32 0#32),
    StableHlo.unary main_c_19 main_v56 (broadcastInDim S16777216 ![] bcast_S_S16777216 : (⟨S_, .i32⟩ : BufTy).Contents (Elt F) → (⟨S16777216, .i32⟩ : BufTy).Contents (Elt F)),
    StableHlo.binary main_v44 main_v56 main_v57 (cmpi .slt : (⟨S16777216, .i32⟩ : BufTy).Contents (Elt F) → (⟨S16777216, .i32⟩ : BufTy).Contents (Elt F) → (⟨S16777216, .i1⟩ : BufTy).Contents (Elt F)),
    StableHlo.nullary main_c_20 (constantI S_ 32 4096#32),
    StableHlo.unary main_c_20 main_v58 (broadcastInDim S16777216 ![] bcast_S_S16777216 : (⟨S_, .i32⟩ : BufTy).Contents (Elt F) → (⟨S16777216, .i32⟩ : BufTy).Contents (Elt F)),
    StableHlo.binary main_v44 main_v58 main_v59 (addi : (⟨S16777216, .i32⟩ : BufTy).Contents (Elt F) → (⟨S16777216, .i32⟩ : BufTy).Contents (Elt F) → (⟨S16777216, .i32⟩ : BufTy).Contents (Elt F)),
    StableHlo.ternary main_v57 main_v59 main_v44 main_v60 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v60 main_v61 (broadcastInDim S16777216x1 ![0] bcast_S16777216_S16777216x1_0 : (⟨S16777216, .i32⟩ : BufTy).Contents (Elt F) → (⟨S16777216x1, .i32⟩ : BufTy).Contents (Elt F)),
    StableHlo.binary main_arg0 main_v61 main_v62 ((fun x i => Host.gather gather_S4096x4_S16777216x1_S16777216x4_1_0_n_n_0_1_14 x i) : (⟨S4096x4, .f32⟩ : BufTy).Contents (Elt F) → (⟨S16777216x1, .i32⟩ : BufTy).Contents (Elt F) → (⟨S16777216x4, .f32⟩ : BufTy).Contents (Elt F)),
    StableHlo.binary main_v55 main_v62 main_v63 (subf : (⟨S16777216x4, .f32⟩ : BufTy).Contents (Elt F) → (⟨S16777216x4, .f32⟩ : BufTy).Contents (Elt F) → (⟨S16777216x4, .f32⟩ : BufTy).Contents (Elt F)) ]

/-- The position part of an edge feature rescaled into the radius, beside the untouched rest (`main_v64` … `main_v85`). -/
abbrev w7 : List (HloOp τ sig (Elt F)) :=
  [ StableHlo.unary main_v63 main_v64 ((extractStridedSlice S16777216x2 ![0, 0] · slices_S16777216x4_S16777216x2_0_0) : (⟨S16777216x4, .f32⟩ : BufTy).Contents (Elt F) → (⟨S16777216x2, .f32⟩ : BufTy).Contents (Elt F)),
    StableHlo.binary main_v64 main_v64 main_v65 (mulf : (⟨S16777216x2, .f32⟩ : BufTy).Contents (Elt F) → (⟨S16777216x2, .f32⟩ : BufTy).Contents (Elt F) → (⟨S16777216x2, .f32⟩ : BufTy).Contents (Elt F)),
    StableHlo.nullary main_cst_21 (constant S_ .f32 0x00000000#32),
    StableHlo.binary main_v65 main_cst_21 main_v66 ((fun x v => Host.reduceAdd x v reducesTo_S16777216x2_S16777216_d1 h_S_) : (⟨S16777216x2, .f32⟩ : BufTy).Contents (Elt F) → (⟨S_, .f32⟩ : BufTy).Contents (Elt F) → (⟨S16777216, .f32⟩ : BufTy).Contents (Elt F)),
    StableHlo.unary main_v66 main_v67 (broadcastInDim S16777216x1 ![0] bcast_S16777216_S16777216x1_0 : (⟨S16777216, .f32⟩ : BufTy).Contents (Elt F) → (⟨S16777216x1, .f32⟩ : BufTy).Contents (Elt F)),
    StableHlo.nullary main_cst_22 (constant S_ .f32 0x00000000#32),
    StableHlo.unary main_cst_22 main_v68 (broadcastInDim S16777216x1 ![] bcast_S_S16777216x1 : (⟨S_, .f32⟩ : BufTy).Contents (Elt F) → (⟨S16777216x1, .f32⟩ : BufTy).Contents (Elt F)),
    StableHlo.binary main_v67 main_v68 main_v69 (cmpf .ogt : (⟨S16777216x1, .f32⟩ : BufTy).Contents (Elt F) → (⟨S16777216x1, .f32⟩ : BufTy).Contents (Elt F) → (⟨S16777216x1, .i1⟩ : BufTy).Contents (Elt F)),
    StableHlo.nullary main_cst_23 (constant S_ .f32 0x3F800000#32),
    StableHlo.TRef.unary (StableHlo.TRef.of main_cst_23 : StableHlo.TRef sig ⟨S_, .f32⟩) main_call11.v0 id,
    StableHlo.TRef.unary main_call11.v0 main_call11.v1 (broadcastInDim S16777216x1 ![] bcast_S_S16777216x1),
    StableHlo.TRef.ternary (StableHlo.TRef.of main_v69 : StableHlo.TRef sig ⟨S16777216x1, .i1⟩) (StableHlo.TRef.of main_v67 : StableHlo.TRef sig ⟨S16777216x1, .f32⟩) main_call11.v1 main_call11.v2 select,
    StableHlo.unary main_v70 main_v71 (Host.sqrt : (⟨S16777216x1, .f32⟩ : BufTy).Contents (Elt F) → (⟨S16777216x1, .f32⟩ : BufTy).Contents (Elt F)),
    StableHlo.nullary main_cst_24 (constant S_ .f32 0x00000000#32),
    StableHlo.unary main_cst_24 main_v72 (broadcastInDim S16777216x1 ![] bcast_S_S16777216x1 : (⟨S_, .f32⟩ : BufTy).Contents (Elt F) → (⟨S16777216x1, .f32⟩ : BufTy).Contents (Elt F)),
    StableHlo.binary main_v67 main_v72 main_v73 (cmpf .ogt : (⟨S16777216x1, .f32⟩ : BufTy).Contents (Elt F) → (⟨S16777216x1, .f32⟩ : BufTy).Contents (Elt F) → (⟨S16777216x1, .i1⟩ : BufTy).Contents (Elt F)),
    StableHlo.nullary main_cst_25 (constant S_ .f32 0x00000000#32),
    StableHlo.TRef.unary (StableHlo.TRef.of main_cst_25 : StableHlo.TRef sig ⟨S_, .f32⟩) main_call12.v0 id,
    StableHlo.TRef.unary main_call12.v0 main_call12.v1 (broadcastInDim S16777216x1 ![] bcast_S_S16777216x1),
    StableHlo.TRef.ternary (StableHlo.TRef.of main_v73 : StableHlo.TRef sig ⟨S16777216x1, .i1⟩) (StableHlo.TRef.of main_v71 : StableHlo.TRef sig ⟨S16777216x1, .f32⟩) main_call12.v1 main_call12.v2 select,
    StableHlo.nullary main_cst_26 (constant S_ .f32 0x3F000000#32),
    StableHlo.unary main_cst_26 main_v75 (broadcastInDim S16777216x1 ![] bcast_S_S16777216x1 : (⟨S_, .f32⟩ : BufTy).Contents (Elt F) → (⟨S16777216x1, .f32⟩ : BufTy).Contents (Elt F)),
    StableHlo.binary main_v74 main_v75 main_v76 (maximumf : (⟨S16777216x1, .f32⟩ : BufTy).Contents (Elt F) → (⟨S16777216x1, .f32⟩ : BufTy).Contents (Elt F) → (⟨S16777216x1, .f32⟩ : BufTy).Contents (Elt F)),
    StableHlo.nullary main_cst_27 (constant S_ .f32 0x3F000000#32),
    StableHlo.unary main_cst_27 main_v77 (broadcastInDim S16777216x1 ![] bcast_S_S16777216x1 : (⟨S_, .f32⟩ : BufTy).Contents (Elt F) → (⟨S16777216x1, .f32⟩ : BufTy).Contents (Elt F)),
    StableHlo.binary main_v74 main_v77 main_v78 (cmpf .ogt : (⟨S16777216x1, .f32⟩ : BufTy).Contents (Elt F) → (⟨S16777216x1, .f32⟩ : BufTy).Contents (Elt F) → (⟨S16777216x1, .i1⟩ : BufTy).Contents (Elt F)),
    StableHlo.nullary main_cst_28 (constant S_ .f32 0x3F000000#32),
    StableHlo.unary main_cst_28 main_v79 (broadcastInDim S16777216x1 ![] bcast_S_S16777216x1 : (⟨S_, .f32⟩ : BufTy).Contents (Elt F) → (⟨S16777216x1, .f32⟩ : BufTy).Contents (Elt F)),
    StableHlo.binary main_v79 main_v76 main_v80 (Host.divf : (⟨S16777216x1, .f32⟩ : BufTy).Contents (Elt F) → (⟨S16777216x1, .f32⟩ : BufTy).Contents (Elt F) → (⟨S16777216x1, .f32⟩ : BufTy).Contents (Elt F)),
    StableHlo.nullary main_cst_29 (constant S_ .f32 0x3F800000#32),
    StableHlo.TRef.unary (StableHlo.TRef.of main_cst_29 : StableHlo.TRef sig ⟨S_, .f32⟩) main_call13.v0 id,
    StableHlo.TRef.unary main_call13.v0 main_call13.v1 (broadcastInDim S16777216x1 ![] bcast_S_S16777216x1),
    StableHlo.TRef.ternary (StableHlo.TRef.of main_v78 : StableHlo.TRef sig ⟨S16777216x1, .i1⟩) (StableHlo.TRef.of main_v80 : StableHlo.TRef sig ⟨S16777216x1, .f32⟩) main_call13.v1 main_call13.v2 select,
    StableHlo.unary main_v81 main_v82 (broadcastInDim S16777216x2 ![0, 1] bcast_S16777216x1_S16777216x2_0_1 : (⟨S16777216x1, .f32⟩ : BufTy).Contents (Elt F) → (⟨S16777216x2, .f32⟩ : BufTy).Contents (Elt F)),
    StableHlo.binary main_v64 main_v82 main_v83 (mulf : (⟨S16777216x2, .f32⟩ : BufTy).Contents (Elt F) → (⟨S16777216x2, .f32⟩ : BufTy).Contents (Elt F) → (⟨S16777216x2, .f32⟩ : BufTy).Contents (Elt F)),
    StableHlo.unary main_v63 main_v84 ((extractStridedSlice S16777216x2 ![0, 2] · slices_S16777216x4_S16777216x2_0_2) : (⟨S16777216x4, .f32⟩ : BufTy).Contents (Elt F) → (⟨S16777216x2, .f32⟩ : BufTy).Contents (Elt F)),
    StableHlo.binary main_v83 main_v84 main_v85 ((fun a b => concatenate S16777216x4 1 [⟨S16777216x2, a⟩, ⟨S16777216x2, b⟩] concatenates_S16777216x2_S16777216x2_S16777216x4_d1) : (⟨S16777216x2, .f32⟩ : BufTy).Contents (Elt F) → (⟨S16777216x2, .f32⟩ : BufTy).Contents (Elt F) → (⟨S16777216x4, .f32⟩ : BufTy).Contents (Elt F)) ]

/-- The goal offset and its square (`main_v86`, `main_v87`). -/
abbrev w8 : List (HloOp τ sig (Elt F)) :=
  [ StableHlo.binary main_arg1 main_v0 main_v86 (subf : (⟨S4096x2, .f32⟩ : BufTy).Contents (Elt F) → (⟨S4096x2, .f32⟩ : BufTy).Contents (Elt F) → (⟨S4096x2, .f32⟩ : BufTy).Contents (Elt F)),
    StableHlo.binary main_v86 main_v86 main_v87 (mulf : (⟨S4096x2, .f32⟩ : BufTy).Contents (Elt F) → (⟨S4096x2, .f32⟩ : BufTy).Contents (Elt F) → (⟨S4096x2, .f32⟩ : BufTy).Contents (Elt F)) ]

/-- The goal offset rescaled into the radius; states, clipped offset and the constant one side by side (`main_v88` … `main_v107`). -/
abbrev w9 : List (HloOp τ sig (Elt F)) :=
  [ StableHlo.nullary main_cst_30 (constant S_ .f32 0x00000000#32),
    StableHlo.binary main_v87 main_cst_30 main_v88 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    StableHlo.unary main_v88 main_v89 (broadcastInDim S4096x1 ![0] bcast_S4096_S4096x1_0 : (⟨S4096, .f32⟩ : BufTy).Contents (Elt F) → (⟨S4096x1, .f32⟩ : BufTy).Contents (Elt F)),
    StableHlo.nullary main_cst_31 (constant S_ .f32 0x00000000#32),
    StableHlo.unary main_cst_31 main_v90 (broadcastInDim S4096x1 ![] bcast_S_S4096x1 : (⟨S_, .f32⟩ : BufTy).Contents (Elt F) → (⟨S4096x1, .f32⟩ : BufTy).Contents (Elt F)),
    StableHlo.binary main_v89 main_v90 main_v91 (cmpf .ogt : (⟨S4096x1, .f32⟩ : BufTy).Contents (Elt F) → (⟨S4096x1, .f32⟩ : BufTy).Contents (Elt F) → (⟨S4096x1, .i1⟩ : BufTy).Contents (Elt F)),
    StableHlo.nullary main_cst_32 (constant S_ .f32 0x3F800000#32),
    StableHlo.TRef.unary (StableHlo.TRef.of main_cst_32 : StableHlo.TRef sig ⟨S_, .f32⟩) main_call14.v0 id,
    StableHlo.TRef.unary main_call14.v0 main_call14.v1 (broadcastInDim S4096x1 ![] bcast_S_S4096x1),
    StableHlo.TRef.ternary (StableHlo.TRef.of main_v91 : StableHlo.TRef sig ⟨S4096x1, .i1⟩) (StableHlo.TRef.of main_v89 : StableHlo.TRef sig ⟨S4096x1, .f32⟩) main_call14.v1 main_call14.v2 select,
    StableHlo.unary main_v92 main_v93 (Host.sqrt : (⟨S4096x1, .f32⟩ : BufTy).Contents (Elt F) → (⟨S4096x1, .f32⟩ : BufTy).Contents (Elt F)),
    StableHlo.nullary main_cst_33 (constant S_ .f32 0x00000000#32),
    StableHlo.unary main_cst_33 main_v94 (broadcastInDim S4096x1 ![] bcast_S_S4096x1 : (⟨S_, .f32⟩ : BufTy).Contents (Elt F) → (⟨S4096x1, .f32⟩ : BufTy).Contents (Elt F)),
    StableHlo.binary main_v89 main_v94 main_v95 (cmpf .ogt : (⟨S4096x1, .f32⟩ : BufTy).Contents (Elt F) → (⟨S4096x1, .f32⟩ : BufTy).Contents (Elt F) → (⟨S4096x1, .i1⟩ : BufTy).Contents (Elt F)),
    StableHlo.nullary main_cst_34 (constant S_ .f32 0x00000000#32),
    StableHlo.TRef.unary (StableHlo.TRef.of main_cst_34 : StableHlo.TRef sig ⟨S_, .f32⟩) main_call15.v0 id,
    StableHlo.TRef.unary main_call15.v0 main_call15.v1 (broadcastInDim S4096x1 ![] bcast_S_S4096x1),
    StableHlo.TRef.ternary (StableHlo.TRef.of main_v95 : StableHlo.TRef sig ⟨S4096x1, .i1⟩) (StableHlo.TRef.of main_v93 : StableHlo.TRef sig ⟨S4096x1, .f32⟩) main_call15.v1 main_call15.v2 select,
    StableHlo.nullary main_cst_35 (constant S_ .f32 0x3F000000#32),
    StableHlo.unary main_cst_35 main_v97 (broadcastInDim S4096x1 ![] bcast_S_S4096x1 : (⟨S_, .f32⟩ : BufTy).Contents (Elt F) → (⟨S4096x1, .f32⟩ : BufTy).Contents (Elt F)),
    StableHlo.binary main_v96 main_v97 main_v98 (maximumf : (⟨S4096x1, .f32⟩ : BufTy).Contents (Elt F) → (⟨S4096x1, .f32⟩ : BufTy).Contents (Elt F) → (⟨S4096x1, .f32⟩ : BufTy).Contents (Elt F)),
    StableHlo.nullary main_cst_36 (constant S_ .f32 0x3F000000#32),
    StableHlo.unary main_cst_36 main_v99 (broadcastInDim S4096x1 ![] bcast_S_S4096x1 : (⟨S_, .f32⟩ : BufTy).Contents (Elt F) → (⟨S4096x1, .f32⟩ : BufTy).Contents (Elt F)),
    StableHlo.binary main_v96 main_v99 main_v100 (cmpf .ogt : (⟨S4096x1, .f32⟩ : BufTy).Contents (Elt F) → (⟨S4096x1, .f32⟩ : BufTy).Contents (Elt F) → (⟨S4096x1, .i1⟩ : BufTy).Contents (Elt F)),
    StableHlo.nullary main_cst_37 (constant S_ .f32 0x3F000000#32),
    StableHlo.unary main_cst_37 main_v101 (broadcastInDim S4096x1 ![] bcast_S_S4096x1 : (⟨S_, .f32⟩ : BufTy).Contents (Elt F) → (⟨S4096x1, .f32⟩ : BufTy).Contents (Elt F)),
    StableHlo.binary main_v101 main_v98 main_v102 (Host.divf : (⟨S4096x1, .f32⟩ : BufTy).Contents (Elt F) → (⟨S4096x1, .f32⟩ : BufTy).Contents (Elt F) → (⟨S4096x1, .f32⟩ : BufTy).Contents (Elt F)),
    StableHlo.nullary main_cst_38 (constant S_ .f32 0x3F800000#32),
    StableHlo.TRef.unary (StableHlo.TRef.of main_cst_38 : StableHlo.TRef sig ⟨S_, .f32⟩) main_call16.v0 id,
    StableHlo.TRef.unary main_call16.v0 main_call16.v1 (broadcastInDim S4096x1 ![] bcast_S_S4096x1),
    StableHlo.TRef.ternary (StableHlo.TRef.of main_v100 : StableHlo.TRef sig ⟨S4096x1, .i1⟩) (StableHlo.TRef.of main_v102 : StableHlo.TRef sig ⟨S4096x1, .f32⟩) main_call16.v1 main_call16.v2 select,
    StableHlo.unary main_v103 main_v104 (broadcastInDim S4096x2 ![0, 1] bcast_S4096x1_S4096x2_0_1 : (⟨S4096x1, .f32⟩ : BufTy).Contents (Elt F) → (⟨S4096x2, .f32⟩ : BufTy).Contents (Elt F)),
    StableHlo.binary main_v86 main_v104 main_v105 (mulf : (⟨S4096x2, .f32⟩ : BufTy).Contents (Elt F) → (⟨S4096x2, .f32⟩ : BufTy).Contents (Elt F) → (⟨S4096x2, .f32⟩ : BufTy).Contents (Elt F)),
    StableHlo.nullary main_cst_39 (constant S_ .f32 0x3F800000#32),
    StableHlo.unary main_cst_39 main_v106 (broadcastInDim S4096x1 ![] bcast_S_S4096x1 : (⟨S_, .f32⟩ : BufTy).Contents (Elt F) → (⟨S4096x1, .f32⟩ : BufTy).Contents (Elt F)),
    StableHlo.nary ![main_arg0, main_v105, main_v106] main_v107 (fun u => concatenate S4096x7 1 [⟨S4096x4, u 0⟩, ⟨S4096x2, u 1⟩, ⟨S4096x1, u 2⟩] concatenates_S4096x4_S4096x2_S4096x1_S4096x7_d1) ]

/-- The operations of @main's first sixty statements. -/
abbrev ops0 : List (HloOp τ sig (Elt F)) := w0 ++ (w1 ++ (w2 ++ (w3 ++ w4)))
/-- The operations of @main's statements 61 … 120. -/
abbrev ops1 : List (HloOp τ sig (Elt F)) := w5 ++ (w6 ++ (w7 ++ w8))
/-- The operations of @main's last thirty-one statements. -/
abbrev ops2 : List (HloOp τ sig (Elt F)) := w9
/-- @main's 248 operations, in order. -/
abbrev ops : List (HloOp τ sig (Elt F)) := ops0 ++ (ops1 ++ ops2)

/-! ## @main is that straight line -/

set_option maxRecDepth 65536 in
/-- The calls unfold to their bodies over the call's buffers, and sequencing re-associates: both sides are one chain of steps. -/
theorem main_part0_eq (c : Dev nD) : main_part0 (F := F) c = seq ops0 := rfl

set_option maxRecDepth 65536 in
/-- The calls unfold to their bodies over the call's buffers, and sequencing re-associates: both sides are one chain of steps. -/
theorem main_part1_eq (c : Dev nD) : main_part1 (F := F) c = seq ops1 := rfl

set_option maxRecDepth 65536 in
/-- The calls unfold to their bodies over the call's buffers, and sequencing re-associates: both sides are one chain of steps. -/
theorem main_part2_eq (c : Dev nD) : main_part2 (F := F) c = seq ops2 := rfl

theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only -/

theorem w0_sub : (w0 : List (HloOp τ sig (Elt F))).Forall fun op => op.bufs ⊆ tcRefs τ sig :=
  ⟨unary_bufs_sub .., unary_bufs_sub .., unary_bufs_sub .., unary_bufs_sub .., unary_bufs_sub .., binary_bufs_sub ..,
    binary_bufs_sub .., nullary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., nullary_bufs_sub .., unary_bufs_sub .., unary_bufs_sub .., ternary_bufs_sub ..,
    nullary_bufs_sub .., unary_bufs_sub .., binary_bufs_sub .., nullary_bufs_sub .., nullary_bufs_sub .., nullary_bufs_sub ..,
    unary_bufs_sub .., binary_bufs_sub .., binary_bufs_sub .., binary_bufs_sub ..⟩
theorem w1_sub : (w1 : List (HloOp τ sig (Elt F))).Forall fun op => op.bufs ⊆ tcRefs τ sig :=
  ⟨reshape_bufs_sub .., unary_bufs_sub .., nullary_bufs_sub .., unary_bufs_sub .., binary_bufs_sub .., nullary_bufs_sub ..,
    unary_bufs_sub .., nullary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., nullary_bufs_sub .., unary_bufs_sub .., ternary_bufs_sub .., nullary_bufs_sub .., unary_bufs_sub ..,
    binary_bufs_sub ..⟩
theorem w2_sub : (w2 : List (HloOp τ sig (Elt F))).Forall fun op => op.bufs ⊆ tcRefs τ sig :=
  ⟨nullary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..⟩
theorem w3_sub : (w3 : List (HloOp τ sig (Elt F))).Forall fun op => op.bufs ⊆ tcRefs τ sig :=
  ⟨nullary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..⟩
theorem w4_sub : (w4 : List (HloOp τ sig (Elt F))).Forall fun op => op.bufs ⊆ tcRefs τ sig :=
  ⟨nullary_bufs_sub .., unary_bufs_sub .., nullary_bufs_sub .., binary_bufs_sub .., unary_bufs_sub ..⟩
theorem w5_sub : (w5 : List (HloOp τ sig (Elt F))).Forall fun op => op.bufs ⊆ tcRefs τ sig :=
  ⟨binary_bufs_sub .., nullary_bufs_sub .., unary_bufs_sub .., unary_bufs_sub .., ternary_bufs_sub .., nullary_bufs_sub ..,
    unary_bufs_sub .., unary_bufs_sub .., ternary_bufs_sub .., unary_bufs_sub .., unary_bufs_sub .., binary_bufs_sub ..⟩
theorem w6_sub : (w6 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub ..⟩
theorem w7_sub : (w7 : List (HloOp τ sig (Elt F))).Forall fun op => op.bufs ⊆ tcRefs τ sig :=
  ⟨unary_bufs_sub .., binary_bufs_sub .., nullary_bufs_sub .., binary_bufs_sub .., unary_bufs_sub .., nullary_bufs_sub ..,
    unary_bufs_sub .., binary_bufs_sub .., nullary_bufs_sub .., unary_bufs_sub .., unary_bufs_sub .., ternary_bufs_sub ..,
    unary_bufs_sub .., nullary_bufs_sub .., unary_bufs_sub .., binary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., binary_bufs_sub .., unary_bufs_sub ..,
    binary_bufs_sub ..⟩
theorem w8_sub : (w8 : List (HloOp τ sig (Elt F))).Forall fun op => op.bufs ⊆ tcRefs τ sig :=
  ⟨binary_bufs_sub .., binary_bufs_sub ..⟩
theorem w9_sub : (w9 : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., binary_bufs_sub .., nullary_bufs_sub .., unary_bufs_sub .., nary_bufs_sub ..⟩

theorem ops_sub : (ops : List (HloOp τ sig (Elt F))).Forall fun op => op.bufs ⊆ tcRefs τ sig :=
  List.forall_iff_forall_mem.mpr fun op h => by
    simp only [ops, ops0, ops1, ops2, List.mem_append] at h
    rcases h with (h | h | h | h | h) | (h | h | h | h) | h
    exacts [List.forall_iff_forall_mem.mp w0_sub op h, List.forall_iff_forall_mem.mp w1_sub op h, List.forall_iff_forall_mem.mp w2_sub op h, List.forall_iff_forall_mem.mp w3_sub op h, List.forall_iff_forall_mem.mp w4_sub op h, List.forall_iff_forall_mem.mp w5_sub op h, List.forall_iff_forall_mem.mp w6_sub op h, List.forall_iff_forall_mem.mp w7_sub op h, List.forall_iff_forall_mem.mp w8_sub op h, List.forall_iff_forall_mem.mp w9_sub op h]

/-! ## What each stretch writes -/

/-- The buffers stretch `w0` writes. -/
abbrev w0_W : List (Ref sig .tc) := [main_v0, main_v1, main_v2, main_v3, main_v4, main_v5, main_v6, main_cst, main_v7, main_cst_0, main_v8, main_v9, main_cst_1, main_call0_v0, main_call0_v1, main_v10, main_v11, main_cst_2, main_v12, main_v13, main_cst_3, main_call1_v0, main_call1_v1, main_v14, main_cst_4, main_v15, main_v16, main_v17, main_v18, main_c, main_v19, main_v20, main_v21, main_v22]
theorem w0_writes : (w0 : List (HloOp τ sig (Elt F))).Forall fun op => op.writes ⊆ (w0_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A buffer stretch `w0` does not write keeps its contents through it. -/
theorem w0_keep (V : Valuation τ sig (Elt F)) (r : Ref sig .tc) (h : r ∉ w0_W) :
    after w0 V (Proc.devRef .tc r) = V (Proc.devRef .tc r) :=
  after_of_writes_sub w0 V w0_writes h

/-- The buffers stretch `w1` writes. -/
abbrev w1_W : List (Ref sig .tc) := [main_call2_v0, main_call2_v1, main_call2_call0_c, main_call2_call0_v0, main_v23, main_c_5, main_v24, main_c_6, main_call3_v0, main_call3_v1, main_v25, main_c_7, main_v26, main_v27, main_c_8, main_v28, main_v29, main_v30, main_v31, main_c_9, main_v32, main_v33, main_call4_call0_c, main_call4_call0_v0, main_v34]
theorem w1_writes : (w1 : List (HloOp τ sig (Elt F))).Forall fun op => op.writes ⊆ (w1_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A buffer stretch `w1` does not write keeps its contents through it. -/
theorem w1_keep (V : Valuation τ sig (Elt F)) (r : Ref sig .tc) (h : r ∉ w1_W) :
    after w1 V (Proc.devRef .tc r) = V (Proc.devRef .tc r) :=
  after_of_writes_sub w1 V w1_writes h

/-- The buffers stretch `w2` writes. -/
abbrev w2_W : List (Ref sig .tc) := [main_c_10, main_call5_v0, main_call5_v1, main_call5_v2, main_call5_v3, main_call5_v4, main_call5_v5, main_call5_v6, main_call5_v7, main_call5_c, main_call5_v8, main_call5_v9, main_call5_v10, main_call5_c_0, main_call5_v11, main_call5_v12, main_v35, main_c_11, main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v36]
theorem w2_writes : (w2 : List (HloOp τ sig (Elt F))).Forall fun op => op.writes ⊆ (w2_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A buffer stretch `w2` does not write keeps its contents through it. -/
theorem w2_keep (V : Valuation τ sig (Elt F)) (r : Ref sig .tc) (h : r ∉ w2_W) :
    after w2 V (Proc.devRef .tc r) = V (Proc.devRef .tc r) :=
  after_of_writes_sub w2 V w2_writes h

/-- The buffers stretch `w3` writes. -/
abbrev w3_W : List (Ref sig .tc) := [main_c_12, main_call7_v0, main_call7_v1, main_call7_v2, main_call7_v3, main_call7_v4, main_call7_v5, main_call7_v6, main_call7_v7, main_call7_c, main_call7_v8, main_call7_v9, main_call7_v10, main_call7_c_0, main_call7_v11, main_call7_v12, main_v37, main_c_13, main_call8_v0, main_call8_c, main_call8_v1, main_call8_c_0, main_call8_v2, main_call8_v3, main_call8_v4, main_call8_c_1, main_call8_v5, main_call8_v6, main_call8_c_2, main_call8_v7, main_call8_v8, main_call8_c_3, main_call8_v9, main_call8_v10, main_call8_v11, main_call8_v12, main_call8_v13, main_call8_v14, main_v38]
theorem w3_writes : (w3 : List (HloOp τ sig (Elt F))).Forall fun op => op.writes ⊆ (w3_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A buffer stretch `w3` does not write keeps its contents through it. -/
theorem w3_keep (V : Valuation τ sig (Elt F)) (r : Ref sig .tc) (h : r ∉ w3_W) :
    after w3 V (Proc.devRef .tc r) = V (Proc.devRef .tc r) :=
  after_of_writes_sub w3 V w3_writes h

/-- The buffers stretch `w4` writes. -/
abbrev w4_W : List (Ref sig .tc) := [main_v39, main_v40, main_c_14, main_v41, main_v42]
theorem w4_writes : (w4 : List (HloOp τ sig (Elt F))).Forall fun op => op.writes ⊆ (w4_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A buffer stretch `w4` does not write keeps its contents through it. -/
theorem w4_keep (V : Valuation τ sig (Elt F)) (r : Ref sig .tc) (h : r ∉ w4_W) :
    after w4 V (Proc.devRef .tc r) = V (Proc.devRef .tc r) :=
  after_of_writes_sub w4 V w4_writes h

/-- The buffers stretch `w5` writes. -/
abbrev w5_W : List (Ref sig .tc) := [main_v43, main_c_15, main_call9_v0, main_call9_v1, main_v44, main_c_16, main_call10_v0, main_call10_v1, main_v45, main_v46, main_v47, main_v48]
theorem w5_writes : (w5 : List (HloOp τ sig (Elt F))).Forall fun op => op.writes ⊆ (w5_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A buffer stretch `w5` does not write keeps its contents through it. -/
theorem w5_keep (V : Valuation τ sig (Elt F)) (r : Ref sig .tc) (h : r ∉ w5_W) :
    after w5 V (Proc.devRef .tc r) = V (Proc.devRef .tc r) :=
  after_of_writes_sub w5 V w5_writes h

/-- The buffers stretch `w6` writes. -/
abbrev w6_W : List (Ref sig .tc) := [main_c_17, main_v49, main_v50, main_c_18, main_v51, main_v52, main_v53, main_v54, main_v55, main_c_19, main_v56, main_v57, main_c_20, main_v58, main_v59, main_v60, main_v61, main_v62, main_v63]
theorem w6_writes : (w6 : List (HloOp τ sig (Elt F))).Forall fun op => op.writes ⊆ (w6_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A buffer stretch `w6` does not write keeps its contents through it. -/
theorem w6_keep (V : Valuation τ sig (Elt F)) (r : Ref sig .tc) (h : r ∉ w6_W) :
    after w6 V (Proc.devRef .tc r) = V (Proc.devRef .tc r) :=
  after_of_writes_sub w6 V w6_writes h

/-- The buffers stretch `w7` writes. -/
abbrev w7_W : List (Ref sig .tc) := [main_v64, main_v65, main_cst_21, main_v66, main_v67, main_cst_22, main_v68, main_v69, main_cst_23, main_call11_v0, main_call11_v1, main_v70, main_v71, main_cst_24, main_v72, main_v73, main_cst_25, main_call12_v0, main_call12_v1, main_v74, main_cst_26, main_v75, main_v76, main_cst_27, main_v77, main_v78, main_cst_28, main_v79, main_v80, main_cst_29, main_call13_v0, main_call13_v1, main_v81, main_v82, main_v83, main_v84, main_v85]
theorem w7_writes : (w7 : List (HloOp τ sig (Elt F))).Forall fun op => op.writes ⊆ (w7_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A buffer stretch `w7` does not write keeps its contents through it. -/
theorem w7_keep (V : Valuation τ sig (Elt F)) (r : Ref sig .tc) (h : r ∉ w7_W) :
    after w7 V (Proc.devRef .tc r) = V (Proc.devRef .tc r) :=
  after_of_writes_sub w7 V w7_writes h

/-- The buffers stretch `w8` writes. -/
abbrev w8_W : List (Ref sig .tc) := [main_v86, main_v87]
theorem w8_writes : (w8 : List (HloOp τ sig (Elt F))).Forall fun op => op.writes ⊆ (w8_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A buffer stretch `w8` does not write keeps its contents through it. -/
theorem w8_keep (V : Valuation τ sig (Elt F)) (r : Ref sig .tc) (h : r ∉ w8_W) :
    after w8 V (Proc.devRef .tc r) = V (Proc.devRef .tc r) :=
  after_of_writes_sub w8 V w8_writes h

/-- The buffers stretch `w9` writes. -/
abbrev w9_W : List (Ref sig .tc) := [main_cst_30, main_v88, main_v89, main_cst_31, main_v90, main_v91, main_cst_32, main_call14_v0, main_call14_v1, main_v92, main_v93, main_cst_33, main_v94, main_v95, main_cst_34, main_call15_v0, main_call15_v1, main_v96, main_cst_35, main_v97, main_v98, main_cst_36, main_v99, main_v100, main_cst_37, main_v101, main_v102, main_cst_38, main_call16_v0, main_call16_v1, main_v103, main_v104, main_v105, main_cst_39, main_v106, main_v107]
theorem w9_writes : (w9 : List (HloOp τ sig (Elt F))).Forall fun op => op.writes ⊆ (w9_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A buffer stretch `w9` does not write keeps its contents through it. -/
theorem w9_keep (V : Valuation τ sig (Elt F)) (r : Ref sig .tc) (h : r ∉ w9_W) :
    after w9 V (Proc.devRef .tc r) = V (Proc.devRef .tc r) :=
  after_of_writes_sub w9 V w9_writes h

/-- The fold over the whole line is the stretches' folds, one after the other. -/
theorem after_ops (V : Valuation τ sig (Elt F)) :
    after ops V = after w9 (after w8 (after w7 (after w6 (after w5 (after w4 (after w3 (after w2 (after w1 (after w0 (V)))))))))) := by
  simp only [ops, ops0, ops1, ops2, after_append]

/-- No operation writes an argument array. -/
theorem after_ops_arg (V : Valuation τ sig (Elt F)) (r : Ref sig .tc)
    (h : r ∉ w0_W ∧ r ∉ w1_W ∧ r ∉ w2_W ∧ r ∉ w3_W ∧ r ∉ w4_W ∧ r ∉ w5_W ∧ r ∉ w6_W ∧ r ∉ w7_W ∧ r ∉ w8_W ∧ r ∉ w9_W) :
    after ops V (Proc.devRef .tc r) = V (Proc.devRef .tc r) := by
  obtain ⟨h0, h1, h2, h3, h4, h5, h6, h7, h8, h9⟩ := h
  rw [after_ops, w9_keep _ r h9, w8_keep _ r h8, w7_keep _ r h7, w6_keep _ r h6, w5_keep _ r h5, w4_keep _ r h4, w3_keep _ r h3, w2_keep _ r h2, w1_keep _ r h1, w0_keep _ r h0]

theorem after_ops_arg0 (V : Valuation τ sig (Elt F)) : after ops V (Proc.devRef .tc main_arg0) = V (Proc.devRef .tc main_arg0) :=
  after_ops_arg V main_arg0 (by decide)
theorem after_ops_arg1 (V : Valuation τ sig (Elt F)) : after ops V (Proc.devRef .tc main_arg1) = V (Proc.devRef .tc main_arg1) :=
  after_ops_arg V main_arg1 (by decide)

/-! ## The run -/

/-- On every device, for any float values, from any memory with zero counters: every weakly fair execution of
    @main terminates, and every final state has each TensorCore buffer at the fold of the operations over the
    launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefRun

end
-- ==== Proof.RefRun.lean ====
/- The reference program's run, with its three results named: every weakly fair execution of @main
   terminates with each result buffer at the fold of @main's operations over the launch contents, and
   with the two argument arrays as they were. -/
import proofs.«174933_j45260365365646_1_alg».proof.Proof.RefRunA

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The node features (states, clipped goal offset, the constant one) after the run: the operations' fold at `main_v107`. -/
def res107 (m : (ℓ : Loc nD τ sig) → Buf (Elt F) ℓ) (c : Dev nD) : (⟨S4096x7, .f32⟩ : BufTy).Contents (Elt F) :=
  after ops (launchContents m c) (Proc.devRef .tc main_v107)

/-- The stacked sender and receiver indices after the run: the operations' fold at `main_v48`. -/
def res48 (m : (ℓ : Loc nD τ sig) → Buf (Elt F) ℓ) (c : Dev nD) : (⟨S2x16777216, .i32⟩ : BufTy).Contents (Elt F) :=
  after ops (launchContents m c) (Proc.devRef .tc main_v48)

/-- The edge features after the run: the operations' fold at `main_v85`. -/
def res85 (m : (ℓ : Loc nD τ sig) → Buf (Elt F) ℓ) (c : Dev nD) : (⟨S16777216x4, .f32⟩ : BufTy).Contents (Elt F) :=
  after ops (launchContents m c) (Proc.devRef .tc main_v85)

theorem res107_eq (m : (ℓ : Loc nD τ sig) → Buf (Elt F) ℓ) (c : Dev nD) :
    res107 m c = after ops (launchContents m c) (Proc.devRef .tc main_v107) := rfl
theorem res48_eq (m : (ℓ : Loc nD τ sig) → Buf (Elt F) ℓ) (c : Dev nD) :
    res48 m c = after ops (launchContents m c) (Proc.devRef .tc main_v48) := rfl
theorem res85_eq (m : (ℓ : Loc nD τ sig) → Buf (Elt F) ℓ) (c : Dev nD) :
    res85 m c = after ops (launchContents m c) (Proc.devRef .tc main_v85) := rfl

/-- On every device, for any float values, from any memory with zero counters: every weakly fair execution of
    @main terminates with each result at the operations' fold over the launch contents and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      (r.2.mem ((c.tc : Thread nD τ).loc main_v107) = res107 m c
        ∧ r.2.mem ((c.tc : Thread nD τ).loc main_v48) = res48 m c
        ∧ r.2.mem ((c.tc : Thread nD τ).loc main_v85) = res85 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨⟨h c main_v107, h c main_v48, h c main_v85⟩,
      (h c main_arg0).trans (after_ops_arg0 _), (h c main_arg1).trans (after_ops_arg1 _)⟩)
    (run_all m ρ)

end Cert.ReferenceIdeal.RefRun

end
-- ==== Proof.EdgeValue.lean ====
/-
  What the edge-feature rescale region leaves in its output array, as ONE function of the array it read, with
  floats read as extended reals.

  The input is a [4,16777216] array: column `e` holds one candidate edge, rows 0 and 1 its planar offset (x, y),
  rows 2 and 3 two further features. With d = sqrt(x·x + y·y), the edge's factor is one half over max(d, one half)
  when d exceeds one half and 1 otherwise, so an offset longer than one half is pulled back onto the circle of
  that radius. Rows 0 and 1 of the output are x and y times the factor, rows 2 and 3 are copied.

  The region computes this blockwise: grid point `t` reads columns 65536·t … 65536·t+65535 of all four rows and
  writes the same columns of the output. A column's result depends on that column alone, so each written block
  is the restriction of one whole-array function `G1`; the 256 blocks tile the columns, so the array ends at `G1`.
-/
import proofs.«174933_j45260365365646_1_alg».proof.Proof.EdgeRegion
import Idealize.ShloMosaic.Lib.Pipeline.Value
import Idealize.ShloMosaic.Lib.ValueIdx

set_option maxRecDepth 16384

noncomputable section

namespace Cert.KernelIdeal.EdgeValue

open Cert.KernelIdeal Cert.KernelIdeal.Gen Cert.KernelIdeal.Edge
open Idealize.ShloMosaic Idealize.ShloMosaic.TcCoe Idealize.SL.Sem Idealize.ShloMosaic.ValueIdx
open Idealize.ShloMosaic.Pipeline (Dat)

/-! ## The specification -/

/-- One half, as the body's literal. -/
abbrev half : EReal := Ideal.ofBits .f32 0x3F000000#32
/-- One, as the body's literal. -/
abbrev one : EReal := Ideal.ofBits .f32 0x3F800000#32

/-- The factor of an edge with planar offset (x, y): with d = sqrt(x·x + y·y), one half over max(d, one half) when
    d exceeds one half, and 1 otherwise. -/
def scale (x y : EReal) : EReal :=
  Scalar.select (Ideal.cmp .ogt (Ideal.sqrt (x * x + y * y)) half)
    (Ideal.div half (max (Ideal.sqrt (x * x + y * y)) half)) one

/-- Entry (r, e) of the rescaled features of a four-row array `a`: rows 0 and 1 times the factor of column `e`,
    rows 2 and 3 as they are. -/
def rescaled {n : Nat} (a : (⟨2, ![4, n]⟩ : Shape).Idx → EReal) (r : Fin 4) (e : Fin n) : EReal :=
  if r.val = 0 then a (ix2 (0 : Fin 4) e) * scale (a (ix2 (0 : Fin 4) e)) (a (ix2 (1 : Fin 4) e))
  else if r.val = 1 then a (ix2 (1 : Fin 4) e) * scale (a (ix2 (0 : Fin 4) e)) (a (ix2 (1 : Fin 4) e))
  else a (ix2 r e)

/-- THE OUTPUT ARRAY as one function of the input array, index by index. -/
def G1 (a : S4x16777216.Idx → EReal) : S4x16777216.Idx → EReal := fun i => rescaled a (i 0) (i 1)

theorem G1_apply (a : S4x16777216.Idx → EReal) (r : Fin 4) (e : Fin 16777216) : G1 a (ix2 r e) = rescaled a r e := rfl

/-- Row 0: x times the column's factor. -/
theorem G1_row0 (a : S4x16777216.Idx → EReal) (e : Fin 16777216) :
    G1 a (ix2 (0 : Fin 4) e) = a (ix2 (0 : Fin 4) e) * scale (a (ix2 (0 : Fin 4) e)) (a (ix2 (1 : Fin 4) e)) := by
  rw [G1_apply]; unfold rescaled; rw [if_pos (by decide)]
/-- Row 1: y times the column's factor. -/
theorem G1_row1 (a : S4x16777216.Idx → EReal) (e : Fin 16777216) :
    G1 a (ix2 (1 : Fin 4) e) = a (ix2 (1 : Fin 4) e) * scale (a (ix2 (0 : Fin 4) e)) (a (ix2 (1 : Fin 4) e)) := by
  rw [G1_apply]; unfold rescaled; rw [if_neg (by decide), if_pos (by decide)]
/-- Rows 2 and 3: the entry. -/
theorem G1_row2 (a : S4x16777216.Idx → EReal) (e : Fin 16777216) : G1 a (ix2 (2 : Fin 4) e) = a (ix2 (2 : Fin 4) e) := by
  rw [G1_apply]; unfold rescaled; rw [if_neg (by decide), if_neg (by decide)]
theorem G1_row3 (a : S4x16777216.Idx → EReal) (e : Fin 16777216) : G1 a (ix2 (3 : Fin 4) e) = a (ix2 (3 : Fin 4) e) := by
  rw [G1_apply]; unfold rescaled; rw [if_neg (by decide), if_neg (by decide)]

/-! ## The body's stored rows at an index

Each stored row is a [1,65536] vector; its entry at column `e` is read through the body's slices and reshapes down
to entries of the block that was loaded. -/

theorem pay1_eq (x0 : Vec Ideal S4x65536 .f32) : k1_pay1 x0 = x0 := shapeCast_self _ _

/-- Column `e` of a [1,65536] row and entry `e` of the flat [65536] vector sit at the same row-major position. -/
theorem flat_of_row (e : Fin 65536) : (S1x65536.rowMajor (ix2 (0 : Fin 1) e)).val = (S65536.rowMajor (ix1 e)).val := by
  rw [Shape.rowMajor_val_two, Shape.rowMajor_val_one]
  show 0 * 65536 + e.val = e.val
  omega

/-- The x row, flat. -/
theorem pay2_apply (x0 : Vec Ideal S4x65536 .f32) (e : Fin 65536) : k1_pay2 x0 (ix1 e) = x0 (ix2 (0 : Fin 4) e) := by
  unfold k1_pay2
  rw [pay1_eq]
  refine (shapeCast_apply _ _ (ix1 e) (ix2 (0 : Fin 1) e) (flat_of_row e)).trans ?_
  refine extractStridedSlice_apply _ _ _ _ (ix2 (0 : Fin 4) e) fun a => ?_
  match a with
  | ⟨0, _⟩ => rfl
  | ⟨1, _⟩ => show e.val = 0 + e.val; omega

/-- The y row, flat. -/
theorem pay3_apply (x0 : Vec Ideal S4x65536 .f32) (e : Fin 65536) : k1_pay3 x0 (ix1 e) = x0 (ix2 (1 : Fin 4) e) := by
  unfold k1_pay3
  rw [pay1_eq]
  refine (shapeCast_apply _ _ (ix1 e) (ix2 (0 : Fin 1) e) (flat_of_row e)).trans ?_
  refine extractStridedSlice_apply _ _ _ _ (ix2 (1 : Fin 4) e) fun a => ?_
  match a with
  | ⟨0, _⟩ => rfl
  | ⟨1, _⟩ => show e.val = 0 + e.val; omega

/-- The factor of column `e`: the body's chain of pointwise operations is `scale` of the column's x and y. -/
theorem pay4_apply (x0 : Vec Ideal S4x65536 .f32) (e : Fin 65536) :
    k1_pay4 x0 (ix1 e) = scale (x0 (ix2 (0 : Fin 4) e)) (x0 (ix2 (1 : Fin 4) e)) := by
  show scale (k1_pay2 x0 (ix1 e)) (k1_pay3 x0 (ix1 e)) = _
  rw [pay2_apply, pay3_apply]

/-- Stored row 0. -/
theorem pay5_apply (x0 : Vec Ideal S4x65536 .f32) (e : Fin 65536) :
    k1_pay5 x0 (ix2 (0 : Fin 1) e) = x0 (ix2 (0 : Fin 4) e) * scale (x0 (ix2 (0 : Fin 4) e)) (x0 (ix2 (1 : Fin 4) e)) := by
  unfold k1_pay5
  refine (shapeCast_apply _ _ (ix2 (0 : Fin 1) e) (ix1 e) (flat_of_row e).symm).trans ?_
  show k1_pay2 x0 (ix1 e) * k1_pay4 x0 (ix1 e) = _
  rw [pay2_apply, pay4_apply]

/-- Stored row 1. -/
theorem pay6_apply (x0 : Vec Ideal S4x65536 .f32) (e : Fin 65536) :
    k1_pay6 x0 (ix2 (0 : Fin 1) e) = x0 (ix2 (1 : Fin 4) e) * scale (x0 (ix2 (0 : Fin 4) e)) (x0 (ix2 (1 : Fin 4) e)) := by
  unfold k1_pay6
  refine (shapeCast_apply _ _ (ix2 (0 : Fin 1) e) (ix1 e) (flat_of_row e).symm).trans ?_
  show k1_pay3 x0 (ix1 e) * k1_pay4 x0 (ix1 e) = _
  rw [pay3_apply, pay4_apply]

/-- Stored row 2. -/
theorem pay7_apply (x0 : Vec Ideal S4x65536 .f32) (e : Fin 65536) :
    k1_pay7 x0 (ix2 (0 : Fin 1) e) = x0 (ix2 (2 : Fin 4) e) := by
  unfold k1_pay7
  rw [pay1_eq]
  refine (shapeCast_apply _ _ (ix2 (0 : Fin 1) e) (ix1 e) (flat_of_row e).symm).trans ?_
  refine (shapeCast_apply _ _ (ix1 e) (ix2 (0 : Fin 1) e) (flat_of_row e)).trans ?_
  refine extractStridedSlice_apply _ _ _ _ (ix2 (2 : Fin 4) e) fun a => ?_
  match a with
  | ⟨0, _⟩ => rfl
  | ⟨1, _⟩ => show e.val = 0 + e.val; omega

/-- Stored row 3. -/
theorem pay8_apply (x0 : Vec Ideal S4x65536 .f32) (e : Fin 65536) :
    k1_pay8 x0 (ix2 (0 : Fin 1) e) = x0 (ix2 (3 : Fin 4) e) := by
  unfold k1_pay8
  rw [pay1_eq]
  refine (shapeCast_apply _ _ (ix2 (0 : Fin 1) e) (ix1 e) (flat_of_row e).symm).trans ?_
  refine (shapeCast_apply _ _ (ix1 e) (ix2 (0 : Fin 1) e) (flat_of_row e)).trans ?_
  refine extractStridedSlice_apply _ _ _ _ (ix2 (3 : Fin 4) e) fun a => ?_
  match a with
  | ⟨0, _⟩ => rfl
  | ⟨1, _⟩ => show e.val = 0 + e.val; omega

/-! ## The output buffer after the body, as one function of the input block -/

theorem hz : (![0, 0] : Fin 2 → Nat) = fun _ => 0 := funext fun a => by fin_cases a <;> rfl

/-- Where the four row rectangles put column `e` of their [1,65536] payloads. -/
theorem row0_emb (e : Fin 65536) : rRow0.emb (ix2 (0 : Fin 1) e) = ix2 (0 : Fin 4) e := by
  funext a; apply Fin.ext
  match a with
  | ⟨0, _⟩ => rfl
  | ⟨1, _⟩ => show 0 + 1 * e.val = e.val; omega
theorem row1_emb (e : Fin 65536) : rRow1.emb (ix2 (0 : Fin 1) e) = ix2 (1 : Fin 4) e := by
  funext a; apply Fin.ext
  match a with
  | ⟨0, _⟩ => rfl
  | ⟨1, _⟩ => show 0 + 1 * e.val = e.val; omega
theorem row2_emb (e : Fin 65536) : rRow2.emb (ix2 (0 : Fin 1) e) = ix2 (2 : Fin 4) e := by
  funext a; apply Fin.ext
  match a with
  | ⟨0, _⟩ => rfl
  | ⟨1, _⟩ => show 0 + 1 * e.val = e.val; omega
theorem row3_emb (e : Fin 65536) : rRow3.emb (ix2 (0 : Fin 1) e) = ix2 (3 : Fin 4) e := by
  funext a; apply Fin.ext
  match a with
  | ⟨0, _⟩ => rfl
  | ⟨1, _⟩ => show 0 + 1 * e.val = e.val; omega

/-- Each stored row, at any index of its rectangle, is the block's rescaled features where the rectangle puts it. -/
theorem row3_piece (x0 : Vec Ideal S4x65536 .f32) (x : rRow3.shape.Idx) :
    k1_pay8 x0 x = rescaled x0 ((rRow3.emb x) 0) ((rRow3.emb x) 1) := by
  obtain ⟨q, f, rfl⟩ : ∃ (q : Fin 1) (f : Fin 65536), x = ix2 q f := ⟨x 0, x 1, eq_ix2 x⟩
  obtain rfl : q = 0 := Subsingleton.elim _ _
  rw [row3_emb, pay8_apply]
  show _ = rescaled x0 (3 : Fin 4) f
  unfold rescaled; rw [if_neg (by decide), if_neg (by decide)]
theorem row2_piece (x0 : Vec Ideal S4x65536 .f32) (x : rRow2.shape.Idx) :
    k1_pay7 x0 x = rescaled x0 ((rRow2.emb x) 0) ((rRow2.emb x) 1) := by
  obtain ⟨q, f, rfl⟩ : ∃ (q : Fin 1) (f : Fin 65536), x = ix2 q f := ⟨x 0, x 1, eq_ix2 x⟩
  obtain rfl : q = 0 := Subsingleton.elim _ _
  rw [row2_emb, pay7_apply]
  show _ = rescaled x0 (2 : Fin 4) f
  unfold rescaled; rw [if_neg (by decide), if_neg (by decide)]
theorem row1_piece (x0 : Vec Ideal S4x65536 .f32) (x : rRow1.shape.Idx) :
    k1_pay6 x0 x = rescaled x0 ((rRow1.emb x) 0) ((rRow1.emb x) 1) := by
  obtain ⟨q, f, rfl⟩ : ∃ (q : Fin 1) (f : Fin 65536), x = ix2 q f := ⟨x 0, x 1, eq_ix2 x⟩
  obtain rfl : q = 0 := Subsingleton.elim _ _
  rw [row1_emb, pay6_apply]
  show _ = rescaled x0 (1 : Fin 4) f
  unfold rescaled; rw [if_neg (by decide), if_pos (by decide)]
theorem row0_piece (x0 : Vec Ideal S4x65536 .f32) (x : rRow0.shape.Idx) :
    k1_pay5 x0 x = rescaled x0 ((rRow0.emb x) 0) ((rRow0.emb x) 1) := by
  obtain ⟨q, f, rfl⟩ : ∃ (q : Fin 1) (f : Fin 65536), x = ix2 q f := ⟨x 0, x 1, eq_ix2 x⟩
  obtain rfl : q = 0 := Subsingleton.elim _ _
  rw [row0_emb, pay5_apply]
  show _ = rescaled x0 (0 : Fin 4) f
  unfold rescaled; rw [if_pos (by decide)]

/-- The four stored rows are the four rows of the block's rescaled features, so the buffer ends holding them. -/
theorem out1_1_apply (x0 : Vec Ideal S4x65536 .f32) (r : Fin 4) (e : Fin 65536) :
    out1_1 x0 (ix2 r e) = rescaled x0 r e := by
  unfold out1_1
  rw [View.ld_unit_zero (S := S4x65536) hz]
  refine View.canon_apply_of_pieces (Val := Elt Ideal) (e := .f32) (fun y : S4x65536.Idx => rescaled x0 (y 0) (y 1)) _ ?_ (ix2 r e) (cover1_1 _ _ _ _ (ix2 r e))
  intro p hp x
  simp only [List.mem_cons, List.not_mem_nil, or_false] at hp
  rcases hp with rfl | rfl | rfl | rfl
  · exact row3_piece x0 x
  · exact row2_piece x0 x
  · exact row1_piece x0 x
  · exact row0_piece x0 x

/-- A block whose entries are the array's at columns `65536·T + e` is rescaled to the array's rescaled features at
    those columns: a column's result depends on that column alone. -/
theorem block_eq (x : Vec Ideal S4x65536 .f32) (a : S4x16777216.Idx → EReal) (T : Nat)
    (hx : ∀ (r : Fin 4) (e : Fin 65536) (k : Fin 16777216), k.val = T * 65536 + e.val → x (ix2 r e) = a (ix2 r k))
    (y : S4x65536.Idx) (i : S4x16777216.Idx) (h0 : (i 0).val = (y 0).val) (h1 : (i 1).val = T * 65536 + (y 1).val) :
    out1_1 x y = G1 a i := by
  obtain ⟨r, e, rfl⟩ : ∃ (r : Fin 4) (e : Fin 65536), y = ix2 r e := ⟨y 0, y 1, eq_ix2 y⟩
  obtain ⟨r', k, rfl⟩ : ∃ (r' : Fin 4) (k : Fin 16777216), i = ix2 r' k := ⟨i 0, i 1, eq_ix2 i⟩
  obtain rfl : r' = r := Fin.ext h0
  rw [out1_1_apply, G1_apply]
  unfold rescaled
  rw [hx 0 e k h1, hx 1 e k h1, hx r' e k h1]

/-! ## From blocks to the array -/

variable (V : (c : Dev nD) → (b : Ref sig .tc) → Buf (Elt Ideal) ((c : Thread nD τ).loc b))

/-- Both windows' block at point `t` is block (0, t): all four rows, the `t`-th stretch of 65536 columns. -/
theorem idx_facts : ∀ t : Fin cfg1.N, win1_0.index t (0 : Fin 2) = 0 ∧ win1_0.index t (1 : Fin 2) = t.val
    ∧ win1_1.index t (0 : Fin 2) = 0 ∧ win1_1.index t (1 : Fin 2) = t.val :=
  (by decide +kernel : ∀ t : Fin grid1.N, _)

/-- WHAT POINT `t` WRITES BACK is block `t` of `G1` of the input array as the region finds it. -/
theorem flushed_eq (c : Dev nD) (t : Fin cfg1.N) :
    (dat1 V c).flushed 1 t = ((cfg1.win 1).blk t).view.read (Elt Ideal) (G1 (V c main_v34)) := by
  show (cfg1.win 1).cut (grid1.coords t) ((dat1 V c).after 1 t) = _
  rw [after1_1]
  obtain ⟨e0, e1, e2, e3⟩ := idx_facts t
  funext j
  refine block_eq (iblk1 V c 0 t) (V c main_v34) t.val ?_ j (((cfg1.win 1).blk t).view.emb j) ?_ ?_
  · intro r e k hk
    unfold iblk1
    rw [View.read_apply]
    show V c main_v34 _ = V c main_v34 _
    congr 1
    funext a
    apply Fin.ext
    match a with
    | ⟨0, _⟩ => show win1_0.index t (0 : Fin 2) * 4 + 1 * r.val = r.val; rw [e0]; omega
    | ⟨1, _⟩ => show win1_0.index t (1 : Fin 2) * 65536 + 1 * e.val = k.val; rw [e1, hk]; omega
  · show win1_1.index t (0 : Fin 2) * 4 + 1 * (j 0).val = (j 0).val; rw [e2]; omega
  · show win1_1.index t (1 : Fin 2) * 65536 + 1 * (j 1).val = t.val * 65536 + (j 1).val; rw [e3]; omega

/-- An index of the array is in point `t`'s block iff each coordinate is in the block's range on its axis. -/
theorem mem_blk (t : Fin cfg1.N) (i : S4x16777216.Idx) :
    i ∈ ((cfg1.win 1).blk t).view.set ↔ ∀ a : Fin 2, win1_1.index t a * S4x65536.size a ≤ (i a).val ∧ (i a).val < win1_1.index t a * S4x65536.size a + S4x65536.size a := by
  show i ∈ ((View.whole main_v35).slice (win1_1.rect t)).set ↔ _
  rw [View.set_slice_whole, Rect.mem_set_unit]
  exact Iff.rfl

/-- Every index of the array is in the block of the point its column falls in. -/
theorem covered (i : S4x16777216.Idx) :
    ∃ t : Fin cfg1.N, (cfg1.win 1).flush t = true ∧ i ∈ ((cfg1.win 1).blk t).view.set := by
  have hi0 : (i 0).val < 4 := (i 0).isLt
  have hi1 : (i 1).val < 16777216 := (i 1).isLt
  have hN : cfg1.N = 256 := N_1
  have ht : (i 1).val / 65536 < cfg1.N := by rw [hN]; omega
  obtain ⟨-, -, e2, e3⟩ := idx_facts ⟨(i 1).val / 65536, ht⟩
  refine ⟨⟨(i 1).val / 65536, ht⟩, flush1_1 _, ?_⟩
  rw [mem_blk]
  intro a
  match a with
  | ⟨0, _⟩ =>
    show win1_1.index ⟨(i 1).val / 65536, ht⟩ (0 : Fin 2) * 4 ≤ (i 0).val ∧ (i 0).val < win1_1.index ⟨(i 1).val / 65536, ht⟩ (0 : Fin 2) * 4 + 4
    rw [e2]; omega
  | ⟨1, _⟩ =>
    show win1_1.index ⟨(i 1).val / 65536, ht⟩ (1 : Fin 2) * 65536 ≤ (i 1).val ∧ (i 1).val < win1_1.index ⟨(i 1).val / 65536, ht⟩ (1 : Fin 2) * 65536 + 65536
    rw [e3]
    show (i 1).val / 65536 * 65536 ≤ (i 1).val ∧ (i 1).val < (i 1).val / 65536 * 65536 + 65536
    omega

/-- THE OUTPUT ARRAY after the region: `G1` of the input array as the region finds it. -/
theorem final1 (c : Dev nD) : (dat1 V c).arrAt 1 cfg1.N = G1 (V c main_v34) :=
  (dat1 V c).arrAt_eq_of_cover 1 (G1 (V c main_v34)) (fun t _ => flushed_eq V c t) covered

end Cert.KernelIdeal.EdgeValue

end
-- ==== Proof.AdjValue.lean ====
/-
  What the adjacency region leaves in the 4096 × 4096 mask, as ONE function of the position array, with floats
  read as extended reals.

  The position array `P` is [4096,2]: row `r` holds the planar position (x, y) of agent `r`. Entry (r, q) of the
  mask is 1 when the squared distance (x_r − x_q)² + (y_r − y_q)² is below one quarter, or when r = q, and 0
  otherwise.

  The region computes this in 16 row blocks: grid point `t` reads rows 256·t … 256·t+255 of `P` through one window
  and all of `P` through another, and writes rows 256·t … 256·t+255 of the mask. Inside the block the row is known
  only as a 32-bit word, 256·t plus the row inside the block; below 4096 that sum does not wrap, so the word is the
  global row's and the diagonal test compares global rows. Each written block is therefore the restriction of one
  whole-array function `G0`, and the 16 blocks tile the rows, so the mask ends at `G0`.
-/
import proofs.«174933_j45260365365646_1_alg».proof.Proof.AdjBody
import Idealize.ShloMosaic.Lib.Pipeline.Value
import Idealize.ShloMosaic.Lib.ValueIdx

set_option maxRecDepth 16384

noncomputable section

namespace Cert.KernelIdeal.AdjValue

open Cert.KernelIdeal Cert.KernelIdeal.Gen Cert.KernelIdeal.Adj
open Idealize.ShloMosaic Idealize.ShloMosaic.TcCoe Idealize.SL.Sem Idealize.ShloMosaic.ValueIdx
open Idealize.ShloMosaic.Pipeline (Dat)

/-! ## The specification -/

/-- One quarter (the square of the radius one half), as the body's literal. -/
abbrev quarter : EReal := Ideal.ofBits .f32 0x3E800000#32

/-- The squared distance between positions `r` and `q`. -/
def dsq (P : S4096x2.Idx → EReal) (r q : Fin 4096) : EReal :=
  (P (ix2 r (0 : Fin 2)) - P (ix2 q (0 : Fin 2))) * (P (ix2 r (0 : Fin 2)) - P (ix2 q (0 : Fin 2)))
    + (P (ix2 r (1 : Fin 2)) - P (ix2 q (1 : Fin 2))) * (P (ix2 r (1 : Fin 2)) - P (ix2 q (1 : Fin 2)))

/-- The adjacency bit of the pair (r, q): closer than the radius, or the same agent. -/
def adjBit (P : S4096x2.Idx → EReal) (r q : Fin 4096) : BitVec 1 :=
  IntOp.ori (Ideal.cmp .olt (dsq P r q) quarter) (IntOp.cmpi .eq (BitVec.ofNat 32 r.val) (BitVec.ofNat 32 q.val))

/-- THE MASK as one function of the position array, index by index: the adjacency bit, zero-extended to 32 bits. -/
def G0 (P : S4096x2.Idx → EReal) : S4096x4096.Idx → BitVec 32 := fun i => (adjBit P (i 0) (i 1)).setWidth 32

theorem G0_apply (P : S4096x2.Idx → EReal) (r q : Fin 4096) : G0 P (ix2 r q) = (adjBit P r q).setWidth 32 := rfl

theorem or_eq_one : ∀ a b : BitVec 1, a ||| b = 1#1 ↔ a = 1#1 ∨ b = 1#1 := by decide
theorem ofBool_eq_one (b : Bool) : BitVec.ofBool b = 1#1 ↔ b = true := by cases b <;> decide
theorem setWidth_ne_zero : ∀ b : BitVec 1, b.setWidth 32 ≠ 0#32 ↔ b = 1#1 := by decide

/-- Two rows below 4096 have the same 32-bit word only when they are the same row. -/
theorem word_eq_iff (r q : Fin 4096) : BitVec.ofNat 32 r.val = BitVec.ofNat 32 q.val ↔ r = q := by
  constructor
  · intro h
    have h' := congrArg BitVec.toNat h
    simp only [BitVec.toNat_ofNat] at h'
    apply Fin.ext
    have := r.isLt
    have := q.isLt
    omega
  · rintro rfl; rfl

/-- The adjacency bit is set exactly when the squared distance is below one quarter or the two agents are one. -/
theorem adjBit_eq_one (P : S4096x2.Idx → EReal) (r q : Fin 4096) :
    adjBit P r q = 1#1 ↔ (dsq P r q < quarter ∨ r = q) := by
  show (Ideal.cmp .olt (dsq P r q) quarter ||| IntOp.cmpi .eq (BitVec.ofNat 32 r.val) (BitVec.ofNat 32 q.val)) = 1#1 ↔ _
  rw [or_eq_one]
  show (BitVec.ofBool (decide (dsq P r q < quarter)) = 1#1 ∨ BitVec.ofBool (BitVec.ofNat 32 r.val == BitVec.ofNat 32 q.val) = 1#1) ↔ _
  rw [ofBool_eq_one, ofBool_eq_one, decide_eq_true_eq, beq_iff_eq, word_eq_iff]

/-- A mask entry differs from zero exactly when the pair's adjacency bit is set. -/
theorem G0_ne_zero (P : S4096x2.Idx → EReal) (r q : Fin 4096) : G0 P (ix2 r q) ≠ 0#32 ↔ adjBit P r q = 1#1 :=
  setWidth_ne_zero _

/-! ## The body's layout operations at an index -/

section Layout
variable {α : Type}

/-- A [256,1] column spread over [256,4096] reads its row. -/
theorem colB (v : S256x1.Idx → α) (h : S256x1.Broadcasts S256x4096) (r' : Fin 256) (q : Fin 4096) :
    broadcastTo S256x4096 v h (ix2 r' q) = v (ix2 r' (0 : Fin 1)) := by
  refine broadcastTo_apply v h (ix2 r' q) (ix2 r' (0 : Fin 1)) fun a => ?_
  match a with
  | ⟨0, _⟩ => rfl
  | ⟨1, _⟩ => rfl

/-- A [1,4096] row spread over [256,4096] reads its column. -/
theorem rowB (v : S1x4096.Idx → α) (h : S1x4096.Broadcasts S256x4096) (r' : Fin 256) (q : Fin 4096) :
    broadcastTo S256x4096 v h (ix2 r' q) = v (ix2 (0 : Fin 1) q) := by
  refine broadcastTo_apply v h (ix2 r' q) (ix2 (0 : Fin 1) q) fun a => ?_
  match a with
  | ⟨0, _⟩ => rfl
  | ⟨1, _⟩ => rfl

/-- A flat [4096] vector viewed as a [1,4096] row. -/
theorem rowOfFlat (v : S4096.Idx → α) (h : S4096.ShapeCasts S1x4096) (q : Fin 4096) :
    shapeCast S1x4096 v h (ix2 (0 : Fin 1) q) = v (ix1 q) := by
  refine shapeCast_apply v h (ix2 (0 : Fin 1) q) (ix1 q) ?_
  rw [Shape.rowMajor_val_two, Shape.rowMajor_val_one]
  show q.val = 0 * 4096 + q.val
  omega

/-- A [4096,1] column viewed as a flat [4096] vector. -/
theorem flatOfCol (v : S4096x1.Idx → α) (h : S4096x1.ShapeCasts S4096) (q : Fin 4096) :
    shapeCast S4096 v h (ix1 q) = v (ix2 q (0 : Fin 1)) := by
  refine shapeCast_apply v h (ix1 q) (ix2 q (0 : Fin 1)) ?_
  rw [Shape.rowMajor_val_two, Shape.rowMajor_val_one]
  show q.val * 1 + 0 = q.val
  omega

/-- The two columns of a [4096,2] array. -/
theorem col0_all (v : S4096x2.Idx → α) (h : S4096x2.Slices ![0, 0] S4096x1) (q : Fin 4096) :
    extractStridedSlice S4096x1 ![0, 0] v h (ix2 q (0 : Fin 1)) = v (ix2 q (0 : Fin 2)) := by
  refine extractStridedSlice_apply _ v h _ (ix2 q (0 : Fin 2)) fun a => ?_
  match a with
  | ⟨0, _⟩ => show q.val = 0 + q.val; omega
  | ⟨1, _⟩ => rfl
theorem col1_all (v : S4096x2.Idx → α) (h : S4096x2.Slices ![0, 1] S4096x1) (q : Fin 4096) :
    extractStridedSlice S4096x1 ![0, 1] v h (ix2 q (0 : Fin 1)) = v (ix2 q (1 : Fin 2)) := by
  refine extractStridedSlice_apply _ v h _ (ix2 q (1 : Fin 2)) fun a => ?_
  match a with
  | ⟨0, _⟩ => show q.val = 0 + q.val; omega
  | ⟨1, _⟩ => rfl

/-- The two columns of a [256,2] block. -/
theorem col0_rows (v : S256x2.Idx → α) (h : S256x2.Slices ![0, 0] S256x1) (r' : Fin 256) :
    extractStridedSlice S256x1 ![0, 0] v h (ix2 r' (0 : Fin 1)) = v (ix2 r' (0 : Fin 2)) := by
  refine extractStridedSlice_apply _ v h _ (ix2 r' (0 : Fin 2)) fun a => ?_
  match a with
  | ⟨0, _⟩ => show r'.val = 0 + r'.val; omega
  | ⟨1, _⟩ => rfl
theorem col1_rows (v : S256x2.Idx → α) (h : S256x2.Slices ![0, 1] S256x1) (r' : Fin 256) :
    extractStridedSlice S256x1 ![0, 1] v h (ix2 r' (0 : Fin 1)) = v (ix2 r' (1 : Fin 2)) := by
  refine extractStridedSlice_apply _ v h _ (ix2 r' (1 : Fin 2)) fun a => ?_
  match a with
  | ⟨0, _⟩ => show r'.val = 0 + r'.val; omega
  | ⟨1, _⟩ => rfl

end Layout

/-- The row counter inside the block, and the column counter. -/
theorem iotaRow (h : S256x1.Iotas .tc 32 [0]) (r' : Fin 256) :
    iota .tc S256x1 32 [0] h (ix2 r' (0 : Fin 1)) = BitVec.ofNat 32 r'.val :=
  iota_single_apply .tc S256x1 32 0 h _
theorem iotaCol (h : S1x4096.Iotas .tc 32 [1]) (q : Fin 4096) :
    iota .tc S1x4096 32 [1] h (ix2 (0 : Fin 1) q) = BitVec.ofNat 32 q.val :=
  iota_single_apply .tc S1x4096 32 1 h _

/-- The integer vector operations at an index. -/
theorem ori_apply {s : Shape} {w : Nat} (x y : IVec s w) (i : s.Idx) : ori x y i = IntOp.ori (x i) (y i) := rfl
theorem addi_apply {s : Shape} {w : Nat} (x y : IVec s w) (i : s.Idx) : addi x y i = IntOp.addi (x i) (y i) := rfl
theorem cmpi_apply {s : Shape} {w : Nat} (p : CmpIPredicate) (x y : IVec s w) (i : s.Idx) : cmpi p x y i = IntOp.cmpi p (x i) (y i) := rfl

/-! ## The stored block at an index -/

/-- Entry (r', q) of the block stored at grid coordinates `i`, over the two loaded position blocks: the
    squared-distance test of row `r'` of the first against row `q` of the second, or-ed with the test that the
    word `i·256 + r'` is the word of `q`. -/
theorem pay_apply (i : grid0.Coords) (x0 : Vec Ideal S256x2 .f32) (x1 : Vec Ideal S4096x2 .f32) (r' : Fin 256) (q : Fin 4096) :
    k0_pay1 i x0 x1 (ix2 r' q)
      = (IntOp.ori (Ideal.cmp .olt ((x0 (ix2 r' (0 : Fin 2)) - x1 (ix2 q (0 : Fin 2))) * (x0 (ix2 r' (0 : Fin 2)) - x1 (ix2 q (0 : Fin 2)))
            + (x0 (ix2 r' (1 : Fin 2)) - x1 (ix2 q (1 : Fin 2))) * (x0 (ix2 r' (1 : Fin 2)) - x1 (ix2 q (1 : Fin 2)))) quarter)
          (IntOp.cmpi .eq (BitVec.ofNat 32 (i 0).val * 256#32 + BitVec.ofNat 32 r'.val) (BitVec.ofNat 32 q.val))).setWidth 32 := by
  unfold k0_pay1
  simp only [extui_apply, ori_apply, cmpf_apply, cmpi_apply, addf_apply, mulf_apply, subf_apply, addi_apply, broadcast_apply,
    colB, rowB, rowOfFlat, flatOfCol, col0_all, col1_all, col0_rows, col1_rows, shapeCast_self]
  rw [iotaRow, iotaCol]
  rfl

/-! ## The mask block after the body, as a block of `G0` -/

theorem hz : (![0, 0] : Fin 2 → Nat) = fun _ => 0 := funext fun a => by fin_cases a <;> rfl

/-- Below 4096 the row word `T·256 + r'` does not wrap: it is the word of the global row `256·T + r'`. -/
theorem word_row (T r' : Nat) (hT : T < 16) (hr : r' < 256) :
    BitVec.ofNat 32 T * 256#32 + BitVec.ofNat 32 r' = BitVec.ofNat 32 (256 * T + r') := by
  apply BitVec.eq_of_toNat_eq
  simp only [BitVec.toNat_add, BitVec.toNat_mul, BitVec.toNat_ofNat]
  omega

/-- A row block whose entries are the array's at rows `256·T + r'`, set against the whole array at grid coordinate
    `T`, leaves the mask's rows `256·T + r'`. -/
theorem block_eq (i : grid0.Coords) (x0 : Vec Ideal S256x2 .f32) (x1 : Vec Ideal S4096x2 .f32) (P : S4096x2.Idx → EReal)
    (T : Nat) (hT : T < 16) (hi : (i 0).val = T)
    (h0 : ∀ (r' : Fin 256) (k : Fin 2) (r : Fin 4096), r.val = 256 * T + r'.val → x0 (ix2 r' k) = P (ix2 r k))
    (h1 : ∀ (q : Fin 4096) (k : Fin 2), x1 (ix2 q k) = P (ix2 q k))
    (y : S256x4096.Idx) (j : S4096x4096.Idx) (hj0 : (j 0).val = 256 * T + (y 0).val) (hj1 : (j 1).val = (y 1).val) :
    maskBlk i x0 x1 y = G0 P j := by
  obtain ⟨r', q, rfl⟩ : ∃ (r' : Fin 256) (q : Fin 4096), y = ix2 r' q := ⟨y 0, y 1, eq_ix2 y⟩
  obtain ⟨r, q', rfl⟩ : ∃ (r : Fin 4096) (q' : Fin 4096), j = ix2 r q' := ⟨j 0, j 1, eq_ix2 j⟩
  obtain rfl : q' = q := Fin.ext hj1
  have hr : r.val = 256 * T + r'.val := hj0
  unfold maskBlk
  rw [View.canon_unit_zero hz, View.ld_unit_zero (S := S256x2) hz, View.ld_unit_zero (S := S4096x2) hz]
  rw [pay_apply, G0_apply]
  unfold adjBit dsq
  rw [hi, word_row T r'.val hT r'.isLt, ← hr, h0 r' 0 r hr, h0 r' 1 r hr, h1 q' 0, h1 q' 1]

/-! ## From blocks to the array -/

variable (V : (c : Dev nD) → (b : Ref sig .tc) → Buf (Elt Ideal) ((c : Thread nD τ).loc b))

/-- At point `t` the grid coordinate is `t`; the row window's and the mask window's block is block (t, 0), the
    whole-array window's block (0, 0). -/
theorem idx_facts : ∀ t : Fin cfg0.N, (grid0.coords t 0).val = t.val
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of `G0` of the position array as the region finds it. -/
theorem flushed_eq (c : Dev nD) (t : Fin cfg0.N) :
    (dat0 V c).flushed 2 t = ((cfg0.win 2).blk t).view.read (Elt Ideal) (G0 (V c main_v0)) := by
  show (cfg0.win 2).cut (grid0.coords t) ((dat0 V c).after 2 t) = _
  rw [after0_2]
  obtain ⟨ei, e00, e01, e10, e11, e20, e21⟩ := idx_facts t
  have hN : cfg0.N = 16 := N_0
  have ht : t.val < 16 := hN ▸ t.isLt
  funext j
  refine block_eq (grid0.coords t) (iblk0 V c 0 t) (iblk0 V c 1 t) (V c main_v0) t.val ht ei ?_ ?_ j (((cfg0.win 2).blk t).view.emb j) ?_ ?_
  · intro r' k r hr
    unfold iblk0
    rw [View.read_apply]
    show V c main_v0 _ = V c main_v0 _
    congr 1
    funext a
    apply Fin.ext
    match a with
    | ⟨0, _⟩ => show win0_0.index t (0 : Fin 2) * 256 + 1 * r'.val = r.val; rw [e00, hr]; omega
    | ⟨1, _⟩ => show win0_0.index t (1 : Fin 2) * 2 + 1 * k.val = k.val; rw [e01]; omega
  · intro q k
    unfold iblk0
    rw [View.read_apply]
    show V c main_v0 _ = V c main_v0 _
    congr 1
    funext a
    apply Fin.ext
    match a with
    | ⟨0, _⟩ => show win0_1.index t (0 : Fin 2) * 4096 + 1 * q.val = q.val; rw [e10]; omega
    | ⟨1, _⟩ => show win0_1.index t (1 : Fin 2) * 2 + 1 * k.val = k.val; rw [e11]; omega
  · show win0_2.index t (0 : Fin 2) * 256 + 1 * (j 0).val = 256 * t.val + (j 0).val; rw [e20]; omega
  · show win0_2.index t (1 : Fin 2) * 4096 + 1 * (j 1).val = (j 1).val; rw [e21]; omega

/-- An index of the mask is in point `t`'s block iff each coordinate is in the block's range on its axis. -/
theorem mem_blk (t : Fin cfg0.N) (i : S4096x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v1).slice (win0_2.rect t)).set ↔ _
  rw [View.set_slice_whole, Rect.mem_set_unit]
  exact Iff.rfl

/-- Every index of the mask is in the block of the point its row falls in. -/
theorem covered (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  have hN : cfg0.N = 16 := N_0
  have ht : (i 0).val / 256 < cfg0.N := by rw [hN]; omega
  obtain ⟨-, -, -, -, -, e20, e21⟩ := idx_facts ⟨(i 0).val / 256, ht⟩
  refine ⟨⟨(i 0).val / 256, ht⟩, flush0_2 _, ?_⟩
  rw [mem_blk]
  intro a
  match a with
  | ⟨0, _⟩ =>
    show win0_2.index ⟨(i 0).val / 256, ht⟩ (0 : Fin 2) * 256 ≤ (i 0).val ∧ (i 0).val < win0_2.index ⟨(i 0).val / 256, ht⟩ (0 : Fin 2) * 256 + 256
    rw [e20]
    show (i 0).val / 256 * 256 ≤ (i 0).val ∧ (i 0).val < (i 0).val / 256 * 256 + 256
    omega
  | ⟨1, _⟩ =>
    show win0_2.index ⟨(i 0).val / 256, ht⟩ (1 : Fin 2) * 4096 ≤ (i 1).val ∧ (i 1).val < win0_2.index ⟨(i 0).val / 256, ht⟩ (1 : Fin 2) * 4096 + 4096
    rw [e21]; omega

/-- THE MASK after the region: `G0` of the position array as the region finds it. -/
theorem final0 (c : Dev nD) : (dat0 V c).arrAt 2 cfg0.N = G0 (V c main_v0) :=
  (dat0 V c).arrAt_eq_of_cover 2 (G0 (V c main_v0)) (fun t _ => flushed_eq V c t) covered

end Cert.KernelIdeal.AdjValue

end
-- ==== Proof.AdjHost.lean ====
/-
  The program's adjacency bits as one function of its argument array, with floats read as extended reals.

  The argument `X` is [4096,4]: row `r` is the state of agent `r`, its first two columns the planar position. Before
  the adjacency region the host slices those two columns out, so the region is entered with the position array
  `posOf X`, and leaves the mask `G0 (posOf X)`. After the region the host compares the mask with zero, entry by
  entry, and keeps the outcome as a one-bit array: the bit at (r, q) is whether the mask's entry differs from zero,
  which is the pair's adjacency bit.
-/
import proofs.«174933_j45260365365646_1_alg».proof.Proof.KernelRun
import proofs.«174933_j45260365365646_1_alg».proof.Proof.AdjValue
import Idealize.ShloMosaic.Lib.StableHlo.Run

set_option maxRecDepth 16384

noncomputable section

namespace Cert.KernelIdeal.AdjHost

open Cert.KernelIdeal Cert.KernelIdeal.Gen Cert.KernelIdeal.Adj
open Idealize.ShloMosaic Idealize.ShloMosaic.TcCoe Idealize.SL.Sem Idealize.ShloMosaic.ValueIdx
open Idealize.ShloMosaic.StableHlo
open Idealize.ShloMosaic.Pipeline (Dat)

/-! ## The position array: the first two columns of the argument -/

/-- Columns 0 and 1 of a [4096,4] array. -/
def posOf (X : S4096x4.Idx → EReal) : S4096x2.Idx → EReal :=
  fun i => X (ix2 (i 0 : Fin 4096) (⟨(i 1).val, Nat.lt_of_lt_of_le (i 1).isLt (by decide)⟩ : Fin 4))

theorem posOf_apply (X : S4096x4.Idx → EReal) (r : Fin 4096) (k : Fin 2) :
    posOf X (ix2 r k) = X (ix2 r (⟨k.val, Nat.lt_of_lt_of_le k.isLt (by decide)⟩ : Fin 4)) := rfl

theorem posOf_col0 (X : S4096x4.Idx → EReal) (r : Fin 4096) : posOf X (ix2 r (0 : Fin 2)) = X (ix2 r (0 : Fin 4)) := rfl
theorem posOf_col1 (X : S4096x4.Idx → EReal) (r : Fin 4096) : posOf X (ix2 r (1 : Fin 2)) = X (ix2 r (1 : Fin 4)) := rfl

/-- The host's slice of the argument, read at an index, is `posOf`. -/
theorem slice_eq (X : S4096x4.Idx → EReal) (h : S4096x4.Slices ![0, 0] S4096x2) :
    extractStridedSlice S4096x2 ![0, 0] X h = posOf X := by
  funext i
  obtain ⟨r, k, rfl⟩ : ∃ (r : Fin 4096) (k : Fin 2), i = ix2 r k := ⟨i 0, i 1, eq_ix2 i⟩
  rw [posOf_apply]
  refine extractStridedSlice_apply _ X h _ _ fun a => ?_
  match a with
  | ⟨0, _⟩ => show r.val = 0 + r.val; omega
  | ⟨1, _⟩ => show k.val = 0 + k.val; omega

variable (m : (ℓ : Loc nD τ sig) → Buf (Elt Ideal) ℓ)

/-- The adjacency region is entered with the position array at `posOf` of the argument. -/
theorem pos_eq (c : Dev nD) :
    (Gen.V1 m c main_v0 : S4096x2.Idx → EReal) = posOf (m ((c.tc : Thread nD τ).loc main_arg0)) := by
  have e : (Gen.V1 m c main_v0 : S4096x2.Idx → EReal)
      = extractStridedSlice S4096x2 ![0, 0] (m ((c.tc : Thread nD τ).loc main_arg0) : S4096x4.Idx → EReal) slices_S4096x4_S4096x2_0_0 := by
    dsimp only [Gen.V1, Gen.hostOps0]
    after_results
  rw [e, slice_eq]

/-- The mask after the adjacency region, as a function of the argument. -/
theorem mask_eq (c : Dev nD) :
    Run.mask m c = AdjValue.G0 (posOf (m ((c.tc : Thread nD τ).loc main_arg0))) := by
  unfold Run.mask
  rw [AdjValue.final0 (Run.Vr1 m) c]
  exact congrArg AdjValue.G0 (pos_eq m c)

/-! ## The host's compare against zero -/

/-- The adjacency bits of the argument: bit (r, q) is the adjacency bit of agents `r` and `q`. -/
def adjK (X : S4096x4.Idx → EReal) : S4096x4096.Idx → BitVec 1 := fun i => AdjValue.adjBit (posOf X) (i 0) (i 1)

theorem adjK_apply (X : S4096x4.Idx → EReal) (r q : Fin 4096) : adjK X (ix2 r q) = AdjValue.adjBit (posOf X) r q := rfl

/-- A one-bit word widened to 32 bits differs from zero exactly when the bit is set. -/
theorem ofBool_setWidth_ne_zero : ∀ b : BitVec 1, BitVec.ofBool (b.setWidth 32 != 0#32) = b := by decide

/-- The zero the host compares with: a scalar zero spread over the mask's shape. -/
theorem zeros_apply (h : S_.BroadcastsInDim S4096x4096 (![] : Fin 0 → Fin S4096x4096.rank)) (i : S4096x4096.Idx) :
    broadcastInDim S4096x4096 ![] h (constantI S_ 32 0#32) i = 0#32 := rfl

/-- THE ADJACENCY BITS the host keeps after the region are `adjK` of the argument. -/
theorem adj_eq (c : Dev nD) :
    (Gen.V3 m (Run.outs m) c main_v4 : S4096x4096.Idx → BitVec 1) = adjK (m ((c.tc : Thread nD τ).loc main_arg0)) := by
  have e : (Gen.V3 m (Run.outs m) c main_v4 : S4096x4096.Idx → BitVec 1)
      = cmpi .ne (Run.outs m 2 main_v1 c : S4096x4096.Idx → BitVec 32)
          (broadcastInDim S4096x4096 ![] bcast_S_S4096x4096 (constantI S_ 32 0#32)) := by
    dsimp only [Gen.V3, Gen.V2, Gen.hostOps1]
    after_results
    rw [Function.update_self]
    rfl
  rw [e, Run.outs_mask, mask_eq]
  funext i
  obtain ⟨r, q, rfl⟩ : ∃ (r : Fin 4096) (q : Fin 4096), i = ix2 r q := ⟨i 0, i 1, eq_ix2 i⟩
  show BitVec.ofBool (AdjValue.G0 (posOf (m ((c.tc : Thread nD τ).loc main_arg0))) (ix2 r q)
      != broadcastInDim S4096x4096 ![] bcast_S_S4096x4096 (constantI S_ 32 0#32) (ix2 r q)) = _
  rw [zeros_apply, AdjValue.G0_apply, ofBool_setWidth_ne_zero, adjK_apply]

end Cert.KernelIdeal.AdjHost

end
-- ==== Proof.LibGatherCols.lean ====
/-
  jnp.take(x, idx, axis=1) of a [C, N] array by R column numbers lowers to a gather whose slices are whole columns:
  axis 1 of the operand is collapsed and started at the column number, axis 0 is an offset axis taken whole. Read at
  result index (j, e) it is the operand at (j; the column number of e, read signed and clamped into 0 … N − 1).
  Stated for any C, N, R, with the dimension numbers as a program prints them.
-/
import Idealize.ShloMosaic.PureOps.ShapeOps
import Idealize.ShloMosaic.Lib.ValueIdx

namespace Idealize.ShloMosaic.LibGatherCols

open Idealize.ShloMosaic.ValueIdx

variable {α : Type}

/-- The dimension numbers of a whole-column gather: [C, N] operand, [R, 1] column numbers, [C, R] result. -/
abbrev colsDims (C N R : Nat)
    (wf : GatherDims.WF ⟨2, ![C, N]⟩ ⟨2, ![R, 1]⟩ ⟨2, ![C, R]⟩ [0] [1] [] [1] [] 1 ![C, 1]) :
    GatherDims ⟨2, ![C, N]⟩ ⟨2, ![R, 1]⟩ ⟨2, ![C, R]⟩ where
  offsetDims := [0]
  collapsedSliceDims := [1]
  operandBatchingDims := []
  startIndicesBatchingDims := []
  startIndexMap := [1]
  indexVectorDim := 1
  sliceSizes := ![C, 1]
  wf := wf

/-- The operand column the gather reads for result column e: the column number read signed, clamped into 0 … N − 1. -/
def colOf {N R w : Nat} (hN : 0 < N) (idx : IVec ⟨2, ![R, 1]⟩ w) (e : Fin R) : Fin N :=
  ⟨min (idx (ix2 e (0 : Fin 1))).toInt.toNat (N - 1), by omega⟩

/-- THE WHOLE-COLUMN GATHER AT AN INDEX. -/
theorem gather_cols_apply {C N R w : Nat} (hN : 0 < N)
    (wf : GatherDims.WF ⟨2, ![C, N]⟩ ⟨2, ![R, 1]⟩ ⟨2, ![C, R]⟩ [0] [1] [] [1] [] 1 ![C, 1])
    (x : (⟨2, ![C, N]⟩ : Shape).Idx → α) (idx : IVec ⟨2, ![R, 1]⟩ w) (j : Fin C) (e : Fin R) :
    Host.gather (colsDims C N R wf) x idx (ix2 j e) = x (ix2 j (colOf hN idx e)) := by
  unfold Host.gather
  congr 1
  funext a
  apply Fin.ext
  fin_cases a <;>
    simp [GatherDims.operandIdx, GatherDims.start, GatherDims.offCoord, GatherDims.batchCoord, colsDims,
      GatherDims.sKept, Shape.kept, colOf]
  · first
      | rfl
      | exact congrArg (fun a => ((ix2 j e) a : ℕ)) (by decide)
  · refine congrArg (fun z => min (idx z).toInt.toNat (N - 1)) ?_
    funext a
    apply Fin.ext
    fin_cases a <;> rfl

end Idealize.ShloMosaic.LibGatherCols
-- ==== Proof.LibRemRange.lean ====
/-
  jnp.remainder by a positive constant, then a select against zero: the result is a valid row number.

  jnp's `x % 4096` on signed 32-bit words lowers to the truncated remainder `r = x rem 4096` followed by the sign fix
  "if `r` is non-zero and its sign differs from the divisor's, add the divisor". Whatever `x` is, the result read
  signed lies in `0 … 4095`. A following select between it and the word `0` (jnp.nonzero's fill) stays there. For a
  word in that range the index normalisation "if negative add 4096" is the identity, both bounds checks
  `0 ≤ i` and `i ≤ 4095` hold, and clamping the signed reading into `0 … 4095` returns the word's own value.
-/
import Idealize.ShloMosaic.PureOps.Float
import Idealize.ShloMosaic.PureOps.Vector

namespace Cert.LibRemRange

open Idealize.ShloMosaic

/-- A word is a row number when its signed reading is in `0 … 4095`. -/
def InRange (x : BitVec 32) : Prop := 0 ≤ x.toInt ∧ x.toInt < 4096

theorem inRange_zero : InRange 0#32 := by unfold InRange; decide

/-- The truncated remainder by 4096 is strictly between −4096 and 4096. -/
theorem remsi_bounds (x : BitVec 32) :
    -4096 < (IntOp.remsi .host x 4096#32).toInt ∧ (IntOp.remsi .host x 4096#32).toInt < 4096 := by
  have hc : ¬ IntOp.SDivCorner x 4096#32 := by
    unfold IntOp.SDivCorner
    rintro (h | ⟨-, h⟩) <;> exact absurd h (by decide)
  unfold IntOp.remsi
  rw [if_neg hc, BitVec.toInt_srem]
  have h4 : (4096#32 : BitVec 32).toInt = 4096 := by decide
  rw [h4]
  exact ⟨Int.lt_tmod_of_pos _ (by decide), Int.tmod_lt_of_pos _ (by decide)⟩

/-- The sign fix of jnp.remainder, as its operations read at one element. -/
def remFix (r : BitVec 32) : BitVec 32 :=
  Scalar.select (IntOp.andi (IntOp.cmpi .ne (IntOp.cmpi .slt r 0#32) (IntOp.cmpi .slt 4096#32 0#32)) (IntOp.cmpi .ne r 0#32))
    (IntOp.addi r 4096#32) r

theorem cmpi_slt (x y : BitVec 32) : IntOp.cmpi .slt x y = BitVec.ofBool (x.slt y) := rfl
theorem cmpi_ne {w : Nat} (x y : BitVec w) : IntOp.cmpi .ne x y = BitVec.ofBool (x != y) := rfl
theorem cmpi_sge (x y : BitVec 32) : IntOp.cmpi .sge x y = BitVec.ofBool (y.sle x) := rfl
theorem cmpi_sle (x y : BitVec 32) : IntOp.cmpi .sle x y = BitVec.ofBool (x.sle y) := rfl

theorem remFix_inRange {r : BitVec 32} (h : -4096 < r.toInt ∧ r.toInt < 4096) : InRange (remFix r) := by
  unfold remFix InRange Scalar.select IntOp.andi IntOp.addi
  simp only [cmpi_slt, cmpi_ne]
  by_cases hneg : r.toInt < 0
  · have hs : r.slt 0#32 = true := by rw [BitVec.slt_iff_toInt_lt]; simpa using hneg
    have hne : (r != 0#32) = true := by
      rw [bne_iff_ne]; rintro rfl; simp at hneg
    have h0 : (4096#32 : BitVec 32).slt 0#32 = false := by decide
    simp only [hs, h0, hne]
    have : (BitVec.ofBool (BitVec.ofBool true != BitVec.ofBool false) &&& BitVec.ofBool true) = (1 : BitVec 1) := by decide
    rw [if_pos this, BitVec.toInt_add]
    have h4 : (4096#32 : BitVec 32).toInt = 4096 := by decide
    rw [h4, Int.bmod_def]
    simp only [Nat.reducePow]
    split <;> omega
  · have hs : r.slt 0#32 = false := by
      rw [Bool.eq_false_iff]; intro hh; rw [BitVec.slt_iff_toInt_lt] at hh; simp at hh; omega
    have h0 : (4096#32 : BitVec 32).slt 0#32 = false := by decide
    simp only [hs, h0]
    have : ¬ ((BitVec.ofBool (BitVec.ofBool false != BitVec.ofBool false) &&& BitVec.ofBool (r != 0#32)) = (1 : BitVec 1)) := by
      cases (r != 0#32) <;> decide
    rw [if_neg this]
    omega

/-- jnp.remainder by 4096 of any word is a row number. -/
theorem rem_inRange (x : BitVec 32) : InRange (remFix (IntOp.remsi .host x 4096#32)) :=
  remFix_inRange (remsi_bounds x)

/-- The fill select keeps the range. -/
theorem select_inRange (b : BitVec 1) {x y : BitVec 32} (hx : InRange x) (hy : InRange y) : InRange (Scalar.select b x y) := by
  unfold Scalar.select; split <;> assumption

/-! ## What a row number makes of the index handling around a gather -/

theorem not_slt_zero {x : BitVec 32} (h : InRange x) : x.slt 0#32 = false := by
  rw [Bool.eq_false_iff]; intro hh; rw [BitVec.slt_iff_toInt_lt] at hh
  have := h.1; simp at hh; omega

/-- "If negative add 4096" is the identity on a row number. -/
theorem normalise_eq {x : BitVec 32} (h : InRange x) :
    Scalar.select (IntOp.cmpi .slt x 0#32) (IntOp.addi x 4096#32) x = x := by
  unfold Scalar.select
  rw [cmpi_slt, not_slt_zero h]
  rw [if_neg (by decide)]

/-- Both bounds checks of a filled gather hold on a row number. -/
theorem sge_zero {x : BitVec 32} (h : InRange x) : IntOp.cmpi .sge x 0#32 = 1#1 := by
  rw [cmpi_sge]
  have : (0#32 : BitVec 32).sle x = true := by
    rw [BitVec.sle_iff_toInt_le]; simpa using h.1
  rw [this]; rfl

theorem sle_4095 {x : BitVec 32} (h : InRange x) : IntOp.cmpi .sle x 4095#32 = 1#1 := by
  rw [cmpi_sle]
  have h4 : (4095#32 : BitVec 32).toInt = 4095 := by decide
  have : x.sle 4095#32 = true := by
    rw [BitVec.sle_iff_toInt_le, h4]; have := h.2; omega
  rw [this]; rfl

/-- The signed reading of a row number is its unsigned value, below 4096: clamping into `0 … 4095` changes nothing. -/
theorem toNat_lt {x : BitVec 32} (h : InRange x) : x.toNat < 4096 ∧ x.toInt.toNat = x.toNat := by
  unfold InRange at h
  have hx := x.isLt
  rw [BitVec.toInt_eq_toNat_cond] at h
  simp only [Nat.reducePow] at h hx
  rw [BitVec.toInt_eq_toNat_cond]
  simp only [Nat.reducePow]
  split at h <;> rename_i hc
  · rw [if_pos hc]; omega
  · omega

theorem clamp_eq {x : BitVec 32} (h : InRange x) : min x.toInt.toNat (4096 - 1) = x.toNat := by
  have := toNat_lt h; omega

end Cert.LibRemRange
-- ==== Proof.TakeHost.lean ====
/-
  The second region's input at an index: feature j of candidate edge e is feature j of the receiving agent minus
  feature j of the sending agent.

  The host transposes the [4096,4] argument to [4,4096] and takes its columns twice with jnp.take along axis 1, once
  at the receivers' row numbers and once at the senders', and subtracts. jnp.take moves a negative column number up
  by 4096, gathers with the column number clamped into 0 … 4095, and replaces the gathered entry by a fill pattern
  where the (moved) number is outside 0 … 4095. For row numbers that lie in 0 … 4095 — which they do, being
  remainders by 4096 — the move and the clamp are the identity and the fill is never chosen, so the take at (j, e) is
  the transposed argument at (j, number of e), that is the argument at (number of e, j).
-/
import proofs.«174933_j45260365365646_1_alg».proof.Proof.Gen.KernelIdeal.Regions
import proofs.«174933_j45260365365646_1_alg».proof.Proof.LibGatherCols
import proofs.«174933_j45260365365646_1_alg».proof.Proof.LibRemRange
import Idealize.ShloMosaic.Lib.StableHlo.Run
import Idealize.ShloMosaic.Lib.Pipeline.Value
import Idealize.ShloMosaic.Lib.ValueIdx
import Idealize.ShloMosaic.PureOps.Reduce

set_option maxRecDepth 16384

noncomputable section

namespace Cert.KernelIdeal.TakeHost

open Cert.KernelIdeal Cert.KernelIdeal.Gen
open Idealize.ShloMosaic Idealize.ShloMosaic.TcCoe Idealize.SL.Sem Idealize.ShloMosaic.ValueIdx
open Idealize.ShloMosaic.StableHlo
open Idealize.ShloMosaic.LibGatherCols
open Cert.LibRemRange

/-! ## jnp.take along axis 1, as the host computes it -/

/-- The agent a row-number word names. -/
def agent (w : BitVec 32) (h : InRange w) : Fin 4096 := ⟨w.toNat, (toNat_lt h).1⟩

theorem agent_val (w : BitVec 32) (h : InRange w) : (agent w h).val = w.toNat := rfl

/-- The column numbers as the gather takes them: negative ones moved up by 4096, laid out as a [E,1] column. -/
def idxCol (idx : S16777216.Idx → BitVec 32) : S16777216x1.Idx → BitVec 32 :=
  broadcastInDim S16777216x1 ![0] bcast_S16777216_S16777216x1_0
    (select (cmpi .slt idx (broadcastInDim S16777216 ![] bcast_S_S16777216 (constantI S_ 32 0#32)))
      (addi idx (broadcastInDim S16777216 ![] bcast_S_S16777216 (constantI S_ 32 4096#32))) idx)

/-- jnp.take(x, idx, axis=1) with its out-of-range fill, as one term of its operands: the gathered columns where
    the column number lies in 0 … 4095, a fill pattern elsewhere. -/
def takeTerm (x : S4x4096.Idx → EReal) (idx : S16777216.Idx → BitVec 32) : S4x16777216.Idx → EReal :=
  select
    (broadcastInDim S4x16777216 ![1] bcast_S16777216_S4x16777216_1
      (Host.reduce IntOp.andi
        (andi (cmpi .sge (idxCol idx) (broadcastInDim S16777216x1 ![] bcast_S_S16777216x1 (constantI S_ 32 0#32)))
          (cmpi .sle (idxCol idx)
            (broadcastInDim S16777216x1 ![0, 1] bcast_S1x1_S16777216x1_0_1
              (broadcastInDim S1x1 ![1] bcast_S1_S1x1_1 (constantI S1 32 4095#32)))))
        (constantI S_ 1 1#1) reducesTo_S16777216x1_S16777216_d1 h_S_))
    (Host.gather gather_S4x4096_S16777216x1_S4x16777216_0_1_n_n_1_1_41 x (idxCol idx))
    (broadcastInDim S4x16777216 ![] bcast_S_S4x16777216 (constant (F := Ideal) S_ .f32 0x7FC00000#32))

/-- A column number in range passes the normalisation unchanged. -/
theorem idxCol_apply (idx : S16777216.Idx → BitVec 32) (e : Fin 16777216) (h : InRange (idx (ix1 e))) :
    idxCol idx (ix2 e (0 : Fin 1)) = idx (ix1 e) := by
  unfold idxCol
  refine (broadcastInDim_apply _ _ _ (ix2 e (0 : Fin 1)) (ix1 e) fun a => ?_).trans ?_
  · match a with
    | ⟨0, _⟩ => rfl
  · exact normalise_eq h

/-- A fold by `and` from 1 over 1s is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- A reduce by `and` from 1 of an array of 1s is 1 everywhere. -/
theorem reduce_andi_of_all {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  rw [Host.reduce_eq_foldl, hinit]
  exact foldl_andi_one x hx _

theorem rec_eq : gather_S4x4096_S16777216x1_S4x16777216_0_1_n_n_1_1_41
    = colsDims 4 4096 16777216 gather_S4x4096_S16777216x1_S4x16777216_0_1_n_n_1_1_41_wf := rfl

/-- THE TAKE AT AN INDEX, for column numbers all in range: the operand at (j, the column number of e). -/
theorem take_apply (x : S4x4096.Idx → EReal) (idx : S16777216.Idx → BitVec 32) (hidx : ∀ e, InRange (idx e))
    (j : Fin 4) (e : Fin 16777216) :
    takeTerm x idx (ix2 j e) = x (ix2 j (agent (idx (ix1 e)) (hidx (ix1 e)))) := by
  unfold takeTerm
  rw [select_apply]
  have hbit : broadcastInDim S4x16777216 ![1] bcast_S16777216_S4x16777216_1
      (Host.reduce IntOp.andi
        (andi (cmpi .sge (idxCol idx) (broadcastInDim S16777216x1 ![] bcast_S_S16777216x1 (constantI S_ 32 0#32)))
          (cmpi .sle (idxCol idx)
            (broadcastInDim S16777216x1 ![0, 1] bcast_S1x1_S16777216x1_0_1
              (broadcastInDim S1x1 ![1] bcast_S1_S1x1_1 (constantI S1 32 4095#32)))))
        (constantI S_ 1 1#1) reducesTo_S16777216x1_S16777216_d1 h_S_) (ix2 j e) = 1#1 := by
    refine (broadcastInDim_apply _ _ _ (ix2 j e) (ix1 e) fun a => ?_).trans ?_
    · match a with
      | ⟨0, _⟩ => rfl
    · refine reduce_andi_of_all _ _ _ _ (fun i => ?_) rfl _
      obtain ⟨e', z, rfl⟩ : ∃ (e' : Fin 16777216) (z : Fin 1), i = ix2 e' z := ⟨i 0, i 1, eq_ix2 i⟩
      obtain rfl : z = 0 := Subsingleton.elim _ _
      show IntOp.andi (IntOp.cmpi .sge (idxCol idx (ix2 e' (0 : Fin 1))) 0#32) (IntOp.cmpi .sle (idxCol idx (ix2 e' (0 : Fin 1))) 4095#32) = 1#1
      rw [idxCol_apply idx e' (hidx _), sge_zero (hidx _), sle_4095 (hidx _)]
      rfl
  rw [hbit, select_one, rec_eq]
  refine (gather_cols_apply (by decide) _ x (idxCol idx) j e).trans ?_
  refine congrArg (fun k => x (ix2 j k)) (Fin.ext ?_)
  show min (idxCol idx (ix2 e (0 : Fin 1))).toInt.toNat (4096 - 1) = (idx (ix1 e)).toNat
  rw [idxCol_apply idx e (hidx _)]
  exact clamp_eq (hidx _)

/-! ## The second region's input -/

variable (m : (ℓ : Loc nD τ sig) → Buf (Elt Ideal) ℓ) (outs : Gen.Outs (F := Ideal))

/-- The argument array: one row of four features per agent. -/
abbrev argX (c : Dev nD) : S4096x4.Idx → EReal := m ((c.tc : Thread nD τ).loc main_arg0)
/-- The senders' row numbers, one per candidate edge, as the host leaves them. -/
abbrev senders (c : Dev nD) : S16777216.Idx → BitVec 32 := Gen.V18 m outs c main_v26
/-- The receivers' row numbers. -/
abbrev receivers (c : Dev nD) : S16777216.Idx → BitVec 32 := Gen.V20 m outs c main_v27
/-- The second region's input array. -/
abbrev edgeIn (c : Dev nD) : S4x16777216.Idx → EReal := Gen.V24 m outs c main_v34

/-- The senders' and the receivers' row numbers are not written again before the second region. -/
theorem v26_keep (c : Dev nD) : Gen.V24 m outs c main_v26 = Gen.V18 m outs c main_v26 :=
  (V24_of m outs c main_v26 (by decide)).trans <| (V23_of m outs c main_v26 (by decide)).trans <|
    (V22_of m outs c main_v26 (by decide)).trans <| (V21_of m outs c main_v26 (by decide)).trans <|
    (V20_of m outs c main_v26 (by decide)).trans (V19_of m outs c main_v26 (by decide))
theorem v27_keep (c : Dev nD) : Gen.V24 m outs c main_v27 = Gen.V20 m outs c main_v27 :=
  (V24_of m outs c main_v27 (by decide)).trans <| (V23_of m outs c main_v27 (by decide)).trans <|
    (V22_of m outs c main_v27 (by decide)).trans (V21_of m outs c main_v27 (by decide))

/-- The argument is as launched when the transpose reads it. -/
theorem arg0_at20 (c : Dev nD) : Gen.V20 m outs c main_arg0 = m ((c.tc : Thread nD τ).loc main_arg0) :=
  (V20_of m outs c main_arg0 (by decide)).trans <| (V19_of m outs c main_arg0 (by decide)).trans <| (V18_of m outs c main_arg0 (by decide)).trans <| (V17_of m outs c main_arg0 (by decide)).trans <| (V16_of m outs c main_arg0 (by decide)).trans <| (V15_of m outs c main_arg0 (by decide)).trans <| (V14_of m outs c main_arg0 (by decide)).trans <| (V13_of m outs c main_arg0 (by decide)).trans <| (V12_of m outs c main_arg0 (by decide)).trans <| (V11_of m outs c main_arg0 (by decide)).trans <| (V10_of m outs c main_arg0 (by decide)).trans <| (V9_of m outs c main_arg0 (by decide)).trans <| (V8_of m outs c main_arg0 (by decide)).trans <| (V7_of m outs c main_arg0 (by decide)).trans <| (V6_of m outs c main_arg0 (by decide)).trans <| (V5_of m outs c main_arg0 (by decide)).trans <| (V4_of m outs c main_arg0 (by decide)).trans <| (V3_of m outs c main_arg0 (by decide)).trans <| (V2_of m outs c main_arg0 (by decide)).trans <| (V1_of m c main_arg0 (by decide)).trans rfl

/-- Contents moved to a buffer's own type and back are the contents. -/
theorem ofBuf_toBuf {Val : EltTy → Type} {T : BufTy} (x : TRef sig T) (v : T.Contents Val) : x.ofBuf (x.toBuf v) = v := by
  unfold TRef.ofBuf TRef.toBuf
  rw [cast_cast]
  rfl

/-- At the buffers the two takes read and write, whose types are the values', the move is the identity. -/
theorem ofBuf_v26 (h1 h2 h3) (v : (main_v26 : Ref sig .tc).ty.Contents (Elt Ideal)) :
    (TRef.of main_v26 h1 h2 h3 : TRef sig ⟨S16777216, .i32⟩).ofBuf v = v := rfl
theorem ofBuf_v27 (h1 h2 h3) (v : (main_v27 : Ref sig .tc).ty.Contents (Elt Ideal)) :
    (TRef.of main_v27 h1 h2 h3 : TRef sig ⟨S16777216, .i32⟩).ofBuf v = v := rfl
theorem ofBuf_v31 (h1 h2 h3) (v : (main_v31 : Ref sig .tc).ty.Contents (Elt Ideal)) :
    (TRef.of main_v31 h1 h2 h3 : TRef sig ⟨S4x4096, .f32⟩).ofBuf v = v := rfl
theorem toBuf_v32 (h1 h2 h3) (v : (⟨S4x16777216, .f32⟩ : BufTy).Contents (Elt Ideal)) :
    (TRef.of main_v32 h1 h2 h3 : TRef sig ⟨S4x16777216, .f32⟩).toBuf v = v := rfl
theorem toBuf_v33 (h1 h2 h3) (v : (⟨S4x16777216, .f32⟩ : BufTy).Contents (Elt Ideal)) :
    (TRef.of main_v33 h1 h2 h3 : TRef sig ⟨S4x16777216, .f32⟩).toBuf v = v := rfl

/-- The four host stretches, each read at the one buffer wanted, from ANY contents `W` before it. -/
theorem stretch18_v31 (W : Valuation τ sig (Elt Ideal)) :
    (StableHlo.after (hostOps1_18 (F := Ideal)) W main_v31 : S4x4096.Idx → EReal)
      = transpose S4x4096 [1, 0] (W main_arg0 : S4096x4.Idx → EReal) transposes_S4096x4_S4x4096_1_0 := by
  dsimp only [Gen.hostOps1_18]
  after_results

set_option maxHeartbeats 2000000 in
theorem stretch19_v32 (W : Valuation τ sig (Elt Ideal)) :
    (StableHlo.after (hostOps1_19 (F := Ideal)) W main_v32 : S4x16777216.Idx → EReal)
      = takeTerm (W main_v31) (W main_v27) := by
  dsimp only [Gen.hostOps1_19]
  after_results_simp
  simp only [ofBuf_toBuf, ofBuf_v27, ofBuf_v31, toBuf_v32]
  unfold takeTerm idxCol
  rfl

set_option maxHeartbeats 2000000 in
theorem stretch20_v33 (W : Valuation τ sig (Elt Ideal)) :
    (StableHlo.after (hostOps1_20 (F := Ideal)) W main_v33 : S4x16777216.Idx → EReal)
      = takeTerm (W main_v31) (W main_v26) := by
  dsimp only [Gen.hostOps1_20]
  after_results_simp
  simp only [ofBuf_toBuf, ofBuf_v26, ofBuf_v31, toBuf_v33]
  unfold takeTerm idxCol
  rfl

theorem stretch21_v34 (W : Valuation τ sig (Elt Ideal)) :
    (StableHlo.after (hostOps1_21 (F := Ideal)) W main_v34 : S4x16777216.Idx → EReal)
      = subf (F := Ideal) (s := S4x16777216) (φ := .f32) (W main_v32) (W main_v33) := by
  dsimp only [Gen.hostOps1_21]
  after_results

/-- The transposed argument, [4,4096]. -/
theorem v31_eq (c : Dev nD) : (Gen.V21 m outs c main_v31 : S4x4096.Idx → EReal)
    = transpose S4x4096 [1, 0] (argX m c) transposes_S4096x4_S4x4096_1_0 := by
  have e : (Gen.V21 m outs c main_v31 : S4x4096.Idx → EReal)
      = transpose S4x4096 [1, 0] (Gen.V20 m outs c main_arg0 : S4096x4.Idx → EReal) transposes_S4096x4_S4x4096_1_0 :=
    stretch18_v31 (Gen.V20 m outs c)
  rw [e, arg0_at20]

theorem v31_apply (c : Dev nD) (j : Fin 4) (a : Fin 4096) :
    (Gen.V21 m outs c main_v31 : S4x4096.Idx → EReal) (ix2 j a) = argX m c (ix2 a j) := by
  rw [v31_eq]
  refine transpose_apply _ _ _ (ix2 j a) (ix2 a j) fun b => ?_
  match b with
  | ⟨0, _⟩ => rfl
  | ⟨1, _⟩ => rfl

/-- The first take: the receivers' columns. -/
theorem v32_eq (c : Dev nD) : (Gen.V22 m outs c main_v32 : S4x16777216.Idx → EReal)
    = takeTerm (Gen.V21 m outs c main_v31) (Gen.V21 m outs c main_v27) :=
  stretch19_v32 (Gen.V21 m outs c)

/-- The second take: the senders' columns. -/
theorem v33_eq (c : Dev nD) : (Gen.V23 m outs c main_v33 : S4x16777216.Idx → EReal)
    = takeTerm (Gen.V22 m outs c main_v31) (Gen.V22 m outs c main_v26) :=
  stretch20_v33 (Gen.V22 m outs c)

/-- The second region's input is the first take minus the second. -/
theorem v34_eq (c : Dev nD) : edgeIn m outs c
    = subf (F := Ideal) (s := S4x16777216) (φ := .f32) (Gen.V23 m outs c main_v32) (Gen.V23 m outs c main_v33) :=
  stretch21_v34 (Gen.V23 m outs c)

/-- THE SECOND REGION'S INPUT AT AN INDEX: feature `j` of edge `e` is the receiver's minus the sender's. -/
theorem v34_apply (c : Dev nD) (hs : ∀ e, InRange (senders m outs c e)) (hr : ∀ e, InRange (receivers m outs c e))
    (j : Fin 4) (e : Fin 16777216) :
    edgeIn m outs c (ix2 j e)
      = argX m c (ix2 (agent (receivers m outs c (ix1 e)) (hr (ix1 e))) j)
        - argX m c (ix2 (agent (senders m outs c (ix1 e)) (hs (ix1 e))) j) := by
  have h26 : Gen.V22 m outs c main_v26 = Gen.V18 m outs c main_v26 :=
    (V22_of m outs c main_v26 (by decide)).trans <| (V21_of m outs c main_v26 (by decide)).trans <|
      (V20_of m outs c main_v26 (by decide)).trans (V19_of m outs c main_v26 (by decide))
  have h27 : Gen.V21 m outs c main_v27 = Gen.V20 m outs c main_v27 := V21_of m outs c main_v27 (by decide)
  have h31 : Gen.V22 m outs c main_v31 = Gen.V21 m outs c main_v31 := V22_of m outs c main_v31 (by decide)
  have h32 : Gen.V23 m outs c main_v32 = Gen.V22 m outs c main_v32 := V23_of m outs c main_v32 (by decide)
  rw [v34_eq, subf_apply, h32, v32_eq, v33_eq, h31, h26, h27,
    take_apply _ _ hr j e, take_apply _ _ hs j e, v31_apply, v31_apply]

end Cert.KernelIdeal.TakeHost

end
-- ==== Proof.LibNary3.lean ====
/-
  A host operation over a LITERAL family of three references (a concatenation of three arrays, `nary ![x, a, b] y f`),
  read at its result: `f` of the three operands' contents, each at its own reference. The general statement reads operand
  `k` at the reference `![x, a, b] k`, which under the binder is no literal, so no further operation's result can be
  rewritten there; with the three contents listed one by one the reading of a line of operations goes on through them.
  (The four-operand form is the library's; this is the three-operand one.)
-/
import Idealize.ShloMosaic.Lib.StableHlo.Run

noncomputable section

namespace Cert.Lib.Nary3

open Idealize.ShloMosaic Idealize.ShloMosaic.StableHlo

variable {τ : Topo} {sig : RefSig} {Val : EltTy → Type} {x a b y : Ref sig .tc}

/-- Three contents, one per reference of the literal family, as the family's dependent tuple. Its three arguments have
    the plain types of the three references' contents, so a term can be rewritten inside them; at the literal indices
    `0`, `1`, `2` it reduces to the first, second and third. -/
def pick3 (vx : x.ty.Contents Val) (va : a.ty.Contents Val) (vb : b.ty.Contents Val) :
    (k : Fin 3) → ((![x, a, b] : Fin 3 → Ref sig .tc) k).ty.Contents Val :=
  Fin.cons vx (Fin.cons va (Fin.cons vb (fun i => i.elim0)))

/-- The result of a three-operand operation, each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (pick3 (F (Proc.devRef .tc x)) (F (Proc.devRef .tc a)) (F (Proc.devRef .tc b))) := by
  rw [nary_result]; congr 1; funext k; fin_cases k <;> rfl

/-- The same, in the form a simp pass can use (the result reference not indexed). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (pick3 (F (Proc.devRef .tc x)) (F (Proc.devRef .tc a)) (F (Proc.devRef .tc b))) :=
  nary3_result f hxs hy F

/-- The tuple at the three literal indices. -/
theorem pick3_zero (vx : x.ty.Contents Val) (va : a.ty.Contents Val) (vb : b.ty.Contents Val) :
    pick3 (x := x) (a := a) (b := b) vx va vb 0 = vx := rfl
theorem pick3_one (vx : x.ty.Contents Val) (va : a.ty.Contents Val) (vb : b.ty.Contents Val) :
    pick3 (x := x) (a := a) (b := b) vx va vb 1 = va := rfl
theorem pick3_two (vx : x.ty.Contents Val) (va : a.ty.Contents Val) (vb : b.ty.Contents Val) :
    pick3 (x := x) (a := a) (b := b) vx va vb 2 = vb := rfl

end Cert.Lib.Nary3

/-- Reads a buffer through a literal line of host operations, three-operand operations included: one simp pass over the
    operations' result lemmas; where the pass stops at a three-operand operation's tuple, the tuple is evaluated at its
    three literal indices and the pass goes on inside the three operands (once per nesting of such operations). -/
macro "read_line3" : tactic =>
  `(tactic| (simp (disch := decide) only [Cert.Lib.Nary3.nary3_result', Idealize.ShloMosaic.StableHlo.after_cons, Idealize.ShloMosaic.StableHlo.after_nil, Idealize.ShloMosaic.StableHlo.nullary_result', Idealize.ShloMosaic.StableHlo.unary_result', Idealize.ShloMosaic.StableHlo.binary_result', Idealize.ShloMosaic.StableHlo.ternary_result', Idealize.ShloMosaic.StableHlo.quaternary_result', Idealize.ShloMosaic.StableHlo.reshape_result', Idealize.ShloMosaic.StableHlo.nary4_result', Idealize.ShloMosaic.StableHlo.unaryIndexed_result', Idealize.ShloMosaic.StableHlo.binaryIndexed_result', Idealize.ShloMosaic.StableHlo.nullary_result_ne', Idealize.ShloMosaic.StableHlo.unary_result_ne', Idealize.ShloMosaic.StableHlo.binary_result_ne', Idealize.ShloMosaic.StableHlo.ternary_result_ne', Idealize.ShloMosaic.StableHlo.quaternary_result_ne', Idealize.ShloMosaic.StableHlo.reshape_result_ne', Idealize.ShloMosaic.StableHlo.nary_result_ne', Idealize.ShloMosaic.StableHlo.unaryIndexed_result_ne', Idealize.ShloMosaic.StableHlo.binaryIndexed_result_ne']
             repeat (rw [Cert.Lib.Nary3.pick3_zero, Cert.Lib.Nary3.pick3_one, Cert.Lib.Nary3.pick3_two]
                     try (simp (disch := decide) only [Cert.Lib.Nary3.nary3_result', Idealize.ShloMosaic.StableHlo.after_cons, Idealize.ShloMosaic.StableHlo.after_nil, Idealize.ShloMosaic.StableHlo.nullary_result', Idealize.ShloMosaic.StableHlo.unary_result', Idealize.ShloMosaic.StableHlo.binary_result', Idealize.ShloMosaic.StableHlo.ternary_result', Idealize.ShloMosaic.StableHlo.quaternary_result', Idealize.ShloMosaic.StableHlo.reshape_result', Idealize.ShloMosaic.StableHlo.nary4_result', Idealize.ShloMosaic.StableHlo.unaryIndexed_result', Idealize.ShloMosaic.StableHlo.binaryIndexed_result', Idealize.ShloMosaic.StableHlo.nullary_result_ne', Idealize.ShloMosaic.StableHlo.unary_result_ne', Idealize.ShloMosaic.StableHlo.binary_result_ne', Idealize.ShloMosaic.StableHlo.ternary_result_ne', Idealize.ShloMosaic.StableHlo.quaternary_result_ne', Idealize.ShloMosaic.StableHlo.reshape_result_ne', Idealize.ShloMosaic.StableHlo.nary_result_ne', Idealize.ShloMosaic.StableHlo.unaryIndexed_result_ne', Idealize.ShloMosaic.StableHlo.binaryIndexed_result_ne']))))

/-- The same reading by rewriting, one operation and reference at a time (no sharing, but it also works inside an operand of
    a three-operand operation, where the operand's type is spelt through its reference). -/
macro "read_line3_rw" : tactic =>
  `(tactic| (repeat (first
      | rw [Idealize.ShloMosaic.StableHlo.nullary_result]
      | rw [Idealize.ShloMosaic.StableHlo.unary_result]
      | rw [Idealize.ShloMosaic.StableHlo.binary_result]
      | rw [Idealize.ShloMosaic.StableHlo.ternary_result]
      | rw [Idealize.ShloMosaic.StableHlo.quaternary_result]
      | rw [Idealize.ShloMosaic.StableHlo.reshape_result]
      | rw [Cert.Lib.Nary3.nary3_result]
      | rw [Cert.Lib.Nary3.pick3_zero, Cert.Lib.Nary3.pick3_one, Cert.Lib.Nary3.pick3_two]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.quaternary_result_ne]; rotate_left; decide)
      | (rw [Idealize.ShloMosaic.StableHlo.reshape_result_ne]; rotate_left; decide)
      | (rw [Idealize.ShloMosaic.StableHlo.nary_result_ne]; rotate_left; decide))))

end
-- ==== Proof.HostValuesA.lean ====
/-
  The node-feature result of the kernel program, as one function of the two argument arrays, floats read as
  extended reals.

  X is the [4096,4] node array (columns 0 and 1 a planar position, columns 2 and 3 two further features) and Gl the
  [4096,2] array of goal positions. With the offset d(r,k) = Gl(r,k) − X(r,k), n(r) = sqrt(Σ_k d(r,k)·d(r,k)) and the
  factor f(r) = one half over max(n(r), one half) when n(r) exceeds one half and 1 otherwise, row r of the [4096,7]
  result is X(r,0..3), then d(r,0)·f(r), d(r,1)·f(r), then the constant 1. No kernel region takes part in it: the
  host operations after the second region compute it from the arguments alone.
-/
import proofs.«174933_j45260365365646_1_alg».proof.Proof.Gen.KernelIdeal.Regions
import proofs.«174933_j45260365365646_1_alg».proof.Proof.LibNary3
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.KernelIdeal.HostValues

open Cert.KernelIdeal Cert.KernelIdeal.Gen
open Idealize.ShloMosaic Idealize.ShloMosaic.TcCoe Idealize.ShloMosaic.ValueIdx
open scoped BigOperators

/-! ## The arrays a valuation holds, at their array types -/

/-- The node array X and the goal array Gl as a valuation holds them. -/
abbrev argX (W : Valuation τ sig (Elt Ideal)) : S4096x4.Idx → EReal := W main_arg0
abbrev argG (W : Valuation τ sig (Elt Ideal)) : S4096x2.Idx → EReal := W main_arg1

/-! ## The result as a function of the arguments -/

/-- One half and one, as the program's literals. -/
abbrev half : EReal := Ideal.ofBits .f32 0x3F000000#32
abbrev one : EReal := Ideal.ofBits .f32 0x3F800000#32

/-- The offsets d = Gl − X[:, 0:2], a [4096,2] array. -/
def dispArr (X : S4096x4.Idx → EReal) (Gl : S4096x2.Idx → EReal) : S4096x2.Idx → EReal :=
  subf (F := Ideal) (φ := .f32) Gl (extractStridedSlice S4096x2 ![0, 0] X slices_S4096x4_S4096x2_0_0)

/-- The offsets' lengths n = sqrt(Σ_k d·d), a [4096,1] column. -/
def normArr (X : S4096x4.Idx → EReal) (Gl : S4096x2.Idx → EReal) : S4096x1.Idx → EReal :=
  Host.sqrt (F := Ideal) (φ := .f32) (broadcastInDim S4096x1 ![0] bcast_S4096_S4096x1_0
    (Host.reduceAdd (F := Ideal) (φ := .f32)
      (mulf (F := Ideal) (φ := .f32) (dispArr X Gl) (dispArr X Gl))
      (constant (F := Ideal) S_ .f32 0x00000000#32) reducesTo_S4096x2_S4096_d1 h_S_))

/-- The factors: one half over max(n, one half) where n exceeds one half, 1 elsewhere; a [4096,1] column. -/
def factorArr (X : S4096x4.Idx → EReal) (Gl : S4096x2.Idx → EReal) : S4096x1.Idx → EReal :=
  select
    (cmpf (F := Ideal) (φ := .f32) .ogt (normArr X Gl)
      (broadcastInDim S4096x1 ![] bcast_S_S4096x1 (constant (F := Ideal) S_ .f32 0x3F000000#32)))
    (Host.divf (F := Ideal) (φ := .f32)
      (broadcastInDim S4096x1 ![] bcast_S_S4096x1 (constant (F := Ideal) S_ .f32 0x3F000000#32))
      (maximumf (F := Ideal) (φ := .f32) (normArr X Gl)
        (broadcastInDim S4096x1 ![] bcast_S_S4096x1 (constant (F := Ideal) S_ .f32 0x3F000000#32))))
    (broadcastInDim S4096x1 ![] bcast_S_S4096x1 (constant (F := Ideal) S_ .f32 0x3F800000#32))

/-- The offsets, each row times its factor: a [4096,2] array. -/
def scaledArr (X : S4096x4.Idx → EReal) (Gl : S4096x2.Idx → EReal) : S4096x2.Idx → EReal :=
  mulf (F := Ideal) (φ := .f32) (dispArr X Gl)
    (broadcastInDim S4096x2 ![0, 1] bcast_S4096x1_S4096x2_0_1 (factorArr X Gl))

/-- A [4096,1] column of ones. -/
def onesCol : S4096x1.Idx → EReal :=
  broadcastInDim S4096x1 ![] bcast_S_S4096x1 (constant (F := Ideal) S_ .f32 0x3F800000#32)

/-- The three arrays the result lays side by side. -/
abbrev nodePieces (X : S4096x4.Idx → EReal) (Gl : S4096x2.Idx → EReal) : List ((s : Shape) × (s.Idx → EReal)) :=
  [⟨S4096x4, X⟩, ⟨S4096x2, scaledArr X Gl⟩, ⟨S4096x1, onesCol⟩]

/-- THE NODE RESULT: X, the scaled offsets and a column of ones, side by side. -/
def nodeOut (X : S4096x4.Idx → EReal) (Gl : S4096x2.Idx → EReal) : S4096x7.Idx → EReal :=
  concatenate S4096x7 1 (nodePieces X Gl) concatenates_S4096x4_S4096x2_S4096x1_S4096x7_d1

/-! ## The three host stretches after the second region, read from ANY contents before them -/

/-- From any contents `W`, the operations after the second region leave `nodeOut` of `W`'s two arguments in the
    node result's buffer: the contents of every other buffer, the second region's output included, play no part. -/
theorem tail_main_v53 (W : Valuation τ sig (Elt Ideal)) :
    (StableHlo.after hostOps2_2 (StableHlo.after hostOps2_1 (StableHlo.after hostOps2 W)) main_v53 : S4096x7.Idx → EReal)
      = nodeOut (argX W) (argG W) := by
  dsimp only [hostOps2, hostOps2_1, hostOps2_2]
  read_line3
  rfl

/-! ## The result at an index -/

/-- Row r of the offsets: d(r,k) = Gl(r,k) − X(r,k). -/
theorem dispArr_apply (X : S4096x4.Idx → EReal) (Gl : S4096x2.Idx → EReal) (r : Fin 4096) (k : Fin 2) :
    dispArr X Gl (ix2 r k) = Gl (ix2 r k) - X (ix2 r (Fin.castLE (by decide) k)) := by
  unfold dispArr
  rw [subf_apply, slice2_axis1_apply 0 X slices_S4096x4_S4096x2_0_0 r k (Fin.castLE (by decide) k) (Nat.zero_add _).symm]

/-- The sum of the squared offsets of row r, from the program's zero: what the length is the root of. -/
def sumsq (X : S4096x4.Idx → EReal) (Gl : S4096x2.Idx → EReal) (r : Fin 4096) : EReal :=
  Ideal.ofBits .f32 0x00000000#32
    + ∑ k : Fin 2, (Gl (ix2 r k) - X (ix2 r (Fin.castLE (by decide) k))) * (Gl (ix2 r k) - X (ix2 r (Fin.castLE (by decide) k)))

/-- The factor of row r. -/
def factor (X : S4096x4.Idx → EReal) (Gl : S4096x2.Idx → EReal) (r : Fin 4096) : EReal :=
  Scalar.select (Ideal.cmp .ogt (Ideal.sqrt (sumsq X Gl r)) half)
    (Ideal.div half (max (Ideal.sqrt (sumsq X Gl r)) half)) one

/-- The index a sum over the columns of row r runs through. -/
theorem lift_row (h : S4096x2.Reduces [1] S4096) (r : Fin 4096) (k : Fin 2) : h.lift (ix1 r) k = ix2 r k := by
  funext a; refine Fin.ext ?_
  match a with
  | ⟨0, _⟩ => rfl
  | ⟨1, _⟩ => rfl

/-- The length of row r's offset. -/
theorem normArr_apply (X : S4096x4.Idx → EReal) (Gl : S4096x2.Idx → EReal) (r : Fin 4096) (u : Fin 1) :
    normArr X Gl (ix2 r u) = Ideal.sqrt (sumsq X Gl r) := by
  unfold normArr sumsq
  show Ideal.sqrt (broadcastInDim (s := S4096) S4096x1 ![0] bcast_S4096_S4096x1_0 _ (ix2 r u)) = _
  rw [broadcastInDim_apply (s := S4096) (t := S4096x1) ![0] bcast_S4096_S4096x1_0 _ (ix2 r u) (ix1 r) (fun a => by match a with | ⟨0, _⟩ => rfl)]
  have h : S4096x2.Reduces [1] S4096 := by decide
  rw [hostReduceAdd_apply, Ideal.hostReduceAdd_single reducesTo_S4096x2_S4096_d1 h]
  refine congrArg Ideal.sqrt (congrArg₂ (· + ·) rfl (Finset.sum_congr rfl fun k _ => ?_))
  exact (congrArg (mulf (F := Ideal) (φ := .f32) (dispArr X Gl) (dispArr X Gl)) (lift_row h r k)).trans
    (congrArg₂ (· * ·) (dispArr_apply X Gl r k) (dispArr_apply X Gl r k))

/-- The factor of row r, read off the column. -/
theorem factorArr_apply (X : S4096x4.Idx → EReal) (Gl : S4096x2.Idx → EReal) (r : Fin 4096) (u : Fin 1) :
    factorArr X Gl (ix2 r u) = factor X Gl r := by
  unfold factorArr factor
  rw [select_apply, cmpf_apply, hostDivf_apply, maximumf_apply, normArr_apply]
  rfl

/-- Columns 0 to 3 of the result are X. -/
theorem nodeOut_lo (X : S4096x4.Idx → EReal) (Gl : S4096x2.Idx → EReal) (r : Fin 4096) (j : Fin 7) (k : Fin 4)
    (hk : j.val = k.val) : nodeOut X Gl (ix2 r j) = X (ix2 r k) := by
  unfold nodeOut
  exact concatenate_apply_piece (t := S4096x7) (α := EReal) (1 : Fin 2) (nodePieces X Gl) concatenates_S4096x4_S4096x2_S4096x1_S4096x7_d1 (ix2 r j)
    0 (by show (0 : ℕ) < 3; omega) S4096x4 X rfl rfl 0 rfl (ix2 r k)
    (fun b hb => by
      match b with
      | ⟨0, _⟩ => rfl
      | ⟨1, _⟩ => exact absurd rfl hb)
    (by show 0 + k.val = j.val; omega)

/-- Columns 4 and 5 are the offsets times the row's factor. -/
theorem nodeOut_mid (X : S4096x4.Idx → EReal) (Gl : S4096x2.Idx → EReal) (r : Fin 4096) (j : Fin 7) (k : Fin 2)
    (hk : j.val = 4 + k.val) :
    nodeOut X Gl (ix2 r j) = (Gl (ix2 r k) - X (ix2 r (Fin.castLE (by decide) k))) * factor X Gl r := by
  unfold nodeOut
  refine (concatenate_apply_piece (t := S4096x7) (α := EReal) (1 : Fin 2) (nodePieces X Gl) concatenates_S4096x4_S4096x2_S4096x1_S4096x7_d1 (ix2 r j)
    1 (by show (1 : ℕ) < 3; omega) S4096x2 (scaledArr X Gl) rfl rfl 4 rfl (ix2 r k)
    (fun b hb => by
      match b with
      | ⟨0, _⟩ => rfl
      | ⟨1, _⟩ => exact absurd rfl hb)
    (by show 4 + k.val = j.val; omega)).trans ?_
  unfold scaledArr
  rw [mulf_apply, dispArr_apply,
    broadcastInDim_apply (s := S4096x1) (t := S4096x2) ![0, 1] bcast_S4096x1_S4096x2_0_1 (factorArr X Gl) (ix2 r k) (ix2 r (0 : Fin 1))
      (fun a => by
        match a with
        | ⟨0, _⟩ => rfl
        | ⟨1, _⟩ => rfl),
    factorArr_apply]

/-- Column 6 is the constant one. -/
theorem nodeOut_hi (X : S4096x4.Idx → EReal) (Gl : S4096x2.Idx → EReal) (r : Fin 4096) (j : Fin 7)
    (hj : j.val = 6) : nodeOut X Gl (ix2 r j) = one := by
  unfold nodeOut
  refine (concatenate_apply_piece (t := S4096x7) (α := EReal) (1 : Fin 2) (nodePieces X Gl) concatenates_S4096x4_S4096x2_S4096x1_S4096x7_d1 (ix2 r j)
    2 (by show (2 : ℕ) < 3; omega) S4096x1 onesCol rfl rfl 6 rfl (ix2 r (0 : Fin 1))
    (fun b hb => by
      match b with
      | ⟨0, _⟩ => rfl
      | ⟨1, _⟩ => exact absurd rfl hb)
    (by show 6 + 0 = j.val; omega)).trans ?_
  rfl

/-! ## From the launch to the end -/

variable (m : (ℓ : Loc nD τ sig) → Buf (Elt Ideal) ℓ) (outs : Outs (F := Ideal)) (c : Dev nD)

/-- No item before the last three host stretches writes an argument: the node array is still the launch's … -/
theorem argX_V25 : argX (V25 m outs c) = argX (V0 m c) :=
  (V25_of m outs c main_arg0 (by decide)).trans <| (V24_of m outs c main_arg0 (by decide)).trans <| (V23_of m outs c main_arg0 (by decide)).trans <| (V22_of m outs c main_arg0 (by decide)).trans <| (V21_of m outs c main_arg0 (by decide)).trans <| (V20_of m outs c main_arg0 (by decide)).trans <| (V19_of m outs c main_arg0 (by decide)).trans <| (V18_of m outs c main_arg0 (by decide)).trans <| (V17_of m outs c main_arg0 (by decide)).trans <| (V16_of m outs c main_arg0 (by decide)).trans <| (V15_of m outs c main_arg0 (by decide)).trans <| (V14_of m outs c main_arg0 (by decide)).trans <| (V13_of m outs c main_arg0 (by decide)).trans <| (V12_of m outs c main_arg0 (by decide)).trans <| (V11_of m outs c main_arg0 (by decide)).trans <| (V10_of m outs c main_arg0 (by decide)).trans <| (V9_of m outs c main_arg0 (by decide)).trans <| (V8_of m outs c main_arg0 (by decide)).trans <| (V7_of m outs c main_arg0 (by decide)).trans <| (V6_of m outs c main_arg0 (by decide)).trans <| (V5_of m outs c main_arg0 (by decide)).trans <| (V4_of m outs c main_arg0 (by decide)).trans <| (V3_of m outs c main_arg0 (by decide)).trans <| (V2_of m outs c main_arg0 (by decide)).trans <| (V1_of m c main_arg0 (by decide))
/-- … and so is the goal array. -/
theorem argG_V25 : argG (V25 m outs c) = argG (V0 m c) :=
  (V25_of m outs c main_arg1 (by decide)).trans <| (V24_of m outs c main_arg1 (by decide)).trans <| (V23_of m outs c main_arg1 (by decide)).trans <| (V22_of m outs c main_arg1 (by decide)).trans <| (V21_of m outs c main_arg1 (by decide)).trans <| (V20_of m outs c main_arg1 (by decide)).trans <| (V19_of m outs c main_arg1 (by decide)).trans <| (V18_of m outs c main_arg1 (by decide)).trans <| (V17_of m outs c main_arg1 (by decide)).trans <| (V16_of m outs c main_arg1 (by decide)).trans <| (V15_of m outs c main_arg1 (by decide)).trans <| (V14_of m outs c main_arg1 (by decide)).trans <| (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m outs c main_arg1 (by decide)).trans <| (V4_of m outs c main_arg1 (by decide)).trans <| (V3_of m outs c main_arg1 (by decide)).trans <| (V2_of m outs c main_arg1 (by decide)).trans <| (V1_of m c main_arg1 (by decide))

/-- THE NODE RESULT at the end of the program: `nodeOut` of the two argument arrays as launched, whatever the two
    regions left in their outputs. -/
theorem main_v53_eq :
    (V28 m outs c main_v53 : S4096x7.Idx → EReal) = nodeOut (argX (V0 m c)) (argG (V0 m c)) := by
  rw [← argX_V25 m outs c, ← argG_V25 m outs c]
  exact tail_main_v53 (V25 m outs c)

end Cert.KernelIdeal.HostValues
end
-- ==== Proof.HostValuesB.lean ====
/-
  The two edge results of the kernel program.

  The edge index is a [2,16777216] array of 32-bit words: row 0 the senders, row 1 the receivers, each a flat array
  laid as one row and the two rows stacked. The edge features are the second region's [4,16777216] output
  transposed to [16777216,4]: entry (e, j) of the result is entry (j, e) of what the region wrote.
-/
import proofs.«174933_j45260365365646_1_alg».proof.Proof.Gen.KernelIdeal.Regions
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.KernelIdeal.HostValues

open Cert.KernelIdeal Cert.KernelIdeal.Gen
open Idealize.ShloMosaic Idealize.ShloMosaic.TcCoe Idealize.ShloMosaic.ValueIdx
open scoped BigOperators

/-! ## The edge index -/

/-- Two flat index arrays as the two rows of a [2,16777216] array. -/
def edgeIndex (s rcv : S16777216.Idx → BitVec 32) : S2x16777216.Idx → BitVec 32 :=
  concatenate S2x16777216 0
    [⟨S1x16777216, broadcastInDim S1x16777216 ![1] bcast_S16777216_S1x16777216_1 s⟩,
     ⟨S1x16777216, broadcastInDim S1x16777216 ![1] bcast_S16777216_S1x16777216_1 rcv⟩]
    concatenates_S1x16777216_S1x16777216_S2x16777216_d0

/-- The senders' and the receivers' buffers as a valuation holds them. -/
abbrev sendBuf (W : Valuation τ sig (Elt Ideal)) : S16777216.Idx → BitVec 32 := W main_v26
abbrev recvBuf (W : Valuation τ sig (Elt Ideal)) : S16777216.Idx → BitVec 32 := W main_v27

/-- From any contents, the stretch after the two index arrays leaves them stacked in the edge index's buffer. -/
theorem read_v30 (W : Valuation τ sig (Elt Ideal)) :
    (StableHlo.after hostOps1_18 W main_v30 : S2x16777216.Idx → BitVec 32) = edgeIndex (sendBuf W) (recvBuf W) := by
  dsimp only [hostOps1_18]
  after_results_simp
  rfl

/-- The pieces the edge index stacks. -/
abbrev edgePieces (s rcv : S16777216.Idx → BitVec 32) : List ((t : Shape) × (t.Idx → BitVec 32)) :=
  [⟨S1x16777216, broadcastInDim S1x16777216 ![1] bcast_S16777216_S1x16777216_1 s⟩,
   ⟨S1x16777216, broadcastInDim S1x16777216 ![1] bcast_S16777216_S1x16777216_1 rcv⟩]

/-- Row 0 of the edge index is the first array … -/
theorem edgeIndex_row0 (s rcv : S16777216.Idx → BitVec 32) (e : Fin 16777216) :
    edgeIndex s rcv (ix2 (0 : Fin 2) e) = s (ix1 e) := by
  unfold edgeIndex
  refine (concatenate_apply_piece (t := S2x16777216) (α := BitVec 32) (0 : Fin 2) (edgePieces s rcv)
    concatenates_S1x16777216_S1x16777216_S2x16777216_d0 (ix2 (0 : Fin 2) e)
    0 (by show (0 : ℕ) < 2; omega) S1x16777216 (broadcastInDim S1x16777216 ![1] bcast_S16777216_S1x16777216_1 s) rfl rfl 0 rfl
    (ix2 (0 : Fin 1) e)
    (fun b hb => by
      match b with
      | ⟨0, _⟩ => exact absurd rfl hb
      | ⟨1, _⟩ => rfl)
    rfl).trans ?_
  exact broadcastInDim_apply (s := S16777216) (t := S1x16777216) ![1] bcast_S16777216_S1x16777216_1 s (ix2 (0 : Fin 1) e) (ix1 e)
    (fun a => by match a with | ⟨0, _⟩ => rfl)

/-- … and row 1 the second. -/
theorem edgeIndex_row1 (s rcv : S16777216.Idx → BitVec 32) (e : Fin 16777216) :
    edgeIndex s rcv (ix2 (1 : Fin 2) e) = rcv (ix1 e) := by
  unfold edgeIndex
  refine (concatenate_apply_piece (t := S2x16777216) (α := BitVec 32) (0 : Fin 2) (edgePieces s rcv)
    concatenates_S1x16777216_S1x16777216_S2x16777216_d0 (ix2 (1 : Fin 2) e)
    1 (by show (1 : ℕ) < 2; omega) S1x16777216 (broadcastInDim S1x16777216 ![1] bcast_S16777216_S1x16777216_1 rcv) rfl rfl 1 rfl
    (ix2 (0 : Fin 1) e)
    (fun b hb => by
      match b with
      | ⟨0, _⟩ => exact absurd rfl hb
      | ⟨1, _⟩ => rfl)
    rfl).trans ?_
  exact broadcastInDim_apply (s := S16777216) (t := S1x16777216) ![1] bcast_S16777216_S1x16777216_1 rcv (ix2 (0 : Fin 1) e) (ix1 e)
    (fun a => by match a with | ⟨0, _⟩ => rfl)

/-! ## The edge features -/

/-- A [4,16777216] array with its two axes exchanged. -/
def edgeOut (Ef : S4x16777216.Idx → EReal) : S16777216x4.Idx → EReal :=
  transpose S16777216x4 [1, 0] Ef transposes_S4x16777216_S16777216x4_1_0

/-- The second region's output buffer as a valuation holds it. -/
abbrev featBuf (W : Valuation τ sig (Elt Ideal)) : S4x16777216.Idx → EReal := W main_v35

/-- From any contents, the first stretch after the second region leaves its output transposed in the edge
    features' buffer. -/
theorem read_v36 (W : Valuation τ sig (Elt Ideal)) :
    (StableHlo.after hostOps2 W main_v36 : S16777216x4.Idx → EReal) = edgeOut (featBuf W) := by
  dsimp only [hostOps2]
  after_results_simp
  rfl

/-- Entry (e, j) of the edge features is entry (j, e) of the region's output. -/
theorem edgeOut_apply (Ef : S4x16777216.Idx → EReal) (e : Fin 16777216) (j : Fin 4) :
    edgeOut Ef (ix2 e j) = Ef (ix2 j e) :=
  transpose_ix2_apply Ef transposes_S4x16777216_S16777216x4_1_0 e j

/-! ## From the regions to the end -/

variable (m : (ℓ : Loc nD τ sig) → Buf (Elt Ideal) ℓ) (outs : Outs (F := Ideal)) (c : Dev nD)

/-- THE EDGE INDEX at the end of the program: the two index arrays as they stand after the second of them is
    computed, stacked. -/
theorem main_v30_eq :
    (V28 m outs c main_v30 : S2x16777216.Idx → BitVec 32) = edgeIndex (sendBuf (V20 m outs c)) (recvBuf (V20 m outs c)) :=
  ((V28_of m outs c main_v30 (by decide)).trans <| (V27_of m outs c main_v30 (by decide)).trans <| (V26_of m outs c main_v30 (by decide)).trans <| (V25_of m outs c main_v30 (by decide)).trans <| (V24_of m outs c main_v30 (by decide)).trans <| (V23_of m outs c main_v30 (by decide)).trans <| (V22_of m outs c main_v30 (by decide))).trans (read_v30 (V20 m outs c))

/-- The senders' buffer is not written after the stretch that computes it. -/
theorem sendBuf_V20 : sendBuf (V20 m outs c) = sendBuf (V18 m outs c) :=
  (V20_of m outs c main_v26 (by decide)).trans <| (V19_of m outs c main_v26 (by decide))

/-- What the second region leaves in its output is what the valuation after it holds there. -/
theorem featBuf_V25 : featBuf (V25 m outs c) = (outs 25 main_v35 c : S4x16777216.Idx → EReal) := by
  show Function.update (V24 m outs c) (Proc.devRef .tc main_v35) (outs 25 main_v35 c) (Proc.devRef .tc main_v35) = _
  exact Function.update_self _ _ _

/-- THE EDGE FEATURES at the end of the program: the second region's output, transposed. -/
theorem main_v36_eq :
    (V28 m outs c main_v36 : S16777216x4.Idx → EReal) = edgeOut (outs 25 main_v35 c : S4x16777216.Idx → EReal) :=
  (((V28_of m outs c main_v36 (by decide)).trans <| (V27_of m outs c main_v36 (by decide))).trans (read_v36 (V25 m outs c))).trans (congrArg edgeOut (featBuf_V25 m outs c))

end Cert.KernelIdeal.HostValues
end
-- ==== Proof.BridgeK.lean ====
/-
  The kernel program's three results in closed form, read off the last valuation of its run: the node features as
  one function of the two argument arrays; the edge index as the two index rows stacked; an edge feature as the
  rescale of the receiver-minus-sender differences the second region was handed.
-/
import proofs.«174933_j45260365365646_1_alg».proof.Proof.KernelRun
import proofs.«174933_j45260365365646_1_alg».proof.Proof.EdgeValue
import proofs.«174933_j45260365365646_1_alg».proof.Proof.AdjHost
import proofs.«174933_j45260365365646_1_alg».proof.Proof.TakeHost
import proofs.«174933_j45260365365646_1_alg».proof.Proof.HostValuesA
import proofs.«174933_j45260365365646_1_alg».proof.Proof.HostValuesB

noncomputable section

namespace Cert.Proof.Bridge

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The three results the kernel program ends with, read off its last valuation. -/
abbrev node (c : Dev nD) := Gen.V28 m (Run.outs m) c (Proc.devRef .tc main_v53)
abbrev eidx (c : Dev nD) := Gen.V28 m (Run.outs m) c (Proc.devRef .tc main_v30)
abbrev efeat (c : Dev nD) := Gen.V28 m (Run.outs m) c (Proc.devRef .tc main_v36)

/-- The two argument arrays. -/
abbrev argX (c : Dev nD) : S4096x4.Idx → EReal := m ((c.tc : Thread nD τ).loc main_arg0)
abbrev argG (c : Dev nD) : S4096x2.Idx → EReal := m ((c.tc : Thread nD τ).loc main_arg1)

/-- The index rows as the run holds them: the senders and the receivers of the listed pairs. -/
abbrev sendK (c : Dev nD) : S16777216.Idx → BitVec 32 := TakeHost.senders m (Run.outs m) c
abbrev recvK (c : Dev nD) : S16777216.Idx → BitVec 32 := TakeHost.receivers m (Run.outs m) c

/-- The node features are one function of the states and the goals. -/
theorem node_eq (c : Dev nD) : (node m c : S4096x7.Idx → EReal) = HostValues.nodeOut (argX m c) (argG m c) :=
  HostValues.main_v53_eq m (Run.outs m) c

/-- The edge index is the senders' row over the receivers' row. -/
theorem eidx_eq (c : Dev nD) : (eidx m c : S2x16777216.Idx → BitVec 32) = HostValues.edgeIndex (sendK m c) (recvK m c) := by
  have h := HostValues.main_v30_eq m (Run.outs m) c
  rw [HostValues.sendBuf_V20] at h
  exact h

/-- What the second region leaves is the rescale of the differences it was handed, read under the final valuation. -/
theorem edge_eq (c : Dev nD) :
    Run.edge m c = EdgeValue.G1 (Gen.V24 m (Run.outs m) c main_v34) := by
  unfold Run.edge
  rw [EdgeValue.final1 (Run.Vr24 m) c]
  show EdgeValue.G1 (Gen.V24 m (fun _ => Run.outsM m) c main_v34) = _
  rw [← Run.V24_outs m c]

/-- Feature `j` of edge `e` is entry `(j, e)` of the rescaled differences. -/
theorem efeat_apply (c : Dev nD) (e : Fin 16777216) (j : Fin 4) :
    (efeat m c : S16777216x4.Idx → EReal) (ix2 e j) = EdgeValue.rescaled (TakeHost.edgeIn m (Run.outs m) c) j e := by
  have h := HostValues.main_v36_eq m (Run.outs m) c
  rw [Run.outs_edge, edge_eq] at h
  rw [show (efeat m c : S16777216x4.Idx → EReal) = _ from h, HostValues.edgeOut_apply, EdgeValue.G1_apply]

end Cert.Proof.Bridge

end
-- ==== Proof.RefRunB.lean ====
/- The three results of the reference's run as compositions of pure array operations. Each function that jax
   outlines (the `where`s, `cumsum`, `clip`, `floor_divide`, `remainder`) is one pure function of its operands; each
   array of @main that is read more than once, or that a later stretch of @main reads, is one named stage, a function
   of the stages it is computed from. The fold of @main's operations is read stretch by stretch against these names. -/
import proofs.«174933_j45260365365646_1_alg».proof.Proof.Gen.ReferenceIdeal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The outlined functions, as pure functions -/

/-- `jnp.where(c, x, k)` on a 4096×4096 array, `k` a scalar spread over it. -/
def whereSq (x0 : (⟨S4096x4096, .i1⟩ : BufTy).Contents (Elt F)) (x1 : (⟨S4096x4096, .f32⟩ : BufTy).Contents (Elt F)) (x2 : (⟨S_, .f32⟩ : BufTy).Contents (Elt F)) : (⟨S4096x4096, .f32⟩ : BufTy).Contents (Elt F) :=
  ((select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)) (x0) (x1) (((broadcastInDim S4096x4096 ![] bcast_S_S4096x4096 : (⟨S_, .f32⟩ : BufTy).Contents (Elt F) → (⟨S4096x4096, .f32⟩ : BufTy).Contents (Elt F)) (((id : (⟨S_, .f32⟩ : BufTy).Contents (Elt F) → (⟨S_, .f32⟩ : BufTy).Contents (Elt F)) (x2))))))

/-- The running sum of a vector of 16,777,216 integers (each entry the sum of the entries up to it). -/
def runningSum (x0 : (⟨S16777216, .i32⟩ : BufTy).Contents (Elt F)) : (⟨S16777216, .i32⟩ : BufTy).Contents (Elt F) :=
  (Host.reduceWindow IntOp.addi ![16777216] ![1] ![16777215] ![0] (x0) (((broadcastInDim S_ ![] bcast_S_S_ : (⟨S_, .i32⟩ : BufTy).Contents (Elt F) → (⟨S_, .i32⟩ : BufTy).Contents (Elt F)) ((constantI S_ 32 0#32 : (⟨S_, .i32⟩ : BufTy).Contents (Elt F))))) reduceWindows_S16777216_S16777216_w16777216s1p16777215_0 h_S_ : (⟨S16777216, .i32⟩ : BufTy).Contents (Elt F))

/-- The running count of a 4096×4096 mask read in row-major order. -/
def maskRunningSum (x0 : (⟨S4096x4096, .i1⟩ : BufTy).Contents (Elt F)) : (⟨S16777216, .i32⟩ : BufTy).Contents (Elt F) :=
  (runningSum ((extui 32 ((shapeCast S16777216 (x0) shapeCasts_S4096x4096_S16777216 : (⟨S16777216, .i1⟩ : BufTy).Contents (Elt F))) natLt_1_32 : (⟨S16777216, .i32⟩ : BufTy).Contents (Elt F))))

/-- Every entry raised to at least the scalar `k`. -/
def clipBelow (x0 : (⟨S16777216, .i32⟩ : BufTy).Contents (Elt F)) (x1 : (⟨S_, .i32⟩ : BufTy).Contents (Elt F)) : (⟨S16777216, .i32⟩ : BufTy).Contents (Elt F) :=
  ((maxsi : (⟨S16777216, .i32⟩ : BufTy).Contents (Elt F) → (⟨S16777216, .i32⟩ : BufTy).Contents (Elt F) → (⟨S16777216, .i32⟩ : BufTy).Contents (Elt F)) (((broadcastInDim S16777216 ![] bcast_S_S16777216 : (⟨S_, .i32⟩ : BufTy).Contents (Elt F) → (⟨S16777216, .i32⟩ : BufTy).Contents (Elt F)) (((id : (⟨S_, .i32⟩ : BufTy).Contents (Elt F) → (⟨S_, .i32⟩ : BufTy).Contents (Elt F)) (x1))))) (x0))

/-- The running sum, as the second caller names it. -/
def runningSum1 (x0 : (⟨S16777216, .i32⟩ : BufTy).Contents (Elt F)) : (⟨S16777216, .i32⟩ : BufTy).Contents (Elt F) :=
  (runningSum (x0))

/-- `jnp.where(c, x, y)` on vectors. -/
def whereVec (x0 : (⟨S16777216, .i1⟩ : BufTy).Contents (Elt F)) (x1 : (⟨S16777216, .i32⟩ : BufTy).Contents (Elt F)) (x2 : (⟨S16777216, .i32⟩ : BufTy).Contents (Elt F)) : (⟨S16777216, .i32⟩ : BufTy).Contents (Elt F) :=
  ((select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)) (x0) (x1) (x2))

/-- Division by the scalar `k`, rounded towards minus infinity: the truncated quotient, less one where the signs differ and the remainder is not zero. -/
def floorDivide (x0 : (⟨S16777216, .i32⟩ : BufTy).Contents (Elt F)) (x1 : (⟨S_, .i32⟩ : BufTy).Contents (Elt F)) : (⟨S16777216, .i32⟩ : BufTy).Contents (Elt F) :=
  (whereVec (((andi : (⟨S16777216, .i1⟩ : BufTy).Contents (Elt F) → (⟨S16777216, .i1⟩ : BufTy).Contents (Elt F) → (⟨S16777216, .i1⟩ : BufTy).Contents (Elt F)) (((cmpi .ne : (⟨S16777216, .i32⟩ : BufTy).Contents (Elt F) → (⟨S16777216, .i32⟩ : BufTy).Contents (Elt F) → (⟨S16777216, .i1⟩ : BufTy).Contents (Elt F)) (((signi : (⟨S16777216, .i32⟩ : BufTy).Contents (Elt F) → (⟨S16777216, .i32⟩ : BufTy).Contents (Elt F)) (x0))) (((broadcastInDim S16777216 ![] bcast_S_S16777216 : (⟨S_, .i32⟩ : BufTy).Contents (Elt F) → (⟨S16777216, .i32⟩ : BufTy).Contents (Elt F)) (((signi : (⟨S_, .i32⟩ : BufTy).Contents (Elt F) → (⟨S_, .i32⟩ : BufTy).Contents (Elt F)) (x1))))))) (((cmpi .ne : (⟨S16777216, .i32⟩ : BufTy).Contents (Elt F) → (⟨S16777216, .i32⟩ : BufTy).Contents (Elt F) → (⟨S16777216, .i1⟩ : BufTy).Contents (Elt F)) (((Host.remsi : (⟨S16777216, .i32⟩ : BufTy).Contents (Elt F) → (⟨S16777216, .i32⟩ : BufTy).Contents (Elt F) → (⟨S16777216, .i32⟩ : BufTy).Contents (Elt F)) (x0) (((broadcastInDim S16777216 ![] bcast_S_S16777216 : (⟨S_, .i32⟩ : BufTy).Contents (Elt F) → (⟨S16777216, .i32⟩ : BufTy).Contents (Elt F)) (x1))))) (((broadcastInDim S16777216 ![] bcast_S_S16777216 : (⟨S_, .i32⟩ : BufTy).Contents (Elt F) → (⟨S16777216, .i32⟩ : BufTy).Contents (Elt F)) ((constantI S_ 32 0#32 : (⟨S_, .i32⟩ : BufTy).Contents (Elt F))))))))) (((subi : (⟨S16777216, .i32⟩ : BufTy).Contents (Elt F) → (⟨S16777216, .i32⟩ : BufTy).Contents (Elt F) → (⟨S16777216, .i32⟩ : BufTy).Contents (Elt F)) (((Host.divsi : (⟨S16777216, .i32⟩ : BufTy).Contents (Elt F) → (⟨S16777216, .i32⟩ : BufTy).Contents (Elt F) → (⟨S16777216, .i32⟩ : BufTy).Contents (Elt F)) (x0) (((broadcastInDim S16777216 ![] bcast_S_S16777216 : (⟨S_, .i32⟩ : BufTy).Contents (Elt F) → (⟨S16777216, .i32⟩ : BufTy).Contents (Elt F)) (x1))))) (((broadcastInDim S16777216 ![] bcast_S_S16777216 : (⟨S_, .i32⟩ : BufTy).Contents (Elt F) → (⟨S16777216, .i32⟩ : BufTy).Contents (Elt F)) ((constantI S_ 32 1#32 : (⟨S_, .i32⟩ : BufTy).Contents (Elt F))))))) (((Host.divsi : (⟨S16777216, .i32⟩ : BufTy).Contents (Elt F) → (⟨S16777216, .i32⟩ : BufTy).Contents (Elt F) → (⟨S16777216, .i32⟩ : BufTy).Contents (Elt F)) (x0) (((broadcastInDim S16777216 ![] bcast_S_S16777216 : (⟨S_, .i32⟩ : BufTy).Contents (Elt F) → (⟨S16777216, .i32⟩ : BufTy).Contents (Elt F)) (x1))))))

/-- `jnp.where(c, x, y)` on scalars. -/
def whereScalar (x0 : (⟨S_, .i1⟩ : BufTy).Contents (Elt F)) (x1 : (⟨S_, .i32⟩ : BufTy).Contents (Elt F)) (x2 : (⟨S_, .i32⟩ : BufTy).Contents (Elt F)) : (⟨S_, .i32⟩ : BufTy).Contents (Elt F) :=
  ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (x0) (x1) (x2))

/-- The remainder of division by the scalar `k` with the sign of the divisor: the truncated remainder, plus `k` where it is not zero and its sign differs from `k`'s (a zero `k` is replaced by one). -/
def floorRemainder (x0 : (⟨S16777216, .i32⟩ : BufTy).Contents (Elt F)) (x1 : (⟨S_, .i32⟩ : BufTy).Contents (Elt F)) : (⟨S16777216, .i32⟩ : BufTy).Contents (Elt F) :=
  ((select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)) (((andi : (⟨S16777216, .i1⟩ : BufTy).Contents (Elt F) → (⟨S16777216, .i1⟩ : BufTy).Contents (Elt F) → (⟨S16777216, .i1⟩ : BufTy).Contents (Elt F)) (((cmpi .ne : (⟨S16777216, .i1⟩ : BufTy).Contents (Elt F) → (⟨S16777216, .i1⟩ : BufTy).Contents (Elt F) → (⟨S16777216, .i1⟩ : BufTy).Contents (Elt F)) (((cmpi .slt : (⟨S16777216, .i32⟩ : BufTy).Contents (Elt F) → (⟨S16777216, .i32⟩ : BufTy).Contents (Elt F) → (⟨S16777216, .i1⟩ : BufTy).Contents (Elt F)) (((Host.remsi : (⟨S16777216, .i32⟩ : BufTy).Contents (Elt F) → (⟨S16777216, .i32⟩ : BufTy).Contents (Elt F) → (⟨S16777216, .i32⟩ : BufTy).Contents (Elt F)) (x0) (((broadcastInDim S16777216 ![] bcast_S_S16777216 : (⟨S_, .i32⟩ : BufTy).Contents (Elt F) → (⟨S16777216, .i32⟩ : BufTy).Contents (Elt F)) ((whereScalar (((cmpi .eq : (⟨S_, .i32⟩ : BufTy).Contents (Elt F) → (⟨S_, .i32⟩ : BufTy).Contents (Elt F) → (⟨S_, .i1⟩ : BufTy).Contents (Elt F)) (((id : (⟨S_, .i32⟩ : BufTy).Contents (Elt F) → (⟨S_, .i32⟩ : BufTy).Contents (Elt F)) (x1))) ((constantI S_ 32 0#32 : (⟨S_, .i32⟩ : BufTy).Contents (Elt F))))) ((constantI S_ 32 1#32 : (⟨S_, .i32⟩ : BufTy).Contents (Elt F))) (((id : (⟨S_, .i32⟩ : BufTy).Contents (Elt F) → (⟨S_, .i32⟩ : BufTy).Contents (Elt F)) (x1))))))))) (((broadcastInDim S16777216 ![] bcast_S_S16777216 : (⟨S_, .i32⟩ : BufTy).Contents (Elt F) → (⟨S16777216, .i32⟩ : BufTy).Contents (Elt F)) ((constantI S_ 32 0#32 : (⟨S_, .i32⟩ : BufTy).Contents (Elt F))))))) (((broadcastInDim S16777216 ![] bcast_S_S16777216 : (⟨S_, .i1⟩ : BufTy).Contents (Elt F) → (⟨S16777216, .i1⟩ : BufTy).Contents (Elt F)) (((cmpi .slt : (⟨S_, .i32⟩ : BufTy).Contents (Elt F) → (⟨S_, .i32⟩ : BufTy).Contents (Elt F) → (⟨S_, .i1⟩ : BufTy).Contents (Elt F)) ((whereScalar (((cmpi .eq : (⟨S_, .i32⟩ : BufTy).Contents (Elt F) → (⟨S_, .i32⟩ : BufTy).Contents (Elt F) → (⟨S_, .i1⟩ : BufTy).Contents (Elt F)) (((id : (⟨S_, .i32⟩ : BufTy).Contents (Elt F) → (⟨S_, .i32⟩ : BufTy).Contents (Elt F)) (x1))) ((constantI S_ 32 0#32 : (⟨S_, .i32⟩ : BufTy).Contents (Elt F))))) ((constantI S_ 32 1#32 : (⟨S_, .i32⟩ : BufTy).Contents (Elt F))) (((id : (⟨S_, .i32⟩ : BufTy).Contents (Elt F) → (⟨S_, .i32⟩ : BufTy).Contents (Elt F)) (x1))))) ((constantI S_ 32 0#32 : (⟨S_, .i32⟩ : BufTy).Contents (Elt F))))))))) (((cmpi .ne : (⟨S16777216, .i32⟩ : BufTy).Contents (Elt F) → (⟨S16777216, .i32⟩ : BufTy).Contents (Elt F) → (⟨S16777216, .i1⟩ : BufTy).Contents (Elt F)) (((Host.remsi : (⟨S16777216, .i32⟩ : BufTy).Contents (Elt F) → (⟨S16777216, .i32⟩ : BufTy).Contents (Elt F) → (⟨S16777216, .i32⟩ : BufTy).Contents (Elt F)) (x0) (((broadcastInDim S16777216 ![] bcast_S_S16777216 : (⟨S_, .i32⟩ : BufTy).Contents (Elt F) → (⟨S16777216, .i32⟩ : BufTy).Contents (Elt F)) ((whereScalar (((cmpi .eq : (⟨S_, .i32⟩ : BufTy).Contents (Elt F) → (⟨S_, .i32⟩ : BufTy).Contents (Elt F) → (⟨S_, .i1⟩ : BufTy).Contents (Elt F)) (((id : (⟨S_, .i32⟩ : BufTy).Contents (Elt F) → (⟨S_, .i32⟩ : BufTy).Contents (Elt F)) (x1))) ((constantI S_ 32 0#32 : (⟨S_, .i32⟩ : BufTy).Contents (Elt F))))) ((constantI S_ 32 1#32 : (⟨S_, .i32⟩ : BufTy).Contents (Elt F))) (((id : (⟨S_, .i32⟩ : BufTy).Contents (Elt F) → (⟨S_, .i32⟩ : BufTy).Contents (Elt F)) (x1))))))))) (((broadcastInDim S16777216 ![] bcast_S_S16777216 : (⟨S_, .i32⟩ : BufTy).Contents (Elt F) → (⟨S16777216, .i32⟩ : BufTy).Contents (Elt F)) ((constantI S_ 32 0#32 : (⟨S_, .i32⟩ : BufTy).Contents (Elt F))))))))) (((addi : (⟨S16777216, .i32⟩ : BufTy).Contents (Elt F) → (⟨S16777216, .i32⟩ : BufTy).Contents (Elt F) → (⟨S16777216, .i32⟩ : BufTy).Contents (Elt F)) (((Host.remsi : (⟨S16777216, .i32⟩ : BufTy).Contents (Elt F) → (⟨S16777216, .i32⟩ : BufTy).Contents (Elt F) → (⟨S16777216, .i32⟩ : BufTy).Contents (Elt F)) (x0) (((broadcastInDim S16777216 ![] bcast_S_S16777216 : (⟨S_, .i32⟩ : BufTy).Contents (Elt F) → (⟨S16777216, .i32⟩ : BufTy).Contents (Elt F)) ((whereScalar (((cmpi .eq : (⟨S_, .i32⟩ : BufTy).Contents (Elt F) → (⟨S_, .i32⟩ : BufTy).Contents (Elt F) → (⟨S_, .i1⟩ : BufTy).Contents (Elt F)) (((id : (⟨S_, .i32⟩ : BufTy).Contents (Elt F) → (⟨S_, .i32⟩ : BufTy).Contents (Elt F)) (x1))) ((constantI S_ 32 0#32 : (⟨S_, .i32⟩ : BufTy).Contents (Elt F))))) ((constantI S_ 32 1#32 : (⟨S_, .i32⟩ : BufTy).Contents (Elt F))) (((id : (⟨S_, .i32⟩ : BufTy).Contents (Elt F) → (⟨S_, .i32⟩ : BufTy).Contents (Elt F)) (x1))))))))) (((broadcastInDim S16777216 ![] bcast_S_S16777216 : (⟨S_, .i32⟩ : BufTy).Contents (Elt F) → (⟨S16777216, .i32⟩ : BufTy).Contents (Elt F)) ((whereScalar (((cmpi .eq : (⟨S_, .i32⟩ : BufTy).Contents (Elt F) → (⟨S_, .i32⟩ : BufTy).Contents (Elt F) → (⟨S_, .i1⟩ : BufTy).Contents (Elt F)) (((id : (⟨S_, .i32⟩ : BufTy).Contents (Elt F) → (⟨S_, .i32⟩ : BufTy).Contents (Elt F)) (x1))) ((constantI S_ 32 0#32 : (⟨S_, .i32⟩ : BufTy).Contents (Elt F))))) ((constantI S_ 32 1#32 : (⟨S_, .i32⟩ : BufTy).Contents (Elt F))) (((id : (⟨S_, .i32⟩ : BufTy).Contents (Elt F) → (⟨S_, .i32⟩ : BufTy).Contents (Elt F)) (x1))))))))) (((Host.remsi : (⟨S16777216, .i32⟩ : BufTy).Contents (Elt F) → (⟨S16777216, .i32⟩ : BufTy).Contents (Elt F) → (⟨S16777216, .i32⟩ : BufTy).Contents (Elt F)) (x0) (((broadcastInDim S16777216 ![] bcast_S_S16777216 : (⟨S_, .i32⟩ : BufTy).Contents (Elt F) → (⟨S16777216, .i32⟩ : BufTy).Contents (Elt F)) ((whereScalar (((cmpi .eq : (⟨S_, .i32⟩ : BufTy).Contents (Elt F) → (⟨S_, .i32⟩ : BufTy).Contents (Elt F) → (⟨S_, .i1⟩ : BufTy).Contents (Elt F)) (((id : (⟨S_, .i32⟩ : BufTy).Contents (Elt F) → (⟨S_, .i32⟩ : BufTy).Contents (Elt F)) (x1))) ((constantI S_ 32 0#32 : (⟨S_, .i32⟩ : BufTy).Contents (Elt F))))) ((constantI S_ 32 1#32 : (⟨S_, .i32⟩ : BufTy).Contents (Elt F))) (((id : (⟨S_, .i32⟩ : BufTy).Contents (Elt F) → (⟨S_, .i32⟩ : BufTy).Contents (Elt F)) (x1))))))))))

/-- `jnp.where(c, k, y)`: the scalar `k` where `c` holds, `y` elsewhere. -/
def whereFill (x0 : (⟨S16777216, .i1⟩ : BufTy).Contents (Elt F)) (x1 : (⟨S_, .i32⟩ : BufTy).Contents (Elt F)) (x2 : (⟨S16777216, .i32⟩ : BufTy).Contents (Elt F)) : (⟨S16777216, .i32⟩ : BufTy).Contents (Elt F) :=
  ((select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)) (x0) (((broadcastInDim S16777216 ![] bcast_S_S16777216 : (⟨S_, .i32⟩ : BufTy).Contents (Elt F) → (⟨S16777216, .i32⟩ : BufTy).Contents (Elt F)) (((id : (⟨S_, .i32⟩ : BufTy).Contents (Elt F) → (⟨S_, .i32⟩ : BufTy).Contents (Elt F)) (x1))))) (x2))

/-- `jnp.where(c, x, k)` on a column of 16,777,216 entries, `k` a scalar. -/
def whereEdge (x0 : (⟨S16777216x1, .i1⟩ : BufTy).Contents (Elt F)) (x1 : (⟨S16777216x1, .f32⟩ : BufTy).Contents (Elt F)) (x2 : (⟨S_, .f32⟩ : BufTy).Contents (Elt F)) : (⟨S16777216x1, .f32⟩ : BufTy).Contents (Elt F) :=
  ((select : (⟨S16777216x1, .i1⟩ : BufTy).Contents (Elt F) → (⟨S16777216x1, .f32⟩ : BufTy).Contents (Elt F) → (⟨S16777216x1, .f32⟩ : BufTy).Contents (Elt F) → (⟨S16777216x1, .f32⟩ : BufTy).Contents (Elt F)) (x0) (x1) (((broadcastInDim S16777216x1 ![] bcast_S_S16777216x1 : (⟨S_, .f32⟩ : BufTy).Contents (Elt F) → (⟨S16777216x1, .f32⟩ : BufTy).Contents (Elt F)) (((id : (⟨S_, .f32⟩ : BufTy).Contents (Elt F) → (⟨S_, .f32⟩ : BufTy).Contents (Elt F)) (x2))))))

/-- `jnp.where(c, x, k)` on a column of 4096 entries, `k` a scalar. -/
def whereNode (x0 : (⟨S4096x1, .i1⟩ : BufTy).Contents (Elt F)) (x1 : (⟨S4096x1, .f32⟩ : BufTy).Contents (Elt F)) (x2 : (⟨S_, .f32⟩ : BufTy).Contents (Elt F)) : (⟨S4096x1, .f32⟩ : BufTy).Contents (Elt F) :=
  ((select : (⟨S4096x1, .i1⟩ : BufTy).Contents (Elt F) → (⟨S4096x1, .f32⟩ : BufTy).Contents (Elt F) → (⟨S4096x1, .f32⟩ : BufTy).Contents (Elt F) → (⟨S4096x1, .f32⟩ : BufTy).Contents (Elt F)) (x0) (x1) (((broadcastInDim S4096x1 ![] bcast_S_S4096x1 : (⟨S_, .f32⟩ : BufTy).Contents (Elt F) → (⟨S4096x1, .f32⟩ : BufTy).Contents (Elt F)) (((id : (⟨S_, .f32⟩ : BufTy).Contents (Elt F) → (⟨S_, .f32⟩ : BufTy).Contents (Elt F)) (x2))))))

/-! ## The stages of @main -/

/-- The positions: columns 0 and 1 of the states. -/
def positions (X : (⟨S4096x4, .f32⟩ : BufTy).Contents (Elt F)) : (⟨S4096x2, .f32⟩ : BufTy).Contents (Elt F) :=
  (extractStridedSlice S4096x2 ![0, 0] (X) slices_S4096x4_S4096x2_0_0 : (⟨S4096x2, .f32⟩ : BufTy).Contents (Elt F))

/-- Entry (i, j, k): coordinate k of position i minus that of position j. -/
def pairDiff (p_v0 : (⟨S4096x2, .f32⟩ : BufTy).Contents (Elt F)) : (⟨S4096x4096x2, .f32⟩ : BufTy).Contents (Elt F) :=
  ((subf : (⟨S4096x4096x2, .f32⟩ : BufTy).Contents (Elt F) → (⟨S4096x4096x2, .f32⟩ : BufTy).Contents (Elt F) → (⟨S4096x4096x2, .f32⟩ : BufTy).Contents (Elt F)) (((broadcastInDim S4096x4096x2 ![0, 1, 2] bcast_S4096x1x2_S4096x4096x2_0_1_2 : (⟨S4096x1x2, .f32⟩ : BufTy).Contents (Elt F) → (⟨S4096x4096x2, .f32⟩ : BufTy).Contents (Elt F)) (((broadcastInDim S4096x1x2 ![0, 2] bcast_S4096x2_S4096x1x2_0_2 : (⟨S4096x2, .f32⟩ : BufTy).Contents (Elt F) → (⟨S4096x1x2, .f32⟩ : BufTy).Contents (Elt F)) (p_v0))))) (((broadcastInDim S4096x4096x2 ![0, 1, 2] bcast_S1x4096x2_S4096x4096x2_0_1_2 : (⟨S1x4096x2, .f32⟩ : BufTy).Contents (Elt F) → (⟨S4096x4096x2, .f32⟩ : BufTy).Contents (Elt F)) (((broadcastInDim S1x4096x2 ![1, 2] bcast_S4096x2_S1x4096x2_1_2 : (⟨S4096x2, .f32⟩ : BufTy).Contents (Elt F) → (⟨S1x4096x2, .f32⟩ : BufTy).Contents (Elt F)) (p_v0))))))

/-- Entry (i, j): the squared distance between positions i and j. -/
def pairSqDist (p_v5 : (⟨S4096x4096x2, .f32⟩ : BufTy).Contents (Elt F)) : (⟨S4096x4096, .f32⟩ : BufTy).Contents (Elt F) :=
  (Host.reduceAdd (((mulf : (⟨S4096x4096x2, .f32⟩ : BufTy).Contents (Elt F) → (⟨S4096x4096x2, .f32⟩ : BufTy).Contents (Elt F) → (⟨S4096x4096x2, .f32⟩ : BufTy).Contents (Elt F)) (p_v5) (p_v5))) ((constant S_ .f32 0x00000000#32 : (⟨S_, .f32⟩ : BufTy).Contents (Elt F))) reducesTo_S4096x4096x2_S4096x4096_d2 h_S_ : (⟨S4096x4096, .f32⟩ : BufTy).Contents (Elt F))

/-- Entry (i, j): the distance, written as the square root guarded against a zero argument. -/
def pairDist (p_v7 : (⟨S4096x4096, .f32⟩ : BufTy).Contents (Elt F)) : (⟨S4096x4096, .f32⟩ : BufTy).Contents (Elt F) :=
  (whereSq (((cmpf .ogt : (⟨S4096x4096, .f32⟩ : BufTy).Contents (Elt F) → (⟨S4096x4096, .f32⟩ : BufTy).Contents (Elt F) → (⟨S4096x4096, .i1⟩ : BufTy).Contents (Elt F)) (p_v7) (((broadcastInDim S4096x4096 ![] bcast_S_S4096x4096 : (⟨S_, .f32⟩ : BufTy).Contents (Elt F) → (⟨S4096x4096, .f32⟩ : BufTy).Contents (Elt F)) ((constant S_ .f32 0x00000000#32 : (⟨S_, .f32⟩ : BufTy).Contents (Elt F))))))) (((Host.sqrt : (⟨S4096x4096, .f32⟩ : BufTy).Contents (Elt F) → (⟨S4096x4096, .f32⟩ : BufTy).Contents (Elt F)) ((whereSq (((cmpf .ogt : (⟨S4096x4096, .f32⟩ : BufTy).Contents (Elt F) → (⟨S4096x4096, .f32⟩ : BufTy).Contents (Elt F) → (⟨S4096x4096, .i1⟩ : BufTy).Contents (Elt F)) (p_v7) (((broadcastInDim S4096x4096 ![] bcast_S_S4096x4096 : (⟨S_, .f32⟩ : BufTy).Contents (Elt F) → (⟨S4096x4096, .f32⟩ : BufTy).Contents (Elt F)) ((constant S_ .f32 0x00000000#32 : (⟨S_, .f32⟩ : BufTy).Contents (Elt F))))))) (p_v7) ((constant S_ .f32 0x3F800000#32 : (⟨S_, .f32⟩ : BufTy).Contents (Elt F))))))) ((constant S_ .f32 0x00000000#32 : (⟨S_, .f32⟩ : BufTy).Contents (Elt F))))

/-- The mask: entry (i, j) is set when the distance is below one half or i = j. -/
def adjMask (p_v14 : (⟨S4096x4096, .f32⟩ : BufTy).Contents (Elt F)) : (⟨S4096x4096, .i1⟩ : BufTy).Contents (Elt F) :=
  ((ori : (⟨S4096x4096, .i1⟩ : BufTy).Contents (Elt F) → (⟨S4096x4096, .i1⟩ : BufTy).Contents (Elt F) → (⟨S4096x4096, .i1⟩ : BufTy).Contents (Elt F)) (((cmpf .olt : (⟨S4096x4096, .f32⟩ : BufTy).Contents (Elt F) → (⟨S4096x4096, .f32⟩ : BufTy).Contents (Elt F) → (⟨S4096x4096, .i1⟩ : BufTy).Contents (Elt F)) (p_v14) (((broadcastInDim S4096x4096 ![] bcast_S_S4096x4096 : (⟨S_, .f32⟩ : BufTy).Contents (Elt F) → (⟨S4096x4096, .f32⟩ : BufTy).Contents (Elt F)) ((constant S_ .f32 0x3F000000#32 : (⟨S_, .f32⟩ : BufTy).Contents (Elt F))))))) (((cmpi .eq : (⟨S4096x4096, .i32⟩ : BufTy).Contents (Elt F) → (⟨S4096x4096, .i32⟩ : BufTy).Contents (Elt F) → (⟨S4096x4096, .i1⟩ : BufTy).Contents (Elt F)) (((addi : (⟨S4096x4096, .i32⟩ : BufTy).Contents (Elt F) → (⟨S4096x4096, .i32⟩ : BufTy).Contents (Elt F) → (⟨S4096x4096, .i32⟩ : BufTy).Contents (Elt F)) ((iotaInDim S4096x4096 32 0 : (⟨S4096x4096, .i32⟩ : BufTy).Contents (Elt F))) (((broadcastInDim S4096x4096 ![] bcast_S_S4096x4096 : (⟨S_, .i32⟩ : BufTy).Contents (Elt F) → (⟨S4096x4096, .i32⟩ : BufTy).Contents (Elt F)) ((constantI S_ 32 0#32 : (⟨S_, .i32⟩ : BufTy).Contents (Elt F))))))) ((iotaInDim S4096x4096 32 1 : (⟨S4096x4096, .i32⟩ : BufTy).Contents (Elt F))))))

/-- The running count of the mask in row-major order, raised to at least zero. -/
def clippedCount (p_v22 : (⟨S4096x4096, .i1⟩ : BufTy).Contents (Elt F)) : (⟨S16777216, .i32⟩ : BufTy).Contents (Elt F) :=
  (clipBelow ((maskRunningSum (p_v22))) ((constantI S_ 32 0#32 : (⟨S_, .i32⟩ : BufTy).Contents (Elt F))))

/-- Ones scattered at the (wrapped) running counts over a vector of zeros, summed along: entry k is the row-major place of the k-th set entry of the mask. -/
def edgePlace (p_v25 : (⟨S16777216, .i32⟩ : BufTy).Contents (Elt F)) : (⟨S16777216, .i32⟩ : BufTy).Contents (Elt F) :=
  (runningSum1 ((Host.scatter scatter_S16777216_S16777216x1_S16777216_n_0_0_1 IntOp.addi (((broadcastInDim S16777216 ![] bcast_S_S16777216 : (⟨S_, .i32⟩ : BufTy).Contents (Elt F) → (⟨S16777216, .i32⟩ : BufTy).Contents (Elt F)) ((constantI S_ 32 0#32 : (⟨S_, .i32⟩ : BufTy).Contents (Elt F))))) (((broadcastInDim S16777216x1 ![0] bcast_S16777216_S16777216x1_0 : (⟨S16777216, .i32⟩ : BufTy).Contents (Elt F) → (⟨S16777216x1, .i32⟩ : BufTy).Contents (Elt F)) (((select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)) (((cmpi .slt : (⟨S16777216, .i32⟩ : BufTy).Contents (Elt F) → (⟨S16777216, .i32⟩ : BufTy).Contents (Elt F) → (⟨S16777216, .i1⟩ : BufTy).Contents (Elt F)) (p_v25) (((broadcastInDim S16777216 ![] bcast_S_S16777216 : (⟨S_, .i32⟩ : BufTy).Contents (Elt F) → (⟨S16777216, .i32⟩ : BufTy).Contents (Elt F)) ((constantI S_ 32 0#32 : (⟨S_, .i32⟩ : BufTy).Contents (Elt F))))))) (((addi : (⟨S16777216, .i32⟩ : BufTy).Contents (Elt F) → (⟨S16777216, .i32⟩ : BufTy).Contents (Elt F) → (⟨S16777216, .i32⟩ : BufTy).Contents (Elt F)) (p_v25) (((broadcastInDim S16777216 ![] bcast_S_S16777216 : (⟨S_, .i32⟩ : BufTy).Contents (Elt F) → (⟨S16777216, .i32⟩ : BufTy).Contents (Elt F)) ((constantI S_ 32 16777216#32 : (⟨S_, .i32⟩ : BufTy).Contents (Elt F))))))) (p_v25))))) (((broadcastInDim S16777216 ![] bcast_S_S16777216 : (⟨S_, .i32⟩ : BufTy).Contents (Elt F) → (⟨S16777216, .i32⟩ : BufTy).Contents (Elt F)) ((constantI S_ 32 1#32 : (⟨S_, .i32⟩ : BufTy).Contents (Elt F))))) : (⟨S16777216, .i32⟩ : BufTy).Contents (Elt F))))

/-- The row of a place: the place divided by 4096 rounding down, modulo 4096. -/
def senderRaw (p_v34 : (⟨S16777216, .i32⟩ : BufTy).Contents (Elt F)) : (⟨S16777216, .i32⟩ : BufTy).Contents (Elt F) :=
  (floorRemainder ((floorDivide (p_v34) ((constantI S_ 32 4096#32 : (⟨S_, .i32⟩ : BufTy).Contents (Elt F))))) ((constantI S_ 32 4096#32 : (⟨S_, .i32⟩ : BufTy).Contents (Elt F))))

/-- The column of a place: the place divided by one, modulo 4096. -/
def receiverRaw (p_v34 : (⟨S16777216, .i32⟩ : BufTy).Contents (Elt F)) : (⟨S16777216, .i32⟩ : BufTy).Contents (Elt F) :=
  (floorRemainder ((floorDivide (p_v34) ((constantI S_ 32 1#32 : (⟨S_, .i32⟩ : BufTy).Contents (Elt F))))) ((constantI S_ 32 4096#32 : (⟨S_, .i32⟩ : BufTy).Contents (Elt F))))

/-- The places 0, 1, 2, … of the edge list. -/
def places  : (⟨S16777216, .i32⟩ : BufTy).Contents (Elt F) :=
  (iotaInDim S16777216 32 0 : (⟨S16777216, .i32⟩ : BufTy).Contents (Elt F))

/-- The number of set entries of the mask, at every place. -/
def edgeCount (p_v22 : (⟨S4096x4096, .i1⟩ : BufTy).Contents (Elt F)) : (⟨S16777216, .i32⟩ : BufTy).Contents (Elt F) :=
  ((broadcastInDim S16777216 ![] bcast_S_S16777216 : (⟨S_, .i32⟩ : BufTy).Contents (Elt F) → (⟨S16777216, .i32⟩ : BufTy).Contents (Elt F)) ((Host.reduce IntOp.addi ((extui 32 (p_v22) natLt_1_32 : (⟨S4096x4096, .i32⟩ : BufTy).Contents (Elt F))) ((constantI S_ 32 0#32 : (⟨S_, .i32⟩ : BufTy).Contents (Elt F))) reducesTo_S4096x4096_S_d0_1 h_S_ : (⟨S_, .i32⟩ : BufTy).Contents (Elt F))))

/-- Whether a place is at or past the number of set entries. -/
def pastCount (p_v39 : (⟨S16777216, .i32⟩ : BufTy).Contents (Elt F)) (p_v42 : (⟨S16777216, .i32⟩ : BufTy).Contents (Elt F)) : (⟨S16777216, .i1⟩ : BufTy).Contents (Elt F) :=
  ((cmpi .sge : (⟨S16777216, .i32⟩ : BufTy).Contents (Elt F) → (⟨S16777216, .i32⟩ : BufTy).Contents (Elt F) → (⟨S16777216, .i1⟩ : BufTy).Contents (Elt F)) (p_v39) (p_v42))

/-- The sender of each edge: its row, and 0 at a place past the count. -/
def senderIdx (p_v36 : (⟨S16777216, .i32⟩ : BufTy).Contents (Elt F)) (p_v43 : (⟨S16777216, .i1⟩ : BufTy).Contents (Elt F)) : (⟨S16777216, .i32⟩ : BufTy).Contents (Elt F) :=
  (whereFill (p_v43) ((constantI S_ 32 0#32 : (⟨S_, .i32⟩ : BufTy).Contents (Elt F))) (p_v36))

/-- The receiver of each edge: its column, and 0 at a place past the count. -/
def receiverIdx (p_v38 : (⟨S16777216, .i32⟩ : BufTy).Contents (Elt F)) (p_v43 : (⟨S16777216, .i1⟩ : BufTy).Contents (Elt F)) : (⟨S16777216, .i32⟩ : BufTy).Contents (Elt F) :=
  (whereFill (p_v43) ((constantI S_ 32 0#32 : (⟨S_, .i32⟩ : BufTy).Contents (Elt F))) (p_v38))

/-- The two index rows stacked: senders over receivers. -/
def edgeIndex (p_v44 : (⟨S16777216, .i32⟩ : BufTy).Contents (Elt F)) (p_v45 : (⟨S16777216, .i32⟩ : BufTy).Contents (Elt F)) : (⟨S2x16777216, .i32⟩ : BufTy).Contents (Elt F) :=
  (concatenate S2x16777216 0 [⟨S1x16777216, (((broadcastInDim S1x16777216 ![1] bcast_S16777216_S1x16777216_1 : (⟨S16777216, .i32⟩ : BufTy).Contents (Elt F) → (⟨S1x16777216, .i32⟩ : BufTy).Contents (Elt F)) (p_v44)))⟩, ⟨S1x16777216, (((broadcastInDim S1x16777216 ![1] bcast_S16777216_S1x16777216_1 : (⟨S16777216, .i32⟩ : BufTy).Contents (Elt F) → (⟨S1x16777216, .i32⟩ : BufTy).Contents (Elt F)) (p_v45)))⟩] concatenates_S1x16777216_S1x16777216_S2x16777216_d0 : (⟨S2x16777216, .i32⟩ : BufTy).Contents (Elt F))

/-- Entry (e, k): state k of edge e's receiver minus state k of its sender (indices below zero wrapped by 4096). -/
def edgeDiff (X : (⟨S4096x4, .f32⟩ : BufTy).Contents (Elt F)) (p_v44 : (⟨S16777216, .i32⟩ : BufTy).Contents (Elt F)) (p_v45 : (⟨S16777216, .i32⟩ : BufTy).Contents (Elt F)) : (⟨S16777216x4, .f32⟩ : BufTy).Contents (Elt F) :=
  ((subf : (⟨S16777216x4, .f32⟩ : BufTy).Contents (Elt F) → (⟨S16777216x4, .f32⟩ : BufTy).Contents (Elt F) → (⟨S16777216x4, .f32⟩ : BufTy).Contents (Elt F)) ((Host.gather gather_S4096x4_S16777216x1_S16777216x4_1_0_n_n_0_1_14 (X) (((broadcastInDim S16777216x1 ![0] bcast_S16777216_S16777216x1_0 : (⟨S16777216, .i32⟩ : BufTy).Contents (Elt F) → (⟨S16777216x1, .i32⟩ : BufTy).Contents (Elt F)) (((select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)) (((cmpi .slt : (⟨S16777216, .i32⟩ : BufTy).Contents (Elt F) → (⟨S16777216, .i32⟩ : BufTy).Contents (Elt F) → (⟨S16777216, .i1⟩ : BufTy).Contents (Elt F)) (p_v45) (((broadcastInDim S16777216 ![] bcast_S_S16777216 : (⟨S_, .i32⟩ : BufTy).Contents (Elt F) → (⟨S16777216, .i32⟩ : BufTy).Contents (Elt F)) ((constantI S_ 32 0#32 : (⟨S_, .i32⟩ : BufTy).Contents (Elt F))))))) (((addi : (⟨S16777216, .i32⟩ : BufTy).Contents (Elt F) → (⟨S16777216, .i32⟩ : BufTy).Contents (Elt F) → (⟨S16777216, .i32⟩ : BufTy).Contents (Elt F)) (p_v45) (((broadcastInDim S16777216 ![] bcast_S_S16777216 : (⟨S_, .i32⟩ : BufTy).Contents (Elt F) → (⟨S16777216, .i32⟩ : BufTy).Contents (Elt F)) ((constantI S_ 32 4096#32 : (⟨S_, .i32⟩ : BufTy).Contents (Elt F))))))) (p_v45))))) : (⟨S16777216x4, .f32⟩ : BufTy).Contents (Elt F))) ((Host.gather gather_S4096x4_S16777216x1_S16777216x4_1_0_n_n_0_1_14 (X) (((broadcastInDim S16777216x1 ![0] bcast_S16777216_S16777216x1_0 : (⟨S16777216, .i32⟩ : BufTy).Contents (Elt F) → (⟨S16777216x1, .i32⟩ : BufTy).Contents (Elt F)) (((select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)) (((cmpi .slt : (⟨S16777216, .i32⟩ : BufTy).Contents (Elt F) → (⟨S16777216, .i32⟩ : BufTy).Contents (Elt F) → (⟨S16777216, .i1⟩ : BufTy).Contents (Elt F)) (p_v44) (((broadcastInDim S16777216 ![] bcast_S_S16777216 : (⟨S_, .i32⟩ : BufTy).Contents (Elt F) → (⟨S16777216, .i32⟩ : BufTy).Contents (Elt F)) ((constantI S_ 32 0#32 : (⟨S_, .i32⟩ : BufTy).Contents (Elt F))))))) (((addi : (⟨S16777216, .i32⟩ : BufTy).Contents (Elt F) → (⟨S16777216, .i32⟩ : BufTy).Contents (Elt F) → (⟨S16777216, .i32⟩ : BufTy).Contents (Elt F)) (p_v44) (((broadcastInDim S16777216 ![] bcast_S_S16777216 : (⟨S_, .i32⟩ : BufTy).Contents (Elt F) → (⟨S16777216, .i32⟩ : BufTy).Contents (Elt F)) ((constantI S_ 32 4096#32 : (⟨S_, .i32⟩ : BufTy).Contents (Elt F))))))) (p_v44))))) : (⟨S16777216x4, .f32⟩ : BufTy).Contents (Elt F))))

/-- The planar part of an edge's state difference. -/
def edgePos (p_v63 : (⟨S16777216x4, .f32⟩ : BufTy).Contents (Elt F)) : (⟨S16777216x2, .f32⟩ : BufTy).Contents (Elt F) :=
  (extractStridedSlice S16777216x2 ![0, 0] (p_v63) slices_S16777216x4_S16777216x2_0_0 : (⟨S16777216x2, .f32⟩ : BufTy).Contents (Elt F))

/-- The squared length of that planar part, as a column. -/
def edgeSqLen (p_v64 : (⟨S16777216x2, .f32⟩ : BufTy).Contents (Elt F)) : (⟨S16777216x1, .f32⟩ : BufTy).Contents (Elt F) :=
  ((broadcastInDim S16777216x1 ![0] bcast_S16777216_S16777216x1_0 : (⟨S16777216, .f32⟩ : BufTy).Contents (Elt F) → (⟨S16777216x1, .f32⟩ : BufTy).Contents (Elt F)) ((Host.reduceAdd (((mulf : (⟨S16777216x2, .f32⟩ : BufTy).Contents (Elt F) → (⟨S16777216x2, .f32⟩ : BufTy).Contents (Elt F) → (⟨S16777216x2, .f32⟩ : BufTy).Contents (Elt F)) (p_v64) (p_v64))) ((constant S_ .f32 0x00000000#32 : (⟨S_, .f32⟩ : BufTy).Contents (Elt F))) reducesTo_S16777216x2_S16777216_d1 h_S_ : (⟨S16777216, .f32⟩ : BufTy).Contents (Elt F))))

/-- Its length, by the guarded square root. -/
def edgeLen (p_v67 : (⟨S16777216x1, .f32⟩ : BufTy).Contents (Elt F)) : (⟨S16777216x1, .f32⟩ : BufTy).Contents (Elt F) :=
  (whereEdge (((cmpf .ogt : (⟨S16777216x1, .f32⟩ : BufTy).Contents (Elt F) → (⟨S16777216x1, .f32⟩ : BufTy).Contents (Elt F) → (⟨S16777216x1, .i1⟩ : BufTy).Contents (Elt F)) (p_v67) (((broadcastInDim S16777216x1 ![] bcast_S_S16777216x1 : (⟨S_, .f32⟩ : BufTy).Contents (Elt F) → (⟨S16777216x1, .f32⟩ : BufTy).Contents (Elt F)) ((constant S_ .f32 0x00000000#32 : (⟨S_, .f32⟩ : BufTy).Contents (Elt F))))))) (((Host.sqrt : (⟨S16777216x1, .f32⟩ : BufTy).Contents (Elt F) → (⟨S16777216x1, .f32⟩ : BufTy).Contents (Elt F)) ((whereEdge (((cmpf .ogt : (⟨S16777216x1, .f32⟩ : BufTy).Contents (Elt F) → (⟨S16777216x1, .f32⟩ : BufTy).Contents (Elt F) → (⟨S16777216x1, .i1⟩ : BufTy).Contents (Elt F)) (p_v67) (((broadcastInDim S16777216x1 ![] bcast_S_S16777216x1 : (⟨S_, .f32⟩ : BufTy).Contents (Elt F) → (⟨S16777216x1, .f32⟩ : BufTy).Contents (Elt F)) ((constant S_ .f32 0x00000000#32 : (⟨S_, .f32⟩ : BufTy).Contents (Elt F))))))) (p_v67) ((constant S_ .f32 0x3F800000#32 : (⟨S_, .f32⟩ : BufTy).Contents (Elt F))))))) ((constant S_ .f32 0x00000000#32 : (⟨S_, .f32⟩ : BufTy).Contents (Elt F))))

/-- The factor of an edge: one half over the larger of its length and one half when the length exceeds one half, and one otherwise. -/
def edgeScale (p_v74 : (⟨S16777216x1, .f32⟩ : BufTy).Contents (Elt F)) : (⟨S16777216x1, .f32⟩ : BufTy).Contents (Elt F) :=
  (whereEdge (((cmpf .ogt : (⟨S16777216x1, .f32⟩ : BufTy).Contents (Elt F) → (⟨S16777216x1, .f32⟩ : BufTy).Contents (Elt F) → (⟨S16777216x1, .i1⟩ : BufTy).Contents (Elt F)) (p_v74) (((broadcastInDim S16777216x1 ![] bcast_S_S16777216x1 : (⟨S_, .f32⟩ : BufTy).Contents (Elt F) → (⟨S16777216x1, .f32⟩ : BufTy).Contents (Elt F)) ((constant S_ .f32 0x3F000000#32 : (⟨S_, .f32⟩ : BufTy).Contents (Elt F))))))) (((Host.divf : (⟨S16777216x1, .f32⟩ : BufTy).Contents (Elt F) → (⟨S16777216x1, .f32⟩ : BufTy).Contents (Elt F) → (⟨S16777216x1, .f32⟩ : BufTy).Contents (Elt F)) (((broadcastInDim S16777216x1 ![] bcast_S_S16777216x1 : (⟨S_, .f32⟩ : BufTy).Contents (Elt F) → (⟨S16777216x1, .f32⟩ : BufTy).Contents (Elt F)) ((constant S_ .f32 0x3F000000#32 : (⟨S_, .f32⟩ : BufTy).Contents (Elt F))))) (((maximumf : (⟨S16777216x1, .f32⟩ : BufTy).Contents (Elt F) → (⟨S16777216x1, .f32⟩ : BufTy).Contents (Elt F) → (⟨S16777216x1, .f32⟩ : BufTy).Contents (Elt F)) (p_v74) (((broadcastInDim S16777216x1 ![] bcast_S_S16777216x1 : (⟨S_, .f32⟩ : BufTy).Contents (Elt F) → (⟨S16777216x1, .f32⟩ : BufTy).Contents (Elt F)) ((constant S_ .f32 0x3F000000#32 : (⟨S_, .f32⟩ : BufTy).Contents (Elt F))))))))) ((constant S_ .f32 0x3F800000#32 : (⟨S_, .f32⟩ : BufTy).Contents (Elt F))))

/-- The edge features: the planar part times the factor, beside the other two coordinates of the difference. -/
def edgeFeatures (p_v63 : (⟨S16777216x4, .f32⟩ : BufTy).Contents (Elt F)) (p_v64 : (⟨S16777216x2, .f32⟩ : BufTy).Contents (Elt F)) (p_v81 : (⟨S16777216x1, .f32⟩ : BufTy).Contents (Elt F)) : (⟨S16777216x4, .f32⟩ : BufTy).Contents (Elt F) :=
  (concatenate S16777216x4 1 [⟨S16777216x2, (((mulf : (⟨S16777216x2, .f32⟩ : BufTy).Contents (Elt F) → (⟨S16777216x2, .f32⟩ : BufTy).Contents (Elt F) → (⟨S16777216x2, .f32⟩ : BufTy).Contents (Elt F)) (p_v64) (((broadcastInDim S16777216x2 ![0, 1] bcast_S16777216x1_S16777216x2_0_1 : (⟨S16777216x1, .f32⟩ : BufTy).Contents (Elt F) → (⟨S16777216x2, .f32⟩ : BufTy).Contents (Elt F)) (p_v81)))))⟩, ⟨S16777216x2, ((extractStridedSlice S16777216x2 ![0, 2] (p_v63) slices_S16777216x4_S16777216x2_0_2 : (⟨S16777216x2, .f32⟩ : BufTy).Contents (Elt F)))⟩] concatenates_S16777216x2_S16777216x2_S16777216x4_d1 : (⟨S16777216x4, .f32⟩ : BufTy).Contents (Elt F))

/-- The goal minus the position, agent by agent. -/
def goalOffset (Gl : (⟨S4096x2, .f32⟩ : BufTy).Contents (Elt F)) (p_v0 : (⟨S4096x2, .f32⟩ : BufTy).Contents (Elt F)) : (⟨S4096x2, .f32⟩ : BufTy).Contents (Elt F) :=
  ((subf : (⟨S4096x2, .f32⟩ : BufTy).Contents (Elt F) → (⟨S4096x2, .f32⟩ : BufTy).Contents (Elt F) → (⟨S4096x2, .f32⟩ : BufTy).Contents (Elt F)) (Gl) (p_v0))

/-- Its square, entry by entry. -/
def goalOffsetSq (p_v86 : (⟨S4096x2, .f32⟩ : BufTy).Contents (Elt F)) : (⟨S4096x2, .f32⟩ : BufTy).Contents (Elt F) :=
  ((mulf : (⟨S4096x2, .f32⟩ : BufTy).Contents (Elt F) → (⟨S4096x2, .f32⟩ : BufTy).Contents (Elt F) → (⟨S4096x2, .f32⟩ : BufTy).Contents (Elt F)) (p_v86) (p_v86))

/-- Its squared length, as a column. -/
def goalSqLen (p_v87 : (⟨S4096x2, .f32⟩ : BufTy).Contents (Elt F)) : (⟨S4096x1, .f32⟩ : BufTy).Contents (Elt F) :=
  ((broadcastInDim S4096x1 ![0] bcast_S4096_S4096x1_0 : (⟨S4096, .f32⟩ : BufTy).Contents (Elt F) → (⟨S4096x1, .f32⟩ : BufTy).Contents (Elt F)) ((Host.reduceAdd (p_v87) ((constant S_ .f32 0x00000000#32 : (⟨S_, .f32⟩ : BufTy).Contents (Elt F))) reducesTo_S4096x2_S4096_d1 h_S_ : (⟨S4096, .f32⟩ : BufTy).Contents (Elt F))))

/-- Its length, by the guarded square root. -/
def goalLen (p_v89 : (⟨S4096x1, .f32⟩ : BufTy).Contents (Elt F)) : (⟨S4096x1, .f32⟩ : BufTy).Contents (Elt F) :=
  (whereNode (((cmpf .ogt : (⟨S4096x1, .f32⟩ : BufTy).Contents (Elt F) → (⟨S4096x1, .f32⟩ : BufTy).Contents (Elt F) → (⟨S4096x1, .i1⟩ : BufTy).Contents (Elt F)) (p_v89) (((broadcastInDim S4096x1 ![] bcast_S_S4096x1 : (⟨S_, .f32⟩ : BufTy).Contents (Elt F) → (⟨S4096x1, .f32⟩ : BufTy).Contents (Elt F)) ((constant S_ .f32 0x00000000#32 : (⟨S_, .f32⟩ : BufTy).Contents (Elt F))))))) (((Host.sqrt : (⟨S4096x1, .f32⟩ : BufTy).Contents (Elt F) → (⟨S4096x1, .f32⟩ : BufTy).Contents (Elt F)) ((whereNode (((cmpf .ogt : (⟨S4096x1, .f32⟩ : BufTy).Contents (Elt F) → (⟨S4096x1, .f32⟩ : BufTy).Contents (Elt F) → (⟨S4096x1, .i1⟩ : BufTy).Contents (Elt F)) (p_v89) (((broadcastInDim S4096x1 ![] bcast_S_S4096x1 : (⟨S_, .f32⟩ : BufTy).Contents (Elt F) → (⟨S4096x1, .f32⟩ : BufTy).Contents (Elt F)) ((constant S_ .f32 0x00000000#32 : (⟨S_, .f32⟩ : BufTy).Contents (Elt F))))))) (p_v89) ((constant S_ .f32 0x3F800000#32 : (⟨S_, .f32⟩ : BufTy).Contents (Elt F))))))) ((constant S_ .f32 0x00000000#32 : (⟨S_, .f32⟩ : BufTy).Contents (Elt F))))

/-- The factor of a goal offset: one half over the larger of its length and one half when the length exceeds one half, and one otherwise. -/
def goalScale (p_v96 : (⟨S4096x1, .f32⟩ : BufTy).Contents (Elt F)) : (⟨S4096x1, .f32⟩ : BufTy).Contents (Elt F) :=
  (whereNode (((cmpf .ogt : (⟨S4096x1, .f32⟩ : BufTy).Contents (Elt F) → (⟨S4096x1, .f32⟩ : BufTy).Contents (Elt F) → (⟨S4096x1, .i1⟩ : BufTy).Contents (Elt F)) (p_v96) (((broadcastInDim S4096x1 ![] bcast_S_S4096x1 : (⟨S_, .f32⟩ : BufTy).Contents (Elt F) → (⟨S4096x1, .f32⟩ : BufTy).Contents (Elt F)) ((constant S_ .f32 0x3F000000#32 : (⟨S_, .f32⟩ : BufTy).Contents (Elt F))))))) (((Host.divf : (⟨S4096x1, .f32⟩ : BufTy).Contents (Elt F) → (⟨S4096x1, .f32⟩ : BufTy).Contents (Elt F) → (⟨S4096x1, .f32⟩ : BufTy).Contents (Elt F)) (((broadcastInDim S4096x1 ![] bcast_S_S4096x1 : (⟨S_, .f32⟩ : BufTy).Contents (Elt F) → (⟨S4096x1, .f32⟩ : BufTy).Contents (Elt F)) ((constant S_ .f32 0x3F000000#32 : (⟨S_, .f32⟩ : BufTy).Contents (Elt F))))) (((maximumf : (⟨S4096x1, .f32⟩ : BufTy).Contents (Elt F) → (⟨S4096x1, .f32⟩ : BufTy).Contents (Elt F) → (⟨S4096x1, .f32⟩ : BufTy).Contents (Elt F)) (p_v96) (((broadcastInDim S4096x1 ![] bcast_S_S4096x1 : (⟨S_, .f32⟩ : BufTy).Contents (Elt F) → (⟨S4096x1, .f32⟩ : BufTy).Contents (Elt F)) ((constant S_ .f32 0x3F000000#32 : (⟨S_, .f32⟩ : BufTy).Contents (Elt F))))))))) ((constant S_ .f32 0x3F800000#32 : (⟨S_, .f32⟩ : BufTy).Contents (Elt F))))

/-- The node features: the four states, the rescaled goal offset, and the constant one. -/
def nodeFeatures (X : (⟨S4096x4, .f32⟩ : BufTy).Contents (Elt F)) (p_v86 : (⟨S4096x2, .f32⟩ : BufTy).Contents (Elt F)) (p_v103 : (⟨S4096x1, .f32⟩ : BufTy).Contents (Elt F)) : (⟨S4096x7, .f32⟩ : BufTy).Contents (Elt F) :=
  (concatenate S4096x7 1 [⟨S4096x4, (X)⟩, ⟨S4096x2, (((mulf : (⟨S4096x2, .f32⟩ : BufTy).Contents (Elt F) → (⟨S4096x2, .f32⟩ : BufTy).Contents (Elt F) → (⟨S4096x2, .f32⟩ : BufTy).Contents (Elt F)) (p_v86) (((broadcastInDim S4096x2 ![0, 1] bcast_S4096x1_S4096x2_0_1 : (⟨S4096x1, .f32⟩ : BufTy).Contents (Elt F) → (⟨S4096x2, .f32⟩ : BufTy).Contents (Elt F)) (p_v103)))))⟩, ⟨S4096x1, (((broadcastInDim S4096x1 ![] bcast_S_S4096x1 : (⟨S_, .f32⟩ : BufTy).Contents (Elt F) → (⟨S4096x1, .f32⟩ : BufTy).Contents (Elt F)) ((constant S_ .f32 0x3F800000#32 : (⟨S_, .f32⟩ : BufTy).Contents (Elt F)))))⟩] concatenates_S4096x4_S4096x2_S4096x1_S4096x7_d1 : (⟨S4096x7, .f32⟩ : BufTy).Contents (Elt F))

/-! ## The results as functions of the two argument arrays -/

/-- The mask of the states `X`. -/
def adjRef (X : (⟨S4096x4, .f32⟩ : BufTy).Contents (Elt F)) : (⟨S4096x4096, .i1⟩ : BufTy).Contents (Elt F) :=
  adjMask (pairDist (pairSqDist (pairDiff (positions X))))
/-- Whether a place of the edge list is past the number of set entries of the mask `A`. -/
def pastEnd (A : (⟨S4096x4096, .i1⟩ : BufTy).Contents (Elt F)) : (⟨S16777216, .i1⟩ : BufTy).Contents (Elt F) := pastCount places (edgeCount A)
/-- The senders of the mask `A`: the rows of its set entries in row-major order, then zeros. -/
def senders (A : (⟨S4096x4096, .i1⟩ : BufTy).Contents (Elt F)) : (⟨S16777216, .i32⟩ : BufTy).Contents (Elt F) :=
  senderIdx (senderRaw (edgePlace (clippedCount A))) (pastEnd A)
/-- The receivers of the mask `A`: the columns of its set entries in row-major order, then zeros. -/
def receivers (A : (⟨S4096x4096, .i1⟩ : BufTy).Contents (Elt F)) : (⟨S16777216, .i32⟩ : BufTy).Contents (Elt F) :=
  receiverIdx (receiverRaw (edgePlace (clippedCount A))) (pastEnd A)
/-- The edge features of the states `X` along the edges from `s` to `r`. -/
def edgeRef (X : (⟨S4096x4, .f32⟩ : BufTy).Contents (Elt F)) (s : (⟨S16777216, .i32⟩ : BufTy).Contents (Elt F)) (r : (⟨S16777216, .i32⟩ : BufTy).Contents (Elt F)) : (⟨S16777216x4, .f32⟩ : BufTy).Contents (Elt F) :=
  edgeFeatures (edgeDiff X s r) (edgePos (edgeDiff X s r)) (edgeScale (edgeLen (edgeSqLen (edgePos (edgeDiff X s r)))))
/-- The node features of the states `X` and the goals `Gl`. -/
def nodeRef (X : (⟨S4096x4, .f32⟩ : BufTy).Contents (Elt F)) (Gl : (⟨S4096x2, .f32⟩ : BufTy).Contents (Elt F)) : (⟨S4096x7, .f32⟩ : BufTy).Contents (Elt F) :=
  nodeFeatures X (goalOffset Gl (positions X)) (goalScale (goalLen (goalSqLen (goalOffsetSq (goalOffset Gl (positions X))))))

end Cert.ReferenceIdeal.RefRun

end
-- ==== Proof.LibSafeNorm.lean ====
/-
  A "safe" Euclidean norm against the plain square root, on the extended reals.

  jnp code that wants a zero gradient at the origin writes the norm of `x` as
  `where (ss > 0) (sqrt (where (ss > 0) ss 1)) 0` with `ss` the sum of squares. A sum of squares of extended reals is
  never negative, and on the non-negative extended reals that expression IS `sqrt ss`: at `ss = 0` both are `0`.
  Beside it: `sqrt s < 1/2` exactly when `s < 1/4` (for `0 ≤ s`, the top element included), the comparison of a
  distance against a radius rewritten as the comparison of the squared distance against the squared radius; and the
  float patterns of `0`, `1/4`, `1/2`, `1` as the reals they denote.
-/
import Idealize.ShloMosaic.PureOps.Ideal
import Idealize.ShloMosaic.PureOps.Ideal.Laws

noncomputable section

namespace Cert.LibSafeNorm

open Idealize.ShloMosaic

/-! ## The literals -/

/-- The pattern of `0.25` denotes the real `1/4`. -/
theorem ofBits_quarter : Ideal.ofBits .f32 0x3E800000#32 = ((1 / 4 : ℝ) : EReal) := by
  simp [Ideal.ofBits, Ideal.ieee, -EReal.coe_mul]; norm_num

/-- The pattern of `0.5` denotes the real `1/2`. -/
theorem ofBits_half : Ideal.ofBits .f32 0x3F000000#32 = ((1 / 2 : ℝ) : EReal) := by
  simp [Ideal.ofBits, Ideal.ieee, -EReal.coe_mul]; norm_num

/-- The pattern of `1.0` denotes `1`. -/
theorem ofBits_one : Ideal.ofBits .f32 0x3F800000#32 = 1 := by
  simp [Ideal.ofBits, Ideal.ieee, -EReal.coe_mul]; norm_num

/-- The pattern of `+0.0` denotes `0`. -/
theorem ofBits_zero : Ideal.ofBits .f32 0x00000000#32 = 0 := Ideal.ofBits_zero_f32

/-! ## Comparisons as propositions -/

theorem cmp_ogt_eq_one (x y : EReal) : Ideal.cmp .ogt x y = 1#1 ↔ y < x := by
  unfold Ideal.cmp
  by_cases h : y < x <;> simp [h]

theorem cmp_ogt_eq_one' (x y : EReal) : Ideal.cmp .ogt x y = (1 : BitVec 1) ↔ y < x := cmp_ogt_eq_one x y

theorem cmp_olt_eq_one (x y : EReal) : Ideal.cmp .olt x y = 1#1 ↔ x < y := by
  unfold Ideal.cmp
  by_cases h : x < y <;> simp [h]

/-! ## Squares and their sums are not negative -/

theorem sq_nonneg' (a : EReal) : 0 ≤ a * a := by
  induction a using EReal.rec with
  | bot => simp
  | top => simp
  | coe r => rw [← EReal.coe_mul]; exact_mod_cast _root_.mul_self_nonneg r

theorem add_mul_self_nonneg (a b : EReal) : 0 ≤ a * a + b * b :=
  add_nonneg (sq_nonneg' a) (sq_nonneg' b)

/-! ## The safe norm is the square root -/

theorem sqrt_zero : Ideal.sqrt 0 = 0 := by
  rw [show (0 : EReal) = ((0 : ℝ) : EReal) from rfl, Ideal.sqrt_coe]
  simp

/-- On a non-negative extended real the guarded square root is the square root. -/
theorem safe_eq_sqrt {s : EReal} (hs : 0 ≤ s) :
    (if 0 < s then Ideal.sqrt (if 0 < s then s else 1) else 0) = Ideal.sqrt s := by
  by_cases h : 0 < s
  · simp [h]
  · have h0 : s = 0 := le_antisymm (not_lt.mp h) hs
    subst h0
    simp [sqrt_zero]

/-- A distance below the radius `1/2` is a squared distance below `1/4`. -/
theorem sqrt_lt_half_iff {s : EReal} (hs : 0 ≤ s) :
    Ideal.sqrt s < ((1 / 2 : ℝ) : EReal) ↔ s < ((1 / 4 : ℝ) : EReal) := by
  induction s using EReal.rec with
  | bot => exact absurd hs (by simp)
  | top => simp
  | coe r =>
    have hr : 0 ≤ r := by exact_mod_cast hs
    rw [Ideal.sqrt_coe, if_neg (not_lt.mpr hr), EReal.coe_lt_coe_iff, EReal.coe_lt_coe_iff,
      Real.sqrt_lt' (by norm_num : (0 : ℝ) < 1 / 2)]
    norm_num

/-! ## The same, as the programs spell them: comparisons as bits, choices as selects, constants as patterns -/

theorem cmp_olt_congr {a b a' b' : EReal} (h : a < b ↔ a' < b') : Ideal.cmp .olt a b = Ideal.cmp .olt a' b' := by
  unfold Ideal.cmp
  simp only [decide_eq_decide.mpr h]

/-- The guarded square root written with a comparison bit and two selects against the patterns of `0` and `1`. -/
def safeNorm (s : EReal) : EReal :=
  Scalar.select (Ideal.cmp .ogt s (Ideal.ofBits .f32 0x00000000#32))
    (Ideal.sqrt (Scalar.select (Ideal.cmp .ogt s (Ideal.ofBits .f32 0x00000000#32)) s (Ideal.ofBits .f32 0x3F800000#32)))
    (Ideal.ofBits .f32 0x00000000#32)

theorem safeNorm_eq_sqrt {s : EReal} (hs : 0 ≤ s) : safeNorm s = Ideal.sqrt s := by
  unfold safeNorm Scalar.select
  rw [ofBits_zero, ofBits_one]
  simp only [cmp_ogt_eq_one']
  exact safe_eq_sqrt hs

/-- The radius test on the safe norm is the squared-radius test on the sum of squares. -/
theorem cmp_safeNorm_lt_half {s : EReal} (hs : 0 ≤ s) :
    Ideal.cmp .olt (safeNorm s) (Ideal.ofBits .f32 0x3F000000#32) = Ideal.cmp .olt s (Ideal.ofBits .f32 0x3E800000#32) := by
  rw [safeNorm_eq_sqrt hs, ofBits_half, ofBits_quarter]
  exact cmp_olt_congr (sqrt_lt_half_iff hs)

end Cert.LibSafeNorm

end
-- ==== Proof.LibGatherRows.lean ====
/-
  jnp's row indexing `x[idx]` of a [N, C] array by R row numbers lowers to a gather whose slices are whole rows: axis
  0 of the operand is collapsed and started at the row number, axis 1 is an offset axis taken whole. Read at result
  index (b, q) it is the operand at (the row number of b, read signed and clamped into 0 … N − 1; q). Stated for any
  N, R, C, with the dimension numbers as a program prints them.
-/
import Idealize.ShloMosaic.PureOps.ShapeOps
import Idealize.ShloMosaic.Lib.ValueIdx

namespace Idealize.ShloMosaic.LibGatherRows

open Idealize.ShloMosaic.ValueIdx

variable {α : Type}

/-- The dimension numbers of a whole-row gather: [N, C] operand, [R, 1] row numbers, [R, C] result. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The operand row the gather reads for result row b: the row number read signed, clamped into 0 … N − 1. -/
def rowOf {N R w : Nat} (hN : 0 < N) (idx : IVec ⟨2, ![R, 1]⟩ w) (b : Fin R) : Fin N :=
  ⟨min (idx (ix2 b (0 : Fin 1))).toInt.toNat (N - 1), by omega⟩

/-- THE WHOLE-ROW GATHER AT AN INDEX. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (b : Fin R) (q : Fin C) :
    Host.gather (rowsDims N R C wf) x idx (ix2 b q) = x (ix2 (rowOf hN idx b) q) := by
  unfold Host.gather
  congr 1
  funext a
  apply Fin.ext
  fin_cases a <;>
    simp [GatherDims.operandIdx, GatherDims.start, GatherDims.offCoord, GatherDims.batchCoord, rowsDims,
      GatherDims.sKept, Shape.kept, rowOf]
  · refine congrArg (fun z => min (idx z).toInt.toNat (N - 1)) ?_
    funext a
    apply Fin.ext
    fin_cases a <;> rfl
  · first
      | rfl
      | exact congrArg (fun a => ((ix2 b q) a : ℕ)) (by decide)

end Idealize.ShloMosaic.LibGatherRows
-- ==== Proof.RefBridge.lean ====
/-
  The reference's three results read at an index and joined to the kernel program's.

  Both programs compute the same three arrays from the states `X` ([4096,4]: a planar position and two further
  features per agent) and the goals `Gl` ([4096,2]).
  The mask: entry (r, q) is set when agents r and q are closer than one half, or r = q. The reference takes the
  distance as a square root guarded at zero and tests it against one half; the kernel tests the squared distance
  against one quarter. A sum of two squares of extended reals is never negative, there the guarded root is the root,
  and a root is below one half exactly when its argument is below one quarter.
  The node features: the states, the goal offset times a factor of its length, and a one. The reference takes the
  length by the guarded root, the kernel by the root, of the same sum of squares.
  The edge features of edge e, from sender s(e) to receiver r(e): the state difference X(r(e), ·) − X(s(e), ·), its
  planar part times the factor of its length. The reference gathers whole rows of X, the kernel whole columns of
  the transpose; for row numbers in 0 … 4095 both read X at (row number, feature).
-/
import proofs.«174933_j45260365365646_1_alg».proof.Proof.RefRunB
import proofs.«174933_j45260365365646_1_alg».proof.Proof.LibSafeNorm
import proofs.«174933_j45260365365646_1_alg».proof.Proof.LibRemRange
import proofs.«174933_j45260365365646_1_alg».proof.Proof.LibGatherRows
import proofs.«174933_j45260365365646_1_alg».proof.Proof.AdjHost
import proofs.«174933_j45260365365646_1_alg».proof.Proof.HostValuesA
import proofs.«174933_j45260365365646_1_alg».proof.Proof.EdgeValue
import proofs.«174933_j45260365365646_1_alg».proof.Proof.TakeHost
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.Proof.RefBridge

open Idealize.ShloMosaic Idealize.ShloMosaic.ValueIdx
open Cert.LibSafeNorm Cert.LibRemRange
open scoped BigOperators

/-- The literals: zero, one half, one. -/
abbrev zero : EReal := Ideal.ofBits .f32 0x00000000#32
abbrev half : EReal := Ideal.ofBits .f32 0x3F000000#32
abbrev one : EReal := Ideal.ofBits .f32 0x3F800000#32

/-- A sum of two squares from the literal zero is not negative. -/
theorem sumsq_nonneg (f : Fin 2 → EReal) : 0 ≤ zero + ∑ k : Fin 2, f k * f k := by
  rw [show zero = 0 from ofBits_zero, zero_add]
  exact Finset.sum_nonneg fun k _ => sq_nonneg' (f k)

/-- The factor of a length `n`: one half over the larger of `n` and one half when `n` exceeds one half, else one. -/
def factorOf (n : EReal) : EReal :=
  Scalar.select (Ideal.cmp .ogt n half) (Ideal.div half (max n half)) one

/-! ## The reference's stages at an index -/

section RefSide

open Cert.ReferenceIdeal Cert.ReferenceIdeal.Gen Cert.ReferenceIdeal.RefRun

/-- The positions are the first two columns of the states. -/
theorem positions_apply (X : S4096x4.Idx → EReal) (r : Fin 4096) (k : Fin 2) :
    positions (F := Ideal) X (ix2 r k) = X (ix2 r (Fin.castLE (by decide) k)) := by
  unfold positions
  exact slice2_axis1_apply 0 X slices_S4096x4_S4096x2_0_0 r k (Fin.castLE (by decide) k) (Nat.zero_add _).symm

/-- Entry (r, q, k) of the pairwise differences. -/
theorem pairDiff_apply (P : S4096x2.Idx → EReal) (r q : Fin 4096) (k : Fin 2) :
    pairDiff (F := Ideal) P (ix3 r q k) = P (ix2 r k) - P (ix2 q k) := by
  unfold pairDiff
  rw [subf_apply]
  refine congrArg₂ (· - ·) ?_ ?_
  · refine (broadcastInDim_apply _ _ _ (ix3 r q k) (ix3 r (0 : Fin 1) k) fun a => ?_).trans ?_
    · match a with
      | ⟨0, _⟩ => rfl
      | ⟨1, _⟩ => rfl
      | ⟨2, _⟩ => rfl
    · refine broadcastInDim_apply _ _ _ (ix3 r (0 : Fin 1) k) (ix2 r k) fun a => ?_
      match a with
      | ⟨0, _⟩ => rfl
      | ⟨1, _⟩ => rfl
  · refine (broadcastInDim_apply _ _ _ (ix3 r q k) (ix3 (0 : Fin 1) q k) fun a => ?_).trans ?_
    · match a with
      | ⟨0, _⟩ => rfl
      | ⟨1, _⟩ => rfl
      | ⟨2, _⟩ => rfl
    · refine broadcastInDim_apply _ _ _ (ix3 (0 : Fin 1) q k) (ix2 q k) fun a => ?_
      match a with
      | ⟨0, _⟩ => rfl
      | ⟨1, _⟩ => rfl

theorem lift_pair (h : S4096x4096x2.Reduces [2] S4096x4096) (r q : Fin 4096) (k : Fin 2) :
    h.lift (ix2 r q) k = ix3 r q k := by
  funext a; refine Fin.ext ?_
  match a with
  | ⟨0, _⟩ => rfl
  | ⟨1, _⟩ => rfl
  | ⟨2, _⟩ => rfl

/-- Entry (r, q) of the squared distances: the sum over the two coordinates, from the literal zero. -/
theorem pairSqDist_apply (d : S4096x4096x2.Idx → EReal) (r q : Fin 4096) :
    pairSqDist (F := Ideal) d (ix2 r q) = zero + ∑ k : Fin 2, d (ix3 r q k) * d (ix3 r q k) := by
  unfold pairSqDist
  have h : S4096x4096x2.Reduces [2] S4096x4096 := by decide
  rw [hostReduceAdd_apply, Ideal.hostReduceAdd_single reducesTo_S4096x4096x2_S4096x4096_d2 h]
  refine congrArg₂ (· + ·) rfl (Finset.sum_congr rfl fun k _ => ?_)
  exact (congrArg (mulf (F := Ideal) (φ := .f32) d d) (lift_pair h r q k)).trans rfl

/-- The distances are the guarded roots of the squared distances. -/
theorem pairDist_apply (p : S4096x4096.Idx → EReal) (i : S4096x4096.Idx) :
    pairDist (F := Ideal) p i = safeNorm (p i) := rfl

/-- Entry (r, q) of the mask. -/
theorem adjMask_apply (p : S4096x4096.Idx → EReal) (r q : Fin 4096) :
    adjMask (F := Ideal) p (ix2 r q)
      = IntOp.ori (Ideal.cmp .olt (p (ix2 r q)) half)
          (IntOp.cmpi .eq (BitVec.ofNat 32 r.val + 0#32) (BitVec.ofNat 32 q.val)) := rfl

/-- Entry (r, q) of the reference's mask, over the states. -/
theorem adjRef_apply (X : S4096x4.Idx → EReal) (r q : Fin 4096) :
    adjRef (F := Ideal) X (ix2 r q)
      = IntOp.ori (Ideal.cmp .olt (safeNorm (zero + ∑ k : Fin 2,
              (X (ix2 r (Fin.castLE (by decide) k)) - X (ix2 q (Fin.castLE (by decide) k)))
                * (X (ix2 r (Fin.castLE (by decide) k)) - X (ix2 q (Fin.castLE (by decide) k))))) half)
          (IntOp.cmpi .eq (BitVec.ofNat 32 r.val + 0#32) (BitVec.ofNat 32 q.val)) := by
  unfold adjRef
  rw [adjMask_apply, pairDist_apply, pairSqDist_apply]
  simp only [pairDiff_apply, positions_apply]

end RefSide

/-! ## The mask -/

section Mask

open Cert.KernelIdeal Cert.KernelIdeal.AdjHost Cert.KernelIdeal.AdjValue

/-- THE MASKS AGREE: the reference's mask of the states is the kernel program's adjacency bits. -/
theorem adjRef_eq (X : S4096x4.Idx → EReal) :
    Cert.ReferenceIdeal.RefRun.adjRef (F := Ideal) X = adjK X := by
  funext i
  obtain ⟨r, q, rfl⟩ : ∃ (r : Fin 4096) (q : Fin 4096), i = ix2 r q := ⟨i 0, i 1, eq_ix2 i⟩
  rw [adjRef_apply X r q, adjK_apply]
  unfold adjBit dsq
  rw [Fin.sum_univ_two, show zero = 0 from ofBits_zero, zero_add, BitVec.add_zero,
    cmp_safeNorm_lt_half (add_mul_self_nonneg _ _)]
  rfl

end Mask

/-! ## The node features -/

section Node

open Cert.KernelIdeal Cert.KernelIdeal.Gen Cert.KernelIdeal.HostValues

/-- The reference's goal offsets are the kernel program's. -/
theorem goalOffset_eq (X : S4096x4.Idx → EReal) (Gl : S4096x2.Idx → EReal) :
    Cert.ReferenceIdeal.RefRun.goalOffset (F := Ideal) Gl (Cert.ReferenceIdeal.RefRun.positions X) = dispArr X Gl := rfl

/-- The squared length of row r's goal offset, as the reference lays it in a column. -/
theorem goalSq_apply (X : S4096x4.Idx → EReal) (Gl : S4096x2.Idx → EReal) (r : Fin 4096) (u : Fin 1) :
    Cert.ReferenceIdeal.RefRun.goalSqLen (F := Ideal) (Cert.ReferenceIdeal.RefRun.goalOffsetSq (dispArr X Gl)) (ix2 r u)
      = sumsq X Gl r := by
  unfold Cert.ReferenceIdeal.RefRun.goalSqLen Cert.ReferenceIdeal.RefRun.goalOffsetSq sumsq
  rw [broadcastInDim_apply (s := S4096) (t := S4096x1) ![0] _ _ (ix2 r u) (ix1 r) (fun a => by match a with | ⟨0, _⟩ => rfl)]
  have h : S4096x2.Reduces [1] S4096 := by decide
  rw [hostReduceAdd_apply, Ideal.hostReduceAdd_single _ h]
  refine congrArg₂ (· + ·) rfl (Finset.sum_congr rfl fun k _ => ?_)
  exact (congrArg (mulf (F := Ideal) (φ := .f32) (dispArr X Gl) (dispArr X Gl)) (lift_row h r k)).trans
    (congrArg₂ (· * ·) (dispArr_apply X Gl r k) (dispArr_apply X Gl r k))

/-- The guarded root of the squared lengths is their root: the reference's lengths are the kernel program's. -/
theorem goalLen_eq (X : S4096x4.Idx → EReal) (Gl : S4096x2.Idx → EReal) :
    Cert.ReferenceIdeal.RefRun.goalLen (F := Ideal)
        (Cert.ReferenceIdeal.RefRun.goalSqLen (Cert.ReferenceIdeal.RefRun.goalOffsetSq (dispArr X Gl)))
      = normArr X Gl := by
  funext i
  obtain ⟨r, u, rfl⟩ : ∃ (r : Fin 4096) (u : Fin 1), i = ix2 r u := ⟨i 0, i 1, eq_ix2 i⟩
  rw [normArr_apply]
  show safeNorm (Cert.ReferenceIdeal.RefRun.goalSqLen (F := Ideal) (Cert.ReferenceIdeal.RefRun.goalOffsetSq (dispArr X Gl)) (ix2 r u)) = _
  rw [goalSq_apply, safeNorm_eq_sqrt]
  exact sumsq_nonneg fun k => Gl (ix2 r k) - X (ix2 r (Fin.castLE (by decide) k))

/-- THE NODE FEATURES AGREE. -/
theorem nodeRef_eq (X : S4096x4.Idx → EReal) (Gl : S4096x2.Idx → EReal) :
    Cert.ReferenceIdeal.RefRun.nodeRef (F := Ideal) X Gl = nodeOut X Gl := by
  unfold Cert.ReferenceIdeal.RefRun.nodeRef
  rw [goalOffset_eq, goalLen_eq]
  rfl

end Node

/-! ## The edge features -/

section Edge

open Cert.ReferenceIdeal Cert.ReferenceIdeal.Gen Cert.ReferenceIdeal.RefRun
open Idealize.ShloMosaic.LibGatherRows
open Cert.KernelIdeal.TakeHost (agent)

/-- The row numbers as the reference's gathers take them: negative ones moved up by 4096, laid out as a column. -/
def normCol (idx : S16777216.Idx → BitVec 32) : S16777216x1.Idx → BitVec 32 :=
  broadcastInDim S16777216x1 ![0] bcast_S16777216_S16777216x1_0
    (select (cmpi .slt idx (broadcastInDim S16777216 ![] bcast_S_S16777216 (constantI S_ 32 0#32)))
      (addi idx (broadcastInDim S16777216 ![] bcast_S_S16777216 (constantI S_ 32 4096#32))) idx)

/-- A row number in range passes unchanged. -/
theorem normCol_apply (idx : S16777216.Idx → BitVec 32) (e : Fin 16777216) (h : InRange (idx (ix1 e))) :
    normCol idx (ix2 e (0 : Fin 1)) = idx (ix1 e) := by
  unfold normCol
  refine (broadcastInDim_apply _ _ _ (ix2 e (0 : Fin 1)) (ix1 e) fun a => ?_).trans ?_
  · match a with
    | ⟨0, _⟩ => rfl
  · exact normalise_eq h

theorem recRows_eq : gather_S4096x4_S16777216x1_S16777216x4_1_0_n_n_0_1_14
    = rowsDims 4096 16777216 4 gather_S4096x4_S16777216x1_S16777216x4_1_0_n_n_0_1_14_wf := rfl

/-- The reference's gather of whole rows, at (e, j), for row numbers in range: the states at (row number of e, j). -/
theorem gatherRow_apply (X : S4096x4.Idx → EReal) (idx : S16777216.Idx → BitVec 32) (hidx : ∀ e, InRange (idx e))
    (e : Fin 16777216) (j : Fin 4) :
    Host.gather gather_S4096x4_S16777216x1_S16777216x4_1_0_n_n_0_1_14 X (normCol idx) (ix2 e j)
      = X (ix2 (agent (idx (ix1 e)) (hidx (ix1 e))) j) := by
  rw [recRows_eq]
  refine (gather_rows_apply (by decide) _ X (normCol idx) e j).trans ?_
  refine congrArg (fun k => X (ix2 k j)) (Fin.ext ?_)
  show min (normCol idx (ix2 e (0 : Fin 1))).toInt.toNat (4096 - 1) = (idx (ix1 e)).toNat
  rw [normCol_apply idx e (hidx _)]
  exact clamp_eq (hidx _)

/-- Entry (e, j) of the state differences: the receiver's state minus the sender's. -/
theorem edgeDiff_apply (X : S4096x4.Idx → EReal) (s r : S16777216.Idx → BitVec 32)
    (hs : ∀ e, InRange (s e)) (hr : ∀ e, InRange (r e)) (e : Fin 16777216) (j : Fin 4) :
    edgeDiff (F := Ideal) X s r (ix2 e j)
      = X (ix2 (agent (r (ix1 e)) (hr (ix1 e))) j) - X (ix2 (agent (s (ix1 e)) (hs (ix1 e))) j) := by
  show Host.gather gather_S4096x4_S16777216x1_S16777216x4_1_0_n_n_0_1_14 X (normCol r) (ix2 e j)
      - Host.gather gather_S4096x4_S16777216x1_S16777216x4_1_0_n_n_0_1_14 X (normCol s) (ix2 e j) = _
  rw [gatherRow_apply X r hr e j, gatherRow_apply X s hs e j]

/-- The planar part is the first two columns. -/
theorem edgePos_apply (d : S16777216x4.Idx → EReal) (e : Fin 16777216) (k : Fin 2) :
    edgePos (F := Ideal) d (ix2 e k) = d (ix2 e (Fin.castLE (by decide) k)) := by
  unfold edgePos
  exact slice2_axis1_apply 0 d slices_S16777216x4_S16777216x2_0_0 e k (Fin.castLE (by decide) k) (Nat.zero_add _).symm

theorem lift_edge (h : S16777216x2.Reduces [1] S16777216) (e : Fin 16777216) (k : Fin 2) : h.lift (ix1 e) k = ix2 e k := by
  funext a; refine Fin.ext ?_
  match a with
  | ⟨0, _⟩ => rfl
  | ⟨1, _⟩ => rfl

/-- The squared length of edge e's planar part, from the literal zero. -/
theorem edgeSqLen_apply (p : S16777216x2.Idx → EReal) (e : Fin 16777216) (u : Fin 1) :
    edgeSqLen (F := Ideal) p (ix2 e u) = zero + ∑ k : Fin 2, p (ix2 e k) * p (ix2 e k) := by
  unfold edgeSqLen
  rw [broadcastInDim_apply (s := S16777216) (t := S16777216x1) ![0] _ _ (ix2 e u) (ix1 e) (fun a => by match a with | ⟨0, _⟩ => rfl)]
  have h : S16777216x2.Reduces [1] S16777216 := by decide
  rw [hostReduceAdd_apply, Ideal.hostReduceAdd_single reducesTo_S16777216x2_S16777216_d1 h]
  refine congrArg₂ (· + ·) rfl (Finset.sum_congr rfl fun k _ => ?_)
  exact (congrArg (mulf (F := Ideal) (φ := .f32) p p) (lift_edge h e k)).trans rfl

/-- The length is the guarded root, the factor the factor of the length. -/
theorem edgeLen_apply (q : S16777216x1.Idx → EReal) (i : S16777216x1.Idx) : edgeLen (F := Ideal) q i = safeNorm (q i) := rfl
theorem edgeScale_apply (n : S16777216x1.Idx → EReal) (i : S16777216x1.Idx) : edgeScale (F := Ideal) n i = factorOf (n i) := rfl

/-- Columns 0 and 1 of the edge features: the planar part times the edge's factor. -/
theorem edgeFeatures_lo (d : S16777216x4.Idx → EReal) (p : S16777216x2.Idx → EReal) (f : S16777216x1.Idx → EReal)
    (e : Fin 16777216) (j : Fin 4) (k : Fin 2) (hk : j.val = k.val) :
    edgeFeatures (F := Ideal) d p f (ix2 e j) = p (ix2 e k) * f (ix2 e (0 : Fin 1)) := by
  unfold edgeFeatures
  refine (concatenate_pair_apply_left (t := S16777216x4) (1 : Fin 2) _ _ concatenates_S16777216x2_S16777216x2_S16777216x4_d1
    (ix2 e j) rfl (ix2 e k) (fun b => by
      match b with
      | ⟨0, _⟩ => rfl
      | ⟨1, _⟩ => exact hk.symm)).trans ?_
  rw [mulf_apply]
  refine congrArg (p (ix2 e k) * ·) ?_
  refine broadcastInDim_apply (s := S16777216x1) (t := S16777216x2) ![0, 1] _ f (ix2 e k) (ix2 e (0 : Fin 1)) fun a => ?_
  match a with
  | ⟨0, _⟩ => rfl
  | ⟨1, _⟩ => rfl

/-- Columns 2 and 3: the other two coordinates of the difference. -/
theorem edgeFeatures_hi (d : S16777216x4.Idx → EReal) (p : S16777216x2.Idx → EReal) (f : S16777216x1.Idx → EReal)
    (e : Fin 16777216) (j : Fin 4) (k : Fin 2) (hk : j.val = 2 + k.val) :
    edgeFeatures (F := Ideal) d p f (ix2 e j) = d (ix2 e j) := by
  unfold edgeFeatures
  refine (concatenate_pair_apply_right (t := S16777216x4) (1 : Fin 2) _ _ concatenates_S16777216x2_S16777216x2_S16777216x4_d1
    (ix2 e j) rfl rfl (ix2 e k) (fun b hb => by
      match b with
      | ⟨0, _⟩ => rfl
      | ⟨1, _⟩ => exact absurd rfl hb) (by show k.val + 2 = j.val; omega)).trans ?_
  exact slice2_axis1_apply 2 d slices_S16777216x4_S16777216x2_0_2 e k j hk

end Edge

section EdgeJoin

open Cert.KernelIdeal Cert.KernelIdeal.EdgeValue
open Cert.KernelIdeal.TakeHost (agent)

/-- The state differences along the edges, one column per edge: entry (j, e) is feature j of e's receiver minus that
    of its sender. -/
def D (X : S4096x4.Idx → EReal) (s r : S16777216.Idx → BitVec 32) (hs : ∀ e, InRange (s e)) (hr : ∀ e, InRange (r e)) :
    S4x16777216.Idx → EReal :=
  fun i => X (ix2 (agent (r (ix1 (i 1))) (hr (ix1 (i 1)))) (i 0)) - X (ix2 (agent (s (ix1 (i 1))) (hs (ix1 (i 1)))) (i 0))

theorem D_apply (X : S4096x4.Idx → EReal) (s r : S16777216.Idx → BitVec 32) (hs : ∀ e, InRange (s e)) (hr : ∀ e, InRange (r e))
    (j : Fin 4) (e : Fin 16777216) :
    D X s r hs hr (ix2 j e) = X (ix2 (agent (r (ix1 e)) (hr (ix1 e))) j) - X (ix2 (agent (s (ix1 e)) (hs (ix1 e))) j) := rfl

/-- The reference's factor of edge e is the kernel's `scale` of the edge's planar difference. -/
theorem edgeFactor_apply (X : S4096x4.Idx → EReal) (s r : S16777216.Idx → BitVec 32) (hs : ∀ e, InRange (s e)) (hr : ∀ e, InRange (r e))
    (e : Fin 16777216) (u : Fin 1) :
    Cert.ReferenceIdeal.RefRun.edgeScale (F := Ideal) (Cert.ReferenceIdeal.RefRun.edgeLen (Cert.ReferenceIdeal.RefRun.edgeSqLen
        (Cert.ReferenceIdeal.RefRun.edgePos (Cert.ReferenceIdeal.RefRun.edgeDiff X s r)))) (ix2 e u)
      = scale (D X s r hs hr (ix2 (0 : Fin 4) e)) (D X s r hs hr (ix2 (1 : Fin 4) e)) := by
  rw [edgeScale_apply, edgeLen_apply, edgeSqLen_apply, safeNorm_eq_sqrt (sumsq_nonneg _), Fin.sum_univ_two,
    show zero = 0 from ofBits_zero, zero_add, edgePos_apply, edgePos_apply,
    edgeDiff_apply X s r hs hr, edgeDiff_apply X s r hs hr]
  rfl

/-- THE EDGE FEATURES AGREE, entry by entry: the reference's at (e, j) is the rescaled state difference at (j, e). -/
theorem edgeRef_apply (X : S4096x4.Idx → EReal) (s r : S16777216.Idx → BitVec 32) (hs : ∀ e, InRange (s e)) (hr : ∀ e, InRange (r e))
    (e : Fin 16777216) (j : Fin 4) :
    Cert.ReferenceIdeal.RefRun.edgeRef (F := Ideal) X s r (ix2 e j) = rescaled (D X s r hs hr) j e := by
  unfold Cert.ReferenceIdeal.RefRun.edgeRef
  match j with
  | ⟨0, _⟩ =>
    show Cert.ReferenceIdeal.RefRun.edgeFeatures (F := Ideal) _ _ _ (ix2 e (0 : Fin 4)) = rescaled (D X s r hs hr) (0 : Fin 4) e
    rw [edgeFeatures_lo _ _ _ e (0 : Fin 4) (0 : Fin 2) rfl, edgeFactor_apply X s r hs hr e 0, edgePos_apply, edgeDiff_apply X s r hs hr]
    unfold rescaled
    rw [if_pos (by decide)]
    rfl
  | ⟨1, _⟩ =>
    show Cert.ReferenceIdeal.RefRun.edgeFeatures (F := Ideal) _ _ _ (ix2 e (1 : Fin 4)) = rescaled (D X s r hs hr) (1 : Fin 4) e
    rw [edgeFeatures_lo _ _ _ e (1 : Fin 4) (1 : Fin 2) rfl, edgeFactor_apply X s r hs hr e 0, edgePos_apply, edgeDiff_apply X s r hs hr]
    unfold rescaled
    rw [if_neg (by decide), if_pos (by decide)]
    rfl
  | ⟨2, _⟩ =>
    show Cert.ReferenceIdeal.RefRun.edgeFeatures (F := Ideal) _ _ _ (ix2 e (2 : Fin 4)) = rescaled (D X s r hs hr) (2 : Fin 4) e
    rw [edgeFeatures_hi _ _ _ e (2 : Fin 4) (0 : Fin 2) rfl, edgeDiff_apply X s r hs hr]
    unfold rescaled
    rw [if_neg (by decide), if_neg (by decide)]
    rfl
  | ⟨3, _⟩ =>
    show Cert.ReferenceIdeal.RefRun.edgeFeatures (F := Ideal) _ _ _ (ix2 e (3 : Fin 4)) = rescaled (D X s r hs hr) (3 : Fin 4) e
    rw [edgeFeatures_hi _ _ _ e (3 : Fin 4) (1 : Fin 2) rfl, edgeDiff_apply X s r hs hr]
    unfold rescaled
    rw [if_neg (by decide), if_neg (by decide)]
    rfl

end EdgeJoin

end Cert.Proof.RefBridge

end
-- ==== Proof.HostValuesCasts.lean ====
/-
  A typed reference to a buffer carries the buffer's array type, and an operation of a called function reads and
  writes its operands through that type: contents move between "the type the reference carries" and "the type of the
  buffer the reference names" along the equation between the two. For a literal buffer the two types are the same
  array type and the move is the identity. One pair of equations per buffer of the host stretches says so, each over a
  VARIABLE array, so that a whole line of operations can be cleared of these moves before two readings of it are
  compared: with a move left between them, comparing two applications of a full-size operation opens the operation.
-/
import proofs.«174933_j45260365365646_1_alg».proof.Proof.Gen.KernelIdeal.Regions
import Idealize.ShloMosaic.PureOps.Ideal

set_option maxRecDepth 16384

noncomputable section

namespace Cert.KernelIdeal.HostValues

open Cert.KernelIdeal Cert.KernelIdeal.Gen
open Idealize.ShloMosaic Idealize.ShloMosaic.TcCoe

theorem tb_v4 (p1 p2 p3) (v : S4096x4096.Idx → BitVec 1) :
    (StableHlo.TRef.of main_v4 p1 p2 p3 : StableHlo.TRef sig ⟨S4096x4096, .i1⟩).toBuf (Val := Elt Ideal) v = v := rfl
theorem ob_v4 (p1 p2 p3) (v : S4096x4096.Idx → BitVec 1) :
    (StableHlo.TRef.of main_v4 p1 p2 p3 : StableHlo.TRef sig ⟨S4096x4096, .i1⟩).ofBuf (Val := Elt Ideal) v = v := rfl
theorem tb_call0_v0 (p1 p2 p3) (v : S16777216.Idx → BitVec 1) :
    (StableHlo.TRef.of main_call0_v0 p1 p2 p3 : StableHlo.TRef sig ⟨S16777216, .i1⟩).toBuf (Val := Elt Ideal) v = v := rfl
theorem ob_call0_v0 (p1 p2 p3) (v : S16777216.Idx → BitVec 1) :
    (StableHlo.TRef.of main_call0_v0 p1 p2 p3 : StableHlo.TRef sig ⟨S16777216, .i1⟩).ofBuf (Val := Elt Ideal) v = v := rfl
theorem tb_call0_v1 (p1 p2 p3) (v : S16777216.Idx → BitVec 32) :
    (StableHlo.TRef.of main_call0_v1 p1 p2 p3 : StableHlo.TRef sig ⟨S16777216, .i32⟩).toBuf (Val := Elt Ideal) v = v := rfl
theorem ob_call0_v1 (p1 p2 p3) (v : S16777216.Idx → BitVec 32) :
    (StableHlo.TRef.of main_call0_v1 p1 p2 p3 : StableHlo.TRef sig ⟨S16777216, .i32⟩).ofBuf (Val := Elt Ideal) v = v := rfl
theorem tb_call0_call0_c (p1 p2 p3) (v : S_.Idx → BitVec 32) :
    (StableHlo.TRef.of main_call0_call0_c p1 p2 p3 : StableHlo.TRef sig ⟨S_, .i32⟩).toBuf (Val := Elt Ideal) v = v := rfl
theorem ob_call0_call0_c (p1 p2 p3) (v : S_.Idx → BitVec 32) :
    (StableHlo.TRef.of main_call0_call0_c p1 p2 p3 : StableHlo.TRef sig ⟨S_, .i32⟩).ofBuf (Val := Elt Ideal) v = v := rfl
theorem tb_call0_call0_v0 (p1 p2 p3) (v : S_.Idx → BitVec 32) :
    (StableHlo.TRef.of main_call0_call0_v0 p1 p2 p3 : StableHlo.TRef sig ⟨S_, .i32⟩).toBuf (Val := Elt Ideal) v = v := rfl
theorem ob_call0_call0_v0 (p1 p2 p3) (v : S_.Idx → BitVec 32) :
    (StableHlo.TRef.of main_call0_call0_v0 p1 p2 p3 : StableHlo.TRef sig ⟨S_, .i32⟩).ofBuf (Val := Elt Ideal) v = v := rfl
theorem tb_v5 (p1 p2 p3) (v : S16777216.Idx → BitVec 32) :
    (StableHlo.TRef.of main_v5 p1 p2 p3 : StableHlo.TRef sig ⟨S16777216, .i32⟩).toBuf (Val := Elt Ideal) v = v := rfl
theorem ob_v5 (p1 p2 p3) (v : S16777216.Idx → BitVec 32) :
    (StableHlo.TRef.of main_v5 p1 p2 p3 : StableHlo.TRef sig ⟨S16777216, .i32⟩).ofBuf (Val := Elt Ideal) v = v := rfl
theorem tb_c_1 (p1 p2 p3) (v : S_.Idx → BitVec 32) :
    (StableHlo.TRef.of main_c_1 p1 p2 p3 : StableHlo.TRef sig ⟨S_, .i32⟩).toBuf (Val := Elt Ideal) v = v := rfl
theorem ob_c_1 (p1 p2 p3) (v : S_.Idx → BitVec 32) :
    (StableHlo.TRef.of main_c_1 p1 p2 p3 : StableHlo.TRef sig ⟨S_, .i32⟩).ofBuf (Val := Elt Ideal) v = v := rfl
theorem tb_call1_v0 (p1 p2 p3) (v : S_.Idx → BitVec 32) :
    (StableHlo.TRef.of main_call1_v0 p1 p2 p3 : StableHlo.TRef sig ⟨S_, .i32⟩).toBuf (Val := Elt Ideal) v = v := rfl
theorem ob_call1_v0 (p1 p2 p3) (v : S_.Idx → BitVec 32) :
    (StableHlo.TRef.of main_call1_v0 p1 p2 p3 : StableHlo.TRef sig ⟨S_, .i32⟩).ofBuf (Val := Elt Ideal) v = v := rfl
theorem tb_call1_v1 (p1 p2 p3) (v : S16777216.Idx → BitVec 32) :
    (StableHlo.TRef.of main_call1_v1 p1 p2 p3 : StableHlo.TRef sig ⟨S16777216, .i32⟩).toBuf (Val := Elt Ideal) v = v := rfl
theorem ob_call1_v1 (p1 p2 p3) (v : S16777216.Idx → BitVec 32) :
    (StableHlo.TRef.of main_call1_v1 p1 p2 p3 : StableHlo.TRef sig ⟨S16777216, .i32⟩).ofBuf (Val := Elt Ideal) v = v := rfl
theorem tb_v7 (p1 p2 p3) (v : S16777216.Idx → BitVec 32) :
    (StableHlo.TRef.of main_v7 p1 p2 p3 : StableHlo.TRef sig ⟨S16777216, .i32⟩).toBuf (Val := Elt Ideal) v = v := rfl
theorem ob_v7 (p1 p2 p3) (v : S16777216.Idx → BitVec 32) :
    (StableHlo.TRef.of main_v7 p1 p2 p3 : StableHlo.TRef sig ⟨S16777216, .i32⟩).ofBuf (Val := Elt Ideal) v = v := rfl
theorem tb_call2_call0_c (p1 p2 p3) (v : S_.Idx → BitVec 32) :
    (StableHlo.TRef.of main_call2_call0_c p1 p2 p3 : StableHlo.TRef sig ⟨S_, .i32⟩).toBuf (Val := Elt Ideal) v = v := rfl
theorem ob_call2_call0_c (p1 p2 p3) (v : S_.Idx → BitVec 32) :
    (StableHlo.TRef.of main_call2_call0_c p1 p2 p3 : StableHlo.TRef sig ⟨S_, .i32⟩).ofBuf (Val := Elt Ideal) v = v := rfl
theorem tb_call2_call0_v0 (p1 p2 p3) (v : S_.Idx → BitVec 32) :
    (StableHlo.TRef.of main_call2_call0_v0 p1 p2 p3 : StableHlo.TRef sig ⟨S_, .i32⟩).toBuf (Val := Elt Ideal) v = v := rfl
theorem ob_call2_call0_v0 (p1 p2 p3) (v : S_.Idx → BitVec 32) :
    (StableHlo.TRef.of main_call2_call0_v0 p1 p2 p3 : StableHlo.TRef sig ⟨S_, .i32⟩).ofBuf (Val := Elt Ideal) v = v := rfl
theorem tb_v15 (p1 p2 p3) (v : S16777216.Idx → BitVec 32) :
    (StableHlo.TRef.of main_v15 p1 p2 p3 : StableHlo.TRef sig ⟨S16777216, .i32⟩).toBuf (Val := Elt Ideal) v = v := rfl
theorem ob_v15 (p1 p2 p3) (v : S16777216.Idx → BitVec 32) :
    (StableHlo.TRef.of main_v15 p1 p2 p3 : StableHlo.TRef sig ⟨S16777216, .i32⟩).ofBuf (Val := Elt Ideal) v = v := rfl
theorem tb_v16 (p1 p2 p3) (v : S16777216.Idx → BitVec 32) :
    (StableHlo.TRef.of main_v16 p1 p2 p3 : StableHlo.TRef sig ⟨S16777216, .i32⟩).toBuf (Val := Elt Ideal) v = v := rfl
theorem ob_v16 (p1 p2 p3) (v : S16777216.Idx → BitVec 32) :
    (StableHlo.TRef.of main_v16 p1 p2 p3 : StableHlo.TRef sig ⟨S16777216, .i32⟩).ofBuf (Val := Elt Ideal) v = v := rfl
theorem tb_c_5 (p1 p2 p3) (v : S_.Idx → BitVec 32) :
    (StableHlo.TRef.of main_c_5 p1 p2 p3 : StableHlo.TRef sig ⟨S_, .i32⟩).toBuf (Val := Elt Ideal) v = v := rfl
theorem ob_c_5 (p1 p2 p3) (v : S_.Idx → BitVec 32) :
    (StableHlo.TRef.of main_c_5 p1 p2 p3 : StableHlo.TRef sig ⟨S_, .i32⟩).ofBuf (Val := Elt Ideal) v = v := rfl
theorem tb_call3_v0 (p1 p2 p3) (v : S16777216.Idx → BitVec 32) :
    (StableHlo.TRef.of main_call3_v0 p1 p2 p3 : StableHlo.TRef sig ⟨S16777216, .i32⟩).toBuf (Val := Elt Ideal) v = v := rfl
theorem ob_call3_v0 (p1 p2 p3) (v : S16777216.Idx → BitVec 32) :
    (StableHlo.TRef.of main_call3_v0 p1 p2 p3 : StableHlo.TRef sig ⟨S16777216, .i32⟩).ofBuf (Val := Elt Ideal) v = v := rfl
theorem tb_call3_v1 (p1 p2 p3) (v : S16777216.Idx → BitVec 32) :
    (StableHlo.TRef.of main_call3_v1 p1 p2 p3 : StableHlo.TRef sig ⟨S16777216, .i32⟩).toBuf (Val := Elt Ideal) v = v := rfl
theorem ob_call3_v1 (p1 p2 p3) (v : S16777216.Idx → BitVec 32) :
    (StableHlo.TRef.of main_call3_v1 p1 p2 p3 : StableHlo.TRef sig ⟨S16777216, .i32⟩).ofBuf (Val := Elt Ideal) v = v := rfl
theorem tb_call3_v2 (p1 p2 p3) (v : S16777216.Idx → BitVec 32) :
    (StableHlo.TRef.of main_call3_v2 p1 p2 p3 : StableHlo.TRef sig ⟨S16777216, .i32⟩).toBuf (Val := Elt Ideal) v = v := rfl
theorem ob_call3_v2 (p1 p2 p3) (v : S16777216.Idx → BitVec 32) :
    (StableHlo.TRef.of main_call3_v2 p1 p2 p3 : StableHlo.TRef sig ⟨S16777216, .i32⟩).ofBuf (Val := Elt Ideal) v = v := rfl
theorem tb_call3_v3 (p1 p2 p3) (v : S_.Idx → BitVec 32) :
    (StableHlo.TRef.of main_call3_v3 p1 p2 p3 : StableHlo.TRef sig ⟨S_, .i32⟩).toBuf (Val := Elt Ideal) v = v := rfl
theorem ob_call3_v3 (p1 p2 p3) (v : S_.Idx → BitVec 32) :
    (StableHlo.TRef.of main_call3_v3 p1 p2 p3 : StableHlo.TRef sig ⟨S_, .i32⟩).ofBuf (Val := Elt Ideal) v = v := rfl
theorem tb_call3_v4 (p1 p2 p3) (v : S16777216.Idx → BitVec 32) :
    (StableHlo.TRef.of main_call3_v4 p1 p2 p3 : StableHlo.TRef sig ⟨S16777216, .i32⟩).toBuf (Val := Elt Ideal) v = v := rfl
theorem ob_call3_v4 (p1 p2 p3) (v : S16777216.Idx → BitVec 32) :
    (StableHlo.TRef.of main_call3_v4 p1 p2 p3 : StableHlo.TRef sig ⟨S16777216, .i32⟩).ofBuf (Val := Elt Ideal) v = v := rfl
theorem tb_call3_v5 (p1 p2 p3) (v : S16777216.Idx → BitVec 1) :
    (StableHlo.TRef.of main_call3_v5 p1 p2 p3 : StableHlo.TRef sig ⟨S16777216, .i1⟩).toBuf (Val := Elt Ideal) v = v := rfl
theorem ob_call3_v5 (p1 p2 p3) (v : S16777216.Idx → BitVec 1) :
    (StableHlo.TRef.of main_call3_v5 p1 p2 p3 : StableHlo.TRef sig ⟨S16777216, .i1⟩).ofBuf (Val := Elt Ideal) v = v := rfl
theorem tb_call3_v6 (p1 p2 p3) (v : S16777216.Idx → BitVec 32) :
    (StableHlo.TRef.of main_call3_v6 p1 p2 p3 : StableHlo.TRef sig ⟨S16777216, .i32⟩).toBuf (Val := Elt Ideal) v = v := rfl
theorem ob_call3_v6 (p1 p2 p3) (v : S16777216.Idx → BitVec 32) :
    (StableHlo.TRef.of main_call3_v6 p1 p2 p3 : StableHlo.TRef sig ⟨S16777216, .i32⟩).ofBuf (Val := Elt Ideal) v = v := rfl
theorem tb_call3_v7 (p1 p2 p3) (v : S16777216.Idx → BitVec 32) :
    (StableHlo.TRef.of main_call3_v7 p1 p2 p3 : StableHlo.TRef sig ⟨S16777216, .i32⟩).toBuf (Val := Elt Ideal) v = v := rfl
theorem ob_call3_v7 (p1 p2 p3) (v : S16777216.Idx → BitVec 32) :
    (StableHlo.TRef.of main_call3_v7 p1 p2 p3 : StableHlo.TRef sig ⟨S16777216, .i32⟩).ofBuf (Val := Elt Ideal) v = v := rfl
theorem tb_call3_c (p1 p2 p3) (v : S_.Idx → BitVec 32) :
    (StableHlo.TRef.of main_call3_c p1 p2 p3 : StableHlo.TRef sig ⟨S_, .i32⟩).toBuf (Val := Elt Ideal) v = v := rfl
theorem ob_call3_c (p1 p2 p3) (v : S_.Idx → BitVec 32) :
    (StableHlo.TRef.of main_call3_c p1 p2 p3 : StableHlo.TRef sig ⟨S_, .i32⟩).ofBuf (Val := Elt Ideal) v = v := rfl
theorem tb_call3_v8 (p1 p2 p3) (v : S16777216.Idx → BitVec 32) :
    (StableHlo.TRef.of main_call3_v8 p1 p2 p3 : StableHlo.TRef sig ⟨S16777216, .i32⟩).toBuf (Val := Elt Ideal) v = v := rfl
theorem ob_call3_v8 (p1 p2 p3) (v : S16777216.Idx → BitVec 32) :
    (StableHlo.TRef.of main_call3_v8 p1 p2 p3 : StableHlo.TRef sig ⟨S16777216, .i32⟩).ofBuf (Val := Elt Ideal) v = v := rfl
theorem tb_call3_v9 (p1 p2 p3) (v : S16777216.Idx → BitVec 1) :
    (StableHlo.TRef.of main_call3_v9 p1 p2 p3 : StableHlo.TRef sig ⟨S16777216, .i1⟩).toBuf (Val := Elt Ideal) v = v := rfl
theorem ob_call3_v9 (p1 p2 p3) (v : S16777216.Idx → BitVec 1) :
    (StableHlo.TRef.of main_call3_v9 p1 p2 p3 : StableHlo.TRef sig ⟨S16777216, .i1⟩).ofBuf (Val := Elt Ideal) v = v := rfl
theorem tb_call3_v10 (p1 p2 p3) (v : S16777216.Idx → BitVec 1) :
    (StableHlo.TRef.of main_call3_v10 p1 p2 p3 : StableHlo.TRef sig ⟨S16777216, .i1⟩).toBuf (Val := Elt Ideal) v = v := rfl
theorem ob_call3_v10 (p1 p2 p3) (v : S16777216.Idx → BitVec 1) :
    (StableHlo.TRef.of main_call3_v10 p1 p2 p3 : StableHlo.TRef sig ⟨S16777216, .i1⟩).ofBuf (Val := Elt Ideal) v = v := rfl
theorem tb_call3_c_0 (p1 p2 p3) (v : S_.Idx → BitVec 32) :
    (StableHlo.TRef.of main_call3_c_0 p1 p2 p3 : StableHlo.TRef sig ⟨S_, .i32⟩).toBuf (Val := Elt Ideal) v = v := rfl
theorem ob_call3_c_0 (p1 p2 p3) (v : S_.Idx → BitVec 32) :
    (StableHlo.TRef.of main_call3_c_0 p1 p2 p3 : StableHlo.TRef sig ⟨S_, .i32⟩).ofBuf (Val := Elt Ideal) v = v := rfl
theorem tb_call3_v11 (p1 p2 p3) (v : S16777216.Idx → BitVec 32) :
    (StableHlo.TRef.of main_call3_v11 p1 p2 p3 : StableHlo.TRef sig ⟨S16777216, .i32⟩).toBuf (Val := Elt Ideal) v = v := rfl
theorem ob_call3_v11 (p1 p2 p3) (v : S16777216.Idx → BitVec 32) :
    (StableHlo.TRef.of main_call3_v11 p1 p2 p3 : StableHlo.TRef sig ⟨S16777216, .i32⟩).ofBuf (Val := Elt Ideal) v = v := rfl
theorem tb_call3_v12 (p1 p2 p3) (v : S16777216.Idx → BitVec 32) :
    (StableHlo.TRef.of main_call3_v12 p1 p2 p3 : StableHlo.TRef sig ⟨S16777216, .i32⟩).toBuf (Val := Elt Ideal) v = v := rfl
theorem ob_call3_v12 (p1 p2 p3) (v : S16777216.Idx → BitVec 32) :
    (StableHlo.TRef.of main_call3_v12 p1 p2 p3 : StableHlo.TRef sig ⟨S16777216, .i32⟩).ofBuf (Val := Elt Ideal) v = v := rfl
theorem tb_v17 (p1 p2 p3) (v : S16777216.Idx → BitVec 32) :
    (StableHlo.TRef.of main_v17 p1 p2 p3 : StableHlo.TRef sig ⟨S16777216, .i32⟩).toBuf (Val := Elt Ideal) v = v := rfl
theorem ob_v17 (p1 p2 p3) (v : S16777216.Idx → BitVec 32) :
    (StableHlo.TRef.of main_v17 p1 p2 p3 : StableHlo.TRef sig ⟨S16777216, .i32⟩).ofBuf (Val := Elt Ideal) v = v := rfl
theorem tb_c_6 (p1 p2 p3) (v : S_.Idx → BitVec 32) :
    (StableHlo.TRef.of main_c_6 p1 p2 p3 : StableHlo.TRef sig ⟨S_, .i32⟩).toBuf (Val := Elt Ideal) v = v := rfl
theorem ob_c_6 (p1 p2 p3) (v : S_.Idx → BitVec 32) :
    (StableHlo.TRef.of main_c_6 p1 p2 p3 : StableHlo.TRef sig ⟨S_, .i32⟩).ofBuf (Val := Elt Ideal) v = v := rfl
theorem tb_call4_v0 (p1 p2 p3) (v : S_.Idx → BitVec 32) :
    (StableHlo.TRef.of main_call4_v0 p1 p2 p3 : StableHlo.TRef sig ⟨S_, .i32⟩).toBuf (Val := Elt Ideal) v = v := rfl
theorem ob_call4_v0 (p1 p2 p3) (v : S_.Idx → BitVec 32) :
    (StableHlo.TRef.of main_call4_v0 p1 p2 p3 : StableHlo.TRef sig ⟨S_, .i32⟩).ofBuf (Val := Elt Ideal) v = v := rfl
theorem tb_call4_c (p1 p2 p3) (v : S_.Idx → BitVec 32) :
    (StableHlo.TRef.of main_call4_c p1 p2 p3 : StableHlo.TRef sig ⟨S_, .i32⟩).toBuf (Val := Elt Ideal) v = v := rfl
theorem ob_call4_c (p1 p2 p3) (v : S_.Idx → BitVec 32) :
    (StableHlo.TRef.of main_call4_c p1 p2 p3 : StableHlo.TRef sig ⟨S_, .i32⟩).ofBuf (Val := Elt Ideal) v = v := rfl
theorem tb_call4_v1 (p1 p2 p3) (v : S_.Idx → BitVec 1) :
    (StableHlo.TRef.of main_call4_v1 p1 p2 p3 : StableHlo.TRef sig ⟨S_, .i1⟩).toBuf (Val := Elt Ideal) v = v := rfl
theorem ob_call4_v1 (p1 p2 p3) (v : S_.Idx → BitVec 1) :
    (StableHlo.TRef.of main_call4_v1 p1 p2 p3 : StableHlo.TRef sig ⟨S_, .i1⟩).ofBuf (Val := Elt Ideal) v = v := rfl
theorem tb_call4_c_0 (p1 p2 p3) (v : S_.Idx → BitVec 32) :
    (StableHlo.TRef.of main_call4_c_0 p1 p2 p3 : StableHlo.TRef sig ⟨S_, .i32⟩).toBuf (Val := Elt Ideal) v = v := rfl
theorem ob_call4_c_0 (p1 p2 p3) (v : S_.Idx → BitVec 32) :
    (StableHlo.TRef.of main_call4_c_0 p1 p2 p3 : StableHlo.TRef sig ⟨S_, .i32⟩).ofBuf (Val := Elt Ideal) v = v := rfl
theorem tb_call4_v2 (p1 p2 p3) (v : S_.Idx → BitVec 32) :
    (StableHlo.TRef.of main_call4_v2 p1 p2 p3 : StableHlo.TRef sig ⟨S_, .i32⟩).toBuf (Val := Elt Ideal) v = v := rfl
theorem ob_call4_v2 (p1 p2 p3) (v : S_.Idx → BitVec 32) :
    (StableHlo.TRef.of main_call4_v2 p1 p2 p3 : StableHlo.TRef sig ⟨S_, .i32⟩).ofBuf (Val := Elt Ideal) v = v := rfl
theorem tb_call4_v3 (p1 p2 p3) (v : S16777216.Idx → BitVec 32) :
    (StableHlo.TRef.of main_call4_v3 p1 p2 p3 : StableHlo.TRef sig ⟨S16777216, .i32⟩).toBuf (Val := Elt Ideal) v = v := rfl
theorem ob_call4_v3 (p1 p2 p3) (v : S16777216.Idx → BitVec 32) :
    (StableHlo.TRef.of main_call4_v3 p1 p2 p3 : StableHlo.TRef sig ⟨S16777216, .i32⟩).ofBuf (Val := Elt Ideal) v = v := rfl
theorem tb_call4_v4 (p1 p2 p3) (v : S16777216.Idx → BitVec 32) :
    (StableHlo.TRef.of main_call4_v4 p1 p2 p3 : StableHlo.TRef sig ⟨S16777216, .i32⟩).toBuf (Val := Elt Ideal) v = v := rfl
theorem ob_call4_v4 (p1 p2 p3) (v : S16777216.Idx → BitVec 32) :
    (StableHlo.TRef.of main_call4_v4 p1 p2 p3 : StableHlo.TRef sig ⟨S16777216, .i32⟩).ofBuf (Val := Elt Ideal) v = v := rfl
theorem tb_call4_c_1 (p1 p2 p3) (v : S_.Idx → BitVec 32) :
    (StableHlo.TRef.of main_call4_c_1 p1 p2 p3 : StableHlo.TRef sig ⟨S_, .i32⟩).toBuf (Val := Elt Ideal) v = v := rfl
theorem ob_call4_c_1 (p1 p2 p3) (v : S_.Idx → BitVec 32) :
    (StableHlo.TRef.of main_call4_c_1 p1 p2 p3 : StableHlo.TRef sig ⟨S_, .i32⟩).ofBuf (Val := Elt Ideal) v = v := rfl
theorem tb_call4_v5 (p1 p2 p3) (v : S16777216.Idx → BitVec 32) :
    (StableHlo.TRef.of main_call4_v5 p1 p2 p3 : StableHlo.TRef sig ⟨S16777216, .i32⟩).toBuf (Val := Elt Ideal) v = v := rfl
theorem ob_call4_v5 (p1 p2 p3) (v : S16777216.Idx → BitVec 32) :
    (StableHlo.TRef.of main_call4_v5 p1 p2 p3 : StableHlo.TRef sig ⟨S16777216, .i32⟩).ofBuf (Val := Elt Ideal) v = v := rfl
theorem tb_call4_v6 (p1 p2 p3) (v : S16777216.Idx → BitVec 1) :
    (StableHlo.TRef.of main_call4_v6 p1 p2 p3 : StableHlo.TRef sig ⟨S16777216, .i1⟩).toBuf (Val := Elt Ideal) v = v := rfl
theorem ob_call4_v6 (p1 p2 p3) (v : S16777216.Idx → BitVec 1) :
    (StableHlo.TRef.of main_call4_v6 p1 p2 p3 : StableHlo.TRef sig ⟨S16777216, .i1⟩).ofBuf (Val := Elt Ideal) v = v := rfl
theorem tb_call4_c_2 (p1 p2 p3) (v : S_.Idx → BitVec 32) :
    (StableHlo.TRef.of main_call4_c_2 p1 p2 p3 : StableHlo.TRef sig ⟨S_, .i32⟩).toBuf (Val := Elt Ideal) v = v := rfl
theorem ob_call4_c_2 (p1 p2 p3) (v : S_.Idx → BitVec 32) :
    (StableHlo.TRef.of main_call4_c_2 p1 p2 p3 : StableHlo.TRef sig ⟨S_, .i32⟩).ofBuf (Val := Elt Ideal) v = v := rfl
theorem tb_call4_v7 (p1 p2 p3) (v : S16777216.Idx → BitVec 32) :
    (StableHlo.TRef.of main_call4_v7 p1 p2 p3 : StableHlo.TRef sig ⟨S16777216, .i32⟩).toBuf (Val := Elt Ideal) v = v := rfl
theorem ob_call4_v7 (p1 p2 p3) (v : S16777216.Idx → BitVec 32) :
    (StableHlo.TRef.of main_call4_v7 p1 p2 p3 : StableHlo.TRef sig ⟨S16777216, .i32⟩).ofBuf (Val := Elt Ideal) v = v := rfl
theorem tb_call4_v8 (p1 p2 p3) (v : S16777216.Idx → BitVec 1) :
    (StableHlo.TRef.of main_call4_v8 p1 p2 p3 : StableHlo.TRef sig ⟨S16777216, .i1⟩).toBuf (Val := Elt Ideal) v = v := rfl
theorem ob_call4_v8 (p1 p2 p3) (v : S16777216.Idx → BitVec 1) :
    (StableHlo.TRef.of main_call4_v8 p1 p2 p3 : StableHlo.TRef sig ⟨S16777216, .i1⟩).ofBuf (Val := Elt Ideal) v = v := rfl
theorem tb_call4_c_3 (p1 p2 p3) (v : S_.Idx → BitVec 32) :
    (StableHlo.TRef.of main_call4_c_3 p1 p2 p3 : StableHlo.TRef sig ⟨S_, .i32⟩).toBuf (Val := Elt Ideal) v = v := rfl
theorem ob_call4_c_3 (p1 p2 p3) (v : S_.Idx → BitVec 32) :
    (StableHlo.TRef.of main_call4_c_3 p1 p2 p3 : StableHlo.TRef sig ⟨S_, .i32⟩).ofBuf (Val := Elt Ideal) v = v := rfl
theorem tb_call4_v9 (p1 p2 p3) (v : S_.Idx → BitVec 1) :
    (StableHlo.TRef.of main_call4_v9 p1 p2 p3 : StableHlo.TRef sig ⟨S_, .i1⟩).toBuf (Val := Elt Ideal) v = v := rfl
theorem ob_call4_v9 (p1 p2 p3) (v : S_.Idx → BitVec 1) :
    (StableHlo.TRef.of main_call4_v9 p1 p2 p3 : StableHlo.TRef sig ⟨S_, .i1⟩).ofBuf (Val := Elt Ideal) v = v := rfl
theorem tb_call4_v10 (p1 p2 p3) (v : S16777216.Idx → BitVec 1) :
    (StableHlo.TRef.of main_call4_v10 p1 p2 p3 : StableHlo.TRef sig ⟨S16777216, .i1⟩).toBuf (Val := Elt Ideal) v = v := rfl
theorem ob_call4_v10 (p1 p2 p3) (v : S16777216.Idx → BitVec 1) :
    (StableHlo.TRef.of main_call4_v10 p1 p2 p3 : StableHlo.TRef sig ⟨S16777216, .i1⟩).ofBuf (Val := Elt Ideal) v = v := rfl
theorem tb_call4_v11 (p1 p2 p3) (v : S16777216.Idx → BitVec 1) :
    (StableHlo.TRef.of main_call4_v11 p1 p2 p3 : StableHlo.TRef sig ⟨S16777216, .i1⟩).toBuf (Val := Elt Ideal) v = v := rfl
theorem ob_call4_v11 (p1 p2 p3) (v : S16777216.Idx → BitVec 1) :
    (StableHlo.TRef.of main_call4_v11 p1 p2 p3 : StableHlo.TRef sig ⟨S16777216, .i1⟩).ofBuf (Val := Elt Ideal) v = v := rfl
theorem tb_call4_v12 (p1 p2 p3) (v : S16777216.Idx → BitVec 1) :
    (StableHlo.TRef.of main_call4_v12 p1 p2 p3 : StableHlo.TRef sig ⟨S16777216, .i1⟩).toBuf (Val := Elt Ideal) v = v := rfl
theorem ob_call4_v12 (p1 p2 p3) (v : S16777216.Idx → BitVec 1) :
    (StableHlo.TRef.of main_call4_v12 p1 p2 p3 : StableHlo.TRef sig ⟨S16777216, .i1⟩).ofBuf (Val := Elt Ideal) v = v := rfl
theorem tb_call4_v13 (p1 p2 p3) (v : S16777216.Idx → BitVec 32) :
    (StableHlo.TRef.of main_call4_v13 p1 p2 p3 : StableHlo.TRef sig ⟨S16777216, .i32⟩).toBuf (Val := Elt Ideal) v = v := rfl
theorem ob_call4_v13 (p1 p2 p3) (v : S16777216.Idx → BitVec 32) :
    (StableHlo.TRef.of main_call4_v13 p1 p2 p3 : StableHlo.TRef sig ⟨S16777216, .i32⟩).ofBuf (Val := Elt Ideal) v = v := rfl
theorem tb_call4_v14 (p1 p2 p3) (v : S16777216.Idx → BitVec 32) :
    (StableHlo.TRef.of main_call4_v14 p1 p2 p3 : StableHlo.TRef sig ⟨S16777216, .i32⟩).toBuf (Val := Elt Ideal) v = v := rfl
theorem ob_call4_v14 (p1 p2 p3) (v : S16777216.Idx → BitVec 32) :
    (StableHlo.TRef.of main_call4_v14 p1 p2 p3 : StableHlo.TRef sig ⟨S16777216, .i32⟩).ofBuf (Val := Elt Ideal) v = v := rfl
theorem tb_v18 (p1 p2 p3) (v : S16777216.Idx → BitVec 32) :
    (StableHlo.TRef.of main_v18 p1 p2 p3 : StableHlo.TRef sig ⟨S16777216, .i32⟩).toBuf (Val := Elt Ideal) v = v := rfl
theorem ob_v18 (p1 p2 p3) (v : S16777216.Idx → BitVec 32) :
    (StableHlo.TRef.of main_v18 p1 p2 p3 : StableHlo.TRef sig ⟨S16777216, .i32⟩).ofBuf (Val := Elt Ideal) v = v := rfl
theorem tb_c_7 (p1 p2 p3) (v : S_.Idx → BitVec 32) :
    (StableHlo.TRef.of main_c_7 p1 p2 p3 : StableHlo.TRef sig ⟨S_, .i32⟩).toBuf (Val := Elt Ideal) v = v := rfl
theorem ob_c_7 (p1 p2 p3) (v : S_.Idx → BitVec 32) :
    (StableHlo.TRef.of main_c_7 p1 p2 p3 : StableHlo.TRef sig ⟨S_, .i32⟩).ofBuf (Val := Elt Ideal) v = v := rfl
theorem tb_call5_v0 (p1 p2 p3) (v : S16777216.Idx → BitVec 32) :
    (StableHlo.TRef.of main_call5_v0 p1 p2 p3 : StableHlo.TRef sig ⟨S16777216, .i32⟩).toBuf (Val := Elt Ideal) v = v := rfl
theorem ob_call5_v0 (p1 p2 p3) (v : S16777216.Idx → BitVec 32) :
    (StableHlo.TRef.of main_call5_v0 p1 p2 p3 : StableHlo.TRef sig ⟨S16777216, .i32⟩).ofBuf (Val := Elt Ideal) v = v := rfl
theorem tb_call5_v1 (p1 p2 p3) (v : S16777216.Idx → BitVec 32) :
    (StableHlo.TRef.of main_call5_v1 p1 p2 p3 : StableHlo.TRef sig ⟨S16777216, .i32⟩).toBuf (Val := Elt Ideal) v = v := rfl
theorem ob_call5_v1 (p1 p2 p3) (v : S16777216.Idx → BitVec 32) :
    (StableHlo.TRef.of main_call5_v1 p1 p2 p3 : StableHlo.TRef sig ⟨S16777216, .i32⟩).ofBuf (Val := Elt Ideal) v = v := rfl
theorem tb_call5_v2 (p1 p2 p3) (v : S16777216.Idx → BitVec 32) :
    (StableHlo.TRef.of main_call5_v2 p1 p2 p3 : StableHlo.TRef sig ⟨S16777216, .i32⟩).toBuf (Val := Elt Ideal) v = v := rfl
theorem ob_call5_v2 (p1 p2 p3) (v : S16777216.Idx → BitVec 32) :
    (StableHlo.TRef.of main_call5_v2 p1 p2 p3 : StableHlo.TRef sig ⟨S16777216, .i32⟩).ofBuf (Val := Elt Ideal) v = v := rfl
theorem tb_call5_v3 (p1 p2 p3) (v : S_.Idx → BitVec 32) :
    (StableHlo.TRef.of main_call5_v3 p1 p2 p3 : StableHlo.TRef sig ⟨S_, .i32⟩).toBuf (Val := Elt Ideal) v = v := rfl
theorem ob_call5_v3 (p1 p2 p3) (v : S_.Idx → BitVec 32) :
    (StableHlo.TRef.of main_call5_v3 p1 p2 p3 : StableHlo.TRef sig ⟨S_, .i32⟩).ofBuf (Val := Elt Ideal) v = v := rfl
theorem tb_call5_v4 (p1 p2 p3) (v : S16777216.Idx → BitVec 32) :
    (StableHlo.TRef.of main_call5_v4 p1 p2 p3 : StableHlo.TRef sig ⟨S16777216, .i32⟩).toBuf (Val := Elt Ideal) v = v := rfl
theorem ob_call5_v4 (p1 p2 p3) (v : S16777216.Idx → BitVec 32) :
    (StableHlo.TRef.of main_call5_v4 p1 p2 p3 : StableHlo.TRef sig ⟨S16777216, .i32⟩).ofBuf (Val := Elt Ideal) v = v := rfl
theorem tb_call5_v5 (p1 p2 p3) (v : S16777216.Idx → BitVec 1) :
    (StableHlo.TRef.of main_call5_v5 p1 p2 p3 : StableHlo.TRef sig ⟨S16777216, .i1⟩).toBuf (Val := Elt Ideal) v = v := rfl
theorem ob_call5_v5 (p1 p2 p3) (v : S16777216.Idx → BitVec 1) :
    (StableHlo.TRef.of main_call5_v5 p1 p2 p3 : StableHlo.TRef sig ⟨S16777216, .i1⟩).ofBuf (Val := Elt Ideal) v = v := rfl
theorem tb_call5_v6 (p1 p2 p3) (v : S16777216.Idx → BitVec 32) :
    (StableHlo.TRef.of main_call5_v6 p1 p2 p3 : StableHlo.TRef sig ⟨S16777216, .i32⟩).toBuf (Val := Elt Ideal) v = v := rfl
theorem ob_call5_v6 (p1 p2 p3) (v : S16777216.Idx → BitVec 32) :
    (StableHlo.TRef.of main_call5_v6 p1 p2 p3 : StableHlo.TRef sig ⟨S16777216, .i32⟩).ofBuf (Val := Elt Ideal) v = v := rfl
theorem tb_call5_v7 (p1 p2 p3) (v : S16777216.Idx → BitVec 32) :
    (StableHlo.TRef.of main_call5_v7 p1 p2 p3 : StableHlo.TRef sig ⟨S16777216, .i32⟩).toBuf (Val := Elt Ideal) v = v := rfl
theorem ob_call5_v7 (p1 p2 p3) (v : S16777216.Idx → BitVec 32) :
    (StableHlo.TRef.of main_call5_v7 p1 p2 p3 : StableHlo.TRef sig ⟨S16777216, .i32⟩).ofBuf (Val := Elt Ideal) v = v := rfl
theorem tb_call5_c (p1 p2 p3) (v : S_.Idx → BitVec 32) :
    (StableHlo.TRef.of main_call5_c p1 p2 p3 : StableHlo.TRef sig ⟨S_, .i32⟩).toBuf (Val := Elt Ideal) v = v := rfl
theorem ob_call5_c (p1 p2 p3) (v : S_.Idx → BitVec 32) :
    (StableHlo.TRef.of main_call5_c p1 p2 p3 : StableHlo.TRef sig ⟨S_, .i32⟩).ofBuf (Val := Elt Ideal) v = v := rfl
theorem tb_call5_v8 (p1 p2 p3) (v : S16777216.Idx → BitVec 32) :
    (StableHlo.TRef.of main_call5_v8 p1 p2 p3 : StableHlo.TRef sig ⟨S16777216, .i32⟩).toBuf (Val := Elt Ideal) v = v := rfl
theorem ob_call5_v8 (p1 p2 p3) (v : S16777216.Idx → BitVec 32) :
    (StableHlo.TRef.of main_call5_v8 p1 p2 p3 : StableHlo.TRef sig ⟨S16777216, .i32⟩).ofBuf (Val := Elt Ideal) v = v := rfl
theorem tb_call5_v9 (p1 p2 p3) (v : S16777216.Idx → BitVec 1) :
    (StableHlo.TRef.of main_call5_v9 p1 p2 p3 : StableHlo.TRef sig ⟨S16777216, .i1⟩).toBuf (Val := Elt Ideal) v = v := rfl
theorem ob_call5_v9 (p1 p2 p3) (v : S16777216.Idx → BitVec 1) :
    (StableHlo.TRef.of main_call5_v9 p1 p2 p3 : StableHlo.TRef sig ⟨S16777216, .i1⟩).ofBuf (Val := Elt Ideal) v = v := rfl
theorem tb_call5_v10 (p1 p2 p3) (v : S16777216.Idx → BitVec 1) :
    (StableHlo.TRef.of main_call5_v10 p1 p2 p3 : StableHlo.TRef sig ⟨S16777216, .i1⟩).toBuf (Val := Elt Ideal) v = v := rfl
theorem ob_call5_v10 (p1 p2 p3) (v : S16777216.Idx → BitVec 1) :
    (StableHlo.TRef.of main_call5_v10 p1 p2 p3 : StableHlo.TRef sig ⟨S16777216, .i1⟩).ofBuf (Val := Elt Ideal) v = v := rfl
theorem tb_call5_c_0 (p1 p2 p3) (v : S_.Idx → BitVec 32) :
    (StableHlo.TRef.of main_call5_c_0 p1 p2 p3 : StableHlo.TRef sig ⟨S_, .i32⟩).toBuf (Val := Elt Ideal) v = v := rfl
theorem ob_call5_c_0 (p1 p2 p3) (v : S_.Idx → BitVec 32) :
    (StableHlo.TRef.of main_call5_c_0 p1 p2 p3 : StableHlo.TRef sig ⟨S_, .i32⟩).ofBuf (Val := Elt Ideal) v = v := rfl
theorem tb_call5_v11 (p1 p2 p3) (v : S16777216.Idx → BitVec 32) :
    (StableHlo.TRef.of main_call5_v11 p1 p2 p3 : StableHlo.TRef sig ⟨S16777216, .i32⟩).toBuf (Val := Elt Ideal) v = v := rfl
theorem ob_call5_v11 (p1 p2 p3) (v : S16777216.Idx → BitVec 32) :
    (StableHlo.TRef.of main_call5_v11 p1 p2 p3 : StableHlo.TRef sig ⟨S16777216, .i32⟩).ofBuf (Val := Elt Ideal) v = v := rfl
theorem tb_call5_v12 (p1 p2 p3) (v : S16777216.Idx → BitVec 32) :
    (StableHlo.TRef.of main_call5_v12 p1 p2 p3 : StableHlo.TRef sig ⟨S16777216, .i32⟩).toBuf (Val := Elt Ideal) v = v := rfl
theorem ob_call5_v12 (p1 p2 p3) (v : S16777216.Idx → BitVec 32) :
    (StableHlo.TRef.of main_call5_v12 p1 p2 p3 : StableHlo.TRef sig ⟨S16777216, .i32⟩).ofBuf (Val := Elt Ideal) v = v := rfl
theorem tb_v19 (p1 p2 p3) (v : S16777216.Idx → BitVec 32) :
    (StableHlo.TRef.of main_v19 p1 p2 p3 : StableHlo.TRef sig ⟨S16777216, .i32⟩).toBuf (Val := Elt Ideal) v = v := rfl
theorem ob_v19 (p1 p2 p3) (v : S16777216.Idx → BitVec 32) :
    (StableHlo.TRef.of main_v19 p1 p2 p3 : StableHlo.TRef sig ⟨S16777216, .i32⟩).ofBuf (Val := Elt Ideal) v = v := rfl
theorem tb_c_8 (p1 p2 p3) (v : S_.Idx → BitVec 32) :
    (StableHlo.TRef.of main_c_8 p1 p2 p3 : StableHlo.TRef sig ⟨S_, .i32⟩).toBuf (Val := Elt Ideal) v = v := rfl
theorem ob_c_8 (p1 p2 p3) (v : S_.Idx → BitVec 32) :
    (StableHlo.TRef.of main_c_8 p1 p2 p3 : StableHlo.TRef sig ⟨S_, .i32⟩).ofBuf (Val := Elt Ideal) v = v := rfl
theorem tb_call6_v0 (p1 p2 p3) (v : S_.Idx → BitVec 32) :
    (StableHlo.TRef.of main_call6_v0 p1 p2 p3 : StableHlo.TRef sig ⟨S_, .i32⟩).toBuf (Val := Elt Ideal) v = v := rfl
theorem ob_call6_v0 (p1 p2 p3) (v : S_.Idx → BitVec 32) :
    (StableHlo.TRef.of main_call6_v0 p1 p2 p3 : StableHlo.TRef sig ⟨S_, .i32⟩).ofBuf (Val := Elt Ideal) v = v := rfl
theorem tb_call6_c (p1 p2 p3) (v : S_.Idx → BitVec 32) :
    (StableHlo.TRef.of main_call6_c p1 p2 p3 : StableHlo.TRef sig ⟨S_, .i32⟩).toBuf (Val := Elt Ideal) v = v := rfl
theorem ob_call6_c (p1 p2 p3) (v : S_.Idx → BitVec 32) :
    (StableHlo.TRef.of main_call6_c p1 p2 p3 : StableHlo.TRef sig ⟨S_, .i32⟩).ofBuf (Val := Elt Ideal) v = v := rfl
theorem tb_call6_v1 (p1 p2 p3) (v : S_.Idx → BitVec 1) :
    (StableHlo.TRef.of main_call6_v1 p1 p2 p3 : StableHlo.TRef sig ⟨S_, .i1⟩).toBuf (Val := Elt Ideal) v = v := rfl
theorem ob_call6_v1 (p1 p2 p3) (v : S_.Idx → BitVec 1) :
    (StableHlo.TRef.of main_call6_v1 p1 p2 p3 : StableHlo.TRef sig ⟨S_, .i1⟩).ofBuf (Val := Elt Ideal) v = v := rfl
theorem tb_call6_c_0 (p1 p2 p3) (v : S_.Idx → BitVec 32) :
    (StableHlo.TRef.of main_call6_c_0 p1 p2 p3 : StableHlo.TRef sig ⟨S_, .i32⟩).toBuf (Val := Elt Ideal) v = v := rfl
theorem ob_call6_c_0 (p1 p2 p3) (v : S_.Idx → BitVec 32) :
    (StableHlo.TRef.of main_call6_c_0 p1 p2 p3 : StableHlo.TRef sig ⟨S_, .i32⟩).ofBuf (Val := Elt Ideal) v = v := rfl
theorem tb_call6_v2 (p1 p2 p3) (v : S_.Idx → BitVec 32) :
    (StableHlo.TRef.of main_call6_v2 p1 p2 p3 : StableHlo.TRef sig ⟨S_, .i32⟩).toBuf (Val := Elt Ideal) v = v := rfl
theorem ob_call6_v2 (p1 p2 p3) (v : S_.Idx → BitVec 32) :
    (StableHlo.TRef.of main_call6_v2 p1 p2 p3 : StableHlo.TRef sig ⟨S_, .i32⟩).ofBuf (Val := Elt Ideal) v = v := rfl
theorem tb_call6_v3 (p1 p2 p3) (v : S16777216.Idx → BitVec 32) :
    (StableHlo.TRef.of main_call6_v3 p1 p2 p3 : StableHlo.TRef sig ⟨S16777216, .i32⟩).toBuf (Val := Elt Ideal) v = v := rfl
theorem ob_call6_v3 (p1 p2 p3) (v : S16777216.Idx → BitVec 32) :
    (StableHlo.TRef.of main_call6_v3 p1 p2 p3 : StableHlo.TRef sig ⟨S16777216, .i32⟩).ofBuf (Val := Elt Ideal) v = v := rfl
theorem tb_call6_v4 (p1 p2 p3) (v : S16777216.Idx → BitVec 32) :
    (StableHlo.TRef.of main_call6_v4 p1 p2 p3 : StableHlo.TRef sig ⟨S16777216, .i32⟩).toBuf (Val := Elt Ideal) v = v := rfl
theorem ob_call6_v4 (p1 p2 p3) (v : S16777216.Idx → BitVec 32) :
    (StableHlo.TRef.of main_call6_v4 p1 p2 p3 : StableHlo.TRef sig ⟨S16777216, .i32⟩).ofBuf (Val := Elt Ideal) v = v := rfl
theorem tb_call6_c_1 (p1 p2 p3) (v : S_.Idx → BitVec 32) :
    (StableHlo.TRef.of main_call6_c_1 p1 p2 p3 : StableHlo.TRef sig ⟨S_, .i32⟩).toBuf (Val := Elt Ideal) v = v := rfl
theorem ob_call6_c_1 (p1 p2 p3) (v : S_.Idx → BitVec 32) :
    (StableHlo.TRef.of main_call6_c_1 p1 p2 p3 : StableHlo.TRef sig ⟨S_, .i32⟩).ofBuf (Val := Elt Ideal) v = v := rfl
theorem tb_call6_v5 (p1 p2 p3) (v : S16777216.Idx → BitVec 32) :
    (StableHlo.TRef.of main_call6_v5 p1 p2 p3 : StableHlo.TRef sig ⟨S16777216, .i32⟩).toBuf (Val := Elt Ideal) v = v := rfl
theorem ob_call6_v5 (p1 p2 p3) (v : S16777216.Idx → BitVec 32) :
    (StableHlo.TRef.of main_call6_v5 p1 p2 p3 : StableHlo.TRef sig ⟨S16777216, .i32⟩).ofBuf (Val := Elt Ideal) v = v := rfl
theorem tb_call6_v6 (p1 p2 p3) (v : S16777216.Idx → BitVec 1) :
    (StableHlo.TRef.of main_call6_v6 p1 p2 p3 : StableHlo.TRef sig ⟨S16777216, .i1⟩).toBuf (Val := Elt Ideal) v = v := rfl
theorem ob_call6_v6 (p1 p2 p3) (v : S16777216.Idx → BitVec 1) :
    (StableHlo.TRef.of main_call6_v6 p1 p2 p3 : StableHlo.TRef sig ⟨S16777216, .i1⟩).ofBuf (Val := Elt Ideal) v = v := rfl
theorem tb_call6_c_2 (p1 p2 p3) (v : S_.Idx → BitVec 32) :
    (StableHlo.TRef.of main_call6_c_2 p1 p2 p3 : StableHlo.TRef sig ⟨S_, .i32⟩).toBuf (Val := Elt Ideal) v = v := rfl
theorem ob_call6_c_2 (p1 p2 p3) (v : S_.Idx → BitVec 32) :
    (StableHlo.TRef.of main_call6_c_2 p1 p2 p3 : StableHlo.TRef sig ⟨S_, .i32⟩).ofBuf (Val := Elt Ideal) v = v := rfl
theorem tb_call6_v7 (p1 p2 p3) (v : S16777216.Idx → BitVec 32) :
    (StableHlo.TRef.of main_call6_v7 p1 p2 p3 : StableHlo.TRef sig ⟨S16777216, .i32⟩).toBuf (Val := Elt Ideal) v = v := rfl
theorem ob_call6_v7 (p1 p2 p3) (v : S16777216.Idx → BitVec 32) :
    (StableHlo.TRef.of main_call6_v7 p1 p2 p3 : StableHlo.TRef sig ⟨S16777216, .i32⟩).ofBuf (Val := Elt Ideal) v = v := rfl
theorem tb_call6_v8 (p1 p2 p3) (v : S16777216.Idx → BitVec 1) :
    (StableHlo.TRef.of main_call6_v8 p1 p2 p3 : StableHlo.TRef sig ⟨S16777216, .i1⟩).toBuf (Val := Elt Ideal) v = v := rfl
theorem ob_call6_v8 (p1 p2 p3) (v : S16777216.Idx → BitVec 1) :
    (StableHlo.TRef.of main_call6_v8 p1 p2 p3 : StableHlo.TRef sig ⟨S16777216, .i1⟩).ofBuf (Val := Elt Ideal) v = v := rfl
theorem tb_call6_c_3 (p1 p2 p3) (v : S_.Idx → BitVec 32) :
    (StableHlo.TRef.of main_call6_c_3 p1 p2 p3 : StableHlo.TRef sig ⟨S_, .i32⟩).toBuf (Val := Elt Ideal) v = v := rfl
theorem ob_call6_c_3 (p1 p2 p3) (v : S_.Idx → BitVec 32) :
    (StableHlo.TRef.of main_call6_c_3 p1 p2 p3 : StableHlo.TRef sig ⟨S_, .i32⟩).ofBuf (Val := Elt Ideal) v = v := rfl
theorem tb_call6_v9 (p1 p2 p3) (v : S_.Idx → BitVec 1) :
    (StableHlo.TRef.of main_call6_v9 p1 p2 p3 : StableHlo.TRef sig ⟨S_, .i1⟩).toBuf (Val := Elt Ideal) v = v := rfl
theorem ob_call6_v9 (p1 p2 p3) (v : S_.Idx → BitVec 1) :
    (StableHlo.TRef.of main_call6_v9 p1 p2 p3 : StableHlo.TRef sig ⟨S_, .i1⟩).ofBuf (Val := Elt Ideal) v = v := rfl
theorem tb_call6_v10 (p1 p2 p3) (v : S16777216.Idx → BitVec 1) :
    (StableHlo.TRef.of main_call6_v10 p1 p2 p3 : StableHlo.TRef sig ⟨S16777216, .i1⟩).toBuf (Val := Elt Ideal) v = v := rfl
theorem ob_call6_v10 (p1 p2 p3) (v : S16777216.Idx → BitVec 1) :
    (StableHlo.TRef.of main_call6_v10 p1 p2 p3 : StableHlo.TRef sig ⟨S16777216, .i1⟩).ofBuf (Val := Elt Ideal) v = v := rfl
theorem tb_call6_v11 (p1 p2 p3) (v : S16777216.Idx → BitVec 1) :
    (StableHlo.TRef.of main_call6_v11 p1 p2 p3 : StableHlo.TRef sig ⟨S16777216, .i1⟩).toBuf (Val := Elt Ideal) v = v := rfl
theorem ob_call6_v11 (p1 p2 p3) (v : S16777216.Idx → BitVec 1) :
    (StableHlo.TRef.of main_call6_v11 p1 p2 p3 : StableHlo.TRef sig ⟨S16777216, .i1⟩).ofBuf (Val := Elt Ideal) v = v := rfl
theorem tb_call6_v12 (p1 p2 p3) (v : S16777216.Idx → BitVec 1) :
    (StableHlo.TRef.of main_call6_v12 p1 p2 p3 : StableHlo.TRef sig ⟨S16777216, .i1⟩).toBuf (Val := Elt Ideal) v = v := rfl
theorem ob_call6_v12 (p1 p2 p3) (v : S16777216.Idx → BitVec 1) :
    (StableHlo.TRef.of main_call6_v12 p1 p2 p3 : StableHlo.TRef sig ⟨S16777216, .i1⟩).ofBuf (Val := Elt Ideal) v = v := rfl
theorem tb_call6_v13 (p1 p2 p3) (v : S16777216.Idx → BitVec 32) :
    (StableHlo.TRef.of main_call6_v13 p1 p2 p3 : StableHlo.TRef sig ⟨S16777216, .i32⟩).toBuf (Val := Elt Ideal) v = v := rfl
theorem ob_call6_v13 (p1 p2 p3) (v : S16777216.Idx → BitVec 32) :
    (StableHlo.TRef.of main_call6_v13 p1 p2 p3 : StableHlo.TRef sig ⟨S16777216, .i32⟩).ofBuf (Val := Elt Ideal) v = v := rfl
theorem tb_call6_v14 (p1 p2 p3) (v : S16777216.Idx → BitVec 32) :
    (StableHlo.TRef.of main_call6_v14 p1 p2 p3 : StableHlo.TRef sig ⟨S16777216, .i32⟩).toBuf (Val := Elt Ideal) v = v := rfl
theorem ob_call6_v14 (p1 p2 p3) (v : S16777216.Idx → BitVec 32) :
    (StableHlo.TRef.of main_call6_v14 p1 p2 p3 : StableHlo.TRef sig ⟨S16777216, .i32⟩).ofBuf (Val := Elt Ideal) v = v := rfl
theorem tb_v20 (p1 p2 p3) (v : S16777216.Idx → BitVec 32) :
    (StableHlo.TRef.of main_v20 p1 p2 p3 : StableHlo.TRef sig ⟨S16777216, .i32⟩).toBuf (Val := Elt Ideal) v = v := rfl
theorem ob_v20 (p1 p2 p3) (v : S16777216.Idx → BitVec 32) :
    (StableHlo.TRef.of main_v20 p1 p2 p3 : StableHlo.TRef sig ⟨S16777216, .i32⟩).ofBuf (Val := Elt Ideal) v = v := rfl
theorem tb_c_10 (p1 p2 p3) (v : S_.Idx → BitVec 32) :
    (StableHlo.TRef.of main_c_10 p1 p2 p3 : StableHlo.TRef sig ⟨S_, .i32⟩).toBuf (Val := Elt Ideal) v = v := rfl
theorem ob_c_10 (p1 p2 p3) (v : S_.Idx → BitVec 32) :
    (StableHlo.TRef.of main_c_10 p1 p2 p3 : StableHlo.TRef sig ⟨S_, .i32⟩).ofBuf (Val := Elt Ideal) v = v := rfl
theorem tb_call7_v0 (p1 p2 p3) (v : S_.Idx → BitVec 32) :
    (StableHlo.TRef.of main_call7_v0 p1 p2 p3 : StableHlo.TRef sig ⟨S_, .i32⟩).toBuf (Val := Elt Ideal) v = v := rfl
theorem ob_call7_v0 (p1 p2 p3) (v : S_.Idx → BitVec 32) :
    (StableHlo.TRef.of main_call7_v0 p1 p2 p3 : StableHlo.TRef sig ⟨S_, .i32⟩).ofBuf (Val := Elt Ideal) v = v := rfl
theorem tb_call7_v1 (p1 p2 p3) (v : S16777216.Idx → BitVec 32) :
    (StableHlo.TRef.of main_call7_v1 p1 p2 p3 : StableHlo.TRef sig ⟨S16777216, .i32⟩).toBuf (Val := Elt Ideal) v = v := rfl
theorem ob_call7_v1 (p1 p2 p3) (v : S16777216.Idx → BitVec 32) :
    (StableHlo.TRef.of main_call7_v1 p1 p2 p3 : StableHlo.TRef sig ⟨S16777216, .i32⟩).ofBuf (Val := Elt Ideal) v = v := rfl
theorem tb_v25 (p1 p2 p3) (v : S16777216.Idx → BitVec 1) :
    (StableHlo.TRef.of main_v25 p1 p2 p3 : StableHlo.TRef sig ⟨S16777216, .i1⟩).toBuf (Val := Elt Ideal) v = v := rfl
theorem ob_v25 (p1 p2 p3) (v : S16777216.Idx → BitVec 1) :
    (StableHlo.TRef.of main_v25 p1 p2 p3 : StableHlo.TRef sig ⟨S16777216, .i1⟩).ofBuf (Val := Elt Ideal) v = v := rfl
theorem tb_v26 (p1 p2 p3) (v : S16777216.Idx → BitVec 32) :
    (StableHlo.TRef.of main_v26 p1 p2 p3 : StableHlo.TRef sig ⟨S16777216, .i32⟩).toBuf (Val := Elt Ideal) v = v := rfl
theorem ob_v26 (p1 p2 p3) (v : S16777216.Idx → BitVec 32) :
    (StableHlo.TRef.of main_v26 p1 p2 p3 : StableHlo.TRef sig ⟨S16777216, .i32⟩).ofBuf (Val := Elt Ideal) v = v := rfl
theorem tb_c_11 (p1 p2 p3) (v : S_.Idx → BitVec 32) :
    (StableHlo.TRef.of main_c_11 p1 p2 p3 : StableHlo.TRef sig ⟨S_, .i32⟩).toBuf (Val := Elt Ideal) v = v := rfl
theorem ob_c_11 (p1 p2 p3) (v : S_.Idx → BitVec 32) :
    (StableHlo.TRef.of main_c_11 p1 p2 p3 : StableHlo.TRef sig ⟨S_, .i32⟩).ofBuf (Val := Elt Ideal) v = v := rfl
theorem tb_call8_v0 (p1 p2 p3) (v : S_.Idx → BitVec 32) :
    (StableHlo.TRef.of main_call8_v0 p1 p2 p3 : StableHlo.TRef sig ⟨S_, .i32⟩).toBuf (Val := Elt Ideal) v = v := rfl
theorem ob_call8_v0 (p1 p2 p3) (v : S_.Idx → BitVec 32) :
    (StableHlo.TRef.of main_call8_v0 p1 p2 p3 : StableHlo.TRef sig ⟨S_, .i32⟩).ofBuf (Val := Elt Ideal) v = v := rfl
theorem tb_call8_v1 (p1 p2 p3) (v : S16777216.Idx → BitVec 32) :
    (StableHlo.TRef.of main_call8_v1 p1 p2 p3 : StableHlo.TRef sig ⟨S16777216, .i32⟩).toBuf (Val := Elt Ideal) v = v := rfl
theorem ob_call8_v1 (p1 p2 p3) (v : S16777216.Idx → BitVec 32) :
    (StableHlo.TRef.of main_call8_v1 p1 p2 p3 : StableHlo.TRef sig ⟨S16777216, .i32⟩).ofBuf (Val := Elt Ideal) v = v := rfl
theorem tb_v27 (p1 p2 p3) (v : S16777216.Idx → BitVec 32) :
    (StableHlo.TRef.of main_v27 p1 p2 p3 : StableHlo.TRef sig ⟨S16777216, .i32⟩).toBuf (Val := Elt Ideal) v = v := rfl
theorem ob_v27 (p1 p2 p3) (v : S16777216.Idx → BitVec 32) :
    (StableHlo.TRef.of main_v27 p1 p2 p3 : StableHlo.TRef sig ⟨S16777216, .i32⟩).ofBuf (Val := Elt Ideal) v = v := rfl
theorem tb_call9_c (p1 p2 p3) (v : S_.Idx → BitVec 32) :
    (StableHlo.TRef.of main_call9_c p1 p2 p3 : StableHlo.TRef sig ⟨S_, .i32⟩).toBuf (Val := Elt Ideal) v = v := rfl
theorem ob_call9_c (p1 p2 p3) (v : S_.Idx → BitVec 32) :
    (StableHlo.TRef.of main_call9_c p1 p2 p3 : StableHlo.TRef sig ⟨S_, .i32⟩).ofBuf (Val := Elt Ideal) v = v := rfl
theorem tb_call9_v0 (p1 p2 p3) (v : S16777216.Idx → BitVec 32) :
    (StableHlo.TRef.of main_call9_v0 p1 p2 p3 : StableHlo.TRef sig ⟨S16777216, .i32⟩).toBuf (Val := Elt Ideal) v = v := rfl
theorem ob_call9_v0 (p1 p2 p3) (v : S16777216.Idx → BitVec 32) :
    (StableHlo.TRef.of main_call9_v0 p1 p2 p3 : StableHlo.TRef sig ⟨S16777216, .i32⟩).ofBuf (Val := Elt Ideal) v = v := rfl
theorem tb_call9_v1 (p1 p2 p3) (v : S16777216.Idx → BitVec 1) :
    (StableHlo.TRef.of main_call9_v1 p1 p2 p3 : StableHlo.TRef sig ⟨S16777216, .i1⟩).toBuf (Val := Elt Ideal) v = v := rfl
theorem ob_call9_v1 (p1 p2 p3) (v : S16777216.Idx → BitVec 1) :
    (StableHlo.TRef.of main_call9_v1 p1 p2 p3 : StableHlo.TRef sig ⟨S16777216, .i1⟩).ofBuf (Val := Elt Ideal) v = v := rfl
theorem tb_call9_c_0 (p1 p2 p3) (v : S_.Idx → BitVec 32) :
    (StableHlo.TRef.of main_call9_c_0 p1 p2 p3 : StableHlo.TRef sig ⟨S_, .i32⟩).toBuf (Val := Elt Ideal) v = v := rfl
theorem ob_call9_c_0 (p1 p2 p3) (v : S_.Idx → BitVec 32) :
    (StableHlo.TRef.of main_call9_c_0 p1 p2 p3 : StableHlo.TRef sig ⟨S_, .i32⟩).ofBuf (Val := Elt Ideal) v = v := rfl
theorem tb_call9_v2 (p1 p2 p3) (v : S16777216.Idx → BitVec 32) :
    (StableHlo.TRef.of main_call9_v2 p1 p2 p3 : StableHlo.TRef sig ⟨S16777216, .i32⟩).toBuf (Val := Elt Ideal) v = v := rfl
theorem ob_call9_v2 (p1 p2 p3) (v : S16777216.Idx → BitVec 32) :
    (StableHlo.TRef.of main_call9_v2 p1 p2 p3 : StableHlo.TRef sig ⟨S16777216, .i32⟩).ofBuf (Val := Elt Ideal) v = v := rfl
theorem tb_call9_v3 (p1 p2 p3) (v : S16777216.Idx → BitVec 32) :
    (StableHlo.TRef.of main_call9_v3 p1 p2 p3 : StableHlo.TRef sig ⟨S16777216, .i32⟩).toBuf (Val := Elt Ideal) v = v := rfl
theorem ob_call9_v3 (p1 p2 p3) (v : S16777216.Idx → BitVec 32) :
    (StableHlo.TRef.of main_call9_v3 p1 p2 p3 : StableHlo.TRef sig ⟨S16777216, .i32⟩).ofBuf (Val := Elt Ideal) v = v := rfl
theorem tb_call9_v4 (p1 p2 p3) (v : S16777216.Idx → BitVec 32) :
    (StableHlo.TRef.of main_call9_v4 p1 p2 p3 : StableHlo.TRef sig ⟨S16777216, .i32⟩).toBuf (Val := Elt Ideal) v = v := rfl
theorem ob_call9_v4 (p1 p2 p3) (v : S16777216.Idx → BitVec 32) :
    (StableHlo.TRef.of main_call9_v4 p1 p2 p3 : StableHlo.TRef sig ⟨S16777216, .i32⟩).ofBuf (Val := Elt Ideal) v = v := rfl
theorem tb_call9_v5 (p1 p2 p3) (v : S16777216x1.Idx → BitVec 32) :
    (StableHlo.TRef.of main_call9_v5 p1 p2 p3 : StableHlo.TRef sig ⟨S16777216x1, .i32⟩).toBuf (Val := Elt Ideal) v = v := rfl
theorem ob_call9_v5 (p1 p2 p3) (v : S16777216x1.Idx → BitVec 32) :
    (StableHlo.TRef.of main_call9_v5 p1 p2 p3 : StableHlo.TRef sig ⟨S16777216x1, .i32⟩).ofBuf (Val := Elt Ideal) v = v := rfl
theorem tb_call9_c_1 (p1 p2 p3) (v : S1.Idx → BitVec 32) :
    (StableHlo.TRef.of main_call9_c_1 p1 p2 p3 : StableHlo.TRef sig ⟨S1, .i32⟩).toBuf (Val := Elt Ideal) v = v := rfl
theorem ob_call9_c_1 (p1 p2 p3) (v : S1.Idx → BitVec 32) :
    (StableHlo.TRef.of main_call9_c_1 p1 p2 p3 : StableHlo.TRef sig ⟨S1, .i32⟩).ofBuf (Val := Elt Ideal) v = v := rfl
theorem tb_call9_c_2 (p1 p2 p3) (v : S_.Idx → BitVec 32) :
    (StableHlo.TRef.of main_call9_c_2 p1 p2 p3 : StableHlo.TRef sig ⟨S_, .i32⟩).toBuf (Val := Elt Ideal) v = v := rfl
theorem ob_call9_c_2 (p1 p2 p3) (v : S_.Idx → BitVec 32) :
    (StableHlo.TRef.of main_call9_c_2 p1 p2 p3 : StableHlo.TRef sig ⟨S_, .i32⟩).ofBuf (Val := Elt Ideal) v = v := rfl
theorem tb_call9_v6 (p1 p2 p3) (v : S16777216x1.Idx → BitVec 32) :
    (StableHlo.TRef.of main_call9_v6 p1 p2 p3 : StableHlo.TRef sig ⟨S16777216x1, .i32⟩).toBuf (Val := Elt Ideal) v = v := rfl
theorem ob_call9_v6 (p1 p2 p3) (v : S16777216x1.Idx → BitVec 32) :
    (StableHlo.TRef.of main_call9_v6 p1 p2 p3 : StableHlo.TRef sig ⟨S16777216x1, .i32⟩).ofBuf (Val := Elt Ideal) v = v := rfl
theorem tb_call9_v7 (p1 p2 p3) (v : S16777216x1.Idx → BitVec 1) :
    (StableHlo.TRef.of main_call9_v7 p1 p2 p3 : StableHlo.TRef sig ⟨S16777216x1, .i1⟩).toBuf (Val := Elt Ideal) v = v := rfl
theorem ob_call9_v7 (p1 p2 p3) (v : S16777216x1.Idx → BitVec 1) :
    (StableHlo.TRef.of main_call9_v7 p1 p2 p3 : StableHlo.TRef sig ⟨S16777216x1, .i1⟩).ofBuf (Val := Elt Ideal) v = v := rfl
theorem tb_call9_v8 (p1 p2 p3) (v : S1x1.Idx → BitVec 32) :
    (StableHlo.TRef.of main_call9_v8 p1 p2 p3 : StableHlo.TRef sig ⟨S1x1, .i32⟩).toBuf (Val := Elt Ideal) v = v := rfl
theorem ob_call9_v8 (p1 p2 p3) (v : S1x1.Idx → BitVec 32) :
    (StableHlo.TRef.of main_call9_v8 p1 p2 p3 : StableHlo.TRef sig ⟨S1x1, .i32⟩).ofBuf (Val := Elt Ideal) v = v := rfl
theorem tb_call9_v9 (p1 p2 p3) (v : S16777216x1.Idx → BitVec 32) :
    (StableHlo.TRef.of main_call9_v9 p1 p2 p3 : StableHlo.TRef sig ⟨S16777216x1, .i32⟩).toBuf (Val := Elt Ideal) v = v := rfl
theorem ob_call9_v9 (p1 p2 p3) (v : S16777216x1.Idx → BitVec 32) :
    (StableHlo.TRef.of main_call9_v9 p1 p2 p3 : StableHlo.TRef sig ⟨S16777216x1, .i32⟩).ofBuf (Val := Elt Ideal) v = v := rfl
theorem tb_call9_v10 (p1 p2 p3) (v : S16777216x1.Idx → BitVec 1) :
    (StableHlo.TRef.of main_call9_v10 p1 p2 p3 : StableHlo.TRef sig ⟨S16777216x1, .i1⟩).toBuf (Val := Elt Ideal) v = v := rfl
theorem ob_call9_v10 (p1 p2 p3) (v : S16777216x1.Idx → BitVec 1) :
    (StableHlo.TRef.of main_call9_v10 p1 p2 p3 : StableHlo.TRef sig ⟨S16777216x1, .i1⟩).ofBuf (Val := Elt Ideal) v = v := rfl
theorem tb_call9_v11 (p1 p2 p3) (v : S16777216x1.Idx → BitVec 1) :
    (StableHlo.TRef.of main_call9_v11 p1 p2 p3 : StableHlo.TRef sig ⟨S16777216x1, .i1⟩).toBuf (Val := Elt Ideal) v = v := rfl
theorem ob_call9_v11 (p1 p2 p3) (v : S16777216x1.Idx → BitVec 1) :
    (StableHlo.TRef.of main_call9_v11 p1 p2 p3 : StableHlo.TRef sig ⟨S16777216x1, .i1⟩).ofBuf (Val := Elt Ideal) v = v := rfl
theorem tb_call9_c_3 (p1 p2 p3) (v : S_.Idx → BitVec 1) :
    (StableHlo.TRef.of main_call9_c_3 p1 p2 p3 : StableHlo.TRef sig ⟨S_, .i1⟩).toBuf (Val := Elt Ideal) v = v := rfl
theorem ob_call9_c_3 (p1 p2 p3) (v : S_.Idx → BitVec 1) :
    (StableHlo.TRef.of main_call9_c_3 p1 p2 p3 : StableHlo.TRef sig ⟨S_, .i1⟩).ofBuf (Val := Elt Ideal) v = v := rfl
theorem tb_call9_v12 (p1 p2 p3) (v : S16777216.Idx → BitVec 1) :
    (StableHlo.TRef.of main_call9_v12 p1 p2 p3 : StableHlo.TRef sig ⟨S16777216, .i1⟩).toBuf (Val := Elt Ideal) v = v := rfl
theorem ob_call9_v12 (p1 p2 p3) (v : S16777216.Idx → BitVec 1) :
    (StableHlo.TRef.of main_call9_v12 p1 p2 p3 : StableHlo.TRef sig ⟨S16777216, .i1⟩).ofBuf (Val := Elt Ideal) v = v := rfl
theorem tb_v31 (p1 p2 p3) (v : S4x4096.Idx → EReal) :
    (StableHlo.TRef.of main_v31 p1 p2 p3 : StableHlo.TRef sig ⟨S4x4096, .f32⟩).toBuf (Val := Elt Ideal) v = v := rfl
theorem ob_v31 (p1 p2 p3) (v : S4x4096.Idx → EReal) :
    (StableHlo.TRef.of main_v31 p1 p2 p3 : StableHlo.TRef sig ⟨S4x4096, .f32⟩).ofBuf (Val := Elt Ideal) v = v := rfl
theorem tb_call9_v13 (p1 p2 p3) (v : S4x16777216.Idx → EReal) :
    (StableHlo.TRef.of main_call9_v13 p1 p2 p3 : StableHlo.TRef sig ⟨S4x16777216, .f32⟩).toBuf (Val := Elt Ideal) v = v := rfl
theorem ob_call9_v13 (p1 p2 p3) (v : S4x16777216.Idx → EReal) :
    (StableHlo.TRef.of main_call9_v13 p1 p2 p3 : StableHlo.TRef sig ⟨S4x16777216, .f32⟩).ofBuf (Val := Elt Ideal) v = v := rfl
theorem tb_call9_v14 (p1 p2 p3) (v : S4x16777216.Idx → BitVec 1) :
    (StableHlo.TRef.of main_call9_v14 p1 p2 p3 : StableHlo.TRef sig ⟨S4x16777216, .i1⟩).toBuf (Val := Elt Ideal) v = v := rfl
theorem ob_call9_v14 (p1 p2 p3) (v : S4x16777216.Idx → BitVec 1) :
    (StableHlo.TRef.of main_call9_v14 p1 p2 p3 : StableHlo.TRef sig ⟨S4x16777216, .i1⟩).ofBuf (Val := Elt Ideal) v = v := rfl
theorem tb_call9_cst (p1 p2 p3) (v : S_.Idx → EReal) :
    (StableHlo.TRef.of main_call9_cst p1 p2 p3 : StableHlo.TRef sig ⟨S_, .f32⟩).toBuf (Val := Elt Ideal) v = v := rfl
theorem ob_call9_cst (p1 p2 p3) (v : S_.Idx → EReal) :
    (StableHlo.TRef.of main_call9_cst p1 p2 p3 : StableHlo.TRef sig ⟨S_, .f32⟩).ofBuf (Val := Elt Ideal) v = v := rfl
theorem tb_call9_v15 (p1 p2 p3) (v : S4x16777216.Idx → EReal) :
    (StableHlo.TRef.of main_call9_v15 p1 p2 p3 : StableHlo.TRef sig ⟨S4x16777216, .f32⟩).toBuf (Val := Elt Ideal) v = v := rfl
theorem ob_call9_v15 (p1 p2 p3) (v : S4x16777216.Idx → EReal) :
    (StableHlo.TRef.of main_call9_v15 p1 p2 p3 : StableHlo.TRef sig ⟨S4x16777216, .f32⟩).ofBuf (Val := Elt Ideal) v = v := rfl
theorem tb_v32 (p1 p2 p3) (v : S4x16777216.Idx → EReal) :
    (StableHlo.TRef.of main_v32 p1 p2 p3 : StableHlo.TRef sig ⟨S4x16777216, .f32⟩).toBuf (Val := Elt Ideal) v = v := rfl
theorem ob_v32 (p1 p2 p3) (v : S4x16777216.Idx → EReal) :
    (StableHlo.TRef.of main_v32 p1 p2 p3 : StableHlo.TRef sig ⟨S4x16777216, .f32⟩).ofBuf (Val := Elt Ideal) v = v := rfl
theorem tb_call10_c (p1 p2 p3) (v : S_.Idx → BitVec 32) :
    (StableHlo.TRef.of main_call10_c p1 p2 p3 : StableHlo.TRef sig ⟨S_, .i32⟩).toBuf (Val := Elt Ideal) v = v := rfl
theorem ob_call10_c (p1 p2 p3) (v : S_.Idx → BitVec 32) :
    (StableHlo.TRef.of main_call10_c p1 p2 p3 : StableHlo.TRef sig ⟨S_, .i32⟩).ofBuf (Val := Elt Ideal) v = v := rfl
theorem tb_call10_v0 (p1 p2 p3) (v : S16777216.Idx → BitVec 32) :
    (StableHlo.TRef.of main_call10_v0 p1 p2 p3 : StableHlo.TRef sig ⟨S16777216, .i32⟩).toBuf (Val := Elt Ideal) v = v := rfl
theorem ob_call10_v0 (p1 p2 p3) (v : S16777216.Idx → BitVec 32) :
    (StableHlo.TRef.of main_call10_v0 p1 p2 p3 : StableHlo.TRef sig ⟨S16777216, .i32⟩).ofBuf (Val := Elt Ideal) v = v := rfl
theorem tb_call10_v1 (p1 p2 p3) (v : S16777216.Idx → BitVec 1) :
    (StableHlo.TRef.of main_call10_v1 p1 p2 p3 : StableHlo.TRef sig ⟨S16777216, .i1⟩).toBuf (Val := Elt Ideal) v = v := rfl
theorem ob_call10_v1 (p1 p2 p3) (v : S16777216.Idx → BitVec 1) :
    (StableHlo.TRef.of main_call10_v1 p1 p2 p3 : StableHlo.TRef sig ⟨S16777216, .i1⟩).ofBuf (Val := Elt Ideal) v = v := rfl
theorem tb_call10_c_0 (p1 p2 p3) (v : S_.Idx → BitVec 32) :
    (StableHlo.TRef.of main_call10_c_0 p1 p2 p3 : StableHlo.TRef sig ⟨S_, .i32⟩).toBuf (Val := Elt Ideal) v = v := rfl
theorem ob_call10_c_0 (p1 p2 p3) (v : S_.Idx → BitVec 32) :
    (StableHlo.TRef.of main_call10_c_0 p1 p2 p3 : StableHlo.TRef sig ⟨S_, .i32⟩).ofBuf (Val := Elt Ideal) v = v := rfl
theorem tb_call10_v2 (p1 p2 p3) (v : S16777216.Idx → BitVec 32) :
    (StableHlo.TRef.of main_call10_v2 p1 p2 p3 : StableHlo.TRef sig ⟨S16777216, .i32⟩).toBuf (Val := Elt Ideal) v = v := rfl
theorem ob_call10_v2 (p1 p2 p3) (v : S16777216.Idx → BitVec 32) :
    (StableHlo.TRef.of main_call10_v2 p1 p2 p3 : StableHlo.TRef sig ⟨S16777216, .i32⟩).ofBuf (Val := Elt Ideal) v = v := rfl
theorem tb_call10_v3 (p1 p2 p3) (v : S16777216.Idx → BitVec 32) :
    (StableHlo.TRef.of main_call10_v3 p1 p2 p3 : StableHlo.TRef sig ⟨S16777216, .i32⟩).toBuf (Val := Elt Ideal) v = v := rfl
theorem ob_call10_v3 (p1 p2 p3) (v : S16777216.Idx → BitVec 32) :
    (StableHlo.TRef.of main_call10_v3 p1 p2 p3 : StableHlo.TRef sig ⟨S16777216, .i32⟩).ofBuf (Val := Elt Ideal) v = v := rfl
theorem tb_call10_v4 (p1 p2 p3) (v : S16777216.Idx → BitVec 32) :
    (StableHlo.TRef.of main_call10_v4 p1 p2 p3 : StableHlo.TRef sig ⟨S16777216, .i32⟩).toBuf (Val := Elt Ideal) v = v := rfl
theorem ob_call10_v4 (p1 p2 p3) (v : S16777216.Idx → BitVec 32) :
    (StableHlo.TRef.of main_call10_v4 p1 p2 p3 : StableHlo.TRef sig ⟨S16777216, .i32⟩).ofBuf (Val := Elt Ideal) v = v := rfl
theorem tb_call10_v5 (p1 p2 p3) (v : S16777216x1.Idx → BitVec 32) :
    (StableHlo.TRef.of main_call10_v5 p1 p2 p3 : StableHlo.TRef sig ⟨S16777216x1, .i32⟩).toBuf (Val := Elt Ideal) v = v := rfl
theorem ob_call10_v5 (p1 p2 p3) (v : S16777216x1.Idx → BitVec 32) :
    (StableHlo.TRef.of main_call10_v5 p1 p2 p3 : StableHlo.TRef sig ⟨S16777216x1, .i32⟩).ofBuf (Val := Elt Ideal) v = v := rfl
theorem tb_call10_c_1 (p1 p2 p3) (v : S1.Idx → BitVec 32) :
    (StableHlo.TRef.of main_call10_c_1 p1 p2 p3 : StableHlo.TRef sig ⟨S1, .i32⟩).toBuf (Val := Elt Ideal) v = v := rfl
theorem ob_call10_c_1 (p1 p2 p3) (v : S1.Idx → BitVec 32) :
    (StableHlo.TRef.of main_call10_c_1 p1 p2 p3 : StableHlo.TRef sig ⟨S1, .i32⟩).ofBuf (Val := Elt Ideal) v = v := rfl
theorem tb_call10_c_2 (p1 p2 p3) (v : S_.Idx → BitVec 32) :
    (StableHlo.TRef.of main_call10_c_2 p1 p2 p3 : StableHlo.TRef sig ⟨S_, .i32⟩).toBuf (Val := Elt Ideal) v = v := rfl
theorem ob_call10_c_2 (p1 p2 p3) (v : S_.Idx → BitVec 32) :
    (StableHlo.TRef.of main_call10_c_2 p1 p2 p3 : StableHlo.TRef sig ⟨S_, .i32⟩).ofBuf (Val := Elt Ideal) v = v := rfl
theorem tb_call10_v6 (p1 p2 p3) (v : S16777216x1.Idx → BitVec 32) :
    (StableHlo.TRef.of main_call10_v6 p1 p2 p3 : StableHlo.TRef sig ⟨S16777216x1, .i32⟩).toBuf (Val := Elt Ideal) v = v := rfl
theorem ob_call10_v6 (p1 p2 p3) (v : S16777216x1.Idx → BitVec 32) :
    (StableHlo.TRef.of main_call10_v6 p1 p2 p3 : StableHlo.TRef sig ⟨S16777216x1, .i32⟩).ofBuf (Val := Elt Ideal) v = v := rfl
theorem tb_call10_v7 (p1 p2 p3) (v : S16777216x1.Idx → BitVec 1) :
    (StableHlo.TRef.of main_call10_v7 p1 p2 p3 : StableHlo.TRef sig ⟨S16777216x1, .i1⟩).toBuf (Val := Elt Ideal) v = v := rfl
theorem ob_call10_v7 (p1 p2 p3) (v : S16777216x1.Idx → BitVec 1) :
    (StableHlo.TRef.of main_call10_v7 p1 p2 p3 : StableHlo.TRef sig ⟨S16777216x1, .i1⟩).ofBuf (Val := Elt Ideal) v = v := rfl
theorem tb_call10_v8 (p1 p2 p3) (v : S1x1.Idx → BitVec 32) :
    (StableHlo.TRef.of main_call10_v8 p1 p2 p3 : StableHlo.TRef sig ⟨S1x1, .i32⟩).toBuf (Val := Elt Ideal) v = v := rfl
theorem ob_call10_v8 (p1 p2 p3) (v : S1x1.Idx → BitVec 32) :
    (StableHlo.TRef.of main_call10_v8 p1 p2 p3 : StableHlo.TRef sig ⟨S1x1, .i32⟩).ofBuf (Val := Elt Ideal) v = v := rfl
theorem tb_call10_v9 (p1 p2 p3) (v : S16777216x1.Idx → BitVec 32) :
    (StableHlo.TRef.of main_call10_v9 p1 p2 p3 : StableHlo.TRef sig ⟨S16777216x1, .i32⟩).toBuf (Val := Elt Ideal) v = v := rfl
theorem ob_call10_v9 (p1 p2 p3) (v : S16777216x1.Idx → BitVec 32) :
    (StableHlo.TRef.of main_call10_v9 p1 p2 p3 : StableHlo.TRef sig ⟨S16777216x1, .i32⟩).ofBuf (Val := Elt Ideal) v = v := rfl
theorem tb_call10_v10 (p1 p2 p3) (v : S16777216x1.Idx → BitVec 1) :
    (StableHlo.TRef.of main_call10_v10 p1 p2 p3 : StableHlo.TRef sig ⟨S16777216x1, .i1⟩).toBuf (Val := Elt Ideal) v = v := rfl
theorem ob_call10_v10 (p1 p2 p3) (v : S16777216x1.Idx → BitVec 1) :
    (StableHlo.TRef.of main_call10_v10 p1 p2 p3 : StableHlo.TRef sig ⟨S16777216x1, .i1⟩).ofBuf (Val := Elt Ideal) v = v := rfl
theorem tb_call10_v11 (p1 p2 p3) (v : S16777216x1.Idx → BitVec 1) :
    (StableHlo.TRef.of main_call10_v11 p1 p2 p3 : StableHlo.TRef sig ⟨S16777216x1, .i1⟩).toBuf (Val := Elt Ideal) v = v := rfl
theorem ob_call10_v11 (p1 p2 p3) (v : S16777216x1.Idx → BitVec 1) :
    (StableHlo.TRef.of main_call10_v11 p1 p2 p3 : StableHlo.TRef sig ⟨S16777216x1, .i1⟩).ofBuf (Val := Elt Ideal) v = v := rfl
theorem tb_call10_c_3 (p1 p2 p3) (v : S_.Idx → BitVec 1) :
    (StableHlo.TRef.of main_call10_c_3 p1 p2 p3 : StableHlo.TRef sig ⟨S_, .i1⟩).toBuf (Val := Elt Ideal) v = v := rfl
theorem ob_call10_c_3 (p1 p2 p3) (v : S_.Idx → BitVec 1) :
    (StableHlo.TRef.of main_call10_c_3 p1 p2 p3 : StableHlo.TRef sig ⟨S_, .i1⟩).ofBuf (Val := Elt Ideal) v = v := rfl
theorem tb_call10_v12 (p1 p2 p3) (v : S16777216.Idx → BitVec 1) :
    (StableHlo.TRef.of main_call10_v12 p1 p2 p3 : StableHlo.TRef sig ⟨S16777216, .i1⟩).toBuf (Val := Elt Ideal) v = v := rfl
theorem ob_call10_v12 (p1 p2 p3) (v : S16777216.Idx → BitVec 1) :
    (StableHlo.TRef.of main_call10_v12 p1 p2 p3 : StableHlo.TRef sig ⟨S16777216, .i1⟩).ofBuf (Val := Elt Ideal) v = v := rfl
theorem tb_call10_v13 (p1 p2 p3) (v : S4x16777216.Idx → EReal) :
    (StableHlo.TRef.of main_call10_v13 p1 p2 p3 : StableHlo.TRef sig ⟨S4x16777216, .f32⟩).toBuf (Val := Elt Ideal) v = v := rfl
theorem ob_call10_v13 (p1 p2 p3) (v : S4x16777216.Idx → EReal) :
    (StableHlo.TRef.of main_call10_v13 p1 p2 p3 : StableHlo.TRef sig ⟨S4x16777216, .f32⟩).ofBuf (Val := Elt Ideal) v = v := rfl
theorem tb_call10_v14 (p1 p2 p3) (v : S4x16777216.Idx → BitVec 1) :
    (StableHlo.TRef.of main_call10_v14 p1 p2 p3 : StableHlo.TRef sig ⟨S4x16777216, .i1⟩).toBuf (Val := Elt Ideal) v = v := rfl
theorem ob_call10_v14 (p1 p2 p3) (v : S4x16777216.Idx → BitVec 1) :
    (StableHlo.TRef.of main_call10_v14 p1 p2 p3 : StableHlo.TRef sig ⟨S4x16777216, .i1⟩).ofBuf (Val := Elt Ideal) v = v := rfl
theorem tb_call10_cst (p1 p2 p3) (v : S_.Idx → EReal) :
    (StableHlo.TRef.of main_call10_cst p1 p2 p3 : StableHlo.TRef sig ⟨S_, .f32⟩).toBuf (Val := Elt Ideal) v = v := rfl
theorem ob_call10_cst (p1 p2 p3) (v : S_.Idx → EReal) :
    (StableHlo.TRef.of main_call10_cst p1 p2 p3 : StableHlo.TRef sig ⟨S_, .f32⟩).ofBuf (Val := Elt Ideal) v = v := rfl
theorem tb_call10_v15 (p1 p2 p3) (v : S4x16777216.Idx → EReal) :
    (StableHlo.TRef.of main_call10_v15 p1 p2 p3 : StableHlo.TRef sig ⟨S4x16777216, .f32⟩).toBuf (Val := Elt Ideal) v = v := rfl
theorem ob_call10_v15 (p1 p2 p3) (v : S4x16777216.Idx → EReal) :
    (StableHlo.TRef.of main_call10_v15 p1 p2 p3 : StableHlo.TRef sig ⟨S4x16777216, .f32⟩).ofBuf (Val := Elt Ideal) v = v := rfl
theorem tb_v33 (p1 p2 p3) (v : S4x16777216.Idx → EReal) :
    (StableHlo.TRef.of main_v33 p1 p2 p3 : StableHlo.TRef sig ⟨S4x16777216, .f32⟩).toBuf (Val := Elt Ideal) v = v := rfl
theorem ob_v33 (p1 p2 p3) (v : S4x16777216.Idx → EReal) :
    (StableHlo.TRef.of main_v33 p1 p2 p3 : StableHlo.TRef sig ⟨S4x16777216, .f32⟩).ofBuf (Val := Elt Ideal) v = v := rfl
theorem tb_cst_15 (p1 p2 p3) (v : S_.Idx → EReal) :
    (StableHlo.TRef.of main_cst_15 p1 p2 p3 : StableHlo.TRef sig ⟨S_, .f32⟩).toBuf (Val := Elt Ideal) v = v := rfl
theorem ob_cst_15 (p1 p2 p3) (v : S_.Idx → EReal) :
    (StableHlo.TRef.of main_cst_15 p1 p2 p3 : StableHlo.TRef sig ⟨S_, .f32⟩).ofBuf (Val := Elt Ideal) v = v := rfl
theorem tb_call11_v0 (p1 p2 p3) (v : S_.Idx → EReal) :
    (StableHlo.TRef.of main_call11_v0 p1 p2 p3 : StableHlo.TRef sig ⟨S_, .f32⟩).toBuf (Val := Elt Ideal) v = v := rfl
theorem ob_call11_v0 (p1 p2 p3) (v : S_.Idx → EReal) :
    (StableHlo.TRef.of main_call11_v0 p1 p2 p3 : StableHlo.TRef sig ⟨S_, .f32⟩).ofBuf (Val := Elt Ideal) v = v := rfl
theorem tb_call11_v1 (p1 p2 p3) (v : S4096x1.Idx → EReal) :
    (StableHlo.TRef.of main_call11_v1 p1 p2 p3 : StableHlo.TRef sig ⟨S4096x1, .f32⟩).toBuf (Val := Elt Ideal) v = v := rfl
theorem ob_call11_v1 (p1 p2 p3) (v : S4096x1.Idx → EReal) :
    (StableHlo.TRef.of main_call11_v1 p1 p2 p3 : StableHlo.TRef sig ⟨S4096x1, .f32⟩).ofBuf (Val := Elt Ideal) v = v := rfl
theorem tb_v46 (p1 p2 p3) (v : S4096x1.Idx → BitVec 1) :
    (StableHlo.TRef.of main_v46 p1 p2 p3 : StableHlo.TRef sig ⟨S4096x1, .i1⟩).toBuf (Val := Elt Ideal) v = v := rfl
theorem ob_v46 (p1 p2 p3) (v : S4096x1.Idx → BitVec 1) :
    (StableHlo.TRef.of main_v46 p1 p2 p3 : StableHlo.TRef sig ⟨S4096x1, .i1⟩).ofBuf (Val := Elt Ideal) v = v := rfl
theorem tb_v48 (p1 p2 p3) (v : S4096x1.Idx → EReal) :
    (StableHlo.TRef.of main_v48 p1 p2 p3 : StableHlo.TRef sig ⟨S4096x1, .f32⟩).toBuf (Val := Elt Ideal) v = v := rfl
theorem ob_v48 (p1 p2 p3) (v : S4096x1.Idx → EReal) :
    (StableHlo.TRef.of main_v48 p1 p2 p3 : StableHlo.TRef sig ⟨S4096x1, .f32⟩).ofBuf (Val := Elt Ideal) v = v := rfl
theorem tb_v49 (p1 p2 p3) (v : S4096x1.Idx → EReal) :
    (StableHlo.TRef.of main_v49 p1 p2 p3 : StableHlo.TRef sig ⟨S4096x1, .f32⟩).toBuf (Val := Elt Ideal) v = v := rfl
theorem ob_v49 (p1 p2 p3) (v : S4096x1.Idx → EReal) :
    (StableHlo.TRef.of main_v49 p1 p2 p3 : StableHlo.TRef sig ⟨S4096x1, .f32⟩).ofBuf (Val := Elt Ideal) v = v := rfl

end Cert.KernelIdeal.HostValues

/-- Clears a reading of a line of host operations of the moves between a typed reference's type and its buffer's. -/
macro "strip_casts" : tactic =>
  `(tactic| simp only [Cert.KernelIdeal.main_call4_call0, Cert.KernelIdeal.main_call6_call0, Cert.KernelIdeal.main_call9_call0, Cert.KernelIdeal.main_call10_call0,
      Cert.KernelIdeal.HostValues.tb_v4, Cert.KernelIdeal.HostValues.ob_v4, Cert.KernelIdeal.HostValues.tb_call0_v0, Cert.KernelIdeal.HostValues.ob_call0_v0, Cert.KernelIdeal.HostValues.tb_call0_v1, Cert.KernelIdeal.HostValues.ob_call0_v1, Cert.KernelIdeal.HostValues.tb_call0_call0_c, Cert.KernelIdeal.HostValues.ob_call0_call0_c, Cert.KernelIdeal.HostValues.tb_call0_call0_v0, Cert.KernelIdeal.HostValues.ob_call0_call0_v0, Cert.KernelIdeal.HostValues.tb_v5, Cert.KernelIdeal.HostValues.ob_v5, Cert.KernelIdeal.HostValues.tb_c_1, Cert.KernelIdeal.HostValues.ob_c_1, Cert.KernelIdeal.HostValues.tb_call1_v0, Cert.KernelIdeal.HostValues.ob_call1_v0, Cert.KernelIdeal.HostValues.tb_call1_v1, Cert.KernelIdeal.HostValues.ob_call1_v1, Cert.KernelIdeal.HostValues.tb_v7, Cert.KernelIdeal.HostValues.ob_v7, Cert.KernelIdeal.HostValues.tb_call2_call0_c, Cert.KernelIdeal.HostValues.ob_call2_call0_c, Cert.KernelIdeal.HostValues.tb_call2_call0_v0, Cert.KernelIdeal.HostValues.ob_call2_call0_v0, Cert.KernelIdeal.HostValues.tb_v15, Cert.KernelIdeal.HostValues.ob_v15, Cert.KernelIdeal.HostValues.tb_v16, Cert.KernelIdeal.HostValues.ob_v16, Cert.KernelIdeal.HostValues.tb_c_5, Cert.KernelIdeal.HostValues.ob_c_5, Cert.KernelIdeal.HostValues.tb_call3_v0, Cert.KernelIdeal.HostValues.ob_call3_v0, Cert.KernelIdeal.HostValues.tb_call3_v1, Cert.KernelIdeal.HostValues.ob_call3_v1, Cert.KernelIdeal.HostValues.tb_call3_v2, Cert.KernelIdeal.HostValues.ob_call3_v2, Cert.KernelIdeal.HostValues.tb_call3_v3, Cert.KernelIdeal.HostValues.ob_call3_v3, Cert.KernelIdeal.HostValues.tb_call3_v4, Cert.KernelIdeal.HostValues.ob_call3_v4, Cert.KernelIdeal.HostValues.tb_call3_v5, Cert.KernelIdeal.HostValues.ob_call3_v5, Cert.KernelIdeal.HostValues.tb_call3_v6, Cert.KernelIdeal.HostValues.ob_call3_v6, Cert.KernelIdeal.HostValues.tb_call3_v7, Cert.KernelIdeal.HostValues.ob_call3_v7, Cert.KernelIdeal.HostValues.tb_call3_c, Cert.KernelIdeal.HostValues.ob_call3_c, Cert.KernelIdeal.HostValues.tb_call3_v8, Cert.KernelIdeal.HostValues.ob_call3_v8, Cert.KernelIdeal.HostValues.tb_call3_v9, Cert.KernelIdeal.HostValues.ob_call3_v9, Cert.KernelIdeal.HostValues.tb_call3_v10, Cert.KernelIdeal.HostValues.ob_call3_v10, Cert.KernelIdeal.HostValues.tb_call3_c_0, Cert.KernelIdeal.HostValues.ob_call3_c_0, Cert.KernelIdeal.HostValues.tb_call3_v11, Cert.KernelIdeal.HostValues.ob_call3_v11, Cert.KernelIdeal.HostValues.tb_call3_v12, Cert.KernelIdeal.HostValues.ob_call3_v12, Cert.KernelIdeal.HostValues.tb_v17, Cert.KernelIdeal.HostValues.ob_v17, Cert.KernelIdeal.HostValues.tb_c_6, Cert.KernelIdeal.HostValues.ob_c_6, Cert.KernelIdeal.HostValues.tb_call4_v0, Cert.KernelIdeal.HostValues.ob_call4_v0, Cert.KernelIdeal.HostValues.tb_call4_c, Cert.KernelIdeal.HostValues.ob_call4_c, Cert.KernelIdeal.HostValues.tb_call4_v1, Cert.KernelIdeal.HostValues.ob_call4_v1, Cert.KernelIdeal.HostValues.tb_call4_c_0, Cert.KernelIdeal.HostValues.ob_call4_c_0, Cert.KernelIdeal.HostValues.tb_call4_v2, Cert.KernelIdeal.HostValues.ob_call4_v2, Cert.KernelIdeal.HostValues.tb_call4_v3, Cert.KernelIdeal.HostValues.ob_call4_v3, Cert.KernelIdeal.HostValues.tb_call4_v4, Cert.KernelIdeal.HostValues.ob_call4_v4, Cert.KernelIdeal.HostValues.tb_call4_c_1, Cert.KernelIdeal.HostValues.ob_call4_c_1, Cert.KernelIdeal.HostValues.tb_call4_v5, Cert.KernelIdeal.HostValues.ob_call4_v5, Cert.KernelIdeal.HostValues.tb_call4_v6, Cert.KernelIdeal.HostValues.ob_call4_v6, Cert.KernelIdeal.HostValues.tb_call4_c_2, Cert.KernelIdeal.HostValues.ob_call4_c_2, Cert.KernelIdeal.HostValues.tb_call4_v7, Cert.KernelIdeal.HostValues.ob_call4_v7, Cert.KernelIdeal.HostValues.tb_call4_v8, Cert.KernelIdeal.HostValues.ob_call4_v8, Cert.KernelIdeal.HostValues.tb_call4_c_3, Cert.KernelIdeal.HostValues.ob_call4_c_3, Cert.KernelIdeal.HostValues.tb_call4_v9, Cert.KernelIdeal.HostValues.ob_call4_v9, Cert.KernelIdeal.HostValues.tb_call4_v10, Cert.KernelIdeal.HostValues.ob_call4_v10, Cert.KernelIdeal.HostValues.tb_call4_v11, Cert.KernelIdeal.HostValues.ob_call4_v11, Cert.KernelIdeal.HostValues.tb_call4_v12, Cert.KernelIdeal.HostValues.ob_call4_v12, Cert.KernelIdeal.HostValues.tb_call4_v13, Cert.KernelIdeal.HostValues.ob_call4_v13, Cert.KernelIdeal.HostValues.tb_call4_v14, Cert.KernelIdeal.HostValues.ob_call4_v14, Cert.KernelIdeal.HostValues.tb_v18, Cert.KernelIdeal.HostValues.ob_v18, Cert.KernelIdeal.HostValues.tb_c_7, Cert.KernelIdeal.HostValues.ob_c_7, Cert.KernelIdeal.HostValues.tb_call5_v0, Cert.KernelIdeal.HostValues.ob_call5_v0, Cert.KernelIdeal.HostValues.tb_call5_v1, Cert.KernelIdeal.HostValues.ob_call5_v1, Cert.KernelIdeal.HostValues.tb_call5_v2, Cert.KernelIdeal.HostValues.ob_call5_v2, Cert.KernelIdeal.HostValues.tb_call5_v3, Cert.KernelIdeal.HostValues.ob_call5_v3, Cert.KernelIdeal.HostValues.tb_call5_v4, Cert.KernelIdeal.HostValues.ob_call5_v4, Cert.KernelIdeal.HostValues.tb_call5_v5, Cert.KernelIdeal.HostValues.ob_call5_v5, Cert.KernelIdeal.HostValues.tb_call5_v6, Cert.KernelIdeal.HostValues.ob_call5_v6, Cert.KernelIdeal.HostValues.tb_call5_v7, Cert.KernelIdeal.HostValues.ob_call5_v7, Cert.KernelIdeal.HostValues.tb_call5_c, Cert.KernelIdeal.HostValues.ob_call5_c, Cert.KernelIdeal.HostValues.tb_call5_v8, Cert.KernelIdeal.HostValues.ob_call5_v8, Cert.KernelIdeal.HostValues.tb_call5_v9, Cert.KernelIdeal.HostValues.ob_call5_v9, Cert.KernelIdeal.HostValues.tb_call5_v10, Cert.KernelIdeal.HostValues.ob_call5_v10, Cert.KernelIdeal.HostValues.tb_call5_c_0, Cert.KernelIdeal.HostValues.ob_call5_c_0, Cert.KernelIdeal.HostValues.tb_call5_v11, Cert.KernelIdeal.HostValues.ob_call5_v11, Cert.KernelIdeal.HostValues.tb_call5_v12, Cert.KernelIdeal.HostValues.ob_call5_v12, Cert.KernelIdeal.HostValues.tb_v19, Cert.KernelIdeal.HostValues.ob_v19, Cert.KernelIdeal.HostValues.tb_c_8, Cert.KernelIdeal.HostValues.ob_c_8, Cert.KernelIdeal.HostValues.tb_call6_v0, Cert.KernelIdeal.HostValues.ob_call6_v0, Cert.KernelIdeal.HostValues.tb_call6_c, Cert.KernelIdeal.HostValues.ob_call6_c, Cert.KernelIdeal.HostValues.tb_call6_v1, Cert.KernelIdeal.HostValues.ob_call6_v1, Cert.KernelIdeal.HostValues.tb_call6_c_0, Cert.KernelIdeal.HostValues.ob_call6_c_0, Cert.KernelIdeal.HostValues.tb_call6_v2, Cert.KernelIdeal.HostValues.ob_call6_v2, Cert.KernelIdeal.HostValues.tb_call6_v3, Cert.KernelIdeal.HostValues.ob_call6_v3, Cert.KernelIdeal.HostValues.tb_call6_v4, Cert.KernelIdeal.HostValues.ob_call6_v4, Cert.KernelIdeal.HostValues.tb_call6_c_1, Cert.KernelIdeal.HostValues.ob_call6_c_1, Cert.KernelIdeal.HostValues.tb_call6_v5, Cert.KernelIdeal.HostValues.ob_call6_v5, Cert.KernelIdeal.HostValues.tb_call6_v6, Cert.KernelIdeal.HostValues.ob_call6_v6, Cert.KernelIdeal.HostValues.tb_call6_c_2, Cert.KernelIdeal.HostValues.ob_call6_c_2, Cert.KernelIdeal.HostValues.tb_call6_v7, Cert.KernelIdeal.HostValues.ob_call6_v7, Cert.KernelIdeal.HostValues.tb_call6_v8, Cert.KernelIdeal.HostValues.ob_call6_v8, Cert.KernelIdeal.HostValues.tb_call6_c_3, Cert.KernelIdeal.HostValues.ob_call6_c_3, Cert.KernelIdeal.HostValues.tb_call6_v9, Cert.KernelIdeal.HostValues.ob_call6_v9, Cert.KernelIdeal.HostValues.tb_call6_v10, Cert.KernelIdeal.HostValues.ob_call6_v10, Cert.KernelIdeal.HostValues.tb_call6_v11, Cert.KernelIdeal.HostValues.ob_call6_v11, Cert.KernelIdeal.HostValues.tb_call6_v12, Cert.KernelIdeal.HostValues.ob_call6_v12, Cert.KernelIdeal.HostValues.tb_call6_v13, Cert.KernelIdeal.HostValues.ob_call6_v13, Cert.KernelIdeal.HostValues.tb_call6_v14, Cert.KernelIdeal.HostValues.ob_call6_v14, Cert.KernelIdeal.HostValues.tb_v20, Cert.KernelIdeal.HostValues.ob_v20, Cert.KernelIdeal.HostValues.tb_c_10, Cert.KernelIdeal.HostValues.ob_c_10, Cert.KernelIdeal.HostValues.tb_call7_v0, Cert.KernelIdeal.HostValues.ob_call7_v0, Cert.KernelIdeal.HostValues.tb_call7_v1, Cert.KernelIdeal.HostValues.ob_call7_v1, Cert.KernelIdeal.HostValues.tb_v25, Cert.KernelIdeal.HostValues.ob_v25, Cert.KernelIdeal.HostValues.tb_v26, Cert.KernelIdeal.HostValues.ob_v26, Cert.KernelIdeal.HostValues.tb_c_11, Cert.KernelIdeal.HostValues.ob_c_11, Cert.KernelIdeal.HostValues.tb_call8_v0, Cert.KernelIdeal.HostValues.ob_call8_v0, Cert.KernelIdeal.HostValues.tb_call8_v1, Cert.KernelIdeal.HostValues.ob_call8_v1, Cert.KernelIdeal.HostValues.tb_v27, Cert.KernelIdeal.HostValues.ob_v27, Cert.KernelIdeal.HostValues.tb_call9_c, Cert.KernelIdeal.HostValues.ob_call9_c, Cert.KernelIdeal.HostValues.tb_call9_v0, Cert.KernelIdeal.HostValues.ob_call9_v0, Cert.KernelIdeal.HostValues.tb_call9_v1, Cert.KernelIdeal.HostValues.ob_call9_v1, Cert.KernelIdeal.HostValues.tb_call9_c_0, Cert.KernelIdeal.HostValues.ob_call9_c_0, Cert.KernelIdeal.HostValues.tb_call9_v2, Cert.KernelIdeal.HostValues.ob_call9_v2, Cert.KernelIdeal.HostValues.tb_call9_v3, Cert.KernelIdeal.HostValues.ob_call9_v3, Cert.KernelIdeal.HostValues.tb_call9_v4, Cert.KernelIdeal.HostValues.ob_call9_v4, Cert.KernelIdeal.HostValues.tb_call9_v5, Cert.KernelIdeal.HostValues.ob_call9_v5, Cert.KernelIdeal.HostValues.tb_call9_c_1, Cert.KernelIdeal.HostValues.ob_call9_c_1, Cert.KernelIdeal.HostValues.tb_call9_c_2, Cert.KernelIdeal.HostValues.ob_call9_c_2, Cert.KernelIdeal.HostValues.tb_call9_v6, Cert.KernelIdeal.HostValues.ob_call9_v6, Cert.KernelIdeal.HostValues.tb_call9_v7, Cert.KernelIdeal.HostValues.ob_call9_v7, Cert.KernelIdeal.HostValues.tb_call9_v8, Cert.KernelIdeal.HostValues.ob_call9_v8, Cert.KernelIdeal.HostValues.tb_call9_v9, Cert.KernelIdeal.HostValues.ob_call9_v9, Cert.KernelIdeal.HostValues.tb_call9_v10, Cert.KernelIdeal.HostValues.ob_call9_v10, Cert.KernelIdeal.HostValues.tb_call9_v11, Cert.KernelIdeal.HostValues.ob_call9_v11, Cert.KernelIdeal.HostValues.tb_call9_c_3, Cert.KernelIdeal.HostValues.ob_call9_c_3, Cert.KernelIdeal.HostValues.tb_call9_v12, Cert.KernelIdeal.HostValues.ob_call9_v12, Cert.KernelIdeal.HostValues.tb_v31, Cert.KernelIdeal.HostValues.ob_v31, Cert.KernelIdeal.HostValues.tb_call9_v13, Cert.KernelIdeal.HostValues.ob_call9_v13, Cert.KernelIdeal.HostValues.tb_call9_v14, Cert.KernelIdeal.HostValues.ob_call9_v14, Cert.KernelIdeal.HostValues.tb_call9_cst, Cert.KernelIdeal.HostValues.ob_call9_cst, Cert.KernelIdeal.HostValues.tb_call9_v15, Cert.KernelIdeal.HostValues.ob_call9_v15, Cert.KernelIdeal.HostValues.tb_v32, Cert.KernelIdeal.HostValues.ob_v32, Cert.KernelIdeal.HostValues.tb_call10_c, Cert.KernelIdeal.HostValues.ob_call10_c, Cert.KernelIdeal.HostValues.tb_call10_v0, Cert.KernelIdeal.HostValues.ob_call10_v0, Cert.KernelIdeal.HostValues.tb_call10_v1, Cert.KernelIdeal.HostValues.ob_call10_v1, Cert.KernelIdeal.HostValues.tb_call10_c_0, Cert.KernelIdeal.HostValues.ob_call10_c_0, Cert.KernelIdeal.HostValues.tb_call10_v2, Cert.KernelIdeal.HostValues.ob_call10_v2, Cert.KernelIdeal.HostValues.tb_call10_v3, Cert.KernelIdeal.HostValues.ob_call10_v3, Cert.KernelIdeal.HostValues.tb_call10_v4, Cert.KernelIdeal.HostValues.ob_call10_v4, Cert.KernelIdeal.HostValues.tb_call10_v5, Cert.KernelIdeal.HostValues.ob_call10_v5, Cert.KernelIdeal.HostValues.tb_call10_c_1, Cert.KernelIdeal.HostValues.ob_call10_c_1, Cert.KernelIdeal.HostValues.tb_call10_c_2, Cert.KernelIdeal.HostValues.ob_call10_c_2, Cert.KernelIdeal.HostValues.tb_call10_v6, Cert.KernelIdeal.HostValues.ob_call10_v6, Cert.KernelIdeal.HostValues.tb_call10_v7, Cert.KernelIdeal.HostValues.ob_call10_v7, Cert.KernelIdeal.HostValues.tb_call10_v8, Cert.KernelIdeal.HostValues.ob_call10_v8, Cert.KernelIdeal.HostValues.tb_call10_v9, Cert.KernelIdeal.HostValues.ob_call10_v9, Cert.KernelIdeal.HostValues.tb_call10_v10, Cert.KernelIdeal.HostValues.ob_call10_v10, Cert.KernelIdeal.HostValues.tb_call10_v11, Cert.KernelIdeal.HostValues.ob_call10_v11, Cert.KernelIdeal.HostValues.tb_call10_c_3, Cert.KernelIdeal.HostValues.ob_call10_c_3, Cert.KernelIdeal.HostValues.tb_call10_v12, Cert.KernelIdeal.HostValues.ob_call10_v12, Cert.KernelIdeal.HostValues.tb_call10_v13, Cert.KernelIdeal.HostValues.ob_call10_v13, Cert.KernelIdeal.HostValues.tb_call10_v14, Cert.KernelIdeal.HostValues.ob_call10_v14, Cert.KernelIdeal.HostValues.tb_call10_cst, Cert.KernelIdeal.HostValues.ob_call10_cst, Cert.KernelIdeal.HostValues.tb_call10_v15, Cert.KernelIdeal.HostValues.ob_call10_v15, Cert.KernelIdeal.HostValues.tb_v33, Cert.KernelIdeal.HostValues.ob_v33, Cert.KernelIdeal.HostValues.tb_cst_15, Cert.KernelIdeal.HostValues.ob_cst_15, Cert.KernelIdeal.HostValues.tb_call11_v0, Cert.KernelIdeal.HostValues.ob_call11_v0, Cert.KernelIdeal.HostValues.tb_call11_v1, Cert.KernelIdeal.HostValues.ob_call11_v1, Cert.KernelIdeal.HostValues.tb_v46, Cert.KernelIdeal.HostValues.ob_v46, Cert.KernelIdeal.HostValues.tb_v48, Cert.KernelIdeal.HostValues.ob_v48, Cert.KernelIdeal.HostValues.tb_v49, Cert.KernelIdeal.HostValues.ob_v49])

end
-- ==== Proof.HostValuesC.lean ====
/-
  The senders and the receivers of the kernel program: the chain of host operations that jnp.nonzero lowers to, named
  as functions of the adjacency bits and read off the program's host stretches.

  Nothing about the chain's meaning is used or proved here beyond its last three operations: the two index arrays
  are each "the fill value 0 where the position is past the number of set bits, else the sign-fixed truncated
  remainder by 4096 of something". That is all a later bounds argument needs, and the rest of the chain is carried as
  one opaque function of the bits.
-/
import proofs.«174933_j45260365365646_1_alg».proof.Proof.Gen.KernelIdeal.Regions
import proofs.«174933_j45260365365646_1_alg».proof.Proof.HostValuesCasts
import proofs.«174933_j45260365365646_1_alg».proof.Proof.LibRemRange
import Idealize.ShloMosaic.Lib.ValueIdx

set_option maxRecDepth 16384

noncomputable section

namespace Cert.KernelIdeal.HostValues

open Cert.KernelIdeal Cert.KernelIdeal.Gen
open Idealize.ShloMosaic Idealize.ShloMosaic.TcCoe Idealize.ShloMosaic.ValueIdx

/-! ## The index chain of jnp.nonzero, as the printed operations in order

The adjacency bits `A` are a [4096,4096] array of one-bit words. `jnp.nonzero` with a static size lowers to: flatten and
widen the bits, a running sum, a clip below at zero, a scatter of ones at the (wrapped) running sums' positions, a second
running sum — the flat place of each set bit, in order —, then a floor division and a remainder by the row length for
the row (the sender) and the column (the receiver), and the fill value 0 at the places past the number of set bits.
Each jnp function the lowering calls, and each stretch of @main between two calls, is one definition here, its body the
operations in order; nothing is simplified. -/

/-- A scalar copied to every entry of a flat array of 16777216. -/
abbrev splat {w : Nat} (v : S_.Idx → BitVec w) : S16777216.Idx → BitVec w :=
  broadcastInDim S16777216 ![] bcast_S_S16777216 v

/-- The adjacency bits as a valuation holds them. -/
abbrev adjOf (W : Valuation τ sig (Elt Ideal)) : S4096x4096.Idx → BitVec 1 := W main_v4

/-- The running sum of a flat array (each entry the sum of the entries up to it). -/
def runningSum (x0 : S16777216.Idx → BitVec 32) : S16777216.Idx → BitVec 32 :=
  Host.reduceWindow IntOp.addi ![16777216] ![1] ![16777215] ![0] x0
    (broadcastInDim S_ ![] bcast_S_S_ (constantI S_ 32 0#32))
    reduceWindows_S16777216_S16777216_w16777216s1p16777215_0 h_S_

/-- The running count of the bits read in row-major order. -/
def maskRunningSum (x0 : S4096x4096.Idx → BitVec 1) : S16777216.Idx → BitVec 32 :=
  runningSum (extui 32 (shapeCast S16777216 x0 shapeCasts_S4096x4096_S16777216) natLt_1_32)

/-- Every entry raised to at least the scalar. -/
def clipBelow (x0 : S16777216.Idx → BitVec 32) (x1 : S_.Idx → BitVec 32) : S16777216.Idx → BitVec 32 :=
  maxsi (splat (id x1)) x0

/-- The running sum, as the second caller names it. -/
def runningSum1 (x0 : S16777216.Idx → BitVec 32) : S16777216.Idx → BitVec 32 := runningSum x0

/-- A choice between two flat arrays, entry by entry. -/
def whereVec (x0 : S16777216.Idx → BitVec 1) (x1 x2 : S16777216.Idx → BitVec 32) : S16777216.Idx → BitVec 32 :=
  select x0 x1 x2

/-- Division by a scalar rounded towards minus infinity: the truncated quotient, less one where the signs differ and
    the remainder is not zero. -/
def floorDivide (x0 : S16777216.Idx → BitVec 32) (x1 : S_.Idx → BitVec 32) : S16777216.Idx → BitVec 32 :=
  whereVec
    (andi (cmpi .ne (signi x0) (splat (signi x1)))
          (cmpi .ne (Host.remsi x0 (splat x1)) (splat (constantI S_ 32 0#32))))
    (subi (Host.divsi x0 (splat x1)) (splat (constantI S_ 32 1#32)))
    (Host.divsi x0 (splat x1))

/-- A choice between two scalars. -/
def whereScalar (x0 : S_.Idx → BitVec 1) (x1 x2 : S_.Idx → BitVec 32) : S_.Idx → BitVec 32 := select x0 x1 x2

/-- The divisor a remainder is taken by: one in place of zero. -/
def safeDivisor (x1 : S_.Idx → BitVec 32) : S_.Idx → BitVec 32 :=
  whereScalar (cmpi .eq (id x1) (constantI S_ 32 0#32)) (constantI S_ 32 1#32) (id x1)

/-- The sign fix of a truncated remainder `r` by the divisor `d`: add the divisor where the remainder is not zero and
    its sign is not the divisor's. -/
def remFixArr (r : S16777216.Idx → BitVec 32) (d : S_.Idx → BitVec 32) : S16777216.Idx → BitVec 32 :=
  select
    (andi (cmpi .ne (cmpi .slt r (splat (constantI S_ 32 0#32))) (splat (cmpi .slt d (constantI S_ 32 0#32))))
          (cmpi .ne r (splat (constantI S_ 32 0#32))))
    (addi r (splat d))
    r

/-- The remainder of division by a scalar, with the sign of the divisor. -/
def floorRemainder (x0 : S16777216.Idx → BitVec 32) (x1 : S_.Idx → BitVec 32) : S16777216.Idx → BitVec 32 :=
  remFixArr (Host.remsi x0 (splat (safeDivisor x1))) (safeDivisor x1)

/-- The scalar where the bit holds, the array elsewhere. -/
def whereFill (x0 : S16777216.Idx → BitVec 1) (x1 : S_.Idx → BitVec 32) (x2 : S16777216.Idx → BitVec 32) :
    S16777216.Idx → BitVec 32 :=
  select x0 (splat (id x1)) x2

/-- The running count of the bits in row-major order, raised to at least zero. -/
def clippedCount (A : S4096x4096.Idx → BitVec 1) : S16777216.Idx → BitVec 32 :=
  clipBelow (maskRunningSum A) (constantI S_ 32 0#32)

/-- Ones added into the array `z` at the positions `p` names (a negative position wrapped round by the length). -/
def scatterOnes (z p : S16777216.Idx → BitVec 32) : S16777216.Idx → BitVec 32 :=
  Host.scatter scatter_S16777216_S16777216x1_S16777216_n_0_0_1 IntOp.addi z
    (broadcastInDim S16777216x1 ![0] bcast_S16777216_S16777216x1_0
      (select (cmpi .slt p (splat (constantI S_ 32 0#32))) (addi p (splat (constantI S_ 32 16777216#32))) p))
    (splat (constantI S_ 32 1#32))

/-- Ones scattered at the (wrapped) running counts over zeros, summed along: entry k is the flat place of the k-th
    set bit. -/
def edgePlace (p : S16777216.Idx → BitVec 32) : S16777216.Idx → BitVec 32 :=
  runningSum1 (scatterOnes (splat (constantI S_ 32 0#32)) p)

/-- The row of a place: the place divided by 4096 rounding down, modulo 4096. -/
def senderRaw (p : S16777216.Idx → BitVec 32) : S16777216.Idx → BitVec 32 :=
  floorRemainder (floorDivide p (constantI S_ 32 4096#32)) (constantI S_ 32 4096#32)

/-- The column of a place: the place divided by one, modulo 4096. -/
def receiverRaw (p : S16777216.Idx → BitVec 32) : S16777216.Idx → BitVec 32 :=
  floorRemainder (floorDivide p (constantI S_ 32 1#32)) (constantI S_ 32 4096#32)

/-- The places 0, 1, 2, … of the edge list. -/
def places : S16777216.Idx → BitVec 32 := iotaInDim S16777216 32 0

/-- The number of set bits, at every place. -/
def edgeCount (A : S4096x4096.Idx → BitVec 1) : S16777216.Idx → BitVec 32 :=
  splat (Host.reduce IntOp.addi (extui 32 A natLt_1_32) (constantI S_ 32 0#32) reducesTo_S4096x4096_S_d0_1 h_S_)

/-- Whether a place is at or past a count. -/
def pastCount (p n : S16777216.Idx → BitVec 32) : S16777216.Idx → BitVec 1 := cmpi .sge p n

/-- Whether a place of the edge list is past the number of set bits. -/
def pastEnd (A : S4096x4096.Idx → BitVec 1) : S16777216.Idx → BitVec 1 := pastCount places (edgeCount A)

/-- The sender of each edge: its row, and 0 at a place past the count. -/
def senderIdx (r : S16777216.Idx → BitVec 32) (p : S16777216.Idx → BitVec 1) : S16777216.Idx → BitVec 32 :=
  whereFill p (constantI S_ 32 0#32) r

/-- The receiver of each edge: its column, and 0 at a place past the count. -/
def receiverIdx (cl : S16777216.Idx → BitVec 32) (p : S16777216.Idx → BitVec 1) : S16777216.Idx → BitVec 32 :=
  whereFill p (constantI S_ 32 0#32) cl

/-- THE SENDERS of the bits `A`: the rows of its set bits in row-major order, then zeros. -/
def sendersOf (A : S4096x4096.Idx → BitVec 1) : S16777216.Idx → BitVec 32 :=
  senderIdx (senderRaw (edgePlace (clippedCount A))) (pastEnd A)

/-- THE RECEIVERS of the bits `A`: the columns of its set bits in row-major order, then zeros. -/
def receiversOf (A : S4096x4096.Idx → BitVec 1) : S16777216.Idx → BitVec 32 :=
  receiverIdx (receiverRaw (edgePlace (clippedCount A))) (pastEnd A)

/-! ## The chain's buffers as a valuation holds them, at their array types -/

abbrev b_v5 (W : Valuation τ sig (Elt Ideal)) : S16777216.Idx → BitVec 32 := W main_v5
abbrev b_v6 (W : Valuation τ sig (Elt Ideal)) : S16777216.Idx → BitVec 32 := W main_v6
abbrev b_v7 (W : Valuation τ sig (Elt Ideal)) : S16777216.Idx → BitVec 32 := W main_v7
abbrev b_v15 (W : Valuation τ sig (Elt Ideal)) : S16777216.Idx → BitVec 32 := W main_v15
abbrev posBuf (W : Valuation τ sig (Elt Ideal)) : S16777216.Idx → BitVec 32 := W main_v16
abbrev b_v17 (W : Valuation τ sig (Elt Ideal)) : S16777216.Idx → BitVec 32 := W main_v17
abbrev rowBuf (W : Valuation τ sig (Elt Ideal)) : S16777216.Idx → BitVec 32 := W main_v18
abbrev b_v19 (W : Valuation τ sig (Elt Ideal)) : S16777216.Idx → BitVec 32 := W main_v19
abbrev colBuf (W : Valuation τ sig (Elt Ideal)) : S16777216.Idx → BitVec 32 := W main_v20
abbrev padBuf (W : Valuation τ sig (Elt Ideal)) : S16777216.Idx → BitVec 1 := W main_v25
abbrev b_c1 (W : Valuation τ sig (Elt Ideal)) : S_.Idx → BitVec 32 := W main_c_1
abbrev b_c5 (W : Valuation τ sig (Elt Ideal)) : S_.Idx → BitVec 32 := W main_c_5
abbrev b_c6 (W : Valuation τ sig (Elt Ideal)) : S_.Idx → BitVec 32 := W main_c_6
abbrev b_c7 (W : Valuation τ sig (Elt Ideal)) : S_.Idx → BitVec 32 := W main_c_7
abbrev b_c8 (W : Valuation τ sig (Elt Ideal)) : S_.Idx → BitVec 32 := W main_c_8
abbrev b_c10 (W : Valuation τ sig (Elt Ideal)) : S_.Idx → BitVec 32 := W main_c_10
abbrev b_c11 (W : Valuation τ sig (Elt Ideal)) : S_.Idx → BitVec 32 := W main_c_11

/-! ## One reading per host stretch, from ANY contents before it

Each full-size operation (a running sum, the scatter, the count of the bits) meets only named buffers here, so that
no comparison of two readings ever has to open one. -/

theorem r_v5 (W : Valuation τ sig (Elt Ideal)) :
    (StableHlo.after hostOps1_1 W main_v5 : S16777216.Idx → BitVec 32) = maskRunningSum (adjOf W) := by
  dsimp only [hostOps1_1]
  after_results_simp
  strip_casts
  rfl

theorem r_v6 (W : Valuation τ sig (Elt Ideal)) :
    (StableHlo.after hostOps1_2 W main_v6 : S16777216.Idx → BitVec 32) = splat (constantI S_ 32 0#32) := by
  dsimp only [hostOps1_2]
  after_results_simp
  try rfl

theorem r_c1 (W : Valuation τ sig (Elt Ideal)) :
    (StableHlo.after hostOps1_2 W main_c_1 : S_.Idx → BitVec 32) = constantI S_ 32 0#32 := by
  dsimp only [hostOps1_2]
  after_results_simp
  try rfl

theorem r_v7 (W : Valuation τ sig (Elt Ideal)) :
    (StableHlo.after hostOps1_3 W main_v7 : S16777216.Idx → BitVec 32) = clipBelow (b_v5 W) (b_c1 W) := by
  dsimp only [hostOps1_3]
  after_results_simp
  strip_casts
  rfl

theorem r_v15 (W : Valuation τ sig (Elt Ideal)) :
    (StableHlo.after hostOps1_4 W main_v15 : S16777216.Idx → BitVec 32) = scatterOnes (b_v6 W) (b_v7 W) := by
  dsimp only [hostOps1_4]
  after_results_simp
  try rfl

theorem r_v16 (W : Valuation τ sig (Elt Ideal)) :
    (StableHlo.after hostOps1_5 W main_v16 : S16777216.Idx → BitVec 32) = runningSum1 (b_v15 W) := by
  dsimp only [hostOps1_5]
  after_results_simp
  strip_casts
  rfl

theorem r_c5 (W : Valuation τ sig (Elt Ideal)) :
    (StableHlo.after hostOps1_6 W main_c_5 : S_.Idx → BitVec 32) = constantI S_ 32 4096#32 := by
  dsimp only [hostOps1_6]
  after_results_simp
  try rfl

theorem r_v17 (W : Valuation τ sig (Elt Ideal)) :
    (StableHlo.after hostOps1_7 W main_v17 : S16777216.Idx → BitVec 32) = floorDivide (posBuf W) (b_c5 W) := by
  dsimp only [hostOps1_7]
  after_results_simp
  strip_casts
  rfl

theorem r_c6 (W : Valuation τ sig (Elt Ideal)) :
    (StableHlo.after hostOps1_8 W main_c_6 : S_.Idx → BitVec 32) = constantI S_ 32 4096#32 := by
  dsimp only [hostOps1_8]
  after_results_simp
  try rfl

theorem r_v18 (W : Valuation τ sig (Elt Ideal)) :
    (StableHlo.after hostOps1_9 W main_v18 : S16777216.Idx → BitVec 32) = floorRemainder (b_v17 W) (b_c6 W) := by
  dsimp only [hostOps1_9, main_call4_call0]
  after_results_simp
  strip_casts
  rfl

theorem r_c7 (W : Valuation τ sig (Elt Ideal)) :
    (StableHlo.after hostOps1_10 W main_c_7 : S_.Idx → BitVec 32) = constantI S_ 32 1#32 := by
  dsimp only [hostOps1_10]
  after_results_simp
  try rfl

theorem r_v19 (W : Valuation τ sig (Elt Ideal)) :
    (StableHlo.after hostOps1_11 W main_v19 : S16777216.Idx → BitVec 32) = floorDivide (posBuf W) (b_c7 W) := by
  dsimp only [hostOps1_11]
  after_results_simp
  strip_casts
  rfl

theorem r_c8 (W : Valuation τ sig (Elt Ideal)) :
    (StableHlo.after hostOps1_12 W main_c_8 : S_.Idx → BitVec 32) = constantI S_ 32 4096#32 := by
  dsimp only [hostOps1_12]
  after_results_simp
  try rfl

theorem r_v20 (W : Valuation τ sig (Elt Ideal)) :
    (StableHlo.after hostOps1_13 W main_v20 : S16777216.Idx → BitVec 32) = floorRemainder (b_v19 W) (b_c8 W) := by
  dsimp only [hostOps1_13, main_call6_call0]
  after_results_simp
  strip_casts
  rfl

theorem r_v25 (W : Valuation τ sig (Elt Ideal)) :
    (StableHlo.after hostOps1_14 W main_v25 : S16777216.Idx → BitVec 1) = pastEnd (adjOf W) := by
  dsimp only [hostOps1_14]
  after_results_simp
  try rfl

theorem r_c10 (W : Valuation τ sig (Elt Ideal)) :
    (StableHlo.after hostOps1_14 W main_c_10 : S_.Idx → BitVec 32) = constantI S_ 32 0#32 := by
  dsimp only [hostOps1_14]
  after_results_simp
  try rfl

theorem r_v26 (W : Valuation τ sig (Elt Ideal)) :
    (StableHlo.after hostOps1_15 W main_v26 : S16777216.Idx → BitVec 32) = whereFill (padBuf W) (b_c10 W) (rowBuf W) := by
  dsimp only [hostOps1_15]
  after_results_simp
  strip_casts
  rfl

theorem r_c11 (W : Valuation τ sig (Elt Ideal)) :
    (StableHlo.after hostOps1_16 W main_c_11 : S_.Idx → BitVec 32) = constantI S_ 32 0#32 := by
  dsimp only [hostOps1_16]
  after_results_simp
  try rfl

theorem r_v27 (W : Valuation τ sig (Elt Ideal)) :
    (StableHlo.after hostOps1_17 W main_v27 : S16777216.Idx → BitVec 32) = whereFill (padBuf W) (b_c11 W) (colBuf W) := by
  dsimp only [hostOps1_17]
  after_results_simp
  strip_casts
  rfl

/-! ## The last three operations of the two arrays, at an index -/

/-- The remainder by the constant 4096 at an index: the sign fix of the truncated remainder by 4096. -/
theorem floorRemainder_apply (x : S16777216.Idx → BitVec 32) (e : Fin 16777216) :
    floorRemainder x (constantI S_ 32 4096#32) (ix1 e)
      = Cert.LibRemRange.remFix (IntOp.remsi .host (x (ix1 e)) 4096#32) := rfl

/-- A sender: 0 past the number of set bits, else the sign-fixed truncated remainder by 4096 of the floor quotient
    of the flat place by 4096. -/
theorem sendersOf_apply (A : S4096x4096.Idx → BitVec 1) (e : Fin 16777216) :
    sendersOf A (ix1 e)
      = Scalar.select (pastEnd A (ix1 e)) 0#32
          (Cert.LibRemRange.remFix
            (IntOp.remsi .host (floorDivide (edgePlace (clippedCount A)) (constantI S_ 32 4096#32) (ix1 e)) 4096#32)) := by
  unfold sendersOf senderIdx senderRaw whereFill
  rw [select_apply, floorRemainder_apply]
  rfl

/-- A receiver: the same with the floor quotient by one in place of the quotient by 4096. -/
theorem receiversOf_apply (A : S4096x4096.Idx → BitVec 1) (e : Fin 16777216) :
    receiversOf A (ix1 e)
      = Scalar.select (pastEnd A (ix1 e)) 0#32
          (Cert.LibRemRange.remFix
            (IntOp.remsi .host (floorDivide (edgePlace (clippedCount A)) (constantI S_ 32 1#32) (ix1 e)) 4096#32)) := by
  unfold receiversOf receiverIdx receiverRaw whereFill
  rw [select_apply, floorRemainder_apply]
  rfl

/-- Every sender is a row number … -/
theorem sendersOf_inRange (A : S4096x4096.Idx → BitVec 1) (e : Fin 16777216) :
    Cert.LibRemRange.InRange (sendersOf A (ix1 e)) := by
  rw [sendersOf_apply]
  exact Cert.LibRemRange.select_inRange _ Cert.LibRemRange.inRange_zero (Cert.LibRemRange.rem_inRange _)

/-- … and so is every receiver. -/
theorem receiversOf_inRange (A : S4096x4096.Idx → BitVec 1) (e : Fin 16777216) :
    Cert.LibRemRange.InRange (receiversOf A (ix1 e)) := by
  rw [receiversOf_apply]
  exact Cert.LibRemRange.select_inRange _ Cert.LibRemRange.inRange_zero (Cert.LibRemRange.rem_inRange _)

/-! ## From the first region to the two index arrays -/

variable (m : (ℓ : Loc nD τ sig) → Buf (Elt Ideal) ℓ) (outs : Outs (F := Ideal)) (c : Dev nD)

/-- The flat places after the stretches that compute them. -/
theorem posBuf_V8 : posBuf (V8 m outs c) = edgePlace (clippedCount (adjOf (V3 m outs c))) := by
  have e5 : b_v5 (V5 m outs c) = maskRunningSum (adjOf (V3 m outs c)) :=
    (V5_of m outs c main_v5 (by decide)).trans (r_v5 (V3 m outs c))
  have ec1 : b_c1 (V5 m outs c) = constantI S_ 32 0#32 := r_c1 (V4 m outs c)
  have e6 : b_v6 (V6 m outs c) = splat (constantI S_ 32 0#32) :=
    (V6_of m outs c main_v6 (by decide)).trans (r_v6 (V4 m outs c))
  have e7 : b_v7 (V6 m outs c) = clipBelow (b_v5 (V5 m outs c)) (b_c1 (V5 m outs c)) := r_v7 (V5 m outs c)
  have e15 : b_v15 (V7 m outs c) = scatterOnes (b_v6 (V6 m outs c)) (b_v7 (V6 m outs c)) := r_v15 (V6 m outs c)
  have e16 : posBuf (V8 m outs c) = runningSum1 (b_v15 (V7 m outs c)) := r_v16 (V7 m outs c)
  rw [e16, e15, e6, e7, e5, ec1]
  unfold edgePlace clippedCount
  rfl

/-- The rows after the stretches that compute them. -/
theorem rowBuf_V12 : rowBuf (V12 m outs c) = senderRaw (posBuf (V8 m outs c)) := by
  have ec5 : b_c5 (V9 m outs c) = constantI S_ 32 4096#32 := r_c5 (V8 m outs c)
  have e16 : posBuf (V9 m outs c) = posBuf (V8 m outs c) := V9_of m outs c main_v16 (by decide)
  have e17 : b_v17 (V11 m outs c) = floorDivide (posBuf (V9 m outs c)) (b_c5 (V9 m outs c)) :=
    (V11_of m outs c main_v17 (by decide)).trans (r_v17 (V9 m outs c))
  have ec6 : b_c6 (V11 m outs c) = constantI S_ 32 4096#32 := r_c6 (V10 m outs c)
  have e18 : rowBuf (V12 m outs c) = floorRemainder (b_v17 (V11 m outs c)) (b_c6 (V11 m outs c)) := r_v18 (V11 m outs c)
  rw [e18, e17, ec6, ec5, e16]
  unfold senderRaw
  rfl

/-- The columns after the stretches that compute them. -/
theorem colBuf_V16 : colBuf (V16 m outs c) = receiverRaw (posBuf (V8 m outs c)) := by
  have ec7 : b_c7 (V13 m outs c) = constantI S_ 32 1#32 := r_c7 (V12 m outs c)
  have e16 : posBuf (V13 m outs c) = posBuf (V8 m outs c) :=
    (V13_of m outs c main_v16 (by decide)).trans <| (V12_of m outs c main_v16 (by decide)).trans <| (V11_of m outs c main_v16 (by decide)).trans <| (V10_of m outs c main_v16 (by decide)).trans <| (V9_of m outs c main_v16 (by decide))
  have e19 : b_v19 (V15 m outs c) = floorDivide (posBuf (V13 m outs c)) (b_c7 (V13 m outs c)) :=
    (V15_of m outs c main_v19 (by decide)).trans (r_v19 (V13 m outs c))
  have ec8 : b_c8 (V15 m outs c) = constantI S_ 32 4096#32 := r_c8 (V14 m outs c)
  have e20 : colBuf (V16 m outs c) = floorRemainder (b_v19 (V15 m outs c)) (b_c8 (V15 m outs c)) := r_v20 (V15 m outs c)
  rw [e20, e19, ec8, ec7, e16]
  unfold receiverRaw
  rfl

/-- The padding mask after the stretch that computes it. -/
theorem padBuf_V17 : padBuf (V17 m outs c) = pastEnd (adjOf (V3 m outs c)) :=
  (r_v25 (V16 m outs c)).trans (congrArg pastEnd
    ((V16_of m outs c main_v4 (by decide)).trans <| (V15_of m outs c main_v4 (by decide)).trans <| (V14_of m outs c main_v4 (by decide)).trans <| (V13_of m outs c main_v4 (by decide)).trans <| (V12_of m outs c main_v4 (by decide)).trans <| (V11_of m outs c main_v4 (by decide)).trans <| (V10_of m outs c main_v4 (by decide)).trans <| (V9_of m outs c main_v4 (by decide)).trans <| (V8_of m outs c main_v4 (by decide)).trans <| (V7_of m outs c main_v4 (by decide)).trans <| (V6_of m outs c main_v4 (by decide)).trans <| (V5_of m outs c main_v4 (by decide)).trans <| (V4_of m outs c main_v4 (by decide))))

/-- THE SENDERS as the program computes them: `sendersOf` of the adjacency bits it holds after the first region. -/
theorem main_v26_eq :
    (V18 m outs c main_v26 : S16777216.Idx → BitVec 32) = sendersOf (adjOf (V3 m outs c)) := by
  have ec10 : b_c10 (V17 m outs c) = constantI S_ 32 0#32 := r_c10 (V16 m outs c)
  have e18 : rowBuf (V17 m outs c) = rowBuf (V12 m outs c) :=
    (V17_of m outs c main_v18 (by decide)).trans <| (V16_of m outs c main_v18 (by decide)).trans <| (V15_of m outs c main_v18 (by decide)).trans <| (V14_of m outs c main_v18 (by decide)).trans <| (V13_of m outs c main_v18 (by decide))
  have e26 : (V18 m outs c main_v26 : S16777216.Idx → BitVec 32)
      = whereFill (padBuf (V17 m outs c)) (b_c10 (V17 m outs c)) (rowBuf (V17 m outs c)) := r_v26 (V17 m outs c)
  rw [e26, padBuf_V17 m outs c, ec10, e18, rowBuf_V12 m outs c, posBuf_V8 m outs c]
  unfold sendersOf senderIdx
  rfl

/-- THE RECEIVERS as the program computes them: `receiversOf` of the same bits. -/
theorem main_v27_eq :
    (V20 m outs c main_v27 : S16777216.Idx → BitVec 32) = receiversOf (adjOf (V3 m outs c)) := by
  have ec11 : b_c11 (V19 m outs c) = constantI S_ 32 0#32 := r_c11 (V18 m outs c)
  have e25 : padBuf (V19 m outs c) = padBuf (V17 m outs c) :=
    (V19_of m outs c main_v25 (by decide)).trans <| (V18_of m outs c main_v25 (by decide))
  have e20 : colBuf (V19 m outs c) = colBuf (V16 m outs c) :=
    (V19_of m outs c main_v20 (by decide)).trans <| (V18_of m outs c main_v20 (by decide)).trans <| (V17_of m outs c main_v20 (by decide))
  have e27 : (V20 m outs c main_v27 : S16777216.Idx → BitVec 32)
      = whereFill (padBuf (V19 m outs c)) (b_c11 (V19 m outs c)) (colBuf (V19 m outs c)) := r_v27 (V19 m outs c)
  rw [e27, e25, padBuf_V17 m outs c, ec11, e20, colBuf_V16 m outs c, posBuf_V8 m outs c]
  unfold receiversOf receiverIdx
  rfl

end Cert.KernelIdeal.HostValues
end
-- ==== Proof.HostValues.lean ====
/-
  The host side of the kernel program, read as values: the three results as functions of the two argument arrays,
  the adjacency bits the program holds after its first region, and what its second region leaves in its output.

  The node features are a function of the arguments alone (HostValuesA). The edge index is the two index arrays of
  the adjacency bits, stacked (HostValuesB for the stacking, HostValuesC for the index arrays). The edge features
  are the second region's output transposed (HostValuesB).
-/
import proofs.«174933_j45260365365646_1_alg».proof.Proof.HostValuesA
import proofs.«174933_j45260365365646_1_alg».proof.Proof.HostValuesB
import proofs.«174933_j45260365365646_1_alg».proof.Proof.HostValuesC

set_option maxRecDepth 16384

noncomputable section

namespace Cert.KernelIdeal.HostValues

open Cert.KernelIdeal Cert.KernelIdeal.Gen
open Idealize.ShloMosaic Idealize.ShloMosaic.TcCoe Idealize.ShloMosaic.ValueIdx

variable (m : (ℓ : Loc nD τ sig) → Buf (Elt Ideal) ℓ) (outs : Outs (F := Ideal)) (c : Dev nD)

/-- THE EDGE INDEX at the end of the program: the senders over the receivers of the adjacency bits the program holds
    after its first region. -/
theorem main_v30_final :
    (V28 m outs c main_v30 : S2x16777216.Idx → BitVec 32)
      = edgeIndex (sendersOf (adjOf (V3 m outs c))) (receiversOf (adjOf (V3 m outs c))) := by
  rw [main_v30_eq m outs c, sendBuf_V20 m outs c]
  exact congrArg₂ edgeIndex (main_v26_eq m outs c) (main_v27_eq m outs c)

/-- Row 0 of the final edge index at an edge: its sender, a row number. -/
theorem main_v30_row0 (e : Fin 16777216) :
    (V28 m outs c main_v30 : S2x16777216.Idx → BitVec 32) (ix2 (0 : Fin 2) e) = sendersOf (adjOf (V3 m outs c)) (ix1 e) := by
  rw [main_v30_final m outs c, edgeIndex_row0]

/-- Row 1 of the final edge index at an edge: its receiver. -/
theorem main_v30_row1 (e : Fin 16777216) :
    (V28 m outs c main_v30 : S2x16777216.Idx → BitVec 32) (ix2 (1 : Fin 2) e) = receiversOf (adjOf (V3 m outs c)) (ix1 e) := by
  rw [main_v30_final m outs c, edgeIndex_row1]

end Cert.KernelIdeal.HostValues
end
-- ==== Proof.RefRunC.lean ====
/- The mask and the edge features read off the fold of the reference's operations. Each stretch is read from an
   arbitrary valuation at its entry: the array it leaves is a named stage of the arrays it finds. The stretch that
   ends in the joining of two arrays side by side is cut before that last operation, which is read by itself. -/
import proofs.«174933_j45260365365646_1_alg».proof.Proof.RefRun
import proofs.«174933_j45260365365646_1_alg».proof.Proof.RefRunB

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Typed references carry contents unchanged -/

/-- Contents written through a typed reference and read back through it are the contents. -/
theorem ofBuf_toBuf {T : BufTy} (x : StableHlo.TRef sig T) (v : T.Contents (Elt F)) : x.ofBuf (x.toBuf v) = v := by
  show cast _ (cast _ v) = v
  rw [cast_cast, cast_eq]

/-! At a literal buffer the two directions are the identity, by computation of the buffer's type. -/
theorem toBuf_main_v9 (h1 : (main_v9 : Ref sig .tc).ty = ⟨S4096x4096, .i1⟩) (h2 : (main_v9 : Ref sig .tc).space ≠ .host) (h3 : (main_v9 : Ref sig .tc).isScoped = false) (v : (⟨S4096x4096, .i1⟩ : BufTy).Contents (Elt F)) :
    (StableHlo.TRef.of main_v9 h1 h2 h3).toBuf v = v := rfl
theorem ofBuf_main_v9 (h1 : (main_v9 : Ref sig .tc).ty = ⟨S4096x4096, .i1⟩) (h2 : (main_v9 : Ref sig .tc).space ≠ .host) (h3 : (main_v9 : Ref sig .tc).isScoped = false) (v : (⟨S4096x4096, .i1⟩ : BufTy).Contents (Elt F)) :
    (StableHlo.TRef.of main_v9 h1 h2 h3).ofBuf v = v := rfl
theorem toBuf_main_v7 (h1 : (main_v7 : Ref sig .tc).ty = ⟨S4096x4096, .f32⟩) (h2 : (main_v7 : Ref sig .tc).space ≠ .host) (h3 : (main_v7 : Ref sig .tc).isScoped = false) (v : (⟨S4096x4096, .f32⟩ : BufTy).Contents (Elt F)) :
    (StableHlo.TRef.of main_v7 h1 h2 h3).toBuf v = v := rfl
theorem ofBuf_main_v7 (h1 : (main_v7 : Ref sig .tc).ty = ⟨S4096x4096, .f32⟩) (h2 : (main_v7 : Ref sig .tc).space ≠ .host) (h3 : (main_v7 : Ref sig .tc).isScoped = false) (v : (⟨S4096x4096, .f32⟩ : BufTy).Contents (Elt F)) :
    (StableHlo.TRef.of main_v7 h1 h2 h3).ofBuf v = v := rfl
theorem toBuf_main_cst_1 (h1 : (main_cst_1 : Ref sig .tc).ty = ⟨S_, .f32⟩) (h2 : (main_cst_1 : Ref sig .tc).space ≠ .host) (h3 : (main_cst_1 : Ref sig .tc).isScoped = false) (v : (⟨S_, .f32⟩ : BufTy).Contents (Elt F)) :
    (StableHlo.TRef.of main_cst_1 h1 h2 h3).toBuf v = v := rfl
theorem ofBuf_main_cst_1 (h1 : (main_cst_1 : Ref sig .tc).ty = ⟨S_, .f32⟩) (h2 : (main_cst_1 : Ref sig .tc).space ≠ .host) (h3 : (main_cst_1 : Ref sig .tc).isScoped = false) (v : (⟨S_, .f32⟩ : BufTy).Contents (Elt F)) :
    (StableHlo.TRef.of main_cst_1 h1 h2 h3).ofBuf v = v := rfl
theorem toBuf_main_v10 (h1 : (main_v10 : Ref sig .tc).ty = ⟨S4096x4096, .f32⟩) (h2 : (main_v10 : Ref sig .tc).space ≠ .host) (h3 : (main_v10 : Ref sig .tc).isScoped = false) (v : (⟨S4096x4096, .f32⟩ : BufTy).Contents (Elt F)) :
    (StableHlo.TRef.of main_v10 h1 h2 h3).toBuf v = v := rfl
theorem ofBuf_main_v10 (h1 : (main_v10 : Ref sig .tc).ty = ⟨S4096x4096, .f32⟩) (h2 : (main_v10 : Ref sig .tc).space ≠ .host) (h3 : (main_v10 : Ref sig .tc).isScoped = false) (v : (⟨S4096x4096, .f32⟩ : BufTy).Contents (Elt F)) :
    (StableHlo.TRef.of main_v10 h1 h2 h3).ofBuf v = v := rfl
theorem toBuf_main_v13 (h1 : (main_v13 : Ref sig .tc).ty = ⟨S4096x4096, .i1⟩) (h2 : (main_v13 : Ref sig .tc).space ≠ .host) (h3 : (main_v13 : Ref sig .tc).isScoped = false) (v : (⟨S4096x4096, .i1⟩ : BufTy).Contents (Elt F)) :
    (StableHlo.TRef.of main_v13 h1 h2 h3).toBuf v = v := rfl
theorem ofBuf_main_v13 (h1 : (main_v13 : Ref sig .tc).ty = ⟨S4096x4096, .i1⟩) (h2 : (main_v13 : Ref sig .tc).space ≠ .host) (h3 : (main_v13 : Ref sig .tc).isScoped = false) (v : (⟨S4096x4096, .i1⟩ : BufTy).Contents (Elt F)) :
    (StableHlo.TRef.of main_v13 h1 h2 h3).ofBuf v = v := rfl
theorem toBuf_main_v11 (h1 : (main_v11 : Ref sig .tc).ty = ⟨S4096x4096, .f32⟩) (h2 : (main_v11 : Ref sig .tc).space ≠ .host) (h3 : (main_v11 : Ref sig .tc).isScoped = false) (v : (⟨S4096x4096, .f32⟩ : BufTy).Contents (Elt F)) :
    (StableHlo.TRef.of main_v11 h1 h2 h3).toBuf v = v := rfl
theorem ofBuf_main_v11 (h1 : (main_v11 : Ref sig .tc).ty = ⟨S4096x4096, .f32⟩) (h2 : (main_v11 : Ref sig .tc).space ≠ .host) (h3 : (main_v11 : Ref sig .tc).isScoped = false) (v : (⟨S4096x4096, .f32⟩ : BufTy).Contents (Elt F)) :
    (StableHlo.TRef.of main_v11 h1 h2 h3).ofBuf v = v := rfl
theorem toBuf_main_cst_3 (h1 : (main_cst_3 : Ref sig .tc).ty = ⟨S_, .f32⟩) (h2 : (main_cst_3 : Ref sig .tc).space ≠ .host) (h3 : (main_cst_3 : Ref sig .tc).isScoped = false) (v : (⟨S_, .f32⟩ : BufTy).Contents (Elt F)) :
    (StableHlo.TRef.of main_cst_3 h1 h2 h3).toBuf v = v := rfl
theorem ofBuf_main_cst_3 (h1 : (main_cst_3 : Ref sig .tc).ty = ⟨S_, .f32⟩) (h2 : (main_cst_3 : Ref sig .tc).space ≠ .host) (h3 : (main_cst_3 : Ref sig .tc).isScoped = false) (v : (⟨S_, .f32⟩ : BufTy).Contents (Elt F)) :
    (StableHlo.TRef.of main_cst_3 h1 h2 h3).ofBuf v = v := rfl
theorem toBuf_main_v14 (h1 : (main_v14 : Ref sig .tc).ty = ⟨S4096x4096, .f32⟩) (h2 : (main_v14 : Ref sig .tc).space ≠ .host) (h3 : (main_v14 : Ref sig .tc).isScoped = false) (v : (⟨S4096x4096, .f32⟩ : BufTy).Contents (Elt F)) :
    (StableHlo.TRef.of main_v14 h1 h2 h3).toBuf v = v := rfl
theorem ofBuf_main_v14 (h1 : (main_v14 : Ref sig .tc).ty = ⟨S4096x4096, .f32⟩) (h2 : (main_v14 : Ref sig .tc).space ≠ .host) (h3 : (main_v14 : Ref sig .tc).isScoped = false) (v : (⟨S4096x4096, .f32⟩ : BufTy).Contents (Elt F)) :
    (StableHlo.TRef.of main_v14 h1 h2 h3).ofBuf v = v := rfl
theorem toBuf_main_v69 (h1 : (main_v69 : Ref sig .tc).ty = ⟨S16777216x1, .i1⟩) (h2 : (main_v69 : Ref sig .tc).space ≠ .host) (h3 : (main_v69 : Ref sig .tc).isScoped = false) (v : (⟨S16777216x1, .i1⟩ : BufTy).Contents (Elt F)) :
    (StableHlo.TRef.of main_v69 h1 h2 h3).toBuf v = v := rfl
theorem ofBuf_main_v69 (h1 : (main_v69 : Ref sig .tc).ty = ⟨S16777216x1, .i1⟩) (h2 : (main_v69 : Ref sig .tc).space ≠ .host) (h3 : (main_v69 : Ref sig .tc).isScoped = false) (v : (⟨S16777216x1, .i1⟩ : BufTy).Contents (Elt F)) :
    (StableHlo.TRef.of main_v69 h1 h2 h3).ofBuf v = v := rfl
theorem toBuf_main_v67 (h1 : (main_v67 : Ref sig .tc).ty = ⟨S16777216x1, .f32⟩) (h2 : (main_v67 : Ref sig .tc).space ≠ .host) (h3 : (main_v67 : Ref sig .tc).isScoped = false) (v : (⟨S16777216x1, .f32⟩ : BufTy).Contents (Elt F)) :
    (StableHlo.TRef.of main_v67 h1 h2 h3).toBuf v = v := rfl
theorem ofBuf_main_v67 (h1 : (main_v67 : Ref sig .tc).ty = ⟨S16777216x1, .f32⟩) (h2 : (main_v67 : Ref sig .tc).space ≠ .host) (h3 : (main_v67 : Ref sig .tc).isScoped = false) (v : (⟨S16777216x1, .f32⟩ : BufTy).Contents (Elt F)) :
    (StableHlo.TRef.of main_v67 h1 h2 h3).ofBuf v = v := rfl
theorem toBuf_main_cst_23 (h1 : (main_cst_23 : Ref sig .tc).ty = ⟨S_, .f32⟩) (h2 : (main_cst_23 : Ref sig .tc).space ≠ .host) (h3 : (main_cst_23 : Ref sig .tc).isScoped = false) (v : (⟨S_, .f32⟩ : BufTy).Contents (Elt F)) :
    (StableHlo.TRef.of main_cst_23 h1 h2 h3).toBuf v = v := rfl
theorem ofBuf_main_cst_23 (h1 : (main_cst_23 : Ref sig .tc).ty = ⟨S_, .f32⟩) (h2 : (main_cst_23 : Ref sig .tc).space ≠ .host) (h3 : (main_cst_23 : Ref sig .tc).isScoped = false) (v : (⟨S_, .f32⟩ : BufTy).Contents (Elt F)) :
    (StableHlo.TRef.of main_cst_23 h1 h2 h3).ofBuf v = v := rfl
theorem toBuf_main_v70 (h1 : (main_v70 : Ref sig .tc).ty = ⟨S16777216x1, .f32⟩) (h2 : (main_v70 : Ref sig .tc).space ≠ .host) (h3 : (main_v70 : Ref sig .tc).isScoped = false) (v : (⟨S16777216x1, .f32⟩ : BufTy).Contents (Elt F)) :
    (StableHlo.TRef.of main_v70 h1 h2 h3).toBuf v = v := rfl
theorem ofBuf_main_v70 (h1 : (main_v70 : Ref sig .tc).ty = ⟨S16777216x1, .f32⟩) (h2 : (main_v70 : Ref sig .tc).space ≠ .host) (h3 : (main_v70 : Ref sig .tc).isScoped = false) (v : (⟨S16777216x1, .f32⟩ : BufTy).Contents (Elt F)) :
    (StableHlo.TRef.of main_v70 h1 h2 h3).ofBuf v = v := rfl
theorem toBuf_main_v73 (h1 : (main_v73 : Ref sig .tc).ty = ⟨S16777216x1, .i1⟩) (h2 : (main_v73 : Ref sig .tc).space ≠ .host) (h3 : (main_v73 : Ref sig .tc).isScoped = false) (v : (⟨S16777216x1, .i1⟩ : BufTy).Contents (Elt F)) :
    (StableHlo.TRef.of main_v73 h1 h2 h3).toBuf v = v := rfl
theorem ofBuf_main_v73 (h1 : (main_v73 : Ref sig .tc).ty = ⟨S16777216x1, .i1⟩) (h2 : (main_v73 : Ref sig .tc).space ≠ .host) (h3 : (main_v73 : Ref sig .tc).isScoped = false) (v : (⟨S16777216x1, .i1⟩ : BufTy).Contents (Elt F)) :
    (StableHlo.TRef.of main_v73 h1 h2 h3).ofBuf v = v := rfl
theorem toBuf_main_v71 (h1 : (main_v71 : Ref sig .tc).ty = ⟨S16777216x1, .f32⟩) (h2 : (main_v71 : Ref sig .tc).space ≠ .host) (h3 : (main_v71 : Ref sig .tc).isScoped = false) (v : (⟨S16777216x1, .f32⟩ : BufTy).Contents (Elt F)) :
    (StableHlo.TRef.of main_v71 h1 h2 h3).toBuf v = v := rfl
theorem ofBuf_main_v71 (h1 : (main_v71 : Ref sig .tc).ty = ⟨S16777216x1, .f32⟩) (h2 : (main_v71 : Ref sig .tc).space ≠ .host) (h3 : (main_v71 : Ref sig .tc).isScoped = false) (v : (⟨S16777216x1, .f32⟩ : BufTy).Contents (Elt F)) :
    (StableHlo.TRef.of main_v71 h1 h2 h3).ofBuf v = v := rfl
theorem toBuf_main_cst_25 (h1 : (main_cst_25 : Ref sig .tc).ty = ⟨S_, .f32⟩) (h2 : (main_cst_25 : Ref sig .tc).space ≠ .host) (h3 : (main_cst_25 : Ref sig .tc).isScoped = false) (v : (⟨S_, .f32⟩ : BufTy).Contents (Elt F)) :
    (StableHlo.TRef.of main_cst_25 h1 h2 h3).toBuf v = v := rfl
theorem ofBuf_main_cst_25 (h1 : (main_cst_25 : Ref sig .tc).ty = ⟨S_, .f32⟩) (h2 : (main_cst_25 : Ref sig .tc).space ≠ .host) (h3 : (main_cst_25 : Ref sig .tc).isScoped = false) (v : (⟨S_, .f32⟩ : BufTy).Contents (Elt F)) :
    (StableHlo.TRef.of main_cst_25 h1 h2 h3).ofBuf v = v := rfl
theorem toBuf_main_v74 (h1 : (main_v74 : Ref sig .tc).ty = ⟨S16777216x1, .f32⟩) (h2 : (main_v74 : Ref sig .tc).space ≠ .host) (h3 : (main_v74 : Ref sig .tc).isScoped = false) (v : (⟨S16777216x1, .f32⟩ : BufTy).Contents (Elt F)) :
    (StableHlo.TRef.of main_v74 h1 h2 h3).toBuf v = v := rfl
theorem ofBuf_main_v74 (h1 : (main_v74 : Ref sig .tc).ty = ⟨S16777216x1, .f32⟩) (h2 : (main_v74 : Ref sig .tc).space ≠ .host) (h3 : (main_v74 : Ref sig .tc).isScoped = false) (v : (⟨S16777216x1, .f32⟩ : BufTy).Contents (Elt F)) :
    (StableHlo.TRef.of main_v74 h1 h2 h3).ofBuf v = v := rfl
theorem toBuf_main_v78 (h1 : (main_v78 : Ref sig .tc).ty = ⟨S16777216x1, .i1⟩) (h2 : (main_v78 : Ref sig .tc).space ≠ .host) (h3 : (main_v78 : Ref sig .tc).isScoped = false) (v : (⟨S16777216x1, .i1⟩ : BufTy).Contents (Elt F)) :
    (StableHlo.TRef.of main_v78 h1 h2 h3).toBuf v = v := rfl
theorem ofBuf_main_v78 (h1 : (main_v78 : Ref sig .tc).ty = ⟨S16777216x1, .i1⟩) (h2 : (main_v78 : Ref sig .tc).space ≠ .host) (h3 : (main_v78 : Ref sig .tc).isScoped = false) (v : (⟨S16777216x1, .i1⟩ : BufTy).Contents (Elt F)) :
    (StableHlo.TRef.of main_v78 h1 h2 h3).ofBuf v = v := rfl
theorem toBuf_main_v80 (h1 : (main_v80 : Ref sig .tc).ty = ⟨S16777216x1, .f32⟩) (h2 : (main_v80 : Ref sig .tc).space ≠ .host) (h3 : (main_v80 : Ref sig .tc).isScoped = false) (v : (⟨S16777216x1, .f32⟩ : BufTy).Contents (Elt F)) :
    (StableHlo.TRef.of main_v80 h1 h2 h3).toBuf v = v := rfl
theorem ofBuf_main_v80 (h1 : (main_v80 : Ref sig .tc).ty = ⟨S16777216x1, .f32⟩) (h2 : (main_v80 : Ref sig .tc).space ≠ .host) (h3 : (main_v80 : Ref sig .tc).isScoped = false) (v : (⟨S16777216x1, .f32⟩ : BufTy).Contents (Elt F)) :
    (StableHlo.TRef.of main_v80 h1 h2 h3).ofBuf v = v := rfl
theorem toBuf_main_cst_29 (h1 : (main_cst_29 : Ref sig .tc).ty = ⟨S_, .f32⟩) (h2 : (main_cst_29 : Ref sig .tc).space ≠ .host) (h3 : (main_cst_29 : Ref sig .tc).isScoped = false) (v : (⟨S_, .f32⟩ : BufTy).Contents (Elt F)) :
    (StableHlo.TRef.of main_cst_29 h1 h2 h3).toBuf v = v := rfl
theorem ofBuf_main_cst_29 (h1 : (main_cst_29 : Ref sig .tc).ty = ⟨S_, .f32⟩) (h2 : (main_cst_29 : Ref sig .tc).space ≠ .host) (h3 : (main_cst_29 : Ref sig .tc).isScoped = false) (v : (⟨S_, .f32⟩ : BufTy).Contents (Elt F)) :
    (StableHlo.TRef.of main_cst_29 h1 h2 h3).ofBuf v = v := rfl
theorem toBuf_main_v81 (h1 : (main_v81 : Ref sig .tc).ty = ⟨S16777216x1, .f32⟩) (h2 : (main_v81 : Ref sig .tc).space ≠ .host) (h3 : (main_v81 : Ref sig .tc).isScoped = false) (v : (⟨S16777216x1, .f32⟩ : BufTy).Contents (Elt F)) :
    (StableHlo.TRef.of main_v81 h1 h2 h3).toBuf v = v := rfl
theorem ofBuf_main_v81 (h1 : (main_v81 : Ref sig .tc).ty = ⟨S16777216x1, .f32⟩) (h2 : (main_v81 : Ref sig .tc).space ≠ .host) (h3 : (main_v81 : Ref sig .tc).isScoped = false) (v : (⟨S16777216x1, .f32⟩ : BufTy).Contents (Elt F)) :
    (StableHlo.TRef.of main_v81 h1 h2 h3).ofBuf v = v := rfl

/-! ## The mask -/

set_option maxRecDepth 65536 in
set_option maxHeartbeats 4000000 in
/-- The first stretch leaves the mask of the states it finds. -/
theorem w0_main_v22 (W : Valuation τ sig (Elt F)) : after w0 W (Proc.devRef .tc main_v22) = adjRef (W (Proc.devRef .tc main_arg0)) := by
  simp only [w0]
  after_results_simp
  simp only [ofBuf_toBuf, toBuf_main_v9, ofBuf_main_v9, toBuf_main_v7, ofBuf_main_v7, toBuf_main_cst_1, ofBuf_main_cst_1, toBuf_main_v10, ofBuf_main_v10, toBuf_main_v13, ofBuf_main_v13, toBuf_main_v11, ofBuf_main_v11, toBuf_main_cst_3, ofBuf_main_cst_3, toBuf_main_v14, ofBuf_main_v14]
  rfl

/-- The mask after the whole run is the mask of the states at launch: no later operation writes it. -/
theorem mask_eq (V0 : Valuation τ sig (Elt F)) :
    after ops V0 (Proc.devRef .tc main_v22) = adjRef (V0 (Proc.devRef .tc main_arg0)) := by
  rw [after_ops, w9_keep _ main_v22 (by decide), w8_keep _ main_v22 (by decide), w7_keep _ main_v22 (by decide), w6_keep _ main_v22 (by decide), w5_keep _ main_v22 (by decide), w4_keep _ main_v22 (by decide), w3_keep _ main_v22 (by decide), w2_keep _ main_v22 (by decide), w1_keep _ main_v22 (by decide), w0_main_v22]

/-! ## The edge features -/

set_option maxRecDepth 65536 in
set_option maxHeartbeats 4000000 in
/-- The two gathers and their difference, from the states and the two index rows the stretch finds. -/
theorem w6_main_v63 (W : Valuation τ sig (Elt F)) : after w6 W (Proc.devRef .tc main_v63) = (edgeDiff (W (Proc.devRef .tc main_arg0)) (W (Proc.devRef .tc main_v44)) (W (Proc.devRef .tc main_v45))) := by
  simp only [w6]
  after_results_simp
  rfl

/-- The stretch `w7` without its last operation. -/
abbrev w7a : List (HloOp τ sig (Elt F)) :=
  [ StableHlo.unary main_v63 main_v64 ((extractStridedSlice S16777216x2 ![0, 0] · slices_S16777216x4_S16777216x2_0_0) : (⟨S16777216x4, .f32⟩ : BufTy).Contents (Elt F) → (⟨S16777216x2, .f32⟩ : BufTy).Contents (Elt F)),
    StableHlo.binary main_v64 main_v64 main_v65 (mulf : (⟨S16777216x2, .f32⟩ : BufTy).Contents (Elt F) → (⟨S16777216x2, .f32⟩ : BufTy).Contents (Elt F) → (⟨S16777216x2, .f32⟩ : BufTy).Contents (Elt F)),
    StableHlo.nullary main_cst_21 (constant S_ .f32 0x00000000#32),
    StableHlo.binary main_v65 main_cst_21 main_v66 ((fun x v => Host.reduceAdd x v reducesTo_S16777216x2_S16777216_d1 h_S_) : (⟨S16777216x2, .f32⟩ : BufTy).Contents (Elt F) → (⟨S_, .f32⟩ : BufTy).Contents (Elt F) → (⟨S16777216, .f32⟩ : BufTy).Contents (Elt F)),
    StableHlo.unary main_v66 main_v67 (broadcastInDim S16777216x1 ![0] bcast_S16777216_S16777216x1_0 : (⟨S16777216, .f32⟩ : BufTy).Contents (Elt F) → (⟨S16777216x1, .f32⟩ : BufTy).Contents (Elt F)),
    StableHlo.nullary main_cst_22 (constant S_ .f32 0x00000000#32),
    StableHlo.unary main_cst_22 main_v68 (broadcastInDim S16777216x1 ![] bcast_S_S16777216x1 : (⟨S_, .f32⟩ : BufTy).Contents (Elt F) → (⟨S16777216x1, .f32⟩ : BufTy).Contents (Elt F)),
    StableHlo.binary main_v67 main_v68 main_v69 (cmpf .ogt : (⟨S16777216x1, .f32⟩ : BufTy).Contents (Elt F) → (⟨S16777216x1, .f32⟩ : BufTy).Contents (Elt F) → (⟨S16777216x1, .i1⟩ : BufTy).Contents (Elt F)),
    StableHlo.nullary main_cst_23 (constant S_ .f32 0x3F800000#32),
    StableHlo.TRef.unary (StableHlo.TRef.of main_cst_23 : StableHlo.TRef sig ⟨S_, .f32⟩) main_call11.v0 id,
    StableHlo.TRef.unary main_call11.v0 main_call11.v1 (broadcastInDim S16777216x1 ![] bcast_S_S16777216x1),
    StableHlo.TRef.ternary (StableHlo.TRef.of main_v69 : StableHlo.TRef sig ⟨S16777216x1, .i1⟩) (StableHlo.TRef.of main_v67 : StableHlo.TRef sig ⟨S16777216x1, .f32⟩) main_call11.v1 main_call11.v2 select,
    StableHlo.unary main_v70 main_v71 (Host.sqrt : (⟨S16777216x1, .f32⟩ : BufTy).Contents (Elt F) → (⟨S16777216x1, .f32⟩ : BufTy).Contents (Elt F)),
    StableHlo.nullary main_cst_24 (constant S_ .f32 0x00000000#32),
    StableHlo.unary main_cst_24 main_v72 (broadcastInDim S16777216x1 ![] bcast_S_S16777216x1 : (⟨S_, .f32⟩ : BufTy).Contents (Elt F) → (⟨S16777216x1, .f32⟩ : BufTy).Contents (Elt F)),
    StableHlo.binary main_v67 main_v72 main_v73 (cmpf .ogt : (⟨S16777216x1, .f32⟩ : BufTy).Contents (Elt F) → (⟨S16777216x1, .f32⟩ : BufTy).Contents (Elt F) → (⟨S16777216x1, .i1⟩ : BufTy).Contents (Elt F)),
    StableHlo.nullary main_cst_25 (constant S_ .f32 0x00000000#32),
    StableHlo.TRef.unary (StableHlo.TRef.of main_cst_25 : StableHlo.TRef sig ⟨S_, .f32⟩) main_call12.v0 id,
    StableHlo.TRef.unary main_call12.v0 main_call12.v1 (broadcastInDim S16777216x1 ![] bcast_S_S16777216x1),
    StableHlo.TRef.ternary (StableHlo.TRef.of main_v73 : StableHlo.TRef sig ⟨S16777216x1, .i1⟩) (StableHlo.TRef.of main_v71 : StableHlo.TRef sig ⟨S16777216x1, .f32⟩) main_call12.v1 main_call12.v2 select,
    StableHlo.nullary main_cst_26 (constant S_ .f32 0x3F000000#32),
    StableHlo.unary main_cst_26 main_v75 (broadcastInDim S16777216x1 ![] bcast_S_S16777216x1 : (⟨S_, .f32⟩ : BufTy).Contents (Elt F) → (⟨S16777216x1, .f32⟩ : BufTy).Contents (Elt F)),
    StableHlo.binary main_v74 main_v75 main_v76 (maximumf : (⟨S16777216x1, .f32⟩ : BufTy).Contents (Elt F) → (⟨S16777216x1, .f32⟩ : BufTy).Contents (Elt F) → (⟨S16777216x1, .f32⟩ : BufTy).Contents (Elt F)),
    StableHlo.nullary main_cst_27 (constant S_ .f32 0x3F000000#32),
    StableHlo.unary main_cst_27 main_v77 (broadcastInDim S16777216x1 ![] bcast_S_S16777216x1 : (⟨S_, .f32⟩ : BufTy).Contents (Elt F) → (⟨S16777216x1, .f32⟩ : BufTy).Contents (Elt F)),
    StableHlo.binary main_v74 main_v77 main_v78 (cmpf .ogt : (⟨S16777216x1, .f32⟩ : BufTy).Contents (Elt F) → (⟨S16777216x1, .f32⟩ : BufTy).Contents (Elt F) → (⟨S16777216x1, .i1⟩ : BufTy).Contents (Elt F)),
    StableHlo.nullary main_cst_28 (constant S_ .f32 0x3F000000#32),
    StableHlo.unary main_cst_28 main_v79 (broadcastInDim S16777216x1 ![] bcast_S_S16777216x1 : (⟨S_, .f32⟩ : BufTy).Contents (Elt F) → (⟨S16777216x1, .f32⟩ : BufTy).Contents (Elt F)),
    StableHlo.binary main_v79 main_v76 main_v80 (Host.divf : (⟨S16777216x1, .f32⟩ : BufTy).Contents (Elt F) → (⟨S16777216x1, .f32⟩ : BufTy).Contents (Elt F) → (⟨S16777216x1, .f32⟩ : BufTy).Contents (Elt F)),
    StableHlo.nullary main_cst_29 (constant S_ .f32 0x3F800000#32),
    StableHlo.TRef.unary (StableHlo.TRef.of main_cst_29 : StableHlo.TRef sig ⟨S_, .f32⟩) main_call13.v0 id,
    StableHlo.TRef.unary main_call13.v0 main_call13.v1 (broadcastInDim S16777216x1 ![] bcast_S_S16777216x1),
    StableHlo.TRef.ternary (StableHlo.TRef.of main_v78 : StableHlo.TRef sig ⟨S16777216x1, .i1⟩) (StableHlo.TRef.of main_v80 : StableHlo.TRef sig ⟨S16777216x1, .f32⟩) main_call13.v1 main_call13.v2 select,
    StableHlo.unary main_v81 main_v82 (broadcastInDim S16777216x2 ![0, 1] bcast_S16777216x1_S16777216x2_0_1 : (⟨S16777216x1, .f32⟩ : BufTy).Contents (Elt F) → (⟨S16777216x2, .f32⟩ : BufTy).Contents (Elt F)),
    StableHlo.binary main_v64 main_v82 main_v83 (mulf : (⟨S16777216x2, .f32⟩ : BufTy).Contents (Elt F) → (⟨S16777216x2, .f32⟩ : BufTy).Contents (Elt F) → (⟨S16777216x2, .f32⟩ : BufTy).Contents (Elt F)),
    StableHlo.unary main_v63 main_v84 ((extractStridedSlice S16777216x2 ![0, 2] · slices_S16777216x4_S16777216x2_0_2) : (⟨S16777216x4, .f32⟩ : BufTy).Contents (Elt F) → (⟨S16777216x2, .f32⟩ : BufTy).Contents (Elt F)) ]
/-- The last operation of `w7`: the rescaled planar part and the rest side by side. -/
abbrev w7b : List (HloOp τ sig (Elt F)) :=
  [ StableHlo.binary main_v83 main_v84 main_v85 ((fun a b => concatenate S16777216x4 1 [⟨S16777216x2, a⟩, ⟨S16777216x2, b⟩] concatenates_S16777216x2_S16777216x2_S16777216x4_d1) : (⟨S16777216x2, .f32⟩ : BufTy).Contents (Elt F) → (⟨S16777216x2, .f32⟩ : BufTy).Contents (Elt F) → (⟨S16777216x4, .f32⟩ : BufTy).Contents (Elt F)) ]
theorem w7_split : (w7 : List (HloOp τ sig (Elt F))) = w7a ++ w7b := rfl

/-- The buffers `w7a` writes. -/
abbrev w7a_W : List (Ref sig .tc) := [main_v64, main_v65, main_cst_21, main_v66, main_v67, main_cst_22, main_v68, main_v69, main_cst_23, main_call11_v0, main_call11_v1, main_v70, main_v71, main_cst_24, main_v72, main_v73, main_cst_25, main_call12_v0, main_call12_v1, main_v74, main_cst_26, main_v75, main_v76, main_cst_27, main_v77, main_v78, main_cst_28, main_v79, main_v80, main_cst_29, main_call13_v0, main_call13_v1, main_v81, main_v82, main_v83, main_v84]
theorem w7a_writes : (w7a : List (HloOp τ sig (Elt F))).Forall fun op => op.writes ⊆ (w7a_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
set_option maxRecDepth 65536 in
set_option maxHeartbeats 4000000 in
theorem w7a_main_v83 (W : Valuation τ sig (Elt F)) : after w7a W (Proc.devRef .tc main_v83) = ((mulf : (⟨S16777216x2, .f32⟩ : BufTy).Contents (Elt F) → (⟨S16777216x2, .f32⟩ : BufTy).Contents (Elt F) → (⟨S16777216x2, .f32⟩ : BufTy).Contents (Elt F)) ((edgePos (W (Proc.devRef .tc main_v63)))) (((broadcastInDim S16777216x2 ![0, 1] bcast_S16777216x1_S16777216x2_0_1 : (⟨S16777216x1, .f32⟩ : BufTy).Contents (Elt F) → (⟨S16777216x2, .f32⟩ : BufTy).Contents (Elt F)) ((edgeScale (edgeLen (edgeSqLen (edgePos (W (Proc.devRef .tc main_v63)))))))))) := by
  simp only [w7a]
  after_results_simp
  simp only [ofBuf_toBuf, toBuf_main_v69, ofBuf_main_v69, toBuf_main_v67, ofBuf_main_v67, toBuf_main_cst_23, ofBuf_main_cst_23, toBuf_main_v70, ofBuf_main_v70, toBuf_main_v73, ofBuf_main_v73, toBuf_main_v71, ofBuf_main_v71, toBuf_main_cst_25, ofBuf_main_cst_25, toBuf_main_v74, ofBuf_main_v74, toBuf_main_v78, ofBuf_main_v78, toBuf_main_v80, ofBuf_main_v80, toBuf_main_cst_29, ofBuf_main_cst_29, toBuf_main_v81, ofBuf_main_v81]
  rfl
set_option maxRecDepth 65536 in
set_option maxHeartbeats 4000000 in
theorem w7a_main_v84 (W : Valuation τ sig (Elt F)) : after w7a W (Proc.devRef .tc main_v84) = (extractStridedSlice S16777216x2 ![0, 2] ((W (Proc.devRef .tc main_v63))) slices_S16777216x4_S16777216x2_0_2 : (⟨S16777216x2, .f32⟩ : BufTy).Contents (Elt F)) := by
  simp only [w7a]
  after_results_simp
/-- The joining read by itself: the two arrays it finds, side by side. -/
theorem w7b_main_v85 (W : Valuation τ sig (Elt F)) : after w7b W (Proc.devRef .tc main_v85) = (concatenate S16777216x4 1 [⟨S16777216x2, (W (Proc.devRef .tc main_v83))⟩, ⟨S16777216x2, (W (Proc.devRef .tc main_v84))⟩] concatenates_S16777216x2_S16777216x2_S16777216x4_d1 : (⟨S16777216x4, .f32⟩ : BufTy).Contents (Elt F)) := by
  simp only [w7b, after_cons, after_nil]
  rw [binary_result]

set_option maxRecDepth 65536 in
/-- The whole stretch: the edge features of the state differences it finds. -/
theorem w7_main_v85 (W : Valuation τ sig (Elt F)) : after w7 W (Proc.devRef .tc main_v85) = (edgeFeatures (W (Proc.devRef .tc main_v63)) (edgePos (W (Proc.devRef .tc main_v63))) (edgeScale (edgeLen (edgeSqLen (edgePos (W (Proc.devRef .tc main_v63))))))) := by
  rw [w7_split, after_append, w7b_main_v85, w7a_main_v83, w7a_main_v84]
  rfl

/-- The edge features after the whole run are those of the states at launch along the two index rows the run leaves. -/
theorem edges_eq (V0 : Valuation τ sig (Elt F)) :
    after ops V0 (Proc.devRef .tc main_v85)
      = edgeRef (V0 (Proc.devRef .tc main_arg0)) (after ops V0 (Proc.devRef .tc main_v44)) (after ops V0 (Proc.devRef .tc main_v45)) := by
  rw [after_ops, w9_keep _ main_v44 (by decide), w8_keep _ main_v44 (by decide), w7_keep _ main_v44 (by decide), w6_keep _ main_v44 (by decide),
    w9_keep _ main_v45 (by decide), w8_keep _ main_v45 (by decide), w7_keep _ main_v45 (by decide), w6_keep _ main_v45 (by decide),
    w9_keep _ main_v85 (by decide), w8_keep _ main_v85 (by decide), w7_main_v85, w6_main_v63,
    w5_keep _ main_arg0 (by decide), w4_keep _ main_arg0 (by decide), w3_keep _ main_arg0 (by decide), w2_keep _ main_arg0 (by decide), w1_keep _ main_arg0 (by decide), w0_keep _ main_arg0 (by decide)]
  rfl

/-- The same two facts about the run from a launch memory. -/
theorem mask_run (m : (ℓ : Loc nD τ sig) → Buf (Elt F) ℓ) (c : Dev nD) :
    after ops (launchContents m c) (Proc.devRef .tc main_v22) = adjRef (m ((c.tc : Thread nD τ).loc main_arg0)) := mask_eq _
theorem res85_edges (m : (ℓ : Loc nD τ sig) → Buf (Elt F) ℓ) (c : Dev nD) :
    res85 m c = edgeRef (m ((c.tc : Thread nD τ).loc main_arg0)) (after ops (launchContents m c) (Proc.devRef .tc main_v44)) (after ops (launchContents m c) (Proc.devRef .tc main_v45)) := by
  rw [res85_eq]; exact edges_eq _

end Cert.ReferenceIdeal.RefRun

end
-- ==== Proof.RefChain.lean ====
/-
  The reference program's stretch from the adjacency bits to the flat places of the set bits, read as one value.

  The stretch is: flatten and widen the bits and sum them up (a running count), raise the counts to at least zero,
  wrap a negative count round by the length, add a one into an array of zeros at each count's position, and sum that
  up again. Entry k of the result is the row-major place of the k-th set bit. The stretch is cut into four pieces so
  that each of its three full-size operations (the two running sums and the scatter) is read with named buffers as its
  operands; the pieces' readings are then substituted into one another.
-/
import proofs.«174933_j45260365365646_1_alg».proof.Proof.RefRun
import proofs.«174933_j45260365365646_1_alg».proof.Proof.RefRunB

set_option maxRecDepth 16384

noncomputable section

namespace Cert.ReferenceIdeal.RefChain

open Cert.ReferenceIdeal Cert.ReferenceIdeal.Gen Cert.ReferenceIdeal.RefRun
open Idealize.ShloMosaic Idealize.ShloMosaic.TcCoe Idealize.SL.Sem Idealize.ShloMosaic.StableHlo

variable {F : FTy → Type} [FloatOps F]

/-! ## The stretch in four pieces -/

/-- The running count of the bits (`main_v23`). -/
abbrev t1 : List (HloOp τ sig (Elt F)) :=
  [
    StableHlo.TRef.reshape (StableHlo.TRef.of main_v22 : StableHlo.TRef sig ⟨S4096x4096, .i1⟩) main_call2.v0 rfl shapeCasts_S4096x4096_S16777216,
    StableHlo.TRef.unary main_call2.v0 main_call2.v1 (extui 32 · natLt_1_32),
    StableHlo.TRef.nullary main_call2.call0.c (constantI S_ 32 0#32),
    StableHlo.TRef.unary main_call2.call0.c main_call2.call0.v0 (broadcastInDim S_ ![] bcast_S_S_),
    StableHlo.TRef.binary main_call2.v1 main_call2.call0.v0 main_call2.call0.v1 (fun x v => Host.reduceWindow IntOp.addi ![16777216] ![1] ![16777215] ![0] x v reduceWindows_S16777216_S16777216_w16777216s1p16777215_0 h_S_) ]

/-- An array of zeros (`main_v24`) and the counts raised to at least zero (`main_v25`). -/
abbrev t2 : List (HloOp τ sig (Elt F)) :=
  [
    StableHlo.nullary main_c_5 (constantI S_ 32 0#32),
    StableHlo.unary main_c_5 main_v24 (broadcastInDim S16777216 ![] bcast_S_S16777216 : (⟨S_, .i32⟩ : BufTy).Contents (Elt F) → (⟨S16777216, .i32⟩ : BufTy).Contents (Elt F)),
    StableHlo.nullary main_c_6 (constantI S_ 32 0#32),
    StableHlo.TRef.unary (StableHlo.TRef.of main_c_6 : StableHlo.TRef sig ⟨S_, .i32⟩) main_call3.v0 id,
    StableHlo.TRef.unary main_call3.v0 main_call3.v1 (broadcastInDim S16777216 ![] bcast_S_S16777216),
    StableHlo.TRef.binary main_call3.v1 (StableHlo.TRef.of main_v23 : StableHlo.TRef sig ⟨S16777216, .i32⟩) main_call3.v2 maxsi ]

/-- Ones added into the zeros at the wrapped counts' positions (`main_v33`). -/
abbrev t3 : List (HloOp τ sig (Elt F)) :=
  [
    StableHlo.nullary main_c_7 (constantI S_ 32 0#32),
    StableHlo.unary main_c_7 main_v26 (broadcastInDim S16777216 ![] bcast_S_S16777216 : (⟨S_, .i32⟩ : BufTy).Contents (Elt F) → (⟨S16777216, .i32⟩ : BufTy).Contents (Elt F)),
    StableHlo.binary main_v25 main_v26 main_v27 (cmpi .slt : (⟨S16777216, .i32⟩ : BufTy).Contents (Elt F) → (⟨S16777216, .i32⟩ : BufTy).Contents (Elt F) → (⟨S16777216, .i1⟩ : BufTy).Contents (Elt F)),
    StableHlo.nullary main_c_8 (constantI S_ 32 16777216#32),
    StableHlo.unary main_c_8 main_v28 (broadcastInDim S16777216 ![] bcast_S_S16777216 : (⟨S_, .i32⟩ : BufTy).Contents (Elt F) → (⟨S16777216, .i32⟩ : BufTy).Contents (Elt F)),
    StableHlo.binary main_v25 main_v28 main_v29 (addi : (⟨S16777216, .i32⟩ : BufTy).Contents (Elt F) → (⟨S16777216, .i32⟩ : BufTy).Contents (Elt F) → (⟨S16777216, .i32⟩ : BufTy).Contents (Elt F)),
    StableHlo.ternary main_v27 main_v29 main_v25 main_v30 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v30 main_v31 (broadcastInDim S16777216x1 ![0] bcast_S16777216_S16777216x1_0 : (⟨S16777216, .i32⟩ : BufTy).Contents (Elt F) → (⟨S16777216x1, .i32⟩ : BufTy).Contents (Elt F)),
    StableHlo.nullary main_c_9 (constantI S_ 32 1#32),
    StableHlo.unary main_c_9 main_v32 (broadcastInDim S16777216 ![] bcast_S_S16777216 : (⟨S_, .i32⟩ : BufTy).Contents (Elt F) → (⟨S16777216, .i32⟩ : BufTy).Contents (Elt F)),
    StableHlo.ternary main_v24 main_v31 main_v32 main_v33 ((fun x i u => Host.scatter scatter_S16777216_S16777216x1_S16777216_n_0_0_1 IntOp.addi x i u) : (⟨S16777216, .i32⟩ : BufTy).Contents (Elt F) → (⟨S16777216x1, .i32⟩ : BufTy).Contents (Elt F) → (⟨S16777216, .i32⟩ : BufTy).Contents (Elt F) → (⟨S16777216, .i32⟩ : BufTy).Contents (Elt F)) ]

/-- The running sum of that (`main_v34`). -/
abbrev t4 : List (HloOp τ sig (Elt F)) :=
  [
    StableHlo.TRef.nullary main_call4.call0.c (constantI S_ 32 0#32),
    StableHlo.TRef.unary main_call4.call0.c main_call4.call0.v0 (broadcastInDim S_ ![] bcast_S_S_),
    StableHlo.TRef.binary (StableHlo.TRef.of main_v33 : StableHlo.TRef sig ⟨S16777216, .i32⟩) main_call4.call0.v0 main_call4.call0.v1 (fun x v => Host.reduceWindow IntOp.addi ![16777216] ![1] ![16777215] ![0] x v reduceWindows_S16777216_S16777216_w16777216s1p16777215_0 h_S_) ]

/-- The stretch is the four pieces in order. -/
theorem w1_cut : (w1 : List (HloOp τ sig (Elt F))) = t1 ++ (t2 ++ (t3 ++ t4)) := rfl

/-! ## A typed reference's type is its buffer's: the move between the two is the identity -/

theorem tb_call2_v0 (p1 p2 p3) (v : (⟨S16777216, .i1⟩ : BufTy).Contents (Elt F)) :
    (StableHlo.TRef.of main_call2_v0 p1 p2 p3 : StableHlo.TRef sig ⟨S16777216, .i1⟩).toBuf (Val := Elt F) v = v := rfl
theorem ob_call2_v0 (p1 p2 p3) (v : (⟨S16777216, .i1⟩ : BufTy).Contents (Elt F)) :
    (StableHlo.TRef.of main_call2_v0 p1 p2 p3 : StableHlo.TRef sig ⟨S16777216, .i1⟩).ofBuf (Val := Elt F) v = v := rfl
theorem tb_call2_v1 (p1 p2 p3) (v : (⟨S16777216, .i32⟩ : BufTy).Contents (Elt F)) :
    (StableHlo.TRef.of main_call2_v1 p1 p2 p3 : StableHlo.TRef sig ⟨S16777216, .i32⟩).toBuf (Val := Elt F) v = v := rfl
theorem ob_call2_v1 (p1 p2 p3) (v : (⟨S16777216, .i32⟩ : BufTy).Contents (Elt F)) :
    (StableHlo.TRef.of main_call2_v1 p1 p2 p3 : StableHlo.TRef sig ⟨S16777216, .i32⟩).ofBuf (Val := Elt F) v = v := rfl
theorem tb_call2_call0_c (p1 p2 p3) (v : (⟨S_, .i32⟩ : BufTy).Contents (Elt F)) :
    (StableHlo.TRef.of main_call2_call0_c p1 p2 p3 : StableHlo.TRef sig ⟨S_, .i32⟩).toBuf (Val := Elt F) v = v := rfl
theorem ob_call2_call0_c (p1 p2 p3) (v : (⟨S_, .i32⟩ : BufTy).Contents (Elt F)) :
    (StableHlo.TRef.of main_call2_call0_c p1 p2 p3 : StableHlo.TRef sig ⟨S_, .i32⟩).ofBuf (Val := Elt F) v = v := rfl
theorem tb_call2_call0_v0 (p1 p2 p3) (v : (⟨S_, .i32⟩ : BufTy).Contents (Elt F)) :
    (StableHlo.TRef.of main_call2_call0_v0 p1 p2 p3 : StableHlo.TRef sig ⟨S_, .i32⟩).toBuf (Val := Elt F) v = v := rfl
theorem ob_call2_call0_v0 (p1 p2 p3) (v : (⟨S_, .i32⟩ : BufTy).Contents (Elt F)) :
    (StableHlo.TRef.of main_call2_call0_v0 p1 p2 p3 : StableHlo.TRef sig ⟨S_, .i32⟩).ofBuf (Val := Elt F) v = v := rfl
theorem tb_v23 (p1 p2 p3) (v : (⟨S16777216, .i32⟩ : BufTy).Contents (Elt F)) :
    (StableHlo.TRef.of main_v23 p1 p2 p3 : StableHlo.TRef sig ⟨S16777216, .i32⟩).toBuf (Val := Elt F) v = v := rfl
theorem ob_v23 (p1 p2 p3) (v : (⟨S16777216, .i32⟩ : BufTy).Contents (Elt F)) :
    (StableHlo.TRef.of main_v23 p1 p2 p3 : StableHlo.TRef sig ⟨S16777216, .i32⟩).ofBuf (Val := Elt F) v = v := rfl
theorem tb_c_6 (p1 p2 p3) (v : (⟨S_, .i32⟩ : BufTy).Contents (Elt F)) :
    (StableHlo.TRef.of main_c_6 p1 p2 p3 : StableHlo.TRef sig ⟨S_, .i32⟩).toBuf (Val := Elt F) v = v := rfl
theorem ob_c_6 (p1 p2 p3) (v : (⟨S_, .i32⟩ : BufTy).Contents (Elt F)) :
    (StableHlo.TRef.of main_c_6 p1 p2 p3 : StableHlo.TRef sig ⟨S_, .i32⟩).ofBuf (Val := Elt F) v = v := rfl
theorem tb_call3_v0 (p1 p2 p3) (v : (⟨S_, .i32⟩ : BufTy).Contents (Elt F)) :
    (StableHlo.TRef.of main_call3_v0 p1 p2 p3 : StableHlo.TRef sig ⟨S_, .i32⟩).toBuf (Val := Elt F) v = v := rfl
theorem ob_call3_v0 (p1 p2 p3) (v : (⟨S_, .i32⟩ : BufTy).Contents (Elt F)) :
    (StableHlo.TRef.of main_call3_v0 p1 p2 p3 : StableHlo.TRef sig ⟨S_, .i32⟩).ofBuf (Val := Elt F) v = v := rfl
theorem tb_call3_v1 (p1 p2 p3) (v : (⟨S16777216, .i32⟩ : BufTy).Contents (Elt F)) :
    (StableHlo.TRef.of main_call3_v1 p1 p2 p3 : StableHlo.TRef sig ⟨S16777216, .i32⟩).toBuf (Val := Elt F) v = v := rfl
theorem ob_call3_v1 (p1 p2 p3) (v : (⟨S16777216, .i32⟩ : BufTy).Contents (Elt F)) :
    (StableHlo.TRef.of main_call3_v1 p1 p2 p3 : StableHlo.TRef sig ⟨S16777216, .i32⟩).ofBuf (Val := Elt F) v = v := rfl
theorem tb_v25 (p1 p2 p3) (v : (⟨S16777216, .i32⟩ : BufTy).Contents (Elt F)) :
    (StableHlo.TRef.of main_v25 p1 p2 p3 : StableHlo.TRef sig ⟨S16777216, .i32⟩).toBuf (Val := Elt F) v = v := rfl
theorem ob_v25 (p1 p2 p3) (v : (⟨S16777216, .i32⟩ : BufTy).Contents (Elt F)) :
    (StableHlo.TRef.of main_v25 p1 p2 p3 : StableHlo.TRef sig ⟨S16777216, .i32⟩).ofBuf (Val := Elt F) v = v := rfl
theorem tb_call4_call0_c (p1 p2 p3) (v : (⟨S_, .i32⟩ : BufTy).Contents (Elt F)) :
    (StableHlo.TRef.of main_call4_call0_c p1 p2 p3 : StableHlo.TRef sig ⟨S_, .i32⟩).toBuf (Val := Elt F) v = v := rfl
theorem ob_call4_call0_c (p1 p2 p3) (v : (⟨S_, .i32⟩ : BufTy).Contents (Elt F)) :
    (StableHlo.TRef.of main_call4_call0_c p1 p2 p3 : StableHlo.TRef sig ⟨S_, .i32⟩).ofBuf (Val := Elt F) v = v := rfl
theorem tb_call4_call0_v0 (p1 p2 p3) (v : (⟨S_, .i32⟩ : BufTy).Contents (Elt F)) :
    (StableHlo.TRef.of main_call4_call0_v0 p1 p2 p3 : StableHlo.TRef sig ⟨S_, .i32⟩).toBuf (Val := Elt F) v = v := rfl
theorem ob_call4_call0_v0 (p1 p2 p3) (v : (⟨S_, .i32⟩ : BufTy).Contents (Elt F)) :
    (StableHlo.TRef.of main_call4_call0_v0 p1 p2 p3 : StableHlo.TRef sig ⟨S_, .i32⟩).ofBuf (Val := Elt F) v = v := rfl
theorem tb_v33 (p1 p2 p3) (v : (⟨S16777216, .i32⟩ : BufTy).Contents (Elt F)) :
    (StableHlo.TRef.of main_v33 p1 p2 p3 : StableHlo.TRef sig ⟨S16777216, .i32⟩).toBuf (Val := Elt F) v = v := rfl
theorem ob_v33 (p1 p2 p3) (v : (⟨S16777216, .i32⟩ : BufTy).Contents (Elt F)) :
    (StableHlo.TRef.of main_v33 p1 p2 p3 : StableHlo.TRef sig ⟨S16777216, .i32⟩).ofBuf (Val := Elt F) v = v := rfl
theorem tb_v34 (p1 p2 p3) (v : (⟨S16777216, .i32⟩ : BufTy).Contents (Elt F)) :
    (StableHlo.TRef.of main_v34 p1 p2 p3 : StableHlo.TRef sig ⟨S16777216, .i32⟩).toBuf (Val := Elt F) v = v := rfl
theorem ob_v34 (p1 p2 p3) (v : (⟨S16777216, .i32⟩ : BufTy).Contents (Elt F)) :
    (StableHlo.TRef.of main_v34 p1 p2 p3 : StableHlo.TRef sig ⟨S16777216, .i32⟩).ofBuf (Val := Elt F) v = v := rfl

/-! ## One reading per piece, from ANY contents before it -/

theorem rd_v23 (V : Valuation τ sig (Elt F)) :
    after t1 V (Proc.devRef .tc main_v23) = maskRunningSum (V (Proc.devRef .tc main_v22)) := by
  dsimp only [t1, main_call2, main_call2_call0]
  after_results_simp
  simp only [tb_call2_v0, ob_call2_v0, tb_call2_v1, ob_call2_v1, tb_call2_call0_c, ob_call2_call0_c, tb_call2_call0_v0, ob_call2_call0_v0, tb_v23, ob_v23, tb_c_6, ob_c_6, tb_call3_v0, ob_call3_v0, tb_call3_v1, ob_call3_v1, tb_v25, ob_v25, tb_call4_call0_c, ob_call4_call0_c, tb_call4_call0_v0, ob_call4_call0_v0, tb_v33, ob_v33, tb_v34, ob_v34]
  rfl

theorem rd_v24 (V : Valuation τ sig (Elt F)) :
    after t2 V (Proc.devRef .tc main_v24)
      = (broadcastInDim S16777216 ![] bcast_S_S16777216 (constantI S_ 32 0#32 : (⟨S_, .i32⟩ : BufTy).Contents (Elt F)) : (⟨S16777216, .i32⟩ : BufTy).Contents (Elt F)) := by
  dsimp only [t2, main_call3]
  after_results_simp
  try rfl

theorem rd_v25 (V : Valuation τ sig (Elt F)) :
    after t2 V (Proc.devRef .tc main_v25)
      = clipBelow (V (Proc.devRef .tc main_v23)) (constantI S_ 32 0#32 : (⟨S_, .i32⟩ : BufTy).Contents (Elt F)) := by
  dsimp only [t2, main_call3]
  after_results_simp
  simp only [tb_call2_v0, ob_call2_v0, tb_call2_v1, ob_call2_v1, tb_call2_call0_c, ob_call2_call0_c, tb_call2_call0_v0, ob_call2_call0_v0, tb_v23, ob_v23, tb_c_6, ob_c_6, tb_call3_v0, ob_call3_v0, tb_call3_v1, ob_call3_v1, tb_v25, ob_v25, tb_call4_call0_c, ob_call4_call0_c, tb_call4_call0_v0, ob_call4_call0_v0, tb_v33, ob_v33, tb_v34, ob_v34]
  rfl

/-- The scatter, its three operands named: the array it adds into, the counts it takes the positions from. -/
def scatterOnes (z p : (⟨S16777216, .i32⟩ : BufTy).Contents (Elt F)) : (⟨S16777216, .i32⟩ : BufTy).Contents (Elt F) :=
  Host.scatter scatter_S16777216_S16777216x1_S16777216_n_0_0_1 IntOp.addi z
    (broadcastInDim S16777216x1 ![0] bcast_S16777216_S16777216x1_0
      (select (cmpi .slt p (broadcastInDim S16777216 ![] bcast_S_S16777216 (constantI S_ 32 0#32 : (⟨S_, .i32⟩ : BufTy).Contents (Elt F))))
        (addi p (broadcastInDim S16777216 ![] bcast_S_S16777216 (constantI S_ 32 16777216#32 : (⟨S_, .i32⟩ : BufTy).Contents (Elt F)))) p))
    (broadcastInDim S16777216 ![] bcast_S_S16777216 (constantI S_ 32 1#32 : (⟨S_, .i32⟩ : BufTy).Contents (Elt F)))

theorem rd_v33 (V : Valuation τ sig (Elt F)) :
    after t3 V (Proc.devRef .tc main_v33)
      = scatterOnes (V (Proc.devRef .tc main_v24)) (V (Proc.devRef .tc main_v25)) := by
  dsimp only [t3]
  after_results_simp
  try rfl

theorem rd_v34 (V : Valuation τ sig (Elt F)) :
    after t4 V (Proc.devRef .tc main_v34) = runningSum1 (V (Proc.devRef .tc main_v33)) := by
  dsimp only [t4, main_call4, main_call4_call0]
  after_results_simp
  simp only [tb_call2_v0, ob_call2_v0, tb_call2_v1, ob_call2_v1, tb_call2_call0_c, ob_call2_call0_c, tb_call2_call0_v0, ob_call2_call0_v0, tb_v23, ob_v23, tb_c_6, ob_c_6, tb_call3_v0, ob_call3_v0, tb_call3_v1, ob_call3_v1, tb_v25, ob_v25, tb_call4_call0_c, ob_call4_call0_c, tb_call4_call0_v0, ob_call4_call0_v0, tb_v33, ob_v33, tb_v34, ob_v34]
  rfl

/-! ## The stretch as one value -/

/-- The places are the second running sum of the scatter into zeros at the clipped counts. -/
theorem edgePlace_eq (p : (⟨S16777216, .i32⟩ : BufTy).Contents (Elt F)) :
    edgePlace p = runningSum1 (scatterOnes
      (broadcastInDim S16777216 ![] bcast_S_S16777216 (constantI S_ 32 0#32 : (⟨S_, .i32⟩ : BufTy).Contents (Elt F))) p) := rfl

/-- THE STRETCH: from any contents, it leaves in `main_v34` the flat places of the set bits of what `main_v22` held. -/
theorem w1_main_v34 (V : Valuation τ sig (Elt F)) :
    after w1 V (Proc.devRef .tc main_v34) = edgePlace (clippedCount (V (Proc.devRef .tc main_v22))) := by
  rw [w1_cut, after_append, after_append, after_append]
  rw [rd_v34, rd_v33, rd_v24, rd_v25, rd_v23, edgePlace_eq]
  rfl

end Cert.ReferenceIdeal.RefChain

end
-- ==== Proof.RefChain2.lean ====
/-
  The reference program's edge index read as one value: the senders over the receivers of its adjacency bits.

  After the bits (`main_v22`) the program computes the flat places of the set bits (the stretch read in RefChain), the
  row and the column of each place by a floor division and a remainder, the places past the number of set bits, the
  fill value 0 there, and stacks the two index arrays. Each stretch is read from any contents before it, cut where a
  value is passed to the next called function, and the readings are substituted into one another along the fold.
-/
import proofs.«174933_j45260365365646_1_alg».proof.Proof.RefRun
import proofs.«174933_j45260365365646_1_alg».proof.Proof.RefRunB
import proofs.«174933_j45260365365646_1_alg».proof.Proof.RefChain

set_option maxRecDepth 16384

noncomputable section

namespace Cert.ReferenceIdeal.RefChain

open Cert.ReferenceIdeal Cert.ReferenceIdeal.Gen Cert.ReferenceIdeal.RefRun
open Idealize.ShloMosaic Idealize.ShloMosaic.TcCoe Idealize.SL.Sem Idealize.ShloMosaic.StableHlo

variable {F : FTy → Type} [FloatOps F]

/-! ## The stretches cut where a value passes to the next called function -/

/-- The floor quotient of the places by the row length (`main_v35`). -/
abbrev w2a : List (HloOp τ sig (Elt F)) :=
  [
    StableHlo.nullary main_c_10 (constantI S_ 32 4096#32),
    StableHlo.TRef.unary (StableHlo.TRef.of main_c_10 : StableHlo.TRef sig ⟨S_, .i32⟩) main_call5.v0 (broadcastInDim S16777216 ![] bcast_S_S16777216),
    StableHlo.TRef.binary (StableHlo.TRef.of main_v34 : StableHlo.TRef sig ⟨S16777216, .i32⟩) main_call5.v0 main_call5.v1 Host.divsi,
    StableHlo.TRef.unary (StableHlo.TRef.of main_v34 : StableHlo.TRef sig ⟨S16777216, .i32⟩) main_call5.v2 signi,
    StableHlo.TRef.unary (StableHlo.TRef.of main_c_10 : StableHlo.TRef sig ⟨S_, .i32⟩) main_call5.v3 signi,
    StableHlo.TRef.unary main_call5.v3 main_call5.v4 (broadcastInDim S16777216 ![] bcast_S_S16777216),
    StableHlo.TRef.binary main_call5.v2 main_call5.v4 main_call5.v5 (cmpi .ne),
    StableHlo.TRef.unary (StableHlo.TRef.of main_c_10 : StableHlo.TRef sig ⟨S_, .i32⟩) main_call5.v6 (broadcastInDim S16777216 ![] bcast_S_S16777216),
    StableHlo.TRef.binary (StableHlo.TRef.of main_v34 : StableHlo.TRef sig ⟨S16777216, .i32⟩) main_call5.v6 main_call5.v7 Host.remsi,
    StableHlo.TRef.nullary main_call5.c (constantI S_ 32 0#32),
    StableHlo.TRef.unary main_call5.c main_call5.v8 (broadcastInDim S16777216 ![] bcast_S_S16777216),
    StableHlo.TRef.binary main_call5.v7 main_call5.v8 main_call5.v9 (cmpi .ne),
    StableHlo.TRef.binary main_call5.v5 main_call5.v9 main_call5.v10 andi,
    StableHlo.TRef.nullary main_call5.c_0 (constantI S_ 32 1#32),
    StableHlo.TRef.unary main_call5.c_0 main_call5.v11 (broadcastInDim S16777216 ![] bcast_S_S16777216),
    StableHlo.TRef.binary main_call5.v1 main_call5.v11 main_call5.v12 subi,
    StableHlo.TRef.ternary main_call5.v10 main_call5.v12 main_call5.v1 main_call5.call0.v0 select ]
/-- Its remainder by the row length (`main_v36`). -/
abbrev w2b : List (HloOp τ sig (Elt F)) :=
  [
    StableHlo.nullary main_c_11 (constantI S_ 32 4096#32),
    StableHlo.TRef.unary (StableHlo.TRef.of main_c_11 : StableHlo.TRef sig ⟨S_, .i32⟩) main_call6.v0 id,
    StableHlo.TRef.nullary main_call6.c (constantI S_ 32 0#32),
    StableHlo.TRef.binary main_call6.v0 main_call6.c main_call6.v1 (cmpi .eq),
    StableHlo.TRef.nullary main_call6.c_0 (constantI S_ 32 1#32),
    StableHlo.TRef.ternary main_call6.v1 main_call6.c_0 main_call6.v0 main_call6.call0.v0 select,
    StableHlo.TRef.unary main_call6.call0.v0 main_call6.v3 (broadcastInDim S16777216 ![] bcast_S_S16777216),
    StableHlo.TRef.binary (StableHlo.TRef.of main_v35 : StableHlo.TRef sig ⟨S16777216, .i32⟩) main_call6.v3 main_call6.v4 Host.remsi,
    StableHlo.TRef.nullary main_call6.c_1 (constantI S_ 32 0#32),
    StableHlo.TRef.unary main_call6.c_1 main_call6.v5 (broadcastInDim S16777216 ![] bcast_S_S16777216),
    StableHlo.TRef.binary main_call6.v4 main_call6.v5 main_call6.v6 (cmpi .ne),
    StableHlo.TRef.nullary main_call6.c_2 (constantI S_ 32 0#32),
    StableHlo.TRef.unary main_call6.c_2 main_call6.v7 (broadcastInDim S16777216 ![] bcast_S_S16777216),
    StableHlo.TRef.binary main_call6.v4 main_call6.v7 main_call6.v8 (cmpi .slt),
    StableHlo.TRef.nullary main_call6.c_3 (constantI S_ 32 0#32),
    StableHlo.TRef.binary main_call6.call0.v0 main_call6.c_3 main_call6.v9 (cmpi .slt),
    StableHlo.TRef.unary main_call6.v9 main_call6.v10 (broadcastInDim S16777216 ![] bcast_S_S16777216),
    StableHlo.TRef.binary main_call6.v8 main_call6.v10 main_call6.v11 (cmpi .ne),
    StableHlo.TRef.binary main_call6.v11 main_call6.v6 main_call6.v12 andi,
    StableHlo.TRef.unary main_call6.call0.v0 main_call6.v13 (broadcastInDim S16777216 ![] bcast_S_S16777216),
    StableHlo.TRef.binary main_call6.v4 main_call6.v13 main_call6.v14 addi,
    StableHlo.TRef.ternary main_call6.v12 main_call6.v14 main_call6.v4 main_call6.v15 select ]
theorem w2_cut : (w2 : List (HloOp τ sig (Elt F))) = w2a ++ w2b := rfl

/-- The floor quotient of the places by one (`main_v37`). -/
abbrev w3a : List (HloOp τ sig (Elt F)) :=
  [
    StableHlo.nullary main_c_12 (constantI S_ 32 1#32),
    StableHlo.TRef.unary (StableHlo.TRef.of main_c_12 : StableHlo.TRef sig ⟨S_, .i32⟩) main_call7.v0 (broadcastInDim S16777216 ![] bcast_S_S16777216),
    StableHlo.TRef.binary (StableHlo.TRef.of main_v34 : StableHlo.TRef sig ⟨S16777216, .i32⟩) main_call7.v0 main_call7.v1 Host.divsi,
    StableHlo.TRef.unary (StableHlo.TRef.of main_v34 : StableHlo.TRef sig ⟨S16777216, .i32⟩) main_call7.v2 signi,
    StableHlo.TRef.unary (StableHlo.TRef.of main_c_12 : StableHlo.TRef sig ⟨S_, .i32⟩) main_call7.v3 signi,
    StableHlo.TRef.unary main_call7.v3 main_call7.v4 (broadcastInDim S16777216 ![] bcast_S_S16777216),
    StableHlo.TRef.binary main_call7.v2 main_call7.v4 main_call7.v5 (cmpi .ne),
    StableHlo.TRef.unary (StableHlo.TRef.of main_c_12 : StableHlo.TRef sig ⟨S_, .i32⟩) main_call7.v6 (broadcastInDim S16777216 ![] bcast_S_S16777216),
    StableHlo.TRef.binary (StableHlo.TRef.of main_v34 : StableHlo.TRef sig ⟨S16777216, .i32⟩) main_call7.v6 main_call7.v7 Host.remsi,
    StableHlo.TRef.nullary main_call7.c (constantI S_ 32 0#32),
    StableHlo.TRef.unary main_call7.c main_call7.v8 (broadcastInDim S16777216 ![] bcast_S_S16777216),
    StableHlo.TRef.binary main_call7.v7 main_call7.v8 main_call7.v9 (cmpi .ne),
    StableHlo.TRef.binary main_call7.v5 main_call7.v9 main_call7.v10 andi,
    StableHlo.TRef.nullary main_call7.c_0 (constantI S_ 32 1#32),
    StableHlo.TRef.unary main_call7.c_0 main_call7.v11 (broadcastInDim S16777216 ![] bcast_S_S16777216),
    StableHlo.TRef.binary main_call7.v1 main_call7.v11 main_call7.v12 subi,
    StableHlo.TRef.ternary main_call7.v10 main_call7.v12 main_call7.v1 main_call7.call0.v0 select ]
/-- Its remainder by the row length (`main_v38`). -/
abbrev w3b : List (HloOp τ sig (Elt F)) :=
  [
    StableHlo.nullary main_c_13 (constantI S_ 32 4096#32),
    StableHlo.TRef.unary (StableHlo.TRef.of main_c_13 : StableHlo.TRef sig ⟨S_, .i32⟩) main_call8.v0 id,
    StableHlo.TRef.nullary main_call8.c (constantI S_ 32 0#32),
    StableHlo.TRef.binary main_call8.v0 main_call8.c main_call8.v1 (cmpi .eq),
    StableHlo.TRef.nullary main_call8.c_0 (constantI S_ 32 1#32),
    StableHlo.TRef.ternary main_call8.v1 main_call8.c_0 main_call8.v0 main_call8.call0.v0 select,
    StableHlo.TRef.unary main_call8.call0.v0 main_call8.v3 (broadcastInDim S16777216 ![] bcast_S_S16777216),
    StableHlo.TRef.binary (StableHlo.TRef.of main_v37 : StableHlo.TRef sig ⟨S16777216, .i32⟩) main_call8.v3 main_call8.v4 Host.remsi,
    StableHlo.TRef.nullary main_call8.c_1 (constantI S_ 32 0#32),
    StableHlo.TRef.unary main_call8.c_1 main_call8.v5 (broadcastInDim S16777216 ![] bcast_S_S16777216),
    StableHlo.TRef.binary main_call8.v4 main_call8.v5 main_call8.v6 (cmpi .ne),
    StableHlo.TRef.nullary main_call8.c_2 (constantI S_ 32 0#32),
    StableHlo.TRef.unary main_call8.c_2 main_call8.v7 (broadcastInDim S16777216 ![] bcast_S_S16777216),
    StableHlo.TRef.binary main_call8.v4 main_call8.v7 main_call8.v8 (cmpi .slt),
    StableHlo.TRef.nullary main_call8.c_3 (constantI S_ 32 0#32),
    StableHlo.TRef.binary main_call8.call0.v0 main_call8.c_3 main_call8.v9 (cmpi .slt),
    StableHlo.TRef.unary main_call8.v9 main_call8.v10 (broadcastInDim S16777216 ![] bcast_S_S16777216),
    StableHlo.TRef.binary main_call8.v8 main_call8.v10 main_call8.v11 (cmpi .ne),
    StableHlo.TRef.binary main_call8.v11 main_call8.v6 main_call8.v12 andi,
    StableHlo.TRef.unary main_call8.call0.v0 main_call8.v13 (broadcastInDim S16777216 ![] bcast_S_S16777216),
    StableHlo.TRef.binary main_call8.v4 main_call8.v13 main_call8.v14 addi,
    StableHlo.TRef.ternary main_call8.v12 main_call8.v14 main_call8.v4 main_call8.v15 select ]
theorem w3_cut : (w3 : List (HloOp τ sig (Elt F))) = w3a ++ w3b := rfl

/-- The fill past the count and the two arrays laid as rows (`main_v43` … `main_v47`). -/
abbrev w5a : List (HloOp τ sig (Elt F)) :=
  [
    StableHlo.binary main_v39 main_v42 main_v43 (cmpi .sge : (⟨S16777216, .i32⟩ : BufTy).Contents (Elt F) → (⟨S16777216, .i32⟩ : BufTy).Contents (Elt F) → (⟨S16777216, .i1⟩ : BufTy).Contents (Elt F)),
    StableHlo.nullary main_c_15 (constantI S_ 32 0#32),
    StableHlo.TRef.unary (StableHlo.TRef.of main_c_15 : StableHlo.TRef sig ⟨S_, .i32⟩) main_call9.v0 id,
    StableHlo.TRef.unary main_call9.v0 main_call9.v1 (broadcastInDim S16777216 ![] bcast_S_S16777216),
    StableHlo.TRef.ternary (StableHlo.TRef.of main_v43 : StableHlo.TRef sig ⟨S16777216, .i1⟩) main_call9.v1 (StableHlo.TRef.of main_v36 : StableHlo.TRef sig ⟨S16777216, .i32⟩) main_call9.v2 select,
    StableHlo.nullary main_c_16 (constantI S_ 32 0#32),
    StableHlo.TRef.unary (StableHlo.TRef.of main_c_16 : StableHlo.TRef sig ⟨S_, .i32⟩) main_call10.v0 id,
    StableHlo.TRef.unary main_call10.v0 main_call10.v1 (broadcastInDim S16777216 ![] bcast_S_S16777216),
    StableHlo.TRef.ternary (StableHlo.TRef.of main_v43 : StableHlo.TRef sig ⟨S16777216, .i1⟩) main_call10.v1 (StableHlo.TRef.of main_v38 : StableHlo.TRef sig ⟨S16777216, .i32⟩) main_call10.v2 select,
    StableHlo.unary main_v44 main_v46 (broadcastInDim S1x16777216 ![1] bcast_S16777216_S1x16777216_1 : (⟨S16777216, .i32⟩ : BufTy).Contents (Elt F) → (⟨S1x16777216, .i32⟩ : BufTy).Contents (Elt F)),
    StableHlo.unary main_v45 main_v47 (broadcastInDim S1x16777216 ![1] bcast_S16777216_S1x16777216_1 : (⟨S16777216, .i32⟩ : BufTy).Contents (Elt F) → (⟨S1x16777216, .i32⟩ : BufTy).Contents (Elt F)) ]
/-- The two rows stacked (`main_v48`). -/
abbrev w5b : List (HloOp τ sig (Elt F)) :=
  [
    StableHlo.binary main_v46 main_v47 main_v48 ((fun a b => concatenate S2x16777216 0 [⟨S1x16777216, a⟩, ⟨S1x16777216, b⟩] concatenates_S1x16777216_S1x16777216_S2x16777216_d0) : (⟨S1x16777216, .i32⟩ : BufTy).Contents (Elt F) → (⟨S1x16777216, .i32⟩ : BufTy).Contents (Elt F) → (⟨S2x16777216, .i32⟩ : BufTy).Contents (Elt F)) ]
theorem w5_cut : (w5 : List (HloOp τ sig (Elt F))) = w5a ++ w5b := rfl

/-! ## A typed reference's type is its buffer's: the move between the two is the identity -/

theorem tb_v35 (p1 p2 p3) (v : (⟨S16777216, .i32⟩ : BufTy).Contents (Elt F)) :
    (StableHlo.TRef.of main_v35 p1 p2 p3 : StableHlo.TRef sig ⟨S16777216, .i32⟩).toBuf (Val := Elt F) v = v := rfl
theorem ob_v35 (p1 p2 p3) (v : (⟨S16777216, .i32⟩ : BufTy).Contents (Elt F)) :
    (StableHlo.TRef.of main_v35 p1 p2 p3 : StableHlo.TRef sig ⟨S16777216, .i32⟩).ofBuf (Val := Elt F) v = v := rfl
theorem tb_call5_v0 (p1 p2 p3) (v : (⟨S16777216, .i32⟩ : BufTy).Contents (Elt F)) :
    (StableHlo.TRef.of main_call5_v0 p1 p2 p3 : StableHlo.TRef sig ⟨S16777216, .i32⟩).toBuf (Val := Elt F) v = v := rfl
theorem ob_call5_v0 (p1 p2 p3) (v : (⟨S16777216, .i32⟩ : BufTy).Contents (Elt F)) :
    (StableHlo.TRef.of main_call5_v0 p1 p2 p3 : StableHlo.TRef sig ⟨S16777216, .i32⟩).ofBuf (Val := Elt F) v = v := rfl
theorem tb_call5_v1 (p1 p2 p3) (v : (⟨S16777216, .i32⟩ : BufTy).Contents (Elt F)) :
    (StableHlo.TRef.of main_call5_v1 p1 p2 p3 : StableHlo.TRef sig ⟨S16777216, .i32⟩).toBuf (Val := Elt F) v = v := rfl
theorem ob_call5_v1 (p1 p2 p3) (v : (⟨S16777216, .i32⟩ : BufTy).Contents (Elt F)) :
    (StableHlo.TRef.of main_call5_v1 p1 p2 p3 : StableHlo.TRef sig ⟨S16777216, .i32⟩).ofBuf (Val := Elt F) v = v := rfl
theorem tb_call5_v2 (p1 p2 p3) (v : (⟨S16777216, .i32⟩ : BufTy).Contents (Elt F)) :
    (StableHlo.TRef.of main_call5_v2 p1 p2 p3 : StableHlo.TRef sig ⟨S16777216, .i32⟩).toBuf (Val := Elt F) v = v := rfl
theorem ob_call5_v2 (p1 p2 p3) (v : (⟨S16777216, .i32⟩ : BufTy).Contents (Elt F)) :
    (StableHlo.TRef.of main_call5_v2 p1 p2 p3 : StableHlo.TRef sig ⟨S16777216, .i32⟩).ofBuf (Val := Elt F) v = v := rfl
theorem tb_call5_v3 (p1 p2 p3) (v : (⟨S_, .i32⟩ : BufTy).Contents (Elt F)) :
    (StableHlo.TRef.of main_call5_v3 p1 p2 p3 : StableHlo.TRef sig ⟨S_, .i32⟩).toBuf (Val := Elt F) v = v := rfl
theorem ob_call5_v3 (p1 p2 p3) (v : (⟨S_, .i32⟩ : BufTy).Contents (Elt F)) :
    (StableHlo.TRef.of main_call5_v3 p1 p2 p3 : StableHlo.TRef sig ⟨S_, .i32⟩).ofBuf (Val := Elt F) v = v := rfl
theorem tb_call5_v4 (p1 p2 p3) (v : (⟨S16777216, .i32⟩ : BufTy).Contents (Elt F)) :
    (StableHlo.TRef.of main_call5_v4 p1 p2 p3 : StableHlo.TRef sig ⟨S16777216, .i32⟩).toBuf (Val := Elt F) v = v := rfl
theorem ob_call5_v4 (p1 p2 p3) (v : (⟨S16777216, .i32⟩ : BufTy).Contents (Elt F)) :
    (StableHlo.TRef.of main_call5_v4 p1 p2 p3 : StableHlo.TRef sig ⟨S16777216, .i32⟩).ofBuf (Val := Elt F) v = v := rfl
theorem tb_call5_v5 (p1 p2 p3) (v : (⟨S16777216, .i1⟩ : BufTy).Contents (Elt F)) :
    (StableHlo.TRef.of main_call5_v5 p1 p2 p3 : StableHlo.TRef sig ⟨S16777216, .i1⟩).toBuf (Val := Elt F) v = v := rfl
theorem ob_call5_v5 (p1 p2 p3) (v : (⟨S16777216, .i1⟩ : BufTy).Contents (Elt F)) :
    (StableHlo.TRef.of main_call5_v5 p1 p2 p3 : StableHlo.TRef sig ⟨S16777216, .i1⟩).ofBuf (Val := Elt F) v = v := rfl
theorem tb_call5_v6 (p1 p2 p3) (v : (⟨S16777216, .i32⟩ : BufTy).Contents (Elt F)) :
    (StableHlo.TRef.of main_call5_v6 p1 p2 p3 : StableHlo.TRef sig ⟨S16777216, .i32⟩).toBuf (Val := Elt F) v = v := rfl
theorem ob_call5_v6 (p1 p2 p3) (v : (⟨S16777216, .i32⟩ : BufTy).Contents (Elt F)) :
    (StableHlo.TRef.of main_call5_v6 p1 p2 p3 : StableHlo.TRef sig ⟨S16777216, .i32⟩).ofBuf (Val := Elt F) v = v := rfl
theorem tb_call5_v7 (p1 p2 p3) (v : (⟨S16777216, .i32⟩ : BufTy).Contents (Elt F)) :
    (StableHlo.TRef.of main_call5_v7 p1 p2 p3 : StableHlo.TRef sig ⟨S16777216, .i32⟩).toBuf (Val := Elt F) v = v := rfl
theorem ob_call5_v7 (p1 p2 p3) (v : (⟨S16777216, .i32⟩ : BufTy).Contents (Elt F)) :
    (StableHlo.TRef.of main_call5_v7 p1 p2 p3 : StableHlo.TRef sig ⟨S16777216, .i32⟩).ofBuf (Val := Elt F) v = v := rfl
theorem tb_call5_c (p1 p2 p3) (v : (⟨S_, .i32⟩ : BufTy).Contents (Elt F)) :
    (StableHlo.TRef.of main_call5_c p1 p2 p3 : StableHlo.TRef sig ⟨S_, .i32⟩).toBuf (Val := Elt F) v = v := rfl
theorem ob_call5_c (p1 p2 p3) (v : (⟨S_, .i32⟩ : BufTy).Contents (Elt F)) :
    (StableHlo.TRef.of main_call5_c p1 p2 p3 : StableHlo.TRef sig ⟨S_, .i32⟩).ofBuf (Val := Elt F) v = v := rfl
theorem tb_call5_v8 (p1 p2 p3) (v : (⟨S16777216, .i32⟩ : BufTy).Contents (Elt F)) :
    (StableHlo.TRef.of main_call5_v8 p1 p2 p3 : StableHlo.TRef sig ⟨S16777216, .i32⟩).toBuf (Val := Elt F) v = v := rfl
theorem ob_call5_v8 (p1 p2 p3) (v : (⟨S16777216, .i32⟩ : BufTy).Contents (Elt F)) :
    (StableHlo.TRef.of main_call5_v8 p1 p2 p3 : StableHlo.TRef sig ⟨S16777216, .i32⟩).ofBuf (Val := Elt F) v = v := rfl
theorem tb_call5_v9 (p1 p2 p3) (v : (⟨S16777216, .i1⟩ : BufTy).Contents (Elt F)) :
    (StableHlo.TRef.of main_call5_v9 p1 p2 p3 : StableHlo.TRef sig ⟨S16777216, .i1⟩).toBuf (Val := Elt F) v = v := rfl
theorem ob_call5_v9 (p1 p2 p3) (v : (⟨S16777216, .i1⟩ : BufTy).Contents (Elt F)) :
    (StableHlo.TRef.of main_call5_v9 p1 p2 p3 : StableHlo.TRef sig ⟨S16777216, .i1⟩).ofBuf (Val := Elt F) v = v := rfl
theorem tb_call5_v10 (p1 p2 p3) (v : (⟨S16777216, .i1⟩ : BufTy).Contents (Elt F)) :
    (StableHlo.TRef.of main_call5_v10 p1 p2 p3 : StableHlo.TRef sig ⟨S16777216, .i1⟩).toBuf (Val := Elt F) v = v := rfl
theorem ob_call5_v10 (p1 p2 p3) (v : (⟨S16777216, .i1⟩ : BufTy).Contents (Elt F)) :
    (StableHlo.TRef.of main_call5_v10 p1 p2 p3 : StableHlo.TRef sig ⟨S16777216, .i1⟩).ofBuf (Val := Elt F) v = v := rfl
theorem tb_call5_c_0 (p1 p2 p3) (v : (⟨S_, .i32⟩ : BufTy).Contents (Elt F)) :
    (StableHlo.TRef.of main_call5_c_0 p1 p2 p3 : StableHlo.TRef sig ⟨S_, .i32⟩).toBuf (Val := Elt F) v = v := rfl
theorem ob_call5_c_0 (p1 p2 p3) (v : (⟨S_, .i32⟩ : BufTy).Contents (Elt F)) :
    (StableHlo.TRef.of main_call5_c_0 p1 p2 p3 : StableHlo.TRef sig ⟨S_, .i32⟩).ofBuf (Val := Elt F) v = v := rfl
theorem tb_call5_v11 (p1 p2 p3) (v : (⟨S16777216, .i32⟩ : BufTy).Contents (Elt F)) :
    (StableHlo.TRef.of main_call5_v11 p1 p2 p3 : StableHlo.TRef sig ⟨S16777216, .i32⟩).toBuf (Val := Elt F) v = v := rfl
theorem ob_call5_v11 (p1 p2 p3) (v : (⟨S16777216, .i32⟩ : BufTy).Contents (Elt F)) :
    (StableHlo.TRef.of main_call5_v11 p1 p2 p3 : StableHlo.TRef sig ⟨S16777216, .i32⟩).ofBuf (Val := Elt F) v = v := rfl
theorem tb_call5_v12 (p1 p2 p3) (v : (⟨S16777216, .i32⟩ : BufTy).Contents (Elt F)) :
    (StableHlo.TRef.of main_call5_v12 p1 p2 p3 : StableHlo.TRef sig ⟨S16777216, .i32⟩).toBuf (Val := Elt F) v = v := rfl
theorem ob_call5_v12 (p1 p2 p3) (v : (⟨S16777216, .i32⟩ : BufTy).Contents (Elt F)) :
    (StableHlo.TRef.of main_call5_v12 p1 p2 p3 : StableHlo.TRef sig ⟨S16777216, .i32⟩).ofBuf (Val := Elt F) v = v := rfl
theorem tb_call6_v2 (p1 p2 p3) (v : (⟨S_, .i32⟩ : BufTy).Contents (Elt F)) :
    (StableHlo.TRef.of main_call6_v2 p1 p2 p3 : StableHlo.TRef sig ⟨S_, .i32⟩).toBuf (Val := Elt F) v = v := rfl
theorem ob_call6_v2 (p1 p2 p3) (v : (⟨S_, .i32⟩ : BufTy).Contents (Elt F)) :
    (StableHlo.TRef.of main_call6_v2 p1 p2 p3 : StableHlo.TRef sig ⟨S_, .i32⟩).ofBuf (Val := Elt F) v = v := rfl
theorem tb_call6_v0 (p1 p2 p3) (v : (⟨S_, .i32⟩ : BufTy).Contents (Elt F)) :
    (StableHlo.TRef.of main_call6_v0 p1 p2 p3 : StableHlo.TRef sig ⟨S_, .i32⟩).toBuf (Val := Elt F) v = v := rfl
theorem ob_call6_v0 (p1 p2 p3) (v : (⟨S_, .i32⟩ : BufTy).Contents (Elt F)) :
    (StableHlo.TRef.of main_call6_v0 p1 p2 p3 : StableHlo.TRef sig ⟨S_, .i32⟩).ofBuf (Val := Elt F) v = v := rfl
theorem tb_call6_c (p1 p2 p3) (v : (⟨S_, .i32⟩ : BufTy).Contents (Elt F)) :
    (StableHlo.TRef.of main_call6_c p1 p2 p3 : StableHlo.TRef sig ⟨S_, .i32⟩).toBuf (Val := Elt F) v = v := rfl
theorem ob_call6_c (p1 p2 p3) (v : (⟨S_, .i32⟩ : BufTy).Contents (Elt F)) :
    (StableHlo.TRef.of main_call6_c p1 p2 p3 : StableHlo.TRef sig ⟨S_, .i32⟩).ofBuf (Val := Elt F) v = v := rfl
theorem tb_call6_v1 (p1 p2 p3) (v : (⟨S_, .i1⟩ : BufTy).Contents (Elt F)) :
    (StableHlo.TRef.of main_call6_v1 p1 p2 p3 : StableHlo.TRef sig ⟨S_, .i1⟩).toBuf (Val := Elt F) v = v := rfl
theorem ob_call6_v1 (p1 p2 p3) (v : (⟨S_, .i1⟩ : BufTy).Contents (Elt F)) :
    (StableHlo.TRef.of main_call6_v1 p1 p2 p3 : StableHlo.TRef sig ⟨S_, .i1⟩).ofBuf (Val := Elt F) v = v := rfl
theorem tb_call6_c_0 (p1 p2 p3) (v : (⟨S_, .i32⟩ : BufTy).Contents (Elt F)) :
    (StableHlo.TRef.of main_call6_c_0 p1 p2 p3 : StableHlo.TRef sig ⟨S_, .i32⟩).toBuf (Val := Elt F) v = v := rfl
theorem ob_call6_c_0 (p1 p2 p3) (v : (⟨S_, .i32⟩ : BufTy).Contents (Elt F)) :
    (StableHlo.TRef.of main_call6_c_0 p1 p2 p3 : StableHlo.TRef sig ⟨S_, .i32⟩).ofBuf (Val := Elt F) v = v := rfl
theorem tb_call6_v3 (p1 p2 p3) (v : (⟨S16777216, .i32⟩ : BufTy).Contents (Elt F)) :
    (StableHlo.TRef.of main_call6_v3 p1 p2 p3 : StableHlo.TRef sig ⟨S16777216, .i32⟩).toBuf (Val := Elt F) v = v := rfl
theorem ob_call6_v3 (p1 p2 p3) (v : (⟨S16777216, .i32⟩ : BufTy).Contents (Elt F)) :
    (StableHlo.TRef.of main_call6_v3 p1 p2 p3 : StableHlo.TRef sig ⟨S16777216, .i32⟩).ofBuf (Val := Elt F) v = v := rfl
theorem tb_call6_v4 (p1 p2 p3) (v : (⟨S16777216, .i32⟩ : BufTy).Contents (Elt F)) :
    (StableHlo.TRef.of main_call6_v4 p1 p2 p3 : StableHlo.TRef sig ⟨S16777216, .i32⟩).toBuf (Val := Elt F) v = v := rfl
theorem ob_call6_v4 (p1 p2 p3) (v : (⟨S16777216, .i32⟩ : BufTy).Contents (Elt F)) :
    (StableHlo.TRef.of main_call6_v4 p1 p2 p3 : StableHlo.TRef sig ⟨S16777216, .i32⟩).ofBuf (Val := Elt F) v = v := rfl
theorem tb_call6_c_1 (p1 p2 p3) (v : (⟨S_, .i32⟩ : BufTy).Contents (Elt F)) :
    (StableHlo.TRef.of main_call6_c_1 p1 p2 p3 : StableHlo.TRef sig ⟨S_, .i32⟩).toBuf (Val := Elt F) v = v := rfl
theorem ob_call6_c_1 (p1 p2 p3) (v : (⟨S_, .i32⟩ : BufTy).Contents (Elt F)) :
    (StableHlo.TRef.of main_call6_c_1 p1 p2 p3 : StableHlo.TRef sig ⟨S_, .i32⟩).ofBuf (Val := Elt F) v = v := rfl
theorem tb_call6_v5 (p1 p2 p3) (v : (⟨S16777216, .i32⟩ : BufTy).Contents (Elt F)) :
    (StableHlo.TRef.of main_call6_v5 p1 p2 p3 : StableHlo.TRef sig ⟨S16777216, .i32⟩).toBuf (Val := Elt F) v = v := rfl
theorem ob_call6_v5 (p1 p2 p3) (v : (⟨S16777216, .i32⟩ : BufTy).Contents (Elt F)) :
    (StableHlo.TRef.of main_call6_v5 p1 p2 p3 : StableHlo.TRef sig ⟨S16777216, .i32⟩).ofBuf (Val := Elt F) v = v := rfl
theorem tb_call6_v6 (p1 p2 p3) (v : (⟨S16777216, .i1⟩ : BufTy).Contents (Elt F)) :
    (StableHlo.TRef.of main_call6_v6 p1 p2 p3 : StableHlo.TRef sig ⟨S16777216, .i1⟩).toBuf (Val := Elt F) v = v := rfl
theorem ob_call6_v6 (p1 p2 p3) (v : (⟨S16777216, .i1⟩ : BufTy).Contents (Elt F)) :
    (StableHlo.TRef.of main_call6_v6 p1 p2 p3 : StableHlo.TRef sig ⟨S16777216, .i1⟩).ofBuf (Val := Elt F) v = v := rfl
theorem tb_call6_c_2 (p1 p2 p3) (v : (⟨S_, .i32⟩ : BufTy).Contents (Elt F)) :
    (StableHlo.TRef.of main_call6_c_2 p1 p2 p3 : StableHlo.TRef sig ⟨S_, .i32⟩).toBuf (Val := Elt F) v = v := rfl
theorem ob_call6_c_2 (p1 p2 p3) (v : (⟨S_, .i32⟩ : BufTy).Contents (Elt F)) :
    (StableHlo.TRef.of main_call6_c_2 p1 p2 p3 : StableHlo.TRef sig ⟨S_, .i32⟩).ofBuf (Val := Elt F) v = v := rfl
theorem tb_call6_v7 (p1 p2 p3) (v : (⟨S16777216, .i32⟩ : BufTy).Contents (Elt F)) :
    (StableHlo.TRef.of main_call6_v7 p1 p2 p3 : StableHlo.TRef sig ⟨S16777216, .i32⟩).toBuf (Val := Elt F) v = v := rfl
theorem ob_call6_v7 (p1 p2 p3) (v : (⟨S16777216, .i32⟩ : BufTy).Contents (Elt F)) :
    (StableHlo.TRef.of main_call6_v7 p1 p2 p3 : StableHlo.TRef sig ⟨S16777216, .i32⟩).ofBuf (Val := Elt F) v = v := rfl
theorem tb_call6_v8 (p1 p2 p3) (v : (⟨S16777216, .i1⟩ : BufTy).Contents (Elt F)) :
    (StableHlo.TRef.of main_call6_v8 p1 p2 p3 : StableHlo.TRef sig ⟨S16777216, .i1⟩).toBuf (Val := Elt F) v = v := rfl
theorem ob_call6_v8 (p1 p2 p3) (v : (⟨S16777216, .i1⟩ : BufTy).Contents (Elt F)) :
    (StableHlo.TRef.of main_call6_v8 p1 p2 p3 : StableHlo.TRef sig ⟨S16777216, .i1⟩).ofBuf (Val := Elt F) v = v := rfl
theorem tb_call6_c_3 (p1 p2 p3) (v : (⟨S_, .i32⟩ : BufTy).Contents (Elt F)) :
    (StableHlo.TRef.of main_call6_c_3 p1 p2 p3 : StableHlo.TRef sig ⟨S_, .i32⟩).toBuf (Val := Elt F) v = v := rfl
theorem ob_call6_c_3 (p1 p2 p3) (v : (⟨S_, .i32⟩ : BufTy).Contents (Elt F)) :
    (StableHlo.TRef.of main_call6_c_3 p1 p2 p3 : StableHlo.TRef sig ⟨S_, .i32⟩).ofBuf (Val := Elt F) v = v := rfl
theorem tb_call6_v9 (p1 p2 p3) (v : (⟨S_, .i1⟩ : BufTy).Contents (Elt F)) :
    (StableHlo.TRef.of main_call6_v9 p1 p2 p3 : StableHlo.TRef sig ⟨S_, .i1⟩).toBuf (Val := Elt F) v = v := rfl
theorem ob_call6_v9 (p1 p2 p3) (v : (⟨S_, .i1⟩ : BufTy).Contents (Elt F)) :
    (StableHlo.TRef.of main_call6_v9 p1 p2 p3 : StableHlo.TRef sig ⟨S_, .i1⟩).ofBuf (Val := Elt F) v = v := rfl
theorem tb_call6_v10 (p1 p2 p3) (v : (⟨S16777216, .i1⟩ : BufTy).Contents (Elt F)) :
    (StableHlo.TRef.of main_call6_v10 p1 p2 p3 : StableHlo.TRef sig ⟨S16777216, .i1⟩).toBuf (Val := Elt F) v = v := rfl
theorem ob_call6_v10 (p1 p2 p3) (v : (⟨S16777216, .i1⟩ : BufTy).Contents (Elt F)) :
    (StableHlo.TRef.of main_call6_v10 p1 p2 p3 : StableHlo.TRef sig ⟨S16777216, .i1⟩).ofBuf (Val := Elt F) v = v := rfl
theorem tb_call6_v11 (p1 p2 p3) (v : (⟨S16777216, .i1⟩ : BufTy).Contents (Elt F)) :
    (StableHlo.TRef.of main_call6_v11 p1 p2 p3 : StableHlo.TRef sig ⟨S16777216, .i1⟩).toBuf (Val := Elt F) v = v := rfl
theorem ob_call6_v11 (p1 p2 p3) (v : (⟨S16777216, .i1⟩ : BufTy).Contents (Elt F)) :
    (StableHlo.TRef.of main_call6_v11 p1 p2 p3 : StableHlo.TRef sig ⟨S16777216, .i1⟩).ofBuf (Val := Elt F) v = v := rfl
theorem tb_call6_v12 (p1 p2 p3) (v : (⟨S16777216, .i1⟩ : BufTy).Contents (Elt F)) :
    (StableHlo.TRef.of main_call6_v12 p1 p2 p3 : StableHlo.TRef sig ⟨S16777216, .i1⟩).toBuf (Val := Elt F) v = v := rfl
theorem ob_call6_v12 (p1 p2 p3) (v : (⟨S16777216, .i1⟩ : BufTy).Contents (Elt F)) :
    (StableHlo.TRef.of main_call6_v12 p1 p2 p3 : StableHlo.TRef sig ⟨S16777216, .i1⟩).ofBuf (Val := Elt F) v = v := rfl
theorem tb_call6_v13 (p1 p2 p3) (v : (⟨S16777216, .i32⟩ : BufTy).Contents (Elt F)) :
    (StableHlo.TRef.of main_call6_v13 p1 p2 p3 : StableHlo.TRef sig ⟨S16777216, .i32⟩).toBuf (Val := Elt F) v = v := rfl
theorem ob_call6_v13 (p1 p2 p3) (v : (⟨S16777216, .i32⟩ : BufTy).Contents (Elt F)) :
    (StableHlo.TRef.of main_call6_v13 p1 p2 p3 : StableHlo.TRef sig ⟨S16777216, .i32⟩).ofBuf (Val := Elt F) v = v := rfl
theorem tb_call6_v14 (p1 p2 p3) (v : (⟨S16777216, .i32⟩ : BufTy).Contents (Elt F)) :
    (StableHlo.TRef.of main_call6_v14 p1 p2 p3 : StableHlo.TRef sig ⟨S16777216, .i32⟩).toBuf (Val := Elt F) v = v := rfl
theorem ob_call6_v14 (p1 p2 p3) (v : (⟨S16777216, .i32⟩ : BufTy).Contents (Elt F)) :
    (StableHlo.TRef.of main_call6_v14 p1 p2 p3 : StableHlo.TRef sig ⟨S16777216, .i32⟩).ofBuf (Val := Elt F) v = v := rfl
theorem tb_v36 (p1 p2 p3) (v : (⟨S16777216, .i32⟩ : BufTy).Contents (Elt F)) :
    (StableHlo.TRef.of main_v36 p1 p2 p3 : StableHlo.TRef sig ⟨S16777216, .i32⟩).toBuf (Val := Elt F) v = v := rfl
theorem ob_v36 (p1 p2 p3) (v : (⟨S16777216, .i32⟩ : BufTy).Contents (Elt F)) :
    (StableHlo.TRef.of main_v36 p1 p2 p3 : StableHlo.TRef sig ⟨S16777216, .i32⟩).ofBuf (Val := Elt F) v = v := rfl
theorem tb_v37 (p1 p2 p3) (v : (⟨S16777216, .i32⟩ : BufTy).Contents (Elt F)) :
    (StableHlo.TRef.of main_v37 p1 p2 p3 : StableHlo.TRef sig ⟨S16777216, .i32⟩).toBuf (Val := Elt F) v = v := rfl
theorem ob_v37 (p1 p2 p3) (v : (⟨S16777216, .i32⟩ : BufTy).Contents (Elt F)) :
    (StableHlo.TRef.of main_v37 p1 p2 p3 : StableHlo.TRef sig ⟨S16777216, .i32⟩).ofBuf (Val := Elt F) v = v := rfl
theorem tb_call7_v0 (p1 p2 p3) (v : (⟨S16777216, .i32⟩ : BufTy).Contents (Elt F)) :
    (StableHlo.TRef.of main_call7_v0 p1 p2 p3 : StableHlo.TRef sig ⟨S16777216, .i32⟩).toBuf (Val := Elt F) v = v := rfl
theorem ob_call7_v0 (p1 p2 p3) (v : (⟨S16777216, .i32⟩ : BufTy).Contents (Elt F)) :
    (StableHlo.TRef.of main_call7_v0 p1 p2 p3 : StableHlo.TRef sig ⟨S16777216, .i32⟩).ofBuf (Val := Elt F) v = v := rfl
theorem tb_call7_v1 (p1 p2 p3) (v : (⟨S16777216, .i32⟩ : BufTy).Contents (Elt F)) :
    (StableHlo.TRef.of main_call7_v1 p1 p2 p3 : StableHlo.TRef sig ⟨S16777216, .i32⟩).toBuf (Val := Elt F) v = v := rfl
theorem ob_call7_v1 (p1 p2 p3) (v : (⟨S16777216, .i32⟩ : BufTy).Contents (Elt F)) :
    (StableHlo.TRef.of main_call7_v1 p1 p2 p3 : StableHlo.TRef sig ⟨S16777216, .i32⟩).ofBuf (Val := Elt F) v = v := rfl
theorem tb_call7_v2 (p1 p2 p3) (v : (⟨S16777216, .i32⟩ : BufTy).Contents (Elt F)) :
    (StableHlo.TRef.of main_call7_v2 p1 p2 p3 : StableHlo.TRef sig ⟨S16777216, .i32⟩).toBuf (Val := Elt F) v = v := rfl
theorem ob_call7_v2 (p1 p2 p3) (v : (⟨S16777216, .i32⟩ : BufTy).Contents (Elt F)) :
    (StableHlo.TRef.of main_call7_v2 p1 p2 p3 : StableHlo.TRef sig ⟨S16777216, .i32⟩).ofBuf (Val := Elt F) v = v := rfl
theorem tb_call7_v3 (p1 p2 p3) (v : (⟨S_, .i32⟩ : BufTy).Contents (Elt F)) :
    (StableHlo.TRef.of main_call7_v3 p1 p2 p3 : StableHlo.TRef sig ⟨S_, .i32⟩).toBuf (Val := Elt F) v = v := rfl
theorem ob_call7_v3 (p1 p2 p3) (v : (⟨S_, .i32⟩ : BufTy).Contents (Elt F)) :
    (StableHlo.TRef.of main_call7_v3 p1 p2 p3 : StableHlo.TRef sig ⟨S_, .i32⟩).ofBuf (Val := Elt F) v = v := rfl
theorem tb_call7_v4 (p1 p2 p3) (v : (⟨S16777216, .i32⟩ : BufTy).Contents (Elt F)) :
    (StableHlo.TRef.of main_call7_v4 p1 p2 p3 : StableHlo.TRef sig ⟨S16777216, .i32⟩).toBuf (Val := Elt F) v = v := rfl
theorem ob_call7_v4 (p1 p2 p3) (v : (⟨S16777216, .i32⟩ : BufTy).Contents (Elt F)) :
    (StableHlo.TRef.of main_call7_v4 p1 p2 p3 : StableHlo.TRef sig ⟨S16777216, .i32⟩).ofBuf (Val := Elt F) v = v := rfl
theorem tb_call7_v5 (p1 p2 p3) (v : (⟨S16777216, .i1⟩ : BufTy).Contents (Elt F)) :
    (StableHlo.TRef.of main_call7_v5 p1 p2 p3 : StableHlo.TRef sig ⟨S16777216, .i1⟩).toBuf (Val := Elt F) v = v := rfl
theorem ob_call7_v5 (p1 p2 p3) (v : (⟨S16777216, .i1⟩ : BufTy).Contents (Elt F)) :
    (StableHlo.TRef.of main_call7_v5 p1 p2 p3 : StableHlo.TRef sig ⟨S16777216, .i1⟩).ofBuf (Val := Elt F) v = v := rfl
theorem tb_call7_v6 (p1 p2 p3) (v : (⟨S16777216, .i32⟩ : BufTy).Contents (Elt F)) :
    (StableHlo.TRef.of main_call7_v6 p1 p2 p3 : StableHlo.TRef sig ⟨S16777216, .i32⟩).toBuf (Val := Elt F) v = v := rfl
theorem ob_call7_v6 (p1 p2 p3) (v : (⟨S16777216, .i32⟩ : BufTy).Contents (Elt F)) :
    (StableHlo.TRef.of main_call7_v6 p1 p2 p3 : StableHlo.TRef sig ⟨S16777216, .i32⟩).ofBuf (Val := Elt F) v = v := rfl
theorem tb_call7_v7 (p1 p2 p3) (v : (⟨S16777216, .i32⟩ : BufTy).Contents (Elt F)) :
    (StableHlo.TRef.of main_call7_v7 p1 p2 p3 : StableHlo.TRef sig ⟨S16777216, .i32⟩).toBuf (Val := Elt F) v = v := rfl
theorem ob_call7_v7 (p1 p2 p3) (v : (⟨S16777216, .i32⟩ : BufTy).Contents (Elt F)) :
    (StableHlo.TRef.of main_call7_v7 p1 p2 p3 : StableHlo.TRef sig ⟨S16777216, .i32⟩).ofBuf (Val := Elt F) v = v := rfl
theorem tb_call7_c (p1 p2 p3) (v : (⟨S_, .i32⟩ : BufTy).Contents (Elt F)) :
    (StableHlo.TRef.of main_call7_c p1 p2 p3 : StableHlo.TRef sig ⟨S_, .i32⟩).toBuf (Val := Elt F) v = v := rfl
theorem ob_call7_c (p1 p2 p3) (v : (⟨S_, .i32⟩ : BufTy).Contents (Elt F)) :
    (StableHlo.TRef.of main_call7_c p1 p2 p3 : StableHlo.TRef sig ⟨S_, .i32⟩).ofBuf (Val := Elt F) v = v := rfl
theorem tb_call7_v8 (p1 p2 p3) (v : (⟨S16777216, .i32⟩ : BufTy).Contents (Elt F)) :
    (StableHlo.TRef.of main_call7_v8 p1 p2 p3 : StableHlo.TRef sig ⟨S16777216, .i32⟩).toBuf (Val := Elt F) v = v := rfl
theorem ob_call7_v8 (p1 p2 p3) (v : (⟨S16777216, .i32⟩ : BufTy).Contents (Elt F)) :
    (StableHlo.TRef.of main_call7_v8 p1 p2 p3 : StableHlo.TRef sig ⟨S16777216, .i32⟩).ofBuf (Val := Elt F) v = v := rfl
theorem tb_call7_v9 (p1 p2 p3) (v : (⟨S16777216, .i1⟩ : BufTy).Contents (Elt F)) :
    (StableHlo.TRef.of main_call7_v9 p1 p2 p3 : StableHlo.TRef sig ⟨S16777216, .i1⟩).toBuf (Val := Elt F) v = v := rfl
theorem ob_call7_v9 (p1 p2 p3) (v : (⟨S16777216, .i1⟩ : BufTy).Contents (Elt F)) :
    (StableHlo.TRef.of main_call7_v9 p1 p2 p3 : StableHlo.TRef sig ⟨S16777216, .i1⟩).ofBuf (Val := Elt F) v = v := rfl
theorem tb_call7_v10 (p1 p2 p3) (v : (⟨S16777216, .i1⟩ : BufTy).Contents (Elt F)) :
    (StableHlo.TRef.of main_call7_v10 p1 p2 p3 : StableHlo.TRef sig ⟨S16777216, .i1⟩).toBuf (Val := Elt F) v = v := rfl
theorem ob_call7_v10 (p1 p2 p3) (v : (⟨S16777216, .i1⟩ : BufTy).Contents (Elt F)) :
    (StableHlo.TRef.of main_call7_v10 p1 p2 p3 : StableHlo.TRef sig ⟨S16777216, .i1⟩).ofBuf (Val := Elt F) v = v := rfl
theorem tb_call7_c_0 (p1 p2 p3) (v : (⟨S_, .i32⟩ : BufTy).Contents (Elt F)) :
    (StableHlo.TRef.of main_call7_c_0 p1 p2 p3 : StableHlo.TRef sig ⟨S_, .i32⟩).toBuf (Val := Elt F) v = v := rfl
theorem ob_call7_c_0 (p1 p2 p3) (v : (⟨S_, .i32⟩ : BufTy).Contents (Elt F)) :
    (StableHlo.TRef.of main_call7_c_0 p1 p2 p3 : StableHlo.TRef sig ⟨S_, .i32⟩).ofBuf (Val := Elt F) v = v := rfl
theorem tb_call7_v11 (p1 p2 p3) (v : (⟨S16777216, .i32⟩ : BufTy).Contents (Elt F)) :
    (StableHlo.TRef.of main_call7_v11 p1 p2 p3 : StableHlo.TRef sig ⟨S16777216, .i32⟩).toBuf (Val := Elt F) v = v := rfl
theorem ob_call7_v11 (p1 p2 p3) (v : (⟨S16777216, .i32⟩ : BufTy).Contents (Elt F)) :
    (StableHlo.TRef.of main_call7_v11 p1 p2 p3 : StableHlo.TRef sig ⟨S16777216, .i32⟩).ofBuf (Val := Elt F) v = v := rfl
theorem tb_call7_v12 (p1 p2 p3) (v : (⟨S16777216, .i32⟩ : BufTy).Contents (Elt F)) :
    (StableHlo.TRef.of main_call7_v12 p1 p2 p3 : StableHlo.TRef sig ⟨S16777216, .i32⟩).toBuf (Val := Elt F) v = v := rfl
theorem ob_call7_v12 (p1 p2 p3) (v : (⟨S16777216, .i32⟩ : BufTy).Contents (Elt F)) :
    (StableHlo.TRef.of main_call7_v12 p1 p2 p3 : StableHlo.TRef sig ⟨S16777216, .i32⟩).ofBuf (Val := Elt F) v = v := rfl
theorem tb_call8_v2 (p1 p2 p3) (v : (⟨S_, .i32⟩ : BufTy).Contents (Elt F)) :
    (StableHlo.TRef.of main_call8_v2 p1 p2 p3 : StableHlo.TRef sig ⟨S_, .i32⟩).toBuf (Val := Elt F) v = v := rfl
theorem ob_call8_v2 (p1 p2 p3) (v : (⟨S_, .i32⟩ : BufTy).Contents (Elt F)) :
    (StableHlo.TRef.of main_call8_v2 p1 p2 p3 : StableHlo.TRef sig ⟨S_, .i32⟩).ofBuf (Val := Elt F) v = v := rfl
theorem tb_call8_v0 (p1 p2 p3) (v : (⟨S_, .i32⟩ : BufTy).Contents (Elt F)) :
    (StableHlo.TRef.of main_call8_v0 p1 p2 p3 : StableHlo.TRef sig ⟨S_, .i32⟩).toBuf (Val := Elt F) v = v := rfl
theorem ob_call8_v0 (p1 p2 p3) (v : (⟨S_, .i32⟩ : BufTy).Contents (Elt F)) :
    (StableHlo.TRef.of main_call8_v0 p1 p2 p3 : StableHlo.TRef sig ⟨S_, .i32⟩).ofBuf (Val := Elt F) v = v := rfl
theorem tb_call8_c (p1 p2 p3) (v : (⟨S_, .i32⟩ : BufTy).Contents (Elt F)) :
    (StableHlo.TRef.of main_call8_c p1 p2 p3 : StableHlo.TRef sig ⟨S_, .i32⟩).toBuf (Val := Elt F) v = v := rfl
theorem ob_call8_c (p1 p2 p3) (v : (⟨S_, .i32⟩ : BufTy).Contents (Elt F)) :
    (StableHlo.TRef.of main_call8_c p1 p2 p3 : StableHlo.TRef sig ⟨S_, .i32⟩).ofBuf (Val := Elt F) v = v := rfl
theorem tb_call8_v1 (p1 p2 p3) (v : (⟨S_, .i1⟩ : BufTy).Contents (Elt F)) :
    (StableHlo.TRef.of main_call8_v1 p1 p2 p3 : StableHlo.TRef sig ⟨S_, .i1⟩).toBuf (Val := Elt F) v = v := rfl
theorem ob_call8_v1 (p1 p2 p3) (v : (⟨S_, .i1⟩ : BufTy).Contents (Elt F)) :
    (StableHlo.TRef.of main_call8_v1 p1 p2 p3 : StableHlo.TRef sig ⟨S_, .i1⟩).ofBuf (Val := Elt F) v = v := rfl
theorem tb_call8_c_0 (p1 p2 p3) (v : (⟨S_, .i32⟩ : BufTy).Contents (Elt F)) :
    (StableHlo.TRef.of main_call8_c_0 p1 p2 p3 : StableHlo.TRef sig ⟨S_, .i32⟩).toBuf (Val := Elt F) v = v := rfl
theorem ob_call8_c_0 (p1 p2 p3) (v : (⟨S_, .i32⟩ : BufTy).Contents (Elt F)) :
    (StableHlo.TRef.of main_call8_c_0 p1 p2 p3 : StableHlo.TRef sig ⟨S_, .i32⟩).ofBuf (Val := Elt F) v = v := rfl
theorem tb_call8_v3 (p1 p2 p3) (v : (⟨S16777216, .i32⟩ : BufTy).Contents (Elt F)) :
    (StableHlo.TRef.of main_call8_v3 p1 p2 p3 : StableHlo.TRef sig ⟨S16777216, .i32⟩).toBuf (Val := Elt F) v = v := rfl
theorem ob_call8_v3 (p1 p2 p3) (v : (⟨S16777216, .i32⟩ : BufTy).Contents (Elt F)) :
    (StableHlo.TRef.of main_call8_v3 p1 p2 p3 : StableHlo.TRef sig ⟨S16777216, .i32⟩).ofBuf (Val := Elt F) v = v := rfl
theorem tb_call8_v4 (p1 p2 p3) (v : (⟨S16777216, .i32⟩ : BufTy).Contents (Elt F)) :
    (StableHlo.TRef.of main_call8_v4 p1 p2 p3 : StableHlo.TRef sig ⟨S16777216, .i32⟩).toBuf (Val := Elt F) v = v := rfl
theorem ob_call8_v4 (p1 p2 p3) (v : (⟨S16777216, .i32⟩ : BufTy).Contents (Elt F)) :
    (StableHlo.TRef.of main_call8_v4 p1 p2 p3 : StableHlo.TRef sig ⟨S16777216, .i32⟩).ofBuf (Val := Elt F) v = v := rfl
theorem tb_call8_c_1 (p1 p2 p3) (v : (⟨S_, .i32⟩ : BufTy).Contents (Elt F)) :
    (StableHlo.TRef.of main_call8_c_1 p1 p2 p3 : StableHlo.TRef sig ⟨S_, .i32⟩).toBuf (Val := Elt F) v = v := rfl
theorem ob_call8_c_1 (p1 p2 p3) (v : (⟨S_, .i32⟩ : BufTy).Contents (Elt F)) :
    (StableHlo.TRef.of main_call8_c_1 p1 p2 p3 : StableHlo.TRef sig ⟨S_, .i32⟩).ofBuf (Val := Elt F) v = v := rfl
theorem tb_call8_v5 (p1 p2 p3) (v : (⟨S16777216, .i32⟩ : BufTy).Contents (Elt F)) :
    (StableHlo.TRef.of main_call8_v5 p1 p2 p3 : StableHlo.TRef sig ⟨S16777216, .i32⟩).toBuf (Val := Elt F) v = v := rfl
theorem ob_call8_v5 (p1 p2 p3) (v : (⟨S16777216, .i32⟩ : BufTy).Contents (Elt F)) :
    (StableHlo.TRef.of main_call8_v5 p1 p2 p3 : StableHlo.TRef sig ⟨S16777216, .i32⟩).ofBuf (Val := Elt F) v = v := rfl
theorem tb_call8_v6 (p1 p2 p3) (v : (⟨S16777216, .i1⟩ : BufTy).Contents (Elt F)) :
    (StableHlo.TRef.of main_call8_v6 p1 p2 p3 : StableHlo.TRef sig ⟨S16777216, .i1⟩).toBuf (Val := Elt F) v = v := rfl
theorem ob_call8_v6 (p1 p2 p3) (v : (⟨S16777216, .i1⟩ : BufTy).Contents (Elt F)) :
    (StableHlo.TRef.of main_call8_v6 p1 p2 p3 : StableHlo.TRef sig ⟨S16777216, .i1⟩).ofBuf (Val := Elt F) v = v := rfl
theorem tb_call8_c_2 (p1 p2 p3) (v : (⟨S_, .i32⟩ : BufTy).Contents (Elt F)) :
    (StableHlo.TRef.of main_call8_c_2 p1 p2 p3 : StableHlo.TRef sig ⟨S_, .i32⟩).toBuf (Val := Elt F) v = v := rfl
theorem ob_call8_c_2 (p1 p2 p3) (v : (⟨S_, .i32⟩ : BufTy).Contents (Elt F)) :
    (StableHlo.TRef.of main_call8_c_2 p1 p2 p3 : StableHlo.TRef sig ⟨S_, .i32⟩).ofBuf (Val := Elt F) v = v := rfl
theorem tb_call8_v7 (p1 p2 p3) (v : (⟨S16777216, .i32⟩ : BufTy).Contents (Elt F)) :
    (StableHlo.TRef.of main_call8_v7 p1 p2 p3 : StableHlo.TRef sig ⟨S16777216, .i32⟩).toBuf (Val := Elt F) v = v := rfl
theorem ob_call8_v7 (p1 p2 p3) (v : (⟨S16777216, .i32⟩ : BufTy).Contents (Elt F)) :
    (StableHlo.TRef.of main_call8_v7 p1 p2 p3 : StableHlo.TRef sig ⟨S16777216, .i32⟩).ofBuf (Val := Elt F) v = v := rfl
theorem tb_call8_v8 (p1 p2 p3) (v : (⟨S16777216, .i1⟩ : BufTy).Contents (Elt F)) :
    (StableHlo.TRef.of main_call8_v8 p1 p2 p3 : StableHlo.TRef sig ⟨S16777216, .i1⟩).toBuf (Val := Elt F) v = v := rfl
theorem ob_call8_v8 (p1 p2 p3) (v : (⟨S16777216, .i1⟩ : BufTy).Contents (Elt F)) :
    (StableHlo.TRef.of main_call8_v8 p1 p2 p3 : StableHlo.TRef sig ⟨S16777216, .i1⟩).ofBuf (Val := Elt F) v = v := rfl
theorem tb_call8_c_3 (p1 p2 p3) (v : (⟨S_, .i32⟩ : BufTy).Contents (Elt F)) :
    (StableHlo.TRef.of main_call8_c_3 p1 p2 p3 : StableHlo.TRef sig ⟨S_, .i32⟩).toBuf (Val := Elt F) v = v := rfl
theorem ob_call8_c_3 (p1 p2 p3) (v : (⟨S_, .i32⟩ : BufTy).Contents (Elt F)) :
    (StableHlo.TRef.of main_call8_c_3 p1 p2 p3 : StableHlo.TRef sig ⟨S_, .i32⟩).ofBuf (Val := Elt F) v = v := rfl
theorem tb_call8_v9 (p1 p2 p3) (v : (⟨S_, .i1⟩ : BufTy).Contents (Elt F)) :
    (StableHlo.TRef.of main_call8_v9 p1 p2 p3 : StableHlo.TRef sig ⟨S_, .i1⟩).toBuf (Val := Elt F) v = v := rfl
theorem ob_call8_v9 (p1 p2 p3) (v : (⟨S_, .i1⟩ : BufTy).Contents (Elt F)) :
    (StableHlo.TRef.of main_call8_v9 p1 p2 p3 : StableHlo.TRef sig ⟨S_, .i1⟩).ofBuf (Val := Elt F) v = v := rfl
theorem tb_call8_v10 (p1 p2 p3) (v : (⟨S16777216, .i1⟩ : BufTy).Contents (Elt F)) :
    (StableHlo.TRef.of main_call8_v10 p1 p2 p3 : StableHlo.TRef sig ⟨S16777216, .i1⟩).toBuf (Val := Elt F) v = v := rfl
theorem ob_call8_v10 (p1 p2 p3) (v : (⟨S16777216, .i1⟩ : BufTy).Contents (Elt F)) :
    (StableHlo.TRef.of main_call8_v10 p1 p2 p3 : StableHlo.TRef sig ⟨S16777216, .i1⟩).ofBuf (Val := Elt F) v = v := rfl
theorem tb_call8_v11 (p1 p2 p3) (v : (⟨S16777216, .i1⟩ : BufTy).Contents (Elt F)) :
    (StableHlo.TRef.of main_call8_v11 p1 p2 p3 : StableHlo.TRef sig ⟨S16777216, .i1⟩).toBuf (Val := Elt F) v = v := rfl
theorem ob_call8_v11 (p1 p2 p3) (v : (⟨S16777216, .i1⟩ : BufTy).Contents (Elt F)) :
    (StableHlo.TRef.of main_call8_v11 p1 p2 p3 : StableHlo.TRef sig ⟨S16777216, .i1⟩).ofBuf (Val := Elt F) v = v := rfl
theorem tb_call8_v12 (p1 p2 p3) (v : (⟨S16777216, .i1⟩ : BufTy).Contents (Elt F)) :
    (StableHlo.TRef.of main_call8_v12 p1 p2 p3 : StableHlo.TRef sig ⟨S16777216, .i1⟩).toBuf (Val := Elt F) v = v := rfl
theorem ob_call8_v12 (p1 p2 p3) (v : (⟨S16777216, .i1⟩ : BufTy).Contents (Elt F)) :
    (StableHlo.TRef.of main_call8_v12 p1 p2 p3 : StableHlo.TRef sig ⟨S16777216, .i1⟩).ofBuf (Val := Elt F) v = v := rfl
theorem tb_call8_v13 (p1 p2 p3) (v : (⟨S16777216, .i32⟩ : BufTy).Contents (Elt F)) :
    (StableHlo.TRef.of main_call8_v13 p1 p2 p3 : StableHlo.TRef sig ⟨S16777216, .i32⟩).toBuf (Val := Elt F) v = v := rfl
theorem ob_call8_v13 (p1 p2 p3) (v : (⟨S16777216, .i32⟩ : BufTy).Contents (Elt F)) :
    (StableHlo.TRef.of main_call8_v13 p1 p2 p3 : StableHlo.TRef sig ⟨S16777216, .i32⟩).ofBuf (Val := Elt F) v = v := rfl
theorem tb_call8_v14 (p1 p2 p3) (v : (⟨S16777216, .i32⟩ : BufTy).Contents (Elt F)) :
    (StableHlo.TRef.of main_call8_v14 p1 p2 p3 : StableHlo.TRef sig ⟨S16777216, .i32⟩).toBuf (Val := Elt F) v = v := rfl
theorem ob_call8_v14 (p1 p2 p3) (v : (⟨S16777216, .i32⟩ : BufTy).Contents (Elt F)) :
    (StableHlo.TRef.of main_call8_v14 p1 p2 p3 : StableHlo.TRef sig ⟨S16777216, .i32⟩).ofBuf (Val := Elt F) v = v := rfl
theorem tb_v38 (p1 p2 p3) (v : (⟨S16777216, .i32⟩ : BufTy).Contents (Elt F)) :
    (StableHlo.TRef.of main_v38 p1 p2 p3 : StableHlo.TRef sig ⟨S16777216, .i32⟩).toBuf (Val := Elt F) v = v := rfl
theorem ob_v38 (p1 p2 p3) (v : (⟨S16777216, .i32⟩ : BufTy).Contents (Elt F)) :
    (StableHlo.TRef.of main_v38 p1 p2 p3 : StableHlo.TRef sig ⟨S16777216, .i32⟩).ofBuf (Val := Elt F) v = v := rfl
theorem tb_call9_v0 (p1 p2 p3) (v : (⟨S_, .i32⟩ : BufTy).Contents (Elt F)) :
    (StableHlo.TRef.of main_call9_v0 p1 p2 p3 : StableHlo.TRef sig ⟨S_, .i32⟩).toBuf (Val := Elt F) v = v := rfl
theorem ob_call9_v0 (p1 p2 p3) (v : (⟨S_, .i32⟩ : BufTy).Contents (Elt F)) :
    (StableHlo.TRef.of main_call9_v0 p1 p2 p3 : StableHlo.TRef sig ⟨S_, .i32⟩).ofBuf (Val := Elt F) v = v := rfl
theorem tb_call9_v1 (p1 p2 p3) (v : (⟨S16777216, .i32⟩ : BufTy).Contents (Elt F)) :
    (StableHlo.TRef.of main_call9_v1 p1 p2 p3 : StableHlo.TRef sig ⟨S16777216, .i32⟩).toBuf (Val := Elt F) v = v := rfl
theorem ob_call9_v1 (p1 p2 p3) (v : (⟨S16777216, .i32⟩ : BufTy).Contents (Elt F)) :
    (StableHlo.TRef.of main_call9_v1 p1 p2 p3 : StableHlo.TRef sig ⟨S16777216, .i32⟩).ofBuf (Val := Elt F) v = v := rfl
theorem tb_v44 (p1 p2 p3) (v : (⟨S16777216, .i32⟩ : BufTy).Contents (Elt F)) :
    (StableHlo.TRef.of main_v44 p1 p2 p3 : StableHlo.TRef sig ⟨S16777216, .i32⟩).toBuf (Val := Elt F) v = v := rfl
theorem ob_v44 (p1 p2 p3) (v : (⟨S16777216, .i32⟩ : BufTy).Contents (Elt F)) :
    (StableHlo.TRef.of main_v44 p1 p2 p3 : StableHlo.TRef sig ⟨S16777216, .i32⟩).ofBuf (Val := Elt F) v = v := rfl
theorem tb_call10_v0 (p1 p2 p3) (v : (⟨S_, .i32⟩ : BufTy).Contents (Elt F)) :
    (StableHlo.TRef.of main_call10_v0 p1 p2 p3 : StableHlo.TRef sig ⟨S_, .i32⟩).toBuf (Val := Elt F) v = v := rfl
theorem ob_call10_v0 (p1 p2 p3) (v : (⟨S_, .i32⟩ : BufTy).Contents (Elt F)) :
    (StableHlo.TRef.of main_call10_v0 p1 p2 p3 : StableHlo.TRef sig ⟨S_, .i32⟩).ofBuf (Val := Elt F) v = v := rfl
theorem tb_call10_v1 (p1 p2 p3) (v : (⟨S16777216, .i32⟩ : BufTy).Contents (Elt F)) :
    (StableHlo.TRef.of main_call10_v1 p1 p2 p3 : StableHlo.TRef sig ⟨S16777216, .i32⟩).toBuf (Val := Elt F) v = v := rfl
theorem ob_call10_v1 (p1 p2 p3) (v : (⟨S16777216, .i32⟩ : BufTy).Contents (Elt F)) :
    (StableHlo.TRef.of main_call10_v1 p1 p2 p3 : StableHlo.TRef sig ⟨S16777216, .i32⟩).ofBuf (Val := Elt F) v = v := rfl
theorem tb_v45 (p1 p2 p3) (v : (⟨S16777216, .i32⟩ : BufTy).Contents (Elt F)) :
    (StableHlo.TRef.of main_v45 p1 p2 p3 : StableHlo.TRef sig ⟨S16777216, .i32⟩).toBuf (Val := Elt F) v = v := rfl
theorem ob_v45 (p1 p2 p3) (v : (⟨S16777216, .i32⟩ : BufTy).Contents (Elt F)) :
    (StableHlo.TRef.of main_v45 p1 p2 p3 : StableHlo.TRef sig ⟨S16777216, .i32⟩).ofBuf (Val := Elt F) v = v := rfl
theorem tb_c_10 (p1 p2 p3) (v : (⟨S_, .i32⟩ : BufTy).Contents (Elt F)) :
    (StableHlo.TRef.of main_c_10 p1 p2 p3 : StableHlo.TRef sig ⟨S_, .i32⟩).toBuf (Val := Elt F) v = v := rfl
theorem ob_c_10 (p1 p2 p3) (v : (⟨S_, .i32⟩ : BufTy).Contents (Elt F)) :
    (StableHlo.TRef.of main_c_10 p1 p2 p3 : StableHlo.TRef sig ⟨S_, .i32⟩).ofBuf (Val := Elt F) v = v := rfl
theorem tb_c_11 (p1 p2 p3) (v : (⟨S_, .i32⟩ : BufTy).Contents (Elt F)) :
    (StableHlo.TRef.of main_c_11 p1 p2 p3 : StableHlo.TRef sig ⟨S_, .i32⟩).toBuf (Val := Elt F) v = v := rfl
theorem ob_c_11 (p1 p2 p3) (v : (⟨S_, .i32⟩ : BufTy).Contents (Elt F)) :
    (StableHlo.TRef.of main_c_11 p1 p2 p3 : StableHlo.TRef sig ⟨S_, .i32⟩).ofBuf (Val := Elt F) v = v := rfl
theorem tb_c_12 (p1 p2 p3) (v : (⟨S_, .i32⟩ : BufTy).Contents (Elt F)) :
    (StableHlo.TRef.of main_c_12 p1 p2 p3 : StableHlo.TRef sig ⟨S_, .i32⟩).toBuf (Val := Elt F) v = v := rfl
theorem ob_c_12 (p1 p2 p3) (v : (⟨S_, .i32⟩ : BufTy).Contents (Elt F)) :
    (StableHlo.TRef.of main_c_12 p1 p2 p3 : StableHlo.TRef sig ⟨S_, .i32⟩).ofBuf (Val := Elt F) v = v := rfl
theorem tb_c_13 (p1 p2 p3) (v : (⟨S_, .i32⟩ : BufTy).Contents (Elt F)) :
    (StableHlo.TRef.of main_c_13 p1 p2 p3 : StableHlo.TRef sig ⟨S_, .i32⟩).toBuf (Val := Elt F) v = v := rfl
theorem ob_c_13 (p1 p2 p3) (v : (⟨S_, .i32⟩ : BufTy).Contents (Elt F)) :
    (StableHlo.TRef.of main_c_13 p1 p2 p3 : StableHlo.TRef sig ⟨S_, .i32⟩).ofBuf (Val := Elt F) v = v := rfl
theorem tb_c_15 (p1 p2 p3) (v : (⟨S_, .i32⟩ : BufTy).Contents (Elt F)) :
    (StableHlo.TRef.of main_c_15 p1 p2 p3 : StableHlo.TRef sig ⟨S_, .i32⟩).toBuf (Val := Elt F) v = v := rfl
theorem ob_c_15 (p1 p2 p3) (v : (⟨S_, .i32⟩ : BufTy).Contents (Elt F)) :
    (StableHlo.TRef.of main_c_15 p1 p2 p3 : StableHlo.TRef sig ⟨S_, .i32⟩).ofBuf (Val := Elt F) v = v := rfl
theorem tb_v43 (p1 p2 p3) (v : (⟨S16777216, .i1⟩ : BufTy).Contents (Elt F)) :
    (StableHlo.TRef.of main_v43 p1 p2 p3 : StableHlo.TRef sig ⟨S16777216, .i1⟩).toBuf (Val := Elt F) v = v := rfl
theorem ob_v43 (p1 p2 p3) (v : (⟨S16777216, .i1⟩ : BufTy).Contents (Elt F)) :
    (StableHlo.TRef.of main_v43 p1 p2 p3 : StableHlo.TRef sig ⟨S16777216, .i1⟩).ofBuf (Val := Elt F) v = v := rfl
theorem tb_c_16 (p1 p2 p3) (v : (⟨S_, .i32⟩ : BufTy).Contents (Elt F)) :
    (StableHlo.TRef.of main_c_16 p1 p2 p3 : StableHlo.TRef sig ⟨S_, .i32⟩).toBuf (Val := Elt F) v = v := rfl
theorem ob_c_16 (p1 p2 p3) (v : (⟨S_, .i32⟩ : BufTy).Contents (Elt F)) :
    (StableHlo.TRef.of main_c_16 p1 p2 p3 : StableHlo.TRef sig ⟨S_, .i32⟩).ofBuf (Val := Elt F) v = v := rfl

/-- Clears a reading of these stretches of the moves between a typed reference's type and its buffer's. -/
local macro "strip2" : tactic =>
  `(tactic| simp only [tb_v35, ob_v35, tb_call5_v0, ob_call5_v0, tb_call5_v1, ob_call5_v1, tb_call5_v2, ob_call5_v2, tb_call5_v3, ob_call5_v3, tb_call5_v4, ob_call5_v4, tb_call5_v5, ob_call5_v5, tb_call5_v6, ob_call5_v6, tb_call5_v7, ob_call5_v7, tb_call5_c, ob_call5_c, tb_call5_v8, ob_call5_v8, tb_call5_v9, ob_call5_v9, tb_call5_v10, ob_call5_v10, tb_call5_c_0, ob_call5_c_0, tb_call5_v11, ob_call5_v11, tb_call5_v12, ob_call5_v12, tb_call6_v2, ob_call6_v2, tb_call6_v0, ob_call6_v0, tb_call6_c, ob_call6_c, tb_call6_v1, ob_call6_v1, tb_call6_c_0, ob_call6_c_0, tb_call6_v3, ob_call6_v3, tb_call6_v4, ob_call6_v4, tb_call6_c_1, ob_call6_c_1, tb_call6_v5, ob_call6_v5, tb_call6_v6, ob_call6_v6, tb_call6_c_2, ob_call6_c_2, tb_call6_v7, ob_call6_v7, tb_call6_v8, ob_call6_v8, tb_call6_c_3, ob_call6_c_3, tb_call6_v9, ob_call6_v9, tb_call6_v10, ob_call6_v10, tb_call6_v11, ob_call6_v11, tb_call6_v12, ob_call6_v12, tb_call6_v13, ob_call6_v13, tb_call6_v14, ob_call6_v14, tb_v36, ob_v36, tb_v37, ob_v37, tb_call7_v0, ob_call7_v0, tb_call7_v1, ob_call7_v1, tb_call7_v2, ob_call7_v2, tb_call7_v3, ob_call7_v3, tb_call7_v4, ob_call7_v4, tb_call7_v5, ob_call7_v5, tb_call7_v6, ob_call7_v6, tb_call7_v7, ob_call7_v7, tb_call7_c, ob_call7_c, tb_call7_v8, ob_call7_v8, tb_call7_v9, ob_call7_v9, tb_call7_v10, ob_call7_v10, tb_call7_c_0, ob_call7_c_0, tb_call7_v11, ob_call7_v11, tb_call7_v12, ob_call7_v12, tb_call8_v2, ob_call8_v2, tb_call8_v0, ob_call8_v0, tb_call8_c, ob_call8_c, tb_call8_v1, ob_call8_v1, tb_call8_c_0, ob_call8_c_0, tb_call8_v3, ob_call8_v3, tb_call8_v4, ob_call8_v4, tb_call8_c_1, ob_call8_c_1, tb_call8_v5, ob_call8_v5, tb_call8_v6, ob_call8_v6, tb_call8_c_2, ob_call8_c_2, tb_call8_v7, ob_call8_v7, tb_call8_v8, ob_call8_v8, tb_call8_c_3, ob_call8_c_3, tb_call8_v9, ob_call8_v9, tb_call8_v10, ob_call8_v10, tb_call8_v11, ob_call8_v11, tb_call8_v12, ob_call8_v12, tb_call8_v13, ob_call8_v13, tb_call8_v14, ob_call8_v14, tb_v38, ob_v38, tb_call9_v0, ob_call9_v0, tb_call9_v1, ob_call9_v1, tb_v44, ob_v44, tb_call10_v0, ob_call10_v0, tb_call10_v1, ob_call10_v1, tb_v45, ob_v45, tb_c_10, ob_c_10, tb_c_11, ob_c_11, tb_c_12, ob_c_12, tb_c_13, ob_c_13, tb_c_15, ob_c_15, tb_v43, ob_v43, tb_c_16, ob_c_16, tb_v34, ob_v34])

/-! ## One reading per piece, from ANY contents before it -/

theorem rd_v35 (V : Valuation τ sig (Elt F)) :
    after w2a V (Proc.devRef .tc main_v35) = floorDivide (V (Proc.devRef .tc main_v34)) (constantI S_ 32 4096#32 : (⟨S_, .i32⟩ : BufTy).Contents (Elt F)) := by
  dsimp only [w2a, main_call5, main_call5_call0, main_call6, main_call6_call0, main_call7, main_call7_call0, main_call8, main_call8_call0, main_call9, main_call10]
  after_results_simp
  strip2
  rfl

theorem rd_v36 (V : Valuation τ sig (Elt F)) :
    after w2b V (Proc.devRef .tc main_v36) = floorRemainder (V (Proc.devRef .tc main_v35)) (constantI S_ 32 4096#32 : (⟨S_, .i32⟩ : BufTy).Contents (Elt F)) := by
  dsimp only [w2b, main_call5, main_call5_call0, main_call6, main_call6_call0, main_call7, main_call7_call0, main_call8, main_call8_call0, main_call9, main_call10]
  after_results_simp
  strip2
  rfl

theorem rd_v37 (V : Valuation τ sig (Elt F)) :
    after w3a V (Proc.devRef .tc main_v37) = floorDivide (V (Proc.devRef .tc main_v34)) (constantI S_ 32 1#32 : (⟨S_, .i32⟩ : BufTy).Contents (Elt F)) := by
  dsimp only [w3a, main_call5, main_call5_call0, main_call6, main_call6_call0, main_call7, main_call7_call0, main_call8, main_call8_call0, main_call9, main_call10]
  after_results_simp
  strip2
  rfl

theorem rd_v38 (V : Valuation τ sig (Elt F)) :
    after w3b V (Proc.devRef .tc main_v38) = floorRemainder (V (Proc.devRef .tc main_v37)) (constantI S_ 32 4096#32 : (⟨S_, .i32⟩ : BufTy).Contents (Elt F)) := by
  dsimp only [w3b, main_call5, main_call5_call0, main_call6, main_call6_call0, main_call7, main_call7_call0, main_call8, main_call8_call0, main_call9, main_call10]
  after_results_simp
  strip2
  rfl

theorem w4_main_v39 (V : Valuation τ sig (Elt F)) :
    after w4 V (Proc.devRef .tc main_v39) = (places : (⟨S16777216, .i32⟩ : BufTy).Contents (Elt F)) := by
  dsimp only [w4, main_call5, main_call5_call0, main_call6, main_call6_call0, main_call7, main_call7_call0, main_call8, main_call8_call0, main_call9, main_call10]
  after_results_simp
  try rfl

theorem w4_main_v42 (V : Valuation τ sig (Elt F)) :
    after w4 V (Proc.devRef .tc main_v42) = edgeCount (V (Proc.devRef .tc main_v22)) := by
  dsimp only [w4, main_call5, main_call5_call0, main_call6, main_call6_call0, main_call7, main_call7_call0, main_call8, main_call8_call0, main_call9, main_call10]
  after_results_simp
  try rfl

theorem rd_v44 (V : Valuation τ sig (Elt F)) :
    after w5a V (Proc.devRef .tc main_v44) = senderIdx (V (Proc.devRef .tc main_v36)) (pastCount (V (Proc.devRef .tc main_v39)) (V (Proc.devRef .tc main_v42))) := by
  dsimp only [w5a, main_call5, main_call5_call0, main_call6, main_call6_call0, main_call7, main_call7_call0, main_call8, main_call8_call0, main_call9, main_call10]
  after_results_simp
  strip2
  rfl

theorem rd_v45 (V : Valuation τ sig (Elt F)) :
    after w5a V (Proc.devRef .tc main_v45) = receiverIdx (V (Proc.devRef .tc main_v38)) (pastCount (V (Proc.devRef .tc main_v39)) (V (Proc.devRef .tc main_v42))) := by
  dsimp only [w5a, main_call5, main_call5_call0, main_call6, main_call6_call0, main_call7, main_call7_call0, main_call8, main_call8_call0, main_call9, main_call10]
  after_results_simp
  strip2
  rfl

theorem rd_v46 (V : Valuation τ sig (Elt F)) :
    after w5a V (Proc.devRef .tc main_v46) = (broadcastInDim S1x16777216 ![1] bcast_S16777216_S1x16777216_1
        (senderIdx (V (Proc.devRef .tc main_v36)) (pastCount (V (Proc.devRef .tc main_v39)) (V (Proc.devRef .tc main_v42)))) : (⟨S1x16777216, .i32⟩ : BufTy).Contents (Elt F)) := by
  dsimp only [w5a, main_call5, main_call5_call0, main_call6, main_call6_call0, main_call7, main_call7_call0, main_call8, main_call8_call0, main_call9, main_call10]
  after_results_simp
  strip2
  rfl

theorem rd_v47 (V : Valuation τ sig (Elt F)) :
    after w5a V (Proc.devRef .tc main_v47) = (broadcastInDim S1x16777216 ![1] bcast_S16777216_S1x16777216_1
        (receiverIdx (V (Proc.devRef .tc main_v38)) (pastCount (V (Proc.devRef .tc main_v39)) (V (Proc.devRef .tc main_v42)))) : (⟨S1x16777216, .i32⟩ : BufTy).Contents (Elt F)) := by
  dsimp only [w5a, main_call5, main_call5_call0, main_call6, main_call6_call0, main_call7, main_call7_call0, main_call8, main_call8_call0, main_call9, main_call10]
  after_results_simp
  strip2
  rfl

/-- The stacking, read by itself: its two operands named. -/
theorem rd_v48 (V : Valuation τ sig (Elt F)) :
    after w5b V (Proc.devRef .tc main_v48)
      = (concatenate S2x16777216 0 [⟨S1x16777216, V (Proc.devRef .tc main_v46)⟩, ⟨S1x16777216, V (Proc.devRef .tc main_v47)⟩]
          concatenates_S1x16777216_S1x16777216_S2x16777216_d0 : (⟨S2x16777216, .i32⟩ : BufTy).Contents (Elt F)) := by
  simp only [w5b, after_cons, after_nil]
  rw [binary_result]

/-! ## The stretches as values -/

/-- The rows of the places. -/
theorem w2_main_v36 (V : Valuation τ sig (Elt F)) :
    after w2 V (Proc.devRef .tc main_v36) = senderRaw (V (Proc.devRef .tc main_v34)) := by
  rw [w2_cut, after_append, rd_v36, rd_v35]
  rfl

/-- The columns of the places. -/
theorem w3_main_v38 (V : Valuation τ sig (Elt F)) :
    after w3 V (Proc.devRef .tc main_v38) = receiverRaw (V (Proc.devRef .tc main_v34)) := by
  rw [w3_cut, after_append, rd_v38, rd_v37]
  rfl

/-- The filled index arrays and their stacking. -/
theorem w5_main_v44 (V : Valuation τ sig (Elt F)) :
    after w5 V (Proc.devRef .tc main_v44)
      = senderIdx (V (Proc.devRef .tc main_v36)) (pastCount (V (Proc.devRef .tc main_v39)) (V (Proc.devRef .tc main_v42))) := by
  rw [w5_cut, after_append]
  refine (after_of_forall_not_mem w5b _ ?_).trans (rd_v44 V)
  intro op hop
  simp only [w5b, List.mem_singleton] at hop
  subst hop
  rw [binary_writes, Finset.mem_singleton]
  exact devRef_ne_of_ne (by decide)
theorem w5_main_v45 (V : Valuation τ sig (Elt F)) :
    after w5 V (Proc.devRef .tc main_v45)
      = receiverIdx (V (Proc.devRef .tc main_v38)) (pastCount (V (Proc.devRef .tc main_v39)) (V (Proc.devRef .tc main_v42))) := by
  rw [w5_cut, after_append]
  refine (after_of_forall_not_mem w5b _ ?_).trans (rd_v45 V)
  intro op hop
  simp only [w5b, List.mem_singleton] at hop
  subst hop
  rw [binary_writes, Finset.mem_singleton]
  exact devRef_ne_of_ne (by decide)
theorem w5_main_v48 (V : Valuation τ sig (Elt F)) :
    after w5 V (Proc.devRef .tc main_v48)
      = edgeIndex (senderIdx (V (Proc.devRef .tc main_v36)) (pastCount (V (Proc.devRef .tc main_v39)) (V (Proc.devRef .tc main_v42))))
          (receiverIdx (V (Proc.devRef .tc main_v38)) (pastCount (V (Proc.devRef .tc main_v39)) (V (Proc.devRef .tc main_v42)))) := by
  rw [w5_cut, after_append, rd_v48, rd_v46, rd_v47]
  rfl

/-! ## Along the whole fold -/

/-- The adjacency bits are written by the first stretch and by no later one. -/
theorem mask_after_ops (V0 : Valuation τ sig (Elt F)) :
    after ops V0 (Proc.devRef .tc main_v22) = after w0 V0 (Proc.devRef .tc main_v22) := by
  rw [after_ops, w9_keep _ main_v22 (by decide), w8_keep _ main_v22 (by decide), w7_keep _ main_v22 (by decide),
    w6_keep _ main_v22 (by decide), w5_keep _ main_v22 (by decide), w4_keep _ main_v22 (by decide),
    w3_keep _ main_v22 (by decide), w2_keep _ main_v22 (by decide), w1_keep _ main_v22 (by decide)]

/-- THE SENDERS at the end of the fold: `senders` of the adjacency bits at the end of the fold. -/
theorem chain_v44 (V0 : Valuation τ sig (Elt F)) :
    after ops V0 (Proc.devRef .tc main_v44) = senders (after ops V0 (Proc.devRef .tc main_v22)) := by
  rw [mask_after_ops, after_ops, w9_keep _ main_v44 (by decide), w8_keep _ main_v44 (by decide),
    w7_keep _ main_v44 (by decide), w6_keep _ main_v44 (by decide), w5_main_v44,
    w4_main_v39, w4_main_v42, w4_keep _ main_v36 (by decide),
    w3_keep _ main_v36 (by decide), w3_keep _ main_v22 (by decide),
    w2_main_v36, w2_keep _ main_v22 (by decide),
    w1_main_v34, w1_keep _ main_v22 (by decide)]
  rfl

/-- THE RECEIVERS at the end of the fold. -/
theorem chain_v45 (V0 : Valuation τ sig (Elt F)) :
    after ops V0 (Proc.devRef .tc main_v45) = receivers (after ops V0 (Proc.devRef .tc main_v22)) := by
  rw [mask_after_ops, after_ops, w9_keep _ main_v45 (by decide), w8_keep _ main_v45 (by decide),
    w7_keep _ main_v45 (by decide), w6_keep _ main_v45 (by decide), w5_main_v45,
    w4_main_v39, w4_main_v42, w4_keep _ main_v38 (by decide),
    w3_main_v38, w3_keep _ main_v22 (by decide),
    w2_keep _ main_v34 (by decide), w2_keep _ main_v22 (by decide),
    w1_main_v34, w1_keep _ main_v22 (by decide)]
  rfl

/-- THE EDGE INDEX at the end of the fold: the senders over the receivers of the adjacency bits. -/
theorem chain_v48 (V0 : Valuation τ sig (Elt F)) :
    after ops V0 (Proc.devRef .tc main_v48)
      = edgeIndex (senders (after ops V0 (Proc.devRef .tc main_v22))) (receivers (after ops V0 (Proc.devRef .tc main_v22))) := by
  rw [mask_after_ops, after_ops, w9_keep _ main_v48 (by decide), w8_keep _ main_v48 (by decide),
    w7_keep _ main_v48 (by decide), w6_keep _ main_v48 (by decide), w5_main_v48,
    w4_main_v39, w4_main_v42, w4_keep _ main_v36 (by decide), w4_keep _ main_v38 (by decide),
    w3_main_v38, w3_keep _ main_v36 (by decide), w3_keep _ main_v22 (by decide),
    w2_main_v36, w2_keep _ main_v34 (by decide), w2_keep _ main_v22 (by decide),
    w1_main_v34, w1_keep _ main_v22 (by decide)]
  rfl

/-- The adjacency bits the run ends with. -/
abbrev maskOf (m : (ℓ : Loc nD τ sig) → Buf (Elt F) ℓ) (c : Dev nD) : (⟨S4096x4096, .i1⟩ : BufTy).Contents (Elt F) :=
  after ops (launchContents m c) (Proc.devRef .tc main_v22)

/-- THE EDGE INDEX of the run: the senders over the receivers of the adjacency bits the run ends with. -/
theorem res48_val (m : (ℓ : Loc nD τ sig) → Buf (Elt F) ℓ) (c : Dev nD) :
    res48 m c = edgeIndex (senders (maskOf m c)) (receivers (maskOf m c)) := by
  rw [res48_eq]
  exact chain_v48 _

end Cert.ReferenceIdeal.RefChain

end
-- ==== Proof.RefNode.lean ====
/-
  The reference's node features as a function of its two argument arrays.

  The node features are computed by the last operations of the reference: the goal minus the position, its square,
  the sum of the squares along each row, the guarded square root of that sum, the factor of that length, the offset
  times the factor, and the states, the scaled offset and a column of ones laid side by side. They read the two
  arguments and the positions, which the very first operation slices out of the states; nothing in between writes
  any of the three. Read from any contents before them, these operations are the composition `nodeRef` names.
-/
import proofs.«174933_j45260365365646_1_alg».proof.Proof.RefRun
import proofs.«174933_j45260365365646_1_alg».proof.Proof.RefRunB
import proofs.«174933_j45260365365646_1_alg».proof.Proof.LibNary3
import Idealize.ShloMosaic.Lib.StableHlo.Run
import Idealize.ShloMosaic.PureOps.Ideal

set_option maxRecDepth 16384

noncomputable section

namespace Cert.ReferenceIdeal.RefNode

open Cert.ReferenceIdeal Cert.ReferenceIdeal.Gen Cert.ReferenceIdeal.RefRun
open Idealize.ShloMosaic Idealize.ShloMosaic.TcCoe Idealize.SL.Sem Idealize.ShloMosaic.StableHlo

/-! ## The stretches, each read at the buffers wanted, from ANY contents `W` before it -/

/-- The first stretch leaves the positions: columns 0 and 1 of the states. -/
theorem w0_v0 (W : Valuation τ sig (Elt Ideal)) :
    (after (w0 (F := Ideal)) W main_v0 : S4096x2.Idx → EReal) = positions (W main_arg0) := by
  dsimp only [w0]
  after_results_simp
  rfl

/-- The ninth stretch leaves the goal offset and its square. -/
theorem w8_v86 (W : Valuation τ sig (Elt Ideal)) :
    (after (w8 (F := Ideal)) W main_v86 : S4096x2.Idx → EReal) = goalOffset (W main_arg1) (W main_v0) := by
  dsimp only [w8]
  after_results_simp
  rfl
theorem w8_v87 (W : Valuation τ sig (Elt Ideal)) :
    (after (w8 (F := Ideal)) W main_v87 : S4096x2.Idx → EReal) = goalOffsetSq (goalOffset (W main_arg1) (W main_v0)) := by
  dsimp only [w8]
  after_results_simp
  rfl

set_option maxHeartbeats 2000000 in
/-- The last stretch leaves the node features of the states, the goal offset and its square as it finds them. -/
theorem w9_v107 (W : Valuation τ sig (Elt Ideal)) :
    (after (w9 (F := Ideal)) W main_v107 : S4096x7.Idx → EReal)
      = nodeFeatures (W main_arg0) (W main_v86) (goalScale (goalLen (goalSqLen (W main_v87)))) := by
  dsimp only [w9]
  read_line3
  unfold nodeFeatures goalScale goalLen goalSqLen whereNode
  rfl

/-! ## Nothing between the first stretch and the ninth writes the arguments or the positions -/

theorem keep17 (V : Valuation τ sig (Elt Ideal)) (r : Ref sig .tc)
    (h : r ∉ w1_W ∧ r ∉ w2_W ∧ r ∉ w3_W ∧ r ∉ w4_W ∧ r ∉ w5_W ∧ r ∉ w6_W ∧ r ∉ w7_W) :
    after w7 (after w6 (after w5 (after w4 (after w3 (after w2 (after w1 V)))))) (Proc.devRef .tc r) = V (Proc.devRef .tc r) := by
  obtain ⟨h1, h2, h3, h4, h5, h6, h7⟩ := h
  rw [w7_keep _ r h7, w6_keep _ r h6, w5_keep _ r h5, w4_keep _ r h4, w3_keep _ r h3, w2_keep _ r h2, w1_keep _ r h1]

/-! ## The result -/

/-- THE NODE FEATURES after the reference's run are `nodeRef` of the two argument arrays as launched. -/
theorem res107_val (m : (ℓ : Loc nD τ sig) → Buf (Elt Ideal) ℓ) (c : Dev nD) :
    res107 (F := Ideal) m c = nodeRef (m ((c.tc : Thread nD τ).loc main_arg0)) (m ((c.tc : Thread nD τ).loc main_arg1)) := by
  rw [res107_eq, after_ops, w9_v107, w8_v87, w8_v86, w8_keep _ main_arg0 (by decide),
    keep17 _ main_arg0 (by decide), keep17 _ main_arg1 (by decide), keep17 _ main_v0 (by decide),
    w0_keep _ main_arg0 (by decide), w0_keep _ main_arg1 (by decide), w0_v0]
  rfl

end Cert.ReferenceIdeal.RefNode

end
-- ==== Proof.Bridge.lean ====
/-
  The two programs' results are the same arrays.

  NODE FEATURES. Both programs append to each agent's state its goal offset times a factor and the constant one. The
  factor is `1/2` over the larger of the offset's length and `1/2` when the length exceeds `1/2`, else one; the kernel
  program takes the length as the square root of the sum of squares, the reference as the safe norm of it — the same
  number, a sum of squares being non-negative.

  EDGE INDEX. Both programs list the set entries of an adjacency mask by the same stages (running count, scatter of
  ones, running sum, quotient and remainder by 4096, fill with zero past the count). The kernel program's mask bit
  `(r, q)` is "squared distance below 1/4, or r = q"; the reference's is "safe norm of the squared distance below 1/2,
  or r = q": the same bit. So the stages see the same mask and give the same two index rows.

  EDGE FEATURES. Every listed index is the fill value zero or a remainder modulo 4096 made non-negative, so a row
  number: the gathers read the rows they name, the kernel program's out-of-range fill is never selected, and both
  programs form receiver state minus sender state. The rescale of its planar part is the node features' factor
  again, square root against safe norm.
-/
import proofs.«174933_j45260365365646_1_alg».proof.Proof.BridgeK
import proofs.«174933_j45260365365646_1_alg».proof.Proof.RefBridge
import proofs.«174933_j45260365365646_1_alg».proof.Proof.HostValues
import proofs.«174933_j45260365365646_1_alg».proof.Proof.RefRun
import proofs.«174933_j45260365365646_1_alg».proof.Proof.RefRunC
import proofs.«174933_j45260365365646_1_alg».proof.Proof.RefChain2
import proofs.«174933_j45260365365646_1_alg».proof.Proof.RefNode
import proofs.«174933_j45260365365646_1_alg».proof.Proof.LibRemRange

noncomputable section

namespace Cert.Proof.Bridge

open Idealize.ShloMosaic Idealize.ShloMosaic.TcCoe Idealize.SL.Sem Idealize.ShloMosaic.ValueIdx Cert.LibRemRange

/-! ## The range of the listed row numbers -/

set_option maxHeartbeats 1000000 in
/-- A listed sender is the fill value zero or a remainder modulo 4096 made non-negative. -/
theorem senders_spelt (A : (⟨Cert.ReferenceIdeal.S4096x4096, .i1⟩ : BufTy).Contents (Elt Ideal)) (e : Cert.ReferenceIdeal.S16777216.Idx) :
    Cert.ReferenceIdeal.RefRun.senders (F := Ideal) A e
      = Scalar.select (Cert.ReferenceIdeal.RefRun.pastEnd (F := Ideal) A e) 0#32
          (remFix (IntOp.remsi .host (Cert.ReferenceIdeal.RefRun.floorDivide (F := Ideal) (Cert.ReferenceIdeal.RefRun.edgePlace (Cert.ReferenceIdeal.RefRun.clippedCount A)) (constantI Cert.ReferenceIdeal.S_ 32 4096#32) e) 4096#32)) := rfl

set_option maxHeartbeats 1000000 in
theorem receivers_spelt (A : (⟨Cert.ReferenceIdeal.S4096x4096, .i1⟩ : BufTy).Contents (Elt Ideal)) (e : Cert.ReferenceIdeal.S16777216.Idx) :
    Cert.ReferenceIdeal.RefRun.receivers (F := Ideal) A e
      = Scalar.select (Cert.ReferenceIdeal.RefRun.pastEnd (F := Ideal) A e) 0#32
          (remFix (IntOp.remsi .host (Cert.ReferenceIdeal.RefRun.floorDivide (F := Ideal) (Cert.ReferenceIdeal.RefRun.edgePlace (Cert.ReferenceIdeal.RefRun.clippedCount A)) (constantI Cert.ReferenceIdeal.S_ 32 1#32) e) 4096#32)) := rfl

/-- Every listed sender is a row number. -/
theorem senders_inRange (A : (⟨Cert.ReferenceIdeal.S4096x4096, .i1⟩ : BufTy).Contents (Elt Ideal)) (e : Cert.ReferenceIdeal.S16777216.Idx) :
    InRange (Cert.ReferenceIdeal.RefRun.senders (F := Ideal) A e) := by
  rw [senders_spelt]; exact select_inRange _ inRange_zero (rem_inRange _)

/-- Every listed receiver is a row number. -/
theorem receivers_inRange (A : (⟨Cert.ReferenceIdeal.S4096x4096, .i1⟩ : BufTy).Contents (Elt Ideal)) (e : Cert.ReferenceIdeal.S16777216.Idx) :
    InRange (Cert.ReferenceIdeal.RefRun.receivers (F := Ideal) A e) := by
  rw [receivers_spelt]; exact select_inRange _ inRange_zero (rem_inRange _)

/-! ## The three results are the same arrays -/

section
variable (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)

/-- The adjacency bits both programs list the pairs of: a function of the states. -/
abbrev adjOf : (⟨Cert.ReferenceIdeal.S4096x4096, .i1⟩ : BufTy).Contents (Elt Ideal) := Cert.KernelIdeal.AdjHost.adjK (argX m c)

/-- The kernel program's listed senders are the reference's stages applied to the kernel program's adjacency bits. -/
theorem sendK_eq : sendK m c = Cert.ReferenceIdeal.RefRun.senders (F := Ideal) (adjOf m c) := by
  show (Cert.KernelIdeal.Gen.V18 m (Cert.KernelIdeal.Run.outs m) c Cert.KernelIdeal.main_v26 : Cert.KernelIdeal.S16777216.Idx → BitVec 32) = _
  rw [Cert.KernelIdeal.HostValues.main_v26_eq m (Cert.KernelIdeal.Run.outs m) c]
  show Cert.KernelIdeal.HostValues.sendersOf (Cert.KernelIdeal.Gen.V3 m (Cert.KernelIdeal.Run.outs m) c Cert.KernelIdeal.main_v4 : Cert.KernelIdeal.S4096x4096.Idx → BitVec 1) = _
  rw [Cert.KernelIdeal.AdjHost.adj_eq m c]
  rfl

/-- And its listed receivers likewise. -/
theorem recvK_eq : recvK m c = Cert.ReferenceIdeal.RefRun.receivers (F := Ideal) (adjOf m c) := by
  show (Cert.KernelIdeal.Gen.V20 m (Cert.KernelIdeal.Run.outs m) c Cert.KernelIdeal.main_v27 : Cert.KernelIdeal.S16777216.Idx → BitVec 32) = _
  rw [Cert.KernelIdeal.HostValues.main_v27_eq m (Cert.KernelIdeal.Run.outs m) c]
  show Cert.KernelIdeal.HostValues.receiversOf (Cert.KernelIdeal.Gen.V3 m (Cert.KernelIdeal.Run.outs m) c Cert.KernelIdeal.main_v4 : Cert.KernelIdeal.S4096x4096.Idx → BitVec 1) = _
  rw [Cert.KernelIdeal.AdjHost.adj_eq m c]
  rfl

theorem results_eq_of
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (hR107 : Cert.ReferenceIdeal.RefRun.res107 m' c = Cert.ReferenceIdeal.RefRun.nodeRef (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)))
    (hR48 : Cert.ReferenceIdeal.RefRun.res48 m' c = Cert.ReferenceIdeal.RefRun.edgeIndex (F := Ideal)
      (Cert.ReferenceIdeal.RefRun.senders (Cert.ReferenceIdeal.RefRun.adjRef (m' ((c.tc : Thread Cert.ReferenceIdeal.nD Cert.ReferenceIdeal.τ).loc Cert.ReferenceIdeal.main_arg0))))
      (Cert.ReferenceIdeal.RefRun.receivers (Cert.ReferenceIdeal.RefRun.adjRef (m' ((c.tc : Thread Cert.ReferenceIdeal.nD Cert.ReferenceIdeal.τ).loc Cert.ReferenceIdeal.main_arg0)))))
    (hR85 : Cert.ReferenceIdeal.RefRun.res85 m' c = Cert.ReferenceIdeal.RefRun.edgeRef (F := Ideal) (m' ((c.tc : Thread Cert.ReferenceIdeal.nD Cert.ReferenceIdeal.τ).loc Cert.ReferenceIdeal.main_arg0))
      (Cert.ReferenceIdeal.RefRun.senders (Cert.ReferenceIdeal.RefRun.adjRef (m' ((c.tc : Thread Cert.ReferenceIdeal.nD Cert.ReferenceIdeal.τ).loc Cert.ReferenceIdeal.main_arg0))))
      (Cert.ReferenceIdeal.RefRun.receivers (Cert.ReferenceIdeal.RefRun.adjRef (m' ((c.tc : Thread Cert.ReferenceIdeal.nD Cert.ReferenceIdeal.τ).loc Cert.ReferenceIdeal.main_arg0))))) :
    Cert.ReferenceIdeal.RefRun.res107 m' c = node m c ∧ Cert.ReferenceIdeal.RefRun.res48 m' c = eidx m c ∧ Cert.ReferenceIdeal.RefRun.res85 m' c = efeat m c := by
  have hK26 := sendK_eq m c
  have hK27 := recvK_eq m c
  rw [h0, h1] at hR107
  rw [h0, RefBridge.adjRef_eq] at hR48 hR85
  refine ⟨?_, ?_, ?_⟩
  · -- the node features: the reference's safe norm is the square root on a sum of squares
    exact hR107.trans ((RefBridge.nodeRef_eq _ _).trans (node_eq m c).symm)
  · -- the edge index: the same stages applied to the same bits
    refine hR48.trans ?_
    rw [show (eidx m c : Cert.KernelIdeal.S2x16777216.Idx → BitVec 32) = _ from eidx_eq m c, hK26, hK27]
    rfl
  · -- the edge features, entry by entry
    refine hR85.trans ?_
    funext i
    obtain ⟨e, j, rfl⟩ : ∃ (e : Fin 16777216) (j : Fin 4), i = ix2 e j := ⟨i 0, i 1, eq_ix2 i⟩
    have hs : ∀ e, InRange (Cert.ReferenceIdeal.RefRun.senders (F := Ideal) (adjOf m c) e) := senders_inRange _
    have hr : ∀ e, InRange (Cert.ReferenceIdeal.RefRun.receivers (F := Ideal) (adjOf m c) e) := receivers_inRange _
    have hsK : ∀ e, InRange (sendK m c e) := fun e => by rw [hK26]; exact hs e
    have hrK : ∀ e, InRange (recvK m c e) := fun e => by rw [hK27]; exact hr e
    have hD : Cert.KernelIdeal.TakeHost.edgeIn m (Cert.KernelIdeal.Run.outs m) c
        = RefBridge.D (argX m c) (Cert.ReferenceIdeal.RefRun.senders (F := Ideal) (adjOf m c)) (Cert.ReferenceIdeal.RefRun.receivers (F := Ideal) (adjOf m c)) hs hr := by
      funext y
      obtain ⟨j', e', rfl⟩ : ∃ (j' : Fin 4) (e' : Fin 16777216), y = ix2 j' e' := ⟨y 0, y 1, eq_ix2 y⟩
      rw [Cert.KernelIdeal.TakeHost.v34_apply m (Cert.KernelIdeal.Run.outs m) c hsK hrK j' e', RefBridge.D_apply]
      refine congrArg₂ (fun a b : EReal => a - b) ?_ ?_
      · refine congrArg (fun a => argX m c (ix2 a j')) (Fin.ext ?_)
        rw [Cert.KernelIdeal.TakeHost.agent_val, Cert.KernelIdeal.TakeHost.agent_val]
        exact congrArg BitVec.toNat (congrFun hK27 (ix1 e'))
      · refine congrArg (fun a => argX m c (ix2 a j')) (Fin.ext ?_)
        rw [Cert.KernelIdeal.TakeHost.agent_val, Cert.KernelIdeal.TakeHost.agent_val]
        exact congrArg BitVec.toNat (congrFun hK26 (ix1 e'))
    rw [show (efeat m c : Cert.KernelIdeal.S16777216x4.Idx → EReal) (ix2 e j) = _ from efeat_apply m c e j, hD]
    exact RefBridge.edgeRef_apply (argX m c) _ _ hs hr e j

end

/-- THE RESULTS AGREE: from memories agreeing on the two argument arrays, the reference's three results are the kernel
    program's. The reference's side is its run read back as the node-feature function of the arguments, the index
    rows of its mask, and the edge features along them; its mask is the kernel program's, bit for bit. -/
theorem results_eq (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.RefRun.res107 m' c = node m c ∧ Cert.ReferenceIdeal.RefRun.res48 m' c = eidx m c ∧ Cert.ReferenceIdeal.RefRun.res85 m' c = efeat m c :=
  results_eq_of m m' c h0 h1
    (Cert.ReferenceIdeal.RefNode.res107_val m' c)
    ((Cert.ReferenceIdeal.RefChain.res48_val (F := Ideal) m' c).trans (by
      rw [show Cert.ReferenceIdeal.RefChain.maskOf (F := Ideal) m' c = _ from Cert.ReferenceIdeal.RefRun.mask_run m' c]))
    ((Cert.ReferenceIdeal.RefRun.res85_edges (F := Ideal) m' c).trans (by
      rw [Cert.ReferenceIdeal.RefChain.chain_v44, Cert.ReferenceIdeal.RefChain.chain_v45, Cert.ReferenceIdeal.RefRun.mask_run]))

end Cert.Proof.Bridge

end
-- ==== Proof.lean ====
/-
  The certificate of a graph builder for message passing: from 4096 agents' states (position and velocity, f32[4096, 4])
  and goals (f32[4096, 2]) it makes node features, the list of communication edges and the edges' features.

  THE KERNEL PROGRAM runs two pallas_calls among host operations. The first writes the 4096 × 4096 adjacency mask,
  sixteen row blocks of 256: agents `r` and `q` are joined when the SQUARED distance of their positions is below
  `1/4`, or `r = q`. jnp.nonzero then lists the joined pairs (padded with the pair (0, 0) to 16,777,216 entries), two
  jnp.take gathers read receiver minus sender states for every listed pair, and the second pallas_call rescales the
  position part of each difference into the communication radius `1/2`, 256 column blocks of 65,536 edges; the node
  features clip each agent's goal offset in the same way on the host.

  THE REFERENCE computes the same three results in plain jnp, with two differences of form. It tests the DISTANCE
  against the radius `1/2`, and every norm in it is the "safe" norm `where (ss > 0) (sqrt (where (ss > 0) ss 1)) 0` of
  the sum of squares `ss`. On the extended reals a sum of squares is never negative, there the safe norm is the
  square root, and `sqrt ss < 1/2` exactly when `ss < 1/4`: so the two adjacency masks are the same bits, the two
  programs apply the same nonzero computation to them, and every norm and rescale agrees. The listed row numbers
  are remainders modulo 4096 made non-negative, so every gather reads inside its array and the kernel program's
  out-of-range fill is never selected. None of this needs the inputs to be finite: the precondition is never opened.

  The kernel program's two frames come from the two regions' records (Proof/KernelRun.lean, Proof/KernelRunBits.lean;
  the first region's two input windows read ONE array, whose share is dealt to them in halves), the reference's from
  its run (Proof/RefRun.lean); no operation was rewritten by the ideal pass, so `preserves` is `True`; the results'
  equality is Proof/Bridge.lean.
-/
import proofs.«174933_j45260365365646_1_alg».proof.Defs
import proofs.«174933_j45260365365646_1_alg».proof.Proof.Gen.Pre_finite_inputs
import proofs.«174933_j45260365365646_1_alg».proof.Proof.KernelRun
import proofs.«174933_j45260365365646_1_alg».proof.Proof.KernelRunBits
import proofs.«174933_j45260365365646_1_alg».proof.Proof.RefRun
import proofs.«174933_j45260365365646_1_alg».proof.Proof.Bridge

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Run.frame m ρ

theorem frame_ki : @Cert.frame_KernelIdeal Cert.KernelIdeal.Gen.facts Cert.Pre_finite_inputs.Gen.facts :=
  fun m ρ _ => Cert.KernelIdeal.Run.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RefRun.run (F := Ideal) m ρ)

/-- The two idealized programs, run from memories agreeing on the arguments, end with equal results: the kernel
    program's are read off its last valuation, the reference's off its run, and `Bridge.results_eq` says they are the
    same arrays. -/
theorem algebraic :
    @Cert.algebraic_KernelIdeal_ReferenceIdeal Cert.KernelIdeal.Gen.facts Cert.ReferenceIdeal.Gen.facts Cert.Pre_finite_inputs.Gen.facts := by
  intro m ρ m' ρ' _ hagree
  refine ⟨Bridge.node m, Bridge.eidx m, Bridge.efeat m, ?_, ?_⟩
  · refine (θ_run Cert.KernelIdeal.defs _ _).mono (fun r h c => ?_) (Cert.KernelIdeal.Run.run m ρ)
    have hm : ∀ b : Ref Cert.KernelIdeal.sig .tc, (¬ (Proc.devRef .tc b : DevRef Cert.KernelIdeal.τ Cert.KernelIdeal.sig).isScoped) →
        r.2.mem ((c.tc : Thread Cert.KernelIdeal.nD Cert.KernelIdeal.τ).loc b)
          = Cert.KernelIdeal.Gen.V28 m (Cert.KernelIdeal.Run.outs m) c (Proc.devRef .tc b) := fun b hb' =>
      h c (Proc.devRef .tc b) (Finset.mem_filter.mpr ⟨StableHlo.devRef_mem_tcRefs b, hb'⟩)
    exact ⟨hm _ (by decide), hm _ (by decide), hm _ (by decide),
      (hm _ (by decide)).trans (Cert.KernelIdeal.Gen.V28_main_arg0 m (Cert.KernelIdeal.Run.outs m) c),
      (hm _ (by decide)).trans (Cert.KernelIdeal.Gen.V28_main_arg1 m (Cert.KernelIdeal.Run.outs m) c)⟩
  · refine (θ_run Cert.ReferenceIdeal.defs _ _).mono (fun r h c => ?_) (Cert.ReferenceIdeal.RefRun.run (F := Ideal) m' ρ')
    obtain ⟨h1, h2, h3⟩ := Bridge.results_eq m m' c (hagree c).1 (hagree c).2
    exact ⟨(h c).1.1.trans h1, (h c).1.2.1.trans h2, (h c).1.2.2.trans h3, (h c).2.1, (h c).2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
